-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x64 : Shape := ⟨2, ![16384, 64]⟩
abbrev S16384 : Shape := ⟨1, ![16384]⟩
abbrev S1000x64 : Shape := ⟨2, ![1000, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x64 .f32) (main_arg1 : IVec S16384 32) (main_arg2 : FVec F S16384x64 .f32) (main_arg3 : FVec F S1000x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg2
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S1000x64 .f32 := Host.absf main_arg3
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 999#32
  fn_part1 (F := F) main_arg1 main_v13 main_v15 main_c_5
-- ==== Kernel.lean ====
abbrev S16384x64 : Shape := ⟨2, ![16384, 64]⟩
abbrev S16384 : Shape := ⟨1, ![16384]⟩
abbrev S1000x64 : Shape := ⟨2, ![1000, 64]⟩
abbrev S64x16384 : Shape := ⟨2, ![64, 16384]⟩
abbrev S_ : Shape := ⟨0, ![]⟩
abbrev S1000x128 : Shape := ⟨2, ![1000, 128]⟩
abbrev S128 : Shape := ⟨1, ![128]⟩
abbrev S64x128 : Shape := ⟨2, ![64, 128]⟩
abbrev S128x128 : Shape := ⟨2, ![128, 128]⟩
abbrev S512 : Shape := ⟨1, ![512]⟩
abbrev S16 : Shape := ⟨1, ![16]⟩

abbrev nBuf : Table → Nat
  | .hbm => 10
  | .shared => 1
  | .local .scVector .vmem => 9
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S16384x64, .f32⟩
  | .hbm, ⟨3, _⟩ => ⟨S1000x64, .f32⟩
  | .hbm, ⟨4, _⟩ => ⟨S64x16384, .f32⟩
  | .hbm, ⟨5, _⟩ => ⟨S64x16384, .f32⟩
  | .hbm, ⟨6, _⟩ => ⟨S_, .i32⟩
  | .hbm, ⟨7, _⟩ => ⟨S_, .f32⟩
  | .hbm, ⟨8, _⟩ => ⟨S1000x128, .f32⟩
  | .hbm, ⟨9, _⟩ => ⟨S16384, .f32⟩
  | .shared, ⟨0, _⟩ => ⟨S1000x128, .f32⟩
  | .local .scVector .vmem, ⟨0, _⟩ => ⟨S128, .i32⟩
  | .local .scVector .vmem, ⟨1, _⟩ => ⟨S64x128, .f32⟩
  | .local .scVector .vmem, ⟨2, _⟩ => ⟨S64x128, .f32⟩
  | .local .scVector .vmem, ⟨3, _⟩ => ⟨S128x128, .f32⟩
  | .local .scVector .vmem, ⟨4, _⟩ => ⟨S128, .i32⟩
  | .local .scVector .vmem, ⟨5, _⟩ => ⟨S64x128, .f32⟩
  | .local .scVector .vmem, ⟨6, _⟩ => ⟨S64x128, .f32⟩
  | .local .scVector .vmem, ⟨7, _⟩ => ⟨S128x128, .f32⟩
  | .local .scVector .vmem, ⟨8, _⟩ => ⟨S512, .f32⟩
  | _, _ => ⟨S16384x64, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev main_v2_scv : Ref sig .scVector := ⟨.hbm, 8, rfl⟩
abbrev main_v3_scv : Ref sig .scVector := ⟨.hbm, 9, rfl⟩
abbrev cc0_scratch15 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch7 : Ref sig .scVector := ⟨.vmem, 4, rfl⟩
abbrev cc0_scratch8 : Ref sig .scVector := ⟨.vmem, 5, rfl⟩
abbrev cc0_scratch9 : Ref sig .scVector := ⟨.vmem, 6, rfl⟩
abbrev cc0_scratch10 : Ref sig .scVector := ⟨.vmem, 7, rfl⟩
abbrev cc0_scratch14 : Ref sig .scVector := ⟨.vmem, 8, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let v7 : BitVec 32 := Scalar.addi v2 c0_i32_1
  v7
def k0_off1 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_1
  let v8 : BitVec 32 := v7
  ![v8.toNat]
def k0_off2 (i : grid0.Coords) (c0_i32_1 : BitVec 32) : Fin 2 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_1
  let v8 : BitVec 32 := v7
  ![0, v8.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32 : BitVec 32 := 128#32
  let v19 : BitVec 32 := Scalar.addi v2 c128_i32
  v19
@[reducible] def k0_t1_loop : Scf.Loop 32 :=
  let c0_i32_21 : BitVec 32 := 0#32
  let c8_i32 : BitVec 32 := 8#32
  let v26 : BitVec 32 := Scalar.addi c0_i32_21 c8_i32
  let c1_i32 : BitVec 32 := 1#32
  ⟨c0_i32_21, v26, c1_i32⟩
@[reducible] def k0_t2_loop : Scf.Loop 32 :=
  let c0_i32_68 : BitVec 32 := 0#32
  let c64_i32 : BitVec 32 := 64#32
  let v63 : BitVec 32 := Scalar.addi c0_i32_68 c64_i32
  let c1_i32_69 : BitVec 32 := 1#32
  ⟨c0_i32_68, v63, c1_i32_69⟩

def k0_chk1 (v61 : IVec S16 32) (v72 : IVec S16 32) : Prop :=
  (∀ a x, ((![v72, v61] : Fin 2 → IVec S16 32) a x).toNat < S64x128.size a) ∧
  (∀ a x, ((![v72, v61] : Fin 2 → IVec S16 32) a x).toNat < S64x128.size a) ∧
  (∀ a x, ((![v61, v72] : Fin 2 → IVec S16 32) a x).toNat < S128x128.size a)
instance k0_chk1.dec : ∀ (v61 : IVec S16 32) (v72 : IVec S16 32), Decidable (k0_chk1 v61 v72) := fun v61 v72 => decidable_of_iff' _ (Iff.of_eq (k0_chk1.eq_1 v61 v72))
theorem k0_idx1_inb : ∀ (v61 : IVec S16 32) (v72 : IVec S16 32) (k0_hw1 : k0_chk1 v61 v72), ∀ a x, ((![v72, v61] : Fin 2 → IVec S16 32) a x).toNat < S64x128.size a := fun v61 v72 k0_hw1 => k0_hw1.1
theorem k0_idx2_inb : ∀ (v61 : IVec S16 32) (v72 : IVec S16 32) (k0_hw1 : k0_chk1 v61 v72), ∀ a x, ((![v72, v61] : Fin 2 → IVec S16 32) a x).toNat < S64x128.size a := fun v61 v72 k0_hw1 => k0_hw1.2.1
theorem k0_idx3_inb : ∀ (v61 : IVec S16 32) (v72 : IVec S16 32) (k0_hw1 : k0_chk1 v61 v72), ∀ a x, ((![v61, v72] : Fin 2 → IVec S16 32) a x).toNat < S128x128.size a := fun v61 v72 k0_hw1 => k0_hw1.2.2
def k0_off3 (k0_t1 : Fin k0_t1_loop.trips) : Fin 1 → Nat :=
  let c0_i32_72 : BitVec 32 := 0#32
  let c0_i32_21 : BitVec 32 := 0#32
  let c1_i32 : BitVec 32 := 1#32
  let arg23 : BitVec 32 := Scf.iv c0_i32_21 c1_i32 k0_t1
  let c16_i32_71 : BitVec 32 := 16#32
  let v65 : BitVec 32 := Scalar.muli arg23 c16_i32_71
  let v66 : BitVec 32 := Scalar.addi c0_i32_72 v65
  let v67 : Index := Scalar.indexCast v66
  ![v67.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v32 : BitVec 32 := Scalar.addi v2 c256_i32
  v32
@[reducible] def k0_t3_loop : Scf.Loop 32 :=
  let c0_i32_36 : BitVec 32 := 0#32
  let c8_i32_37 : BitVec 32 := 8#32
  let v39 : BitVec 32 := Scalar.addi c0_i32_36 c8_i32_37
  let c1_i32_38 : BitVec 32 := 1#32
  ⟨c0_i32_36, v39, c1_i32_38⟩
@[reducible] def k0_t4_loop : Scf.Loop 32 :=
  let c0_i32_68 : BitVec 32 := 0#32
  let c64_i32 : BitVec 32 := 64#32
  let v63 : BitVec 32 := Scalar.addi c0_i32_68 c64_i32
  let c1_i32_69 : BitVec 32 := 1#32
  ⟨c0_i32_68, v63, c1_i32_69⟩

def k0_chk2 (v61 : IVec S16 32) (v72 : IVec S16 32) : Prop :=
  (∀ a x, ((![v72, v61] : Fin 2 → IVec S16 32) a x).toNat < S64x128.size a) ∧
  (∀ a x, ((![v72, v61] : Fin 2 → IVec S16 32) a x).toNat < S64x128.size a) ∧
  (∀ a x, ((![v61, v72] : Fin 2 → IVec S16 32) a x).toNat < S128x128.size a)
instance k0_chk2.dec : ∀ (v61 : IVec S16 32) (v72 : IVec S16 32), Decidable (k0_chk2 v61 v72) := fun v61 v72 => decidable_of_iff' _ (Iff.of_eq (k0_chk2.eq_1 v61 v72))
theorem k0_idx4_inb : ∀ (v61 : IVec S16 32) (v72 : IVec S16 32) (k0_hw2 : k0_chk2 v61 v72), ∀ a x, ((![v72, v61] : Fin 2 → IVec S16 32) a x).toNat < S64x128.size a := fun v61 v72 k0_hw2 => k0_hw2.1
theorem k0_idx5_inb : ∀ (v61 : IVec S16 32) (v72 : IVec S16 32) (k0_hw2 : k0_chk2 v61 v72), ∀ a x, ((![v72, v61] : Fin 2 → IVec S16 32) a x).toNat < S64x128.size a := fun v61 v72 k0_hw2 => k0_hw2.2.1
theorem k0_idx6_inb : ∀ (v61 : IVec S16 32) (v72 : IVec S16 32) (k0_hw2 : k0_chk2 v61 v72), ∀ a x, ((![v61, v72] : Fin 2 → IVec S16 32) a x).toNat < S128x128.size a := fun v61 v72 k0_hw2 => k0_hw2.2.2
def k0_off4 (k0_t3 : Fin k0_t3_loop.trips) : Fin 1 → Nat :=
  let c128_i32_72 : BitVec 32 := 128#32
  let c0_i32_36 : BitVec 32 := 0#32
  let c1_i32_38 : BitVec 32 := 1#32
  let arg23 : BitVec 32 := Scf.iv c0_i32_36 c1_i32_38 k0_t3
  let c16_i32_71 : BitVec 32 := 16#32
  let v65 : BitVec 32 := Scalar.muli arg23 c16_i32_71
  let v66 : BitVec 32 := Scalar.addi c128_i32_72 v65
  let v67 : Index := Scalar.indexCast v66
  ![v67.toNat]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32 : BitVec 32 := 384#32
  let v45 : BitVec 32 := Scalar.addi v2 c384_i32
  v45
@[reducible] def k0_t5_loop : Scf.Loop 32 :=
  let c0_i32_53 : BitVec 32 := 0#32
  let c8_i32_54 : BitVec 32 := 8#32
  let v52 : BitVec 32 := Scalar.addi c0_i32_53 c8_i32_54
  let c1_i32_55 : BitVec 32 := 1#32
  ⟨c0_i32_53, v52, c1_i32_55⟩
@[reducible] def k0_t6_loop : Scf.Loop 32 :=
  let c0_i32_68 : BitVec 32 := 0#32
  let c64_i32 : BitVec 32 := 64#32
  let v63 : BitVec 32 := Scalar.addi c0_i32_68 c64_i32
  let c1_i32_69 : BitVec 32 := 1#32
  ⟨c0_i32_68, v63, c1_i32_69⟩

def k0_chk3 (v61 : IVec S16 32) (v72 : IVec S16 32) : Prop :=
  (∀ a x, ((![v72, v61] : Fin 2 → IVec S16 32) a x).toNat < S64x128.size a) ∧
  (∀ a x, ((![v72, v61] : Fin 2 → IVec S16 32) a x).toNat < S64x128.size a) ∧
  (∀ a x, ((![v61, v72] : Fin 2 → IVec S16 32) a x).toNat < S128x128.size a)
instance k0_chk3.dec : ∀ (v61 : IVec S16 32) (v72 : IVec S16 32), Decidable (k0_chk3 v61 v72) := fun v61 v72 => decidable_of_iff' _ (Iff.of_eq (k0_chk3.eq_1 v61 v72))
theorem k0_idx7_inb : ∀ (v61 : IVec S16 32) (v72 : IVec S16 32) (k0_hw3 : k0_chk3 v61 v72), ∀ a x, ((![v72, v61] : Fin 2 → IVec S16 32) a x).toNat < S64x128.size a := fun v61 v72 k0_hw3 => k0_hw3.1
theorem k0_idx8_inb : ∀ (v61 : IVec S16 32) (v72 : IVec S16 32) (k0_hw3 : k0_chk3 v61 v72), ∀ a x, ((![v72, v61] : Fin 2 → IVec S16 32) a x).toNat < S64x128.size a := fun v61 v72 k0_hw3 => k0_hw3.2.1
theorem k0_idx9_inb : ∀ (v61 : IVec S16 32) (v72 : IVec S16 32) (k0_hw3 : k0_chk3 v61 v72), ∀ a x, ((![v61, v72] : Fin 2 → IVec S16 32) a x).toNat < S128x128.size a := fun v61 v72 k0_hw3 => k0_hw3.2.2
def k0_off5 (k0_t5 : Fin k0_t5_loop.trips) : Fin 1 → Nat :=
  let c256_i32_72 : BitVec 32 := 256#32
  let c0_i32_53 : BitVec 32 := 0#32
  let c1_i32_55 : BitVec 32 := 1#32
  let arg23 : BitVec 32 := Scf.iv c0_i32_53 c1_i32_55 k0_t5
  let c16_i32_71 : BitVec 32 := 16#32
  let v65 : BitVec 32 := Scalar.muli arg23 c16_i32_71
  let v66 : BitVec 32 := Scalar.addi c256_i32_72 v65
  let v67 : Index := Scalar.indexCast v66
  ![v67.toNat]
@[reducible] def k0_t7_loop : Scf.Loop 32 :=
  let c0_i32_64 : BitVec 32 := 0#32
  let c8_i32_65 : BitVec 32 := 8#32
  let v58 : BitVec 32 := Scalar.addi c0_i32_64 c8_i32_65
  let c1_i32_66 : BitVec 32 := 1#32
  ⟨c0_i32_64, v58, c1_i32_66⟩
@[reducible] def k0_t8_loop : Scf.Loop 32 :=
  let c0_i32_68 : BitVec 32 := 0#32
  let c64_i32 : BitVec 32 := 64#32
  let v63 : BitVec 32 := Scalar.addi c0_i32_68 c64_i32
  let c1_i32_69 : BitVec 32 := 1#32
  ⟨c0_i32_68, v63, c1_i32_69⟩

def k0_chk4 (v61 : IVec S16 32) (v72 : IVec S16 32) : Prop :=
  (∀ a x, ((![v72, v61] : Fin 2 → IVec S16 32) a x).toNat < S64x128.size a) ∧
  (∀ a x, ((![v72, v61] : Fin 2 → IVec S16 32) a x).toNat < S64x128.size a) ∧
  (∀ a x, ((![v61, v72] : Fin 2 → IVec S16 32) a x).toNat < S128x128.size a)
instance k0_chk4.dec : ∀ (v61 : IVec S16 32) (v72 : IVec S16 32), Decidable (k0_chk4 v61 v72) := fun v61 v72 => decidable_of_iff' _ (Iff.of_eq (k0_chk4.eq_1 v61 v72))
theorem k0_idx10_inb : ∀ (v61 : IVec S16 32) (v72 : IVec S16 32) (k0_hw4 : k0_chk4 v61 v72), ∀ a x, ((![v72, v61] : Fin 2 → IVec S16 32) a x).toNat < S64x128.size a := fun v61 v72 k0_hw4 => k0_hw4.1
theorem k0_idx11_inb : ∀ (v61 : IVec S16 32) (v72 : IVec S16 32) (k0_hw4 : k0_chk4 v61 v72), ∀ a x, ((![v72, v61] : Fin 2 → IVec S16 32) a x).toNat < S64x128.size a := fun v61 v72 k0_hw4 => k0_hw4.2.1
theorem k0_idx12_inb : ∀ (v61 : IVec S16 32) (v72 : IVec S16 32) (k0_hw4 : k0_chk4 v61 v72), ∀ a x, ((![v61, v72] : Fin 2 → IVec S16 32) a x).toNat < S128x128.size a := fun v61 v72 k0_hw4 => k0_hw4.2.2
def k0_off6 (k0_t7 : Fin k0_t7_loop.trips) : Fin 1 → Nat :=
  let c384_i32_72 : BitVec 32 := 384#32
  let c0_i32_64 : BitVec 32 := 0#32
  let c1_i32_66 : BitVec 32 := 1#32
  let arg23 : BitVec 32 := Scf.iv c0_i32_64 c1_i32_66 k0_t7
  let c16_i32_71 : BitVec 32 := 16#32
  let v65 : BitVec 32 := Scalar.muli arg23 c16_i32_71
  let v66 : BitVec 32 := Scalar.addi c384_i32_72 v65
  let v67 : Index := Scalar.indexCast v66
  ![v67.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x64_S64x16384_1_0 : S16384x64.Transposes [1, 0] S64x16384
  pads_S1000x64_S1000x128_000_0640 : S1000x64.Pads (![0, 0] : Fin 2 → Nat) ![0, 64] ![0, 0] S1000x128
  h_S_ : 0 < S_.numel
  iota_S16_d0_w32_scVector : S16.Iotas .scVector 32 [0]
  inb_S1000x128_S1000x128_0_0 : ∀ a, (![0, 0] : Fin 2 → Nat) a + S1000x128.size a ≤ S1000x128.size a
  gathers_S1000x128_S128x128 : S1000x128.Gathers 0 S128x128
  h_S64x128 : 0 < S64x128.numel
  h_S128x128 : 0 < S128x128.numel
  h_S16 : 0 < S16.numel
  hcc0_scratch4 : 0 + S_.numel ≤ 12
  hcc0_scratch5 : 1 + S_.numel ≤ 12
  hcc0_scratch6 : 2 + S_.numel ≤ 12
  hcc0_scratch11 : 3 + S_.numel ≤ 12
  hcc0_scratch12 : 4 + S_.numel ≤ 12
  hcc0_scratch13 : 5 + S_.numel ≤ 12
  hcc0_scoped0 : 6 + S_.numel ≤ 12
  hcc0_scoped1 : 7 + S_.numel ≤ 12
  hcc0_scoped2 : 8 + S_.numel ≤ 12
  hcc0_scoped3 : 9 + S_.numel ≤ 12
  hcc0_scoped4 : 10 + S_.numel ≤ 12
  hcc0_scoped5 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 128 ∣ (k0_mult1 i).toNat
  k0_off1_inb : ∀ i : grid0.Coords, ∀ (r : Fin 4), ∀ a, (k0_off1 i (BitVec.ofNat 32 (128 * r.val))) a + S128.size a ≤ S16384.size a
  k0_off2_inb : ∀ i : grid0.Coords, ∀ (r : Fin 4), ∀ a, (k0_off2 i (BitVec.ofNat 32 (128 * r.val))) a + S64x128.size a ≤ S64x16384.size a
  k0_mult2_dvd : ∀ i : grid0.Coords, 128 ∣ (k0_mult2 i).toNat
  k0_t1_ok : k0_t1_loop.OK
  k0_t2_ok : k0_t2_loop.OK
  k0_off3_inb : ∀ k0_t1 : Fin k0_t1_loop.trips, ∀ a, (k0_off3 k0_t1) a + S16.size a ≤ S512.size a
  k0_mult3_dvd : ∀ i : grid0.Coords, 128 ∣ (k0_mult3 i).toNat
  k0_t3_ok : k0_t3_loop.OK
  k0_t4_ok : k0_t4_loop.OK
  k0_off4_inb : ∀ k0_t3 : Fin k0_t3_loop.trips, ∀ a, (k0_off4 k0_t3) a + S16.size a ≤ S512.size a
  k0_mult4_dvd : ∀ i : grid0.Coords, 128 ∣ (k0_mult4 i).toNat
  k0_t5_ok : k0_t5_loop.OK
  k0_t6_ok : k0_t6_loop.OK
  k0_off5_inb : ∀ k0_t5 : Fin k0_t5_loop.trips, ∀ a, (k0_off5 k0_t5) a + S16.size a ≤ S512.size a
  k0_t7_ok : k0_t7_loop.OK
  k0_t8_ok : k0_t8_loop.OK
  k0_off6_inb : ∀ k0_t7 : Fin k0_t7_loop.trips, ∀ a, (k0_off6 k0_t7) a + S16.size a ≤ S512.size a
  k0_off7_inb : ∀ i : grid0.Coords, ∀ a, (k0_off7 i) a + S512.size a ≤ S16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scoped0 : DmaSems sig S_ := SemArray.consecutive 6 S_ hcc0_scoped0
abbrev cc0_scoped1 : DmaSems sig S_ := SemArray.consecutive 7 S_ hcc0_scoped1
abbrev cc0_scoped2 : DmaSems sig S_ := SemArray.consecutive 8 S_ hcc0_scoped2
abbrev cc0_scoped3 : DmaSems sig S_ := SemArray.consecutive 9 S_ hcc0_scoped3
abbrev cc0_scoped4 : DmaSems sig S_ := SemArray.consecutive 10 S_ hcc0_scoped4
abbrev cc0_scoped5 : DmaSems sig S_ := SemArray.consecutive 11 S_ hcc0_scoped5

class Facts : Prop extends Facts₀ where

variable [Facts]
-- ==== ReferenceIdeal.lean ====
abbrev S16384x64 : Shape := ⟨2, ![16384, 64]⟩
abbrev S16384 : Shape := ⟨1, ![16384]⟩
abbrev S1000x64 : Shape := ⟨2, ![1000, 64]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S16384x64, .f32⟩
  | .hbm, ⟨3, _⟩ => ⟨S1000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S_, .f32⟩
  | .hbm, ⟨30, _⟩ => ⟨S16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  gather_S1000x64_S16384x1_S16384x64_1_0_n_n_0_1_164_wf : GatherDims.WF S1000x64 S16384x1 S16384x64 [1] [0] [] [0] [] 1 ![1, 64]

variable [Facts₀]

def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf

class Facts : Prop extends Facts₀ where

variable [Facts]
-- ==== Proof.LibSignedWord.lean ====
/-
  Small 32-bit words read signed and unsigned.

  A 32-bit word below 2^31 reads the same signed and unsigned, so for such words the signed comparisons a program
  makes against 0 and against a small literal say what the unsigned readings say. This module proves, for
  `w : BitVec 32` and a natural `n` below 2^31:
  * `toNat_le_of_signed_range`: if `w` is, signed, at least 0 and at most `n` (both comparisons' words are 1), then
    `w.toNat ≤ n`;
  * `toInt_toNat_of_lt`: if `w.toNat < 2^31` then `w.toInt.toNat = w.toNat`;
  * `cmpi_slt_zero_of_lt`, `cmpi_sge_zero_of_lt`: if `w.toNat < 2^31` then "`w` < 0 signed" is the word 0 and
    "`w` ≥ 0 signed" is the word 1;
  * `cmpi_sle_ofNat_of_le`: if `w.toNat ≤ n` then "`w` ≤ `n` signed" is the word 1;
  * `cmpi_sge_pred_iff`: for naturals `i`, `j` below 2^31, "`i` + (−1) ≥ `j` signed" (the sum taken in 32-bit words) is the
    word 1 exactly when `j < i`;
  and the auxiliaries `eq_zero_of_ne_one` (a one-bit word that is not 1 is 0), `toInt_of_lt` and `toInt_ofNat_of_lt` (a
  word below 2^31, and the word of a natural below 2^31, read signed as themselves).
-/
import Idealize.ShloMosaic.Lib.Affine

namespace Cert.LibSignedWord

open Idealize.ShloMosaic

/-- A one-bit word is 1 or 0: not being 1, it is 0. -/
theorem eq_zero_of_ne_one {b : BitVec 1} (h : ¬b = 1#1) : b = 0#1 := by
  rcases BitVec.eq_zero_or_eq_one b with h0 | h1
  · exact h0
  · exact absurd h1 h

/-- A word below 2^31 reads the same signed and unsigned. -/
theorem toInt_of_lt (w : BitVec 32) (h : w.toNat < 2 ^ 31) : w.toInt = (w.toNat : Int) :=
  BitVec.toInt_eq_toNat_of_lt (by omega)

/-- A word below 2^31, read signed and cut off at 0, is its unsigned reading. -/
theorem toInt_toNat_of_lt (w : BitVec 32) (h : w.toNat < 2 ^ 31) : w.toInt.toNat = w.toNat := by
  rw [toInt_of_lt w h]; exact Int.toNat_natCast _

/-- The literal `n` below 2^31 reads `n` signed. -/
theorem toInt_ofNat_of_lt (n : Nat) (hn : n < 2 ^ 31) : (BitVec.ofNat 32 n).toInt = (n : Int) := by
  rw [BitVec.toInt_eq_toNat_of_lt (by rw [BitVec.toNat_ofNat]; omega), BitVec.toNat_ofNat]; omega

/-- A 32-bit word that is, read signed, at least 0 and at most `n` is at most `n` read unsigned. -/
theorem toNat_le_of_signed_range (w : BitVec 32) (n : Nat) (hn : n < 2 ^ 31)
    (h0 : IntOp.cmpi .sge w 0#32 = 1#1) (h1 : IntOp.cmpi .sle w (BitVec.ofNat 32 n) = 1#1) : w.toNat ≤ n := by
  rw [IntOp.cmpi_sge, show (0#32 : BitVec 32).toInt = 0 from by decide] at h0
  rw [IntOp.cmpi_sle, toInt_ofNat_of_lt n hn] at h1
  have h32 := w.isLt
  unfold BitVec.toInt at h0 h1
  split at h1 <;> omega

/-- A word below 2^31 is not negative: the signed "less than 0" is the word 0. -/
theorem cmpi_slt_zero_of_lt (w : BitVec 32) (h : w.toNat < 2 ^ 31) : IntOp.cmpi .slt w 0#32 = 0#1 := by
  refine eq_zero_of_ne_one fun e => ?_
  rw [IntOp.cmpi_slt, toInt_of_lt w h, show (0#32 : BitVec 32).toInt = 0 from by decide] at e
  omega

/-- A word below 2^31 is at least 0 signed. -/
theorem cmpi_sge_zero_of_lt (w : BitVec 32) (h : w.toNat < 2 ^ 31) : IntOp.cmpi .sge w 0#32 = 1#1 := by
  rw [IntOp.cmpi_sge, toInt_of_lt w h, show (0#32 : BitVec 32).toInt = 0 from by decide]
  omega

/-- A word at most `n` unsigned, `n` below 2^31, is at most `n` signed. -/
theorem cmpi_sle_ofNat_of_le (w : BitVec 32) (n : Nat) (hn : n < 2 ^ 31) (h : w.toNat ≤ n) :
    IntOp.cmpi .sle w (BitVec.ofNat 32 n) = 1#1 := by
  rw [IntOp.cmpi_sle, toInt_of_lt w (by omega), toInt_ofNat_of_lt n hn]
  omega

/-- For naturals `i`, `j` below 2^31: `i − 1 ≥ j` in signed 32-bit words (the −1 added as the all-ones word) exactly
    when `j < i`. -/
theorem cmpi_sge_pred_iff (i j : Nat) (hi : i < 2 ^ 31) (hj : j < 2 ^ 31) :
    IntOp.cmpi .sge (IntOp.addi (BitVec.ofNat 32 i) 4294967295#32) (BitVec.ofNat 32 j) = 1#1 ↔ j < i := by
  rw [IntOp.cmpi_sge, toInt_ofNat_of_lt j hj]
  have hs : (IntOp.addi (BitVec.ofNat 32 i) 4294967295#32).toInt = (i : Int) - 1 := by
    show (BitVec.ofNat 32 i + 4294967295#32).toInt = _
    rw [BitVec.toInt_add, toInt_ofNat_of_lt i hi, show (4294967295#32 : BitVec 32).toInt = -1 from by decide]
    rw [Int.bmod_eq_of_le (by omega) (by omega)]
    omega
  rw [hs]
  omega

end Cert.LibSignedWord
-- ==== Proof.PreRange.lean ====
/-
  The integer part of the input domain, read back.

  The input domain's predicate is a conjunction whose last conjunct says that every index word is, read as a signed
  32-bit integer, at least 0 and at most 999. This module reads that conjunct back: when the predicate holds, every
  index word is at most 999 read unsigned. It holds at every float instance: the float conjuncts are not opened.
-/
import proofs.«205660_g30348238913567_cont_9to1_1764_14_alg».proof.Pre_input_domain
import proofs.«205660_g30348238913567_cont_9to1_1764_14_alg».proof.Proof.Gen.Pre_input_domain
import proofs.«205660_g30348238913567_cont_9to1_1764_14_alg».proof.Proof.LibSignedWord
import Idealize.ShloMosaic.Lib.ReduceAll
import Idealize.ShloMosaic.Lib.ValueIdx

namespace Cert.Proof.PreRange

open Idealize.ShloMosaic

/-- The scalar shape has one index. -/
instance subsingleton_scalar_idx : Subsingleton Cert.Pre_input_domain.S_.Idx :=
  ⟨fun _ _ => funext fun d => d.elim0⟩

/-- Under the input domain every index word is at most 999 read unsigned: the predicate's last conjunct is the
    `and`-reduction, over all positions, of "the word is at least 0 signed and at most 999 signed". -/
theorem idx_le {F : FTy → Type} [FloatOps F] (a0 : FVec F Cert.Pre_input_domain.S16384x64 .f32)
    (a1 : IVec Cert.Pre_input_domain.S16384 32) (a2 : FVec F Cert.Pre_input_domain.S16384x64 .f32)
    (a3 : FVec F Cert.Pre_input_domain.S1000x64 .f32)
    (h : Cert.Pre_input_domain.fn (F := F) a0 a1 a2 a3 = fun _ => 1#1) : ∀ b, (a1 b).toNat ≤ 999 := by
  intro b
  have h0 := congrFun h ValueIdx.ix0
  dsimp only [Cert.Pre_input_domain.fn, Cert.Pre_input_domain.fn_part1] at h0
  have h1 := (IntOp.andi_eq_one.1 h0).2
  have h2 := Host.reduce_andi_all _ _ _ _ _ h1 b
  have h3 := IntOp.andi_eq_one.1 h2
  exact Cert.LibSignedWord.toNat_le_of_signed_range (a1 b) 999 (by decide) h3.1 h3.2

end Cert.Proof.PreRange
-- ==== Proof.Spec.lean ====
/-
  The function both programs compute: the trilinear score of a batch of triples. For each of the 16384 triples `b`,
  with head row `h b`, tail row `t b` and the relation row the index word `idx b` names in the table `rel`,

      score b = Σ_{d < 64} h(b, d) · rel(idx b, d) · t(b, d)

  on the extended reals. The index word is read as a natural number and clamped to the table's last row, so that
  the function is total; where every word lies in `[0, 999]` the clamp does nothing.
-/
import Idealize.ShloMosaic.PureOps.Ideal
import Idealize.ShloMosaic.Lib.ValueIdx

noncomputable section

open scoped BigOperators

namespace Cert.Spec

open Idealize.ShloMosaic Idealize.ShloMosaic.ValueIdx

/-- The batch of rows: 16384 triples, 64 features each. -/
abbrev SBD : Shape := ⟨2, ![16384, 64]⟩
/-- One word, or one score, per triple. -/
abbrev SB : Shape := ⟨1, ![16384]⟩
/-- The relation table: 1000 rows of 64 features. -/
abbrev SRD : Shape := ⟨2, ![1000, 64]⟩

/-- The table row an index word names: its value as a natural number, clamped to the last row. -/
def relRow (w : BitVec 32) : Fin 1000 := ⟨min w.toNat 999, by omega⟩

/-- A word in range names its own row. -/
theorem relRow_val_of_le (w : BitVec 32) (h : w.toNat ≤ 999) : (relRow w).val = w.toNat := by
  simp [relRow, Nat.min_eq_left h]

/-- The score of triple `b`: the sum over the 64 features of head · relation · tail. -/
def score (h : SBD.Idx → EReal) (idx : SB.Idx → BitVec 32) (t : SBD.Idx → EReal) (rel : SRD.Idx → EReal) :
    SB.Idx → EReal :=
  fun b => ∑ d : Fin 64, h (ix2 (b 0 : Fin 16384) d) * rel (ix2 (relRow (idx b)) d) * t (ix2 (b 0 : Fin 16384) d)

end Cert.Spec

end
-- ==== Proof.RefRun.lean ====
/-
  The reference program's run, written out.

  The reference's @main is a straight line of twenty-seven array operations: the twenty-three of the row look-up
  (the index word wrapped by the table's height where it is negative, a mask saying the wrapped word is in range, the
  rows gathered, and the choice between the gathered row and a not-a-number constant by the mask), the two products,
  the zero, and the sum over the feature axis. This module lists them (`ops`), shows that @main is that line
  (`main_eq`), and reads the run back: every weakly fair execution terminates, the score buffer holds the operations'
  composed term `out` of the four arguments' launch contents, and the arguments are unchanged (`run`).
-/
import proofs.«205660_g30348238913567_cont_9to1_1764_14_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's twenty-seven operations, in order, the two calls unfolded: the look-up's twenty-three (its select through
    the inner call) into the look-up's own buffers, then @main's four. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S1000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    binary main_arg0 main_v0 main_v1 (mulf : (⟨S16384x64, .f32⟩ : BufTy).Contents (Elt F) → (⟨S16384x64, .f32⟩ : BufTy).Contents (Elt F) → (⟨S16384x64, .f32⟩ : BufTy).Contents (Elt F)),
    binary main_v1 main_arg2 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., binary_bufs_sub ..⟩

/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The operations' composed term of the four arguments: the index word wrapped where negative, the in-range mask, the
    gathered rows chosen by the mask against the not-a-number constant, multiplied by the head and then the tail rows and
    summed over the feature axis from zero. -/
def out (a0 : FVec F S16384x64 .f32) (a1 : IVec S16384 32) (a2 : FVec F S16384x64 .f32) (a3 : FVec F S1000x64 .f32) :
    FVec F S16384 .f32 :=
  let w : IVec S16384 32 := select (cmpi .slt a1 (broadcastInDim S16384 ![] bcast_S_S16384 (constantI S_ 32 0#32)))
    (addi a1 (broadcastInDim S16384 ![] bcast_S_S16384 (constantI S_ 32 1000#32))) a1
  let v5 : IVec S16384x1 32 := broadcastInDim S16384x1 ![0] bcast_S16384_S16384x1_0 w
  let v7 : IVec S16384x1 1 := cmpi .sge v5 (broadcastInDim S16384x1 ![] bcast_S_S16384x1 (constantI S_ 32 0#32))
  let v9 : IVec S16384x1 32 := broadcastInDim S16384x1 ![0, 1] bcast_S1x1_S16384x1_0_1
    (broadcastInDim S1x1 ![1] bcast_S1_S1x1_1 (constantI S1 32 999#32))
  let v10 : IVec S16384x1 1 := cmpi .sle v5 v9
  let v12 : IVec S16384 1 := Host.reduce IntOp.andi (andi v7 v10) (constantI S_ 1 1#1) reducesTo_S16384x1_S16384_d1 h_S_
  let v13 : FVec F S16384x64 .f32 := Host.gather gather_S1000x64_S16384x1_S16384x64_1_0_n_n_0_1_164 a3 v5
  let v14 : IVec S16384x64 1 := broadcastInDim S16384x64 ![0] bcast_S16384_S16384x64_0 v12
  let v15 : FVec F S16384x64 .f32 := broadcastInDim S16384x64 ![] bcast_S_S16384x64 (constant S_ .f32 0x7FC00000#32)
  let v0 : FVec F S16384x64 .f32 := select v14 v13 v15
  Host.reduceAdd (mulf (mulf a0 v0) a2) (constant S_ .f32 0x00000000#32) reducesTo_S16384x64_S16384_d1 h_S_

attribute [local irreducible] Host.reduce Host.gather in
set_option maxRecDepth 8192 in
/-- The fold at the score buffer is `out` of the arguments' contents: each operation's result at its own buffer is its
    function's value and at any other buffer what was there, and the typed references' transports are the identity at
    these literal references. The reduction and the gather are kept folded meanwhile: the equation never looks inside
    them. -/
theorem out_eq (V : Valuation τ sig (Elt F)) :
    after ops V (main_v3 : DevRef τ sig)
      = out (V (main_arg0 : DevRef τ sig)) (V (main_arg1 : DevRef τ sig)) (V (main_arg2 : DevRef τ sig))
          (V (main_arg3 : DevRef τ sig)) := by
  after_results_simp
  simp only [TRef.ofBuf, TRef.toBuf, cast_cast, cast_eq]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- From any memory with zero counters every weakly fair execution of @main terminates with the score buffer at `out`
    of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v3).trans (out_eq _), (h c main_arg0).trans (arg0_eq _),
      (h c main_arg1).trans (arg1_eq _), (h c main_arg2).trans (arg2_eq _), (h c main_arg3).trans (arg3_eq _)⟩)
    (run_main m ρ)

end Cert.Proof.RefRun

end
-- ==== Proof.LibGatherRows.lean ====
/-
  Rows of a table, looked up by an array of indices: `stablehlo.gather` read at an index.

  What `table[idx]` lowers to for a table of shape [N, D] and an integer array `idx` of shape [B, L, M]: a gather with
  offset_dims [3], collapsed_slice_dims [0], start_index_map [0], slice_sizes [1, D] and index_vector_dim 3 over the
  indices as [B, L, M, 1]. This module defines those dimension numbers as a record (`rowsDims N D B L M wf`, for all
  extents, `wf` the gather's shape conditions) and proves (`gather_rows_apply`, stated over `rowsDims`) that the
  gather's result at (b, l, m, k) is the table at row `idx[b, l, m, 0]`, read as a signed integer and clamped into
  [0, N − 1], and column `k` — for all extents.

  It also proves the fact an `all`-reduction needs in the other direction: a left fold by `and` over one-bit words that
  starts at 1 and meets only 1s is 1 (`foldl_andi_eq_one_of_forall`), and from it (`reduce_andi_eq_one_of_forall`) that a
  `stablehlo.reduce` by `and` whose initial value is 1 is 1 at a result index when every operand element that reduces
  into it is 1.
-/
import Idealize.ShloMosaic.Lib.ValueIdx
import Idealize.ShloMosaic.Lib.ReduceAll

noncomputable section

namespace Cert.LibGatherRows

open Idealize.ShloMosaic Idealize.ShloMosaic.ValueIdx

variable {α : Type}

/-- The dimension numbers of a row look-up: operand [N, D], start indices [B, L, M, 1], result [B, L, M, D]. -/
abbrev rowsDims (N D B L M : Nat)
    (wf : GatherDims.WF ⟨2, ![N, D]⟩ ⟨4, ![B, L, M, 1]⟩ ⟨4, ![B, L, M, D]⟩ [3] [0] [] [0] [] 3 ![1, D]) :
    GatherDims ⟨2, ![N, D]⟩ ⟨4, ![B, L, M, 1]⟩ ⟨4, ![B, L, M, D]⟩ where
  offsetDims := [3]
  collapsedSliceDims := [0]
  operandBatchingDims := []
  startIndicesBatchingDims := []
  startIndexMap := [0]
  indexVectorDim := 3
  sliceSizes := ![1, D]
  wf := wf

/-- THE ROW LOOK-UP READ AT (b, l, m, k): the table at the row `idx[b, l, m, 0]`, read signed and clamped into
    [0, N − 1], and column `k`. -/
theorem gather_rows_apply {N D B L M w : Nat} (hN : 0 < N)
    (wf : GatherDims.WF ⟨2, ![N, D]⟩ ⟨4, ![B, L, M, 1]⟩ ⟨4, ![B, L, M, D]⟩ [3] [0] [] [0] [] 3 ![1, D])
    (x : (⟨2, ![N, D]⟩ : Shape).Idx → α) (idx : IVec ⟨4, ![B, L, M, 1]⟩ w)
    (b : Fin B) (l : Fin L) (m : Fin M) (k : Fin D) :
    Host.gather (rowsDims N D B L M wf) x idx (ix4 b l m k)
      = x (ix2 ⟨min (idx (ix4 b l m (0 : Fin 1))).toInt.toNat (N - 1), by omega⟩ k) := by
  unfold Host.gather
  congr 1
  funext a
  refine Fin.ext ?_
  show (rowsDims N D B L M wf).start (ix4 b l m k) idx a + (rowsDims N D B L M wf).batchCoord (ix4 b l m k) a
    + (rowsDims N D B L M wf).offCoord (ix4 b l m k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D B L M wf).startIndexMap from List.mem_singleton.mpr rfl)]
    have hsi : (rowsDims N D B L M wf).siIdx (ix4 b l m k) ⟨List.idxOf (⟨0, by decide⟩ : Fin 2) (rowsDims N D B L M wf).startIndexMap,
        List.idxOf_lt_length_iff.2 (List.mem_singleton.mpr rfl)⟩ = ix4 b l m (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    have h12 : 1 < (⟨2, ![N, D]⟩ : Shape).rank := Nat.one_lt_two
    have hne : (⟨1, h12⟩ : Fin 2) ∉ ([0] : List (Fin 2)) := fun h =>
      absurd (show (1 : Nat) = 0 from congrArg Fin.val (List.mem_singleton.mp h)) (by decide)
    have hs : (rowsDims N D B L M wf).start (ix4 b l m k) idx ⟨1, h12⟩ = 0 := by
      unfold GatherDims.start
      rw [dif_neg hne]
    have hmem : (⟨1, h12⟩ : Fin 2) ∈ (rowsDims N D B L M wf).sKept :=
      (GatherDims.mem_sKept _ _).mpr ⟨hne, List.not_mem_nil⟩
    have ho : (rowsDims N D B L M wf).offCoord (ix4 b l m k) ⟨1, h12⟩ = k.val := by
      unfold GatherDims.offCoord
      rw [dif_pos hmem]
      rfl
    rw [hs, ho]
    show 0 + 0 + k.val = k.val
    omega

/-- A left fold by `and` over one-bit words from 1 that meets only 1s is 1. -/
theorem foldl_andi_eq_one_of_forall {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_eq_one_of_forall f l _ (IntOp.andi_eq_one.2 ⟨hi, h a List.mem_cons_self⟩)
      fun n hn => h n (List.mem_cons_of_mem _ hn)

/-- AN `all` THAT HOLDS: a `stablehlo.reduce` by `and` whose initial value is 1 is 1 at `j` when every operand element
    that reduces into `j` is 1. -/
theorem reduce_andi_eq_one_of_forall {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i : s.Idx, h.drop i = j → x i = 1#1) :
    Host.reduce IntOp.andi x init h hu j = 1#1 := by
  rw [Host.reduce_eq_foldl]
  refine foldl_andi_eq_one_of_forall x _ _ hinit fun i hi => ?_
  rw [List.mem_filter] at hi
  exact hx i (by simpa using hi.2)

end Cert.LibGatherRows

end
-- ==== Proof.LibIndexedRows.lean ====
/-
  Row-indexed gathers, accumulating row scatters and a two-piece concatenation of vectors, read at coordinates.

  A table `x : [N, D]` gathered at integer row indices `idx : [E, 1]` has, at `(e, k)`, the entry `x (r, k)` where
  `r` is `idx (e, 0)` read as a signed integer and clamped into `[0, N − 1]`; a vector `x : [N]` gathered at the same
  indices has at `e` the entry `x r`. An accumulating scatter of rows `upd : [E, D]` into `x : [N, D]` at the row
  indices `idx : [E, 1]` has, over the extended reals, at `(c, k)` the entry `x (c, k)` plus the sum over all `e`
  whose index `idx (e, 0)`, read signed, equals `c` of `upd (e, k)` (an index outside `[0, N − 1]` matches no row and
  its update is dropped); the scatter of a vector `upd : [E]` into `x : [N]` is the same sum without the column.
  The concatenation of `u : [A]` and `v : [B]` along their one axis is `u e` below `A` and `v (e − A)` from `A` on.
  All statements are generic in the extents, so they apply to literal shapes by unification.
-/
import Idealize.ShloMosaic.Lib.ValueIdx
import Idealize.ShloMosaic.Lib.Pipeline.Value
import Idealize.ShloMosaic.PureOps.Ideal.Laws

noncomputable section

open scoped BigOperators

namespace Cert.Lib.IndexedRows

open Idealize.ShloMosaic Idealize.ShloMosaic.ValueIdx

/-- A word read as a signed integer and clamped into the row range `[0, N − 1]` (negative values go to `0`). -/
def clampRow (N : ℕ) (hN : 0 < N) {w : ℕ} (v : BitVec w) : Fin N := ⟨min v.toInt.toNat (N - 1), by omega⟩

/-! ## Gathering rows of a table -/

section GatherRows
variable {α : Type}

/-- The dimension numbers of a row gather: operand `[N, D]`, start indices `[E, 1]`, result `[E, D]`; the operand's
    row axis is collapsed and indexed, its column axis is the result's offset axis, a slice is one whole row. -/
abbrev gatherRowsDims (N E D : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at `(e, k)`: the table at row `idx (e, 0)`, read signed and clamped, and column `k`. -/
theorem gather_rows_apply {N E D w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (gatherRowsDims N E D wf) x idx (ix2 e k) = x (ix2 (clampRow N hN (idx (ix2 e (0 : Fin 1)))) k) := by
  unfold Host.gather
  congr 1
  have h0 : (gatherRowsDims N E D wf).start (ix2 e k) idx (0 : Fin 2) + (gatherRowsDims N E D wf).batchCoord (ix2 e k) (0 : Fin 2)
      + (gatherRowsDims N E D wf).offCoord (ix2 e k) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E D wf).startIndexMap from List.mem_singleton.mpr rfl)]
    have hsi : (gatherRowsDims N E D wf).siIdx (ix2 e k) ⟨List.idxOf (0 : Fin 2) (gatherRowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N E D wf).start (ix2 e k) idx (1 : Fin 2) + (gatherRowsDims N E D wf).batchCoord (ix2 e k) (1 : Fin 2)
      + (gatherRowsDims N E D wf).offCoord (ix2 e k) (1 : Fin 2) = k.val := by
    have hne : (1 : Fin 2) ∉ [(0 : Fin 2)] := fun h => absurd (List.mem_singleton.mp h) (by decide)
    rw [GatherDims.batchCoord_eq_zero _ _ _ List.not_mem_nil]
    unfold GatherDims.start
    rw [dif_neg (show ¬ ((1 : Fin 2) ∈ (gatherRowsDims N E D wf).startIndexMap) from hne)]
    unfold GatherDims.offCoord
    rw [dif_pos ((GatherDims.mem_sKept _ _).mpr ⟨hne, List.not_mem_nil⟩)]
    simp only [Nat.add_zero, Nat.zero_add]
    rfl
  funext a
  refine Fin.ext ?_
  match a with
  | ⟨0, _⟩ => exact h0
  | ⟨1, _⟩ => exact h1

end GatherRows

/-! ## Accumulating rows into a table -/

section ScatterRows

/-- The dimension numbers of a row scatter: operand `[N, D]`, scatter indices `[E, 1]`, updates `[E, D]`; the
    updates' column axis is the window axis, the operand's row axis is inserted and indexed. -/
abbrev scatterRowsDims (N E D : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis update `(e, k')` lands at the signed index `idx (e, 0)`. -/
theorem scatterRows_land_row {N E D w : ℕ} (wf : ScatterDims.WF ⟨2, ![N, D]⟩ ⟨2, ![E, 1]⟩ ⟨2, ![E, D]⟩ [1] [0] [0] 1)
    (idx : IVec ⟨2, ![E, 1]⟩ w) (e : Fin E) (k' : Fin D) :
    (scatterRowsDims N E D wf).start (ix2 e k') idx (0 : Fin 2) + ((scatterRowsDims N E D wf).window (ix2 e k') (0 : Fin 2) : ℤ)
      = (idx (ix2 e (0 : Fin 1))).toInt := by
  have hmem : (0 : Fin 2) ∈ [(0 : Fin 2)] := List.mem_singleton.mpr rfl
  unfold ScatterDims.start ScatterDims.window
  rw [dif_pos (show (0 : Fin 2) ∈ (scatterRowsDims N E D wf).scatterDimsToOperandDims from hmem),
    dif_neg (show ¬ ((0 : Fin 2) ∈ (scatterRowsDims N E D wf).sKept) from fun h => (List.mem_filter.mp h).2 |> fun h' => by simpa using h')]
  have hsi : (scatterRowsDims N E D wf).siIdx (ix2 e k') ⟨List.idxOf (0 : Fin 2) (scatterRowsDims N E D wf).scatterDimsToOperandDims,
      List.idxOf_lt_length_iff.2 hmem⟩ = ix2 e (0 : Fin 1) := by
    funext b; refine Fin.ext ?_
    match b with
    | ⟨0, _⟩ => rfl
    | ⟨1, _⟩ => rfl
  rw [hsi]
  simp

/-- On the column axis update `(e, k')` lands at its own column `k'`. -/
theorem scatterRows_land_col {N E D w : ℕ} (wf : ScatterDims.WF ⟨2, ![N, D]⟩ ⟨2, ![E, 1]⟩ ⟨2, ![E, D]⟩ [1] [0] [0] 1)
    (idx : IVec ⟨2, ![E, 1]⟩ w) (e : Fin E) (k' : Fin D) :
    (scatterRowsDims N E D wf).start (ix2 e k') idx (1 : Fin 2) + ((scatterRowsDims N E D wf).window (ix2 e k') (1 : Fin 2) : ℤ)
      = (k'.val : ℤ) := by
  have hne : (1 : Fin 2) ∉ [(0 : Fin 2)] := fun h => absurd (List.mem_singleton.mp h) (by decide)
  unfold ScatterDims.start ScatterDims.window
  rw [dif_neg (show ¬ ((1 : Fin 2) ∈ (scatterRowsDims N E D wf).scatterDimsToOperandDims) from hne),
    dif_pos (show (1 : Fin 2) ∈ (scatterRowsDims N E D wf).sKept from List.mem_filter.mpr ⟨List.mem_finRange _, by simpa using hne⟩)]
  simp only [Int.zero_add]
  rfl

/-- Update `(e, k')` lands on the table's entry `(c, k)` exactly when it is in column `k` and its index, read signed,
    is `c`. -/
theorem scatterRows_resultIdx_iff {N E D w : ℕ} (wf : ScatterDims.WF ⟨2, ![N, D]⟩ ⟨2, ![E, 1]⟩ ⟨2, ![E, D]⟩ [1] [0] [0] 1)
    (idx : IVec ⟨2, ![E, 1]⟩ w) (e : Fin E) (k' : Fin D) (c : Fin N) (k : Fin D) :
    (scatterRowsDims N E D wf).resultIdx? (ix2 e k') idx = some (ix2 c k)
      ↔ k' = k ∧ (idx (ix2 e (0 : Fin 1))).toInt = (c.val : ℤ) := by
  have hr := scatterRows_land_row wf idx e k'
  have hc := scatterRows_land_col wf idx e k'
  unfold ScatterDims.resultIdx?
  split
  · rename_i h
    rw [Option.some.injEq]
    have b0 := h (0 : Fin 2)
    have b1 := h (1 : Fin 2)
    constructor
    · intro hf
      have e0 : ((scatterRowsDims N E D wf).start (ix2 e k') idx (0 : Fin 2)
          + ((scatterRowsDims N E D wf).window (ix2 e k') (0 : Fin 2) : ℤ)).toNat = c.val :=
        congrArg (fun f : (⟨2, ![N, D]⟩ : Shape).Idx => (f (0 : Fin 2)).val) hf
      have e1 : ((scatterRowsDims N E D wf).start (ix2 e k') idx (1 : Fin 2)
          + ((scatterRowsDims N E D wf).window (ix2 e k') (1 : Fin 2) : ℤ)).toNat = k.val :=
        congrArg (fun f : (⟨2, ![N, D]⟩ : Shape).Idx => (f (1 : Fin 2)).val) hf
      rw [hr] at e0 b0
      rw [hc] at e1
      exact ⟨Fin.ext (by omega), by omega⟩
    · rintro ⟨rfl, hi⟩
      funext a
      refine Fin.ext ?_
      match a with
      | ⟨0, _⟩ =>
        show ((scatterRowsDims N E D wf).start (ix2 e k') idx (0 : Fin 2)
          + ((scatterRowsDims N E D wf).window (ix2 e k') (0 : Fin 2) : ℤ)).toNat = c.val
        rw [hr]; omega
      | ⟨1, _⟩ =>
        show ((scatterRowsDims N E D wf).start (ix2 e k') idx (1 : Fin 2)
          + ((scatterRowsDims N E D wf).window (ix2 e k') (1 : Fin 2) : ℤ)).toNat = k'.val
        rw [hc]; omega
  · rename_i h
    constructor
    · intro hf; exact absurd hf (by simp)
    · rintro ⟨rfl, hi⟩
      exfalso; apply h
      intro a
      match a with
      | ⟨0, _⟩ =>
        show 0 ≤ (scatterRowsDims N E D wf).start (ix2 e k') idx (0 : Fin 2)
            + ((scatterRowsDims N E D wf).window (ix2 e k') (0 : Fin 2) : ℤ)
          ∧ (scatterRowsDims N E D wf).start (ix2 e k') idx (0 : Fin 2)
            + ((scatterRowsDims N E D wf).window (ix2 e k') (0 : Fin 2) : ℤ) < (N : ℤ)
        rw [hr, hi]; have := c.isLt; omega
      | ⟨1, _⟩ =>
        show 0 ≤ (scatterRowsDims N E D wf).start (ix2 e k') idx (1 : Fin 2)
            + ((scatterRowsDims N E D wf).window (ix2 e k') (1 : Fin 2) : ℤ)
          ∧ (scatterRowsDims N E D wf).start (ix2 e k') idx (1 : Fin 2)
            + ((scatterRowsDims N E D wf).window (ix2 e k') (1 : Fin 2) : ℤ) < (D : ℤ)
        rw [hc]; have := k'.isLt; omega

/-- The accumulating row scatter at `(c, k)`, over the extended reals: the table's entry plus the sum of the updates'
    entries `(e, k)` over the rows `e` whose index, read signed, is `c`. -/
theorem scatterAdd_rows_apply {N E D w : ℕ} (wf : ScatterDims.WF ⟨2, ![N, D]⟩ ⟨2, ![E, 1]⟩ ⟨2, ![E, D]⟩ [1] [0] [0] 1)
    {φ : FTy} (x : FVec Ideal ⟨2, ![N, D]⟩ φ) (idx : IVec ⟨2, ![E, 1]⟩ w) (upd : FVec Ideal ⟨2, ![E, D]⟩ φ)
    (c : Fin N) (k : Fin D) :
    Host.scatterAdd (scatterRowsDims N E D wf) x idx upd (ix2 c k)
      = x (ix2 c k) + ∑ e : Fin E, if (idx (ix2 e (0 : Fin 1))).toInt = (c.val : ℤ) then upd (ix2 e k) else 0 := by
  show x (ix2 c k) + ∑ j ∈ Finset.univ.filter (fun j => (scatterRowsDims N E D wf).resultIdx? j idx = some (ix2 c k)), upd j = _
  congr 1
  rw [Finset.sum_filter, sum_idx2]
  refine Finset.sum_congr rfl fun e _ => ?_
  simp only [scatterRows_resultIdx_iff wf idx e _ c k]
  by_cases hi : (idx (ix2 e (0 : Fin 1))).toInt = (c.val : ℤ)
  · simp only [hi, and_true, if_true]
    rw [Finset.sum_ite_eq' Finset.univ k (fun k' => upd (ix2 e k'))]
    simp
  · simp only [hi, and_false, if_false]
    exact Finset.sum_const_zero

end ScatterRows

/-! ## The same two operations on a vector -/

section Vec
variable {α : Type}

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The dimension numbers of a vector scatter: operand `[N]`, scatter indices `[E, 1]`, updates `[E]`; no window axis,
    the operand's one axis is inserted and indexed. -/
abbrev scatterVecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at the signed index `idx (e, 0)`. -/
theorem scatterVec_land {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx (0 : Fin 1) + ((scatterVecDims N E wf).window (ix1 e) (0 : Fin 1) : ℤ)
      = (idx (ix2 e (0 : Fin 1))).toInt := by
  have hmem : (0 : Fin 1) ∈ [(0 : Fin 1)] := List.mem_singleton.mpr rfl
  unfold ScatterDims.start ScatterDims.window
  rw [dif_pos (show (0 : Fin 1) ∈ (scatterVecDims N E wf).scatterDimsToOperandDims from hmem),
    dif_neg (show ¬ ((0 : Fin 1) ∈ (scatterVecDims N E wf).sKept) from fun h => (List.mem_filter.mp h).2 |> fun h' => by simpa using h')]
  have hsi : (scatterVecDims N E wf).siIdx (ix1 e) ⟨List.idxOf (0 : Fin 1) (scatterVecDims N E wf).scatterDimsToOperandDims,
      List.idxOf_lt_length_iff.2 hmem⟩ = ix2 e (0 : Fin 1) := by
    funext b; refine Fin.ext ?_
    match b with
    | ⟨0, _⟩ => rfl
    | ⟨1, _⟩ => rfl
  rw [hsi]
  simp

/-- Update `e` lands on the vector's entry `c` exactly when its index, read signed, is `c`. -/
theorem scatterVec_resultIdx_iff {N E w : ℕ} (wf : ScatterDims.WF ⟨1, ![N]⟩ ⟨2, ![E, 1]⟩ ⟨1, ![E]⟩ [] [0] [0] 1)
    (idx : IVec ⟨2, ![E, 1]⟩ w) (e : Fin E) (c : Fin N) :
    (scatterVecDims N E wf).resultIdx? (ix1 e) idx = some (ix1 c) ↔ (idx (ix2 e (0 : Fin 1))).toInt = (c.val : ℤ) := by
  have hr := scatterVec_land wf idx e
  unfold ScatterDims.resultIdx?
  split
  · rename_i h
    rw [Option.some.injEq]
    have b0 := h (0 : Fin 1)
    constructor
    · intro hf
      have e0 : ((scatterVecDims N E wf).start (ix1 e) idx (0 : Fin 1)
          + ((scatterVecDims N E wf).window (ix1 e) (0 : Fin 1) : ℤ)).toNat = c.val :=
        congrArg (fun f : (⟨1, ![N]⟩ : Shape).Idx => (f (0 : Fin 1)).val) hf
      rw [hr] at e0 b0
      omega
    · intro hi
      funext a
      refine Fin.ext ?_
      match a with
      | ⟨0, _⟩ =>
        show ((scatterVecDims N E wf).start (ix1 e) idx (0 : Fin 1)
          + ((scatterVecDims N E wf).window (ix1 e) (0 : Fin 1) : ℤ)).toNat = c.val
        rw [hr]; omega
  · rename_i h
    constructor
    · intro hf; exact absurd hf (by simp)
    · intro hi
      exfalso; apply h
      intro a
      match a with
      | ⟨0, _⟩ =>
        show 0 ≤ (scatterVecDims N E wf).start (ix1 e) idx (0 : Fin 1)
            + ((scatterVecDims N E wf).window (ix1 e) (0 : Fin 1) : ℤ)
          ∧ (scatterVecDims N E wf).start (ix1 e) idx (0 : Fin 1)
            + ((scatterVecDims N E wf).window (ix1 e) (0 : Fin 1) : ℤ) < (N : ℤ)
        rw [hr, hi]; have := c.isLt; omega

/-- The accumulating vector scatter at `c`, over the extended reals: the vector's entry plus the sum of the updates
    `upd e` over the `e` whose index, read signed, is `c`. -/
theorem scatterAdd_vec_apply {N E w : ℕ} (wf : ScatterDims.WF ⟨1, ![N]⟩ ⟨2, ![E, 1]⟩ ⟨1, ![E]⟩ [] [0] [0] 1)
    {φ : FTy} (x : FVec Ideal ⟨1, ![N]⟩ φ) (idx : IVec ⟨2, ![E, 1]⟩ w) (upd : FVec Ideal ⟨1, ![E]⟩ φ) (c : Fin N) :
    Host.scatterAdd (scatterVecDims N E wf) x idx upd (ix1 c)
      = x (ix1 c) + ∑ e : Fin E, if (idx (ix2 e (0 : Fin 1))).toInt = (c.val : ℤ) then upd (ix1 e) else 0 := by
  show x (ix1 c) + ∑ j ∈ Finset.univ.filter (fun j => (scatterVecDims N E wf).resultIdx? j idx = some (ix1 c)), upd j = _
  congr 1
  rw [Finset.sum_filter, sum_idx1]
  refine Finset.sum_congr rfl fun e _ => ?_
  simp only [scatterVec_resultIdx_iff wf idx e c]

/-- The dimension numbers of a vector gather: operand `[N]`, start indices `[E, 1]`, result `[E]`; no offset axis, the
    operand's one axis is collapsed and indexed, a slice is one entry. -/
abbrev gatherVecDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at `e`: the vector at `idx (e, 0)`, read signed and clamped. -/
theorem gather_vec_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The concatenation of `u : [A]` and `v : [B]` at `e`: `u e` below `A`, `v (e − A)` from `A` on. -/
theorem concatenate2_vec_apply {A B C : ℕ} (hC : A + B = C) (u : (⟨1, ![A]⟩ : Shape).Idx → α)
    (v : (⟨1, ![B]⟩ : Shape).Idx → α)
    (h : Shape.Concatenates ([(⟨⟨1, ![A]⟩, u⟩ : (s : Shape) × (s.Idx → α)), ⟨⟨1, ![B]⟩, v⟩].map (·.1)) ⟨1, ![C]⟩ 0)
    (e : Fin C) :
    concatenate ⟨1, ![C]⟩ 0 [⟨⟨1, ![A]⟩, u⟩, ⟨⟨1, ![B]⟩, v⟩] h (ix1 e)
      = if hlt : e.val < A then u (ix1 ⟨e.val, hlt⟩) else v (ix1 ⟨e.val - A, by have := e.isLt; omega⟩) := by
  by_cases hlt : e.val < A
  · rw [dif_pos hlt]
    refine concatenate_pair_apply_left (t := ⟨1, ![C]⟩) (s₁ := ⟨1, ![A]⟩) (s₂ := ⟨1, ![B]⟩) 0 u v h (ix1 e) rfl
      (ix1 ⟨e.val, hlt⟩) ?_
    intro b
    obtain rfl : b = 0 := Subsingleton.elim _ _
    rfl
  · rw [dif_neg hlt]
    refine concatenate_pair_apply_right (t := ⟨1, ![C]⟩) (s₁ := ⟨1, ![A]⟩) (s₂ := ⟨1, ![B]⟩) 0 u v h (ix1 e) rfl rfl
      (ix1 ⟨e.val - A, by have := e.isLt; omega⟩) ?_ ?_
    · intro b hb
      exact absurd (Subsingleton.elim _ _) hb
    · show e.val - A + A = e.val
      omega

end Vec

end Cert.Lib.IndexedRows

end
-- ==== Proof.RefValue.lean ====
/-
  The reference's composed term is the score.

  Under the range fact of the input domain — every index word is at most 999 read unsigned — the term the reference's
  operations compose (`RefRun.out`, at the extended reals) is the trilinear score of the specification: the word is not
  negative as a signed word, so the wrap leaves it; the in-range mask is all ones, so the look-up returns the gathered row
  and never the not-a-number constant; the gathered row is the table's row the word names; and the sum over the feature
  axis from the zero word is zero plus the sum over the 64 features.
-/
import proofs.«205660_g30348238913567_cont_9to1_1764_14_alg».proof.Proof.RefRun
import proofs.«205660_g30348238913567_cont_9to1_1764_14_alg».proof.Proof.Spec
import proofs.«205660_g30348238913567_cont_9to1_1764_14_alg».proof.Proof.LibSignedWord
import proofs.«205660_g30348238913567_cont_9to1_1764_14_alg».proof.Proof.LibGatherRows
import proofs.«205660_g30348238913567_cont_9to1_1764_14_alg».proof.Proof.LibIndexedRows
import Idealize.ShloMosaic.Lib.IdealHost

noncomputable section

open scoped BigOperators

namespace Cert.Proof.RefValue

open Cert.ReferenceIdeal Cert.ReferenceIdeal.Gen Idealize.ShloMosaic Idealize.ShloMosaic.ValueIdx

/-- A word at most 999 is not negative read signed, so the wrap by the table's height leaves it. -/
theorem wrap_eq (a1 : IVec S16384 32) (hle : ∀ b, (a1 b).toNat ≤ 999) :
    select (cmpi .slt a1 (broadcastInDim S16384 ![] bcast_S_S16384 (constantI S_ 32 0#32)))
      (addi a1 (broadcastInDim S16384 ![] bcast_S_S16384 (constantI S_ 32 1000#32))) a1 = a1 := by
  funext b
  show Scalar.select (IntOp.cmpi .slt (a1 b) 0#32) _ (a1 b) = a1 b
  rw [Cert.LibSignedWord.cmpi_slt_zero_of_lt (a1 b) (by have := hle b; omega)]
  exact select_zero _ _

/-- The index words as a column: every entry is one of the words. -/
theorem col_le (a1 : IVec S16384 32) (hle : ∀ b, (a1 b).toNat ≤ 999) (i : S16384x1.Idx) :
    (broadcastInDim S16384x1 ![0] bcast_S16384_S16384x1_0 a1 i).toNat ≤ 999 := by
  show (a1 _).toNat ≤ 999
  exact hle _

/-- The column at row `e` is word `e`. -/
theorem col_apply (a1 : IVec S16384 32) (e : Fin 16384) :
    broadcastInDim S16384x1 ![0] bcast_S16384_S16384x1_0 a1 (ix2 e (0 : Fin 1)) = a1 (ix1 e) :=
  broadcastInDim_apply _ _ _ _ (ix1 e) fun a => by
    match a with
    | ⟨0, _⟩ => rfl

/-- The in-range mask is all ones: every word is at least 0 and at most 999 read signed. -/
theorem mask_eq_one (a1 : IVec S16384 32) (hle : ∀ b, (a1 b).toNat ≤ 999) (b : S16384.Idx) :
    Host.reduce IntOp.andi
      (andi (cmpi .sge (broadcastInDim S16384x1 ![0] bcast_S16384_S16384x1_0 a1)
          (broadcastInDim S16384x1 ![] bcast_S_S16384x1 (constantI S_ 32 0#32)))
        (cmpi .sle (broadcastInDim S16384x1 ![0] bcast_S16384_S16384x1_0 a1)
          (broadcastInDim S16384x1 ![0, 1] bcast_S1x1_S16384x1_0_1
            (broadcastInDim S1x1 ![1] bcast_S1_S1x1_1 (constantI S1 32 999#32)))))
      (constantI S_ 1 1#1) reducesTo_S16384x1_S16384_d1 h_S_ b = 1#1 := by
  refine Cert.LibGatherRows.reduce_andi_eq_one_of_forall _ _ _ _ b rfl fun i _ => ?_
  have hi := col_le a1 hle i
  show IntOp.andi (IntOp.cmpi .sge (broadcastInDim S16384x1 ![0] bcast_S16384_S16384x1_0 a1 i) 0#32)
    (IntOp.cmpi .sle (broadcastInDim S16384x1 ![0] bcast_S16384_S16384x1_0 a1 i) (BitVec.ofNat 32 999)) = 1#1
  exact IntOp.andi_eq_one.2 ⟨Cert.LibSignedWord.cmpi_sge_zero_of_lt _ (by omega),
    Cert.LibSignedWord.cmpi_sle_ofNat_of_le _ 999 (by decide) hi⟩

/-- The gathered rows at (e, k): the table's row that word `e` names, column `k`. -/
theorem gather_apply (a3 : FVec Ideal S1000x64 .f32) (a1 : IVec S16384 32) (hle : ∀ b, (a1 b).toNat ≤ 999)
    (e : Fin 16384) (k : Fin 64) :
    Host.gather gather_S1000x64_S16384x1_S16384x64_1_0_n_n_0_1_164 a3
        (broadcastInDim S16384x1 ![0] bcast_S16384_S16384x1_0 a1) (ix2 e k)
      = a3 (ix2 (Cert.Spec.relRow (a1 (ix1 e))) k) := by
  refine (Cert.Lib.IndexedRows.gather_rows_apply (N := 1000) (E := 16384) (D := 64) (by decide)
    gather_S1000x64_S16384x1_S16384x64_1_0_n_n_0_1_164_wf a3 _ e k).trans ?_
  rw [col_apply a1 e]
  refine congrArg (fun r => a3 (ix2 r k)) (Fin.ext ?_)
  show min (a1 (ix1 e)).toInt.toNat (1000 - 1) = min (a1 (ix1 e)).toNat 999
  rw [Cert.LibSignedWord.toInt_toNat_of_lt _ (by have := hle (ix1 e); omega)]

/-- Where the mask is all ones the choice by the mask, spread over the features, is its first branch. -/
theorem select_spread_one {v : IVec S16384 1} (h : ∀ b, v b = 1#1) (x y : FVec Ideal S16384x64 .f32) (i : S16384x64.Idx) :
    select (broadcastInDim S16384x64 ![0] bcast_S16384_S16384x64_0 v) x y i = x i := by
  show Scalar.select (v _) (x i) (y i) = x i
  rw [h]
  exact select_one _ _

/-- The sum over the feature axis from the zero word, at triple `e`: the sum over the 64 features. -/
theorem sum_features (X : FVec Ideal S16384x64 .f32) (e : Fin 16384) :
    Host.reduceAdd X (constant S_ .f32 0x00000000#32) reducesTo_S16384x64_S16384_d1 h_S_ (ix1 e)
      = ∑ k : Fin 64, X (ix2 e k) := by
  have hred : S16384x64.Reduces [1] S16384 := by decide
  rw [hostReduceAdd_apply, Ideal.hostReduceAdd_single reducesTo_S16384x64_S16384_d1 hred]
  show Ideal.ofBits .f32 0x00000000#32 + _ = _
  rw [Ideal.ofBits_zero_f32, zero_add]
  show ∑ k : Fin 64, X (hred.lift (ix1 e) k) = ∑ k : Fin 64, X (ix2 e k)
  refine Finset.sum_congr rfl fun k _ => congrArg X ?_
  funext a
  refine Fin.ext ?_
  match a with
  | ⟨0, _⟩ => rfl
  | ⟨1, _⟩ => rfl

/-- THE REFERENCE'S TERM IS THE SCORE, where every index word is at most 999. -/
theorem out_eq_score (a0 : FVec Ideal S16384x64 .f32) (a1 : IVec S16384 32) (a2 : FVec Ideal S16384x64 .f32)
    (a3 : FVec Ideal S1000x64 .f32) (hle : ∀ b, (a1 b).toNat ≤ 999) :
    Cert.Proof.RefRun.out (F := Ideal) a0 a1 a2 a3 = Cert.Spec.score a0 a1 a2 a3 := by
  funext b
  obtain ⟨e, rfl⟩ : ∃ e : Fin 16384, b = ix1 e := ⟨b 0, eq_ix1 b⟩
  unfold Cert.Proof.RefRun.out
  simp only [wrap_eq a1 hle]
  rw [sum_features]
  unfold Cert.Spec.score
  refine Finset.sum_congr rfl fun k _ => ?_
  rw [mulf_apply, mulf_apply, select_spread_one (mask_eq_one a1 hle), gather_apply a3 a1 hle e k]

end Cert.Proof.RefValue

end
-- ==== Proof.RefSide.lean ====
/-
  The reference's side of the certificate: under the input domain, the reference runs, ends with the specification's
  score in its result buffer, and leaves its four arguments unchanged.

  The run and its composed term are `RefRun.run`; the input domain's range fact (`PreRange.idx_le`) makes that term the
  score (`RefValue.out_eq_score`).
-/
import proofs.«205660_g30348238913567_cont_9to1_1764_14_alg».proof.Defs
import proofs.«205660_g30348238913567_cont_9to1_1764_14_alg».proof.Proof.Gen.ReferenceIdeal
import proofs.«205660_g30348238913567_cont_9to1_1764_14_alg».proof.Proof.Gen.Pre_input_domain
import proofs.«205660_g30348238913567_cont_9to1_1764_14_alg».proof.Proof.Spec
import proofs.«205660_g30348238913567_cont_9to1_1764_14_alg».proof.Proof.PreRange
import proofs.«205660_g30348238913567_cont_9to1_1764_14_alg».proof.Proof.RefRun
import proofs.«205660_g30348238913567_cont_9to1_1764_14_alg».proof.Proof.RefValue

noncomputable section

namespace Cert.Proof.RefSide

open Idealize.ShloMosaic Idealize.ShloMosaic.TcCoe Idealize.SL.Sem

/-- Under the input domain every weakly fair execution of the reference terminates with the score of its arguments'
    launch contents in the result buffer and the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v3) = Cert.Spec.score (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (Cert.Proof.RefValue.out_eq_score _ _ _ _
        (Cert.Proof.PreRange.idx_le (F := Ideal) _ _ _ _ (hpre c))), (h c).2⟩)
    (Cert.Proof.RefRun.run (F := Ideal) m' g')

end Cert.Proof.RefSide

end
-- ==== Proof.KVal.lean ====
/-
  What the kernel computes, as one function of the four argument arrays, for any float instance.

  Before the kernel runs the head and tail batches are transposed (features become rows) and the relation table is padded
  on the right from 64 to 128 columns with zeros. A triple `b` is handled in lane `b mod 16` of its group of sixteen; at
  trip `k` of the feature loop that lane reads feature column `(b mod 16 + k) mod 64`, so a group's sixteen lanes walk the
  64 features along a diagonal. The lane's accumulator starts at the zero word and at each trip adds
  head · relation · tail at that column, multiplied in this order. After 64 trips the accumulator is the triple's result.
-/
import Idealize.ShloMosaic.PureOps.Ideal
import Idealize.ShloMosaic.Lib.ValueIdx
import proofs.«205660_g30348238913567_cont_9to1_1764_14_alg».proof.Proof.Spec

noncomputable section

namespace Cert.KVal

open Idealize.ShloMosaic Idealize.ShloMosaic.ValueIdx Cert.Spec

/-- The transposed batch: 64 feature rows of 16384 triples. -/
abbrev SDB : Shape := ⟨2, ![64, 16384]⟩
/-- The padded relation table: 1000 rows of 128 columns. -/
abbrev SRP : Shape := ⟨2, ![1000, 128]⟩
/-- The scalar shape. -/
abbrev S0 : Shape := ⟨0, ![]⟩

theorem tr : SBD.Transposes [1, 0] SDB := by decide
theorem pd : SRD.Pads (![0, 0] : Fin 2 → Nat) ![0, 64] ![0, 0] SRP := by decide
theorem h0 : 0 < S0.numel := by decide

variable {F : FTy → Type} [FloatOps F]

/-- A batch of rows transposed: entry `(d, b)` is entry `(b, d)` of the batch. -/
def HT (h : FVec F SBD .f32) : FVec F SDB .f32 := transpose SDB [1, 0] h tr

/-- The relation table padded on the right with the float of the integer zero. -/
def RP (rel : FVec F SRD .f32) : FVec F SRP .f32 :=
  pad SRP ![0, 0] ![0, 64] ![0, 0] rel (sitofp .f32 (constantI S0 32 0#32) : FVec F S0 .f32) pd h0

/-- The feature column the lane of triple `b` reads at trip `k`. -/
def col (b : Fin 16384) (k : ℕ) : Fin 64 := ⟨(b.val % 16 + k) % 64, Nat.mod_lt _ (by decide)⟩
/-- The same column, as a column of the padded table. -/
def colW (b : Fin 16384) (k : ℕ) : Fin 128 := ⟨(b.val % 16 + k) % 64, Nat.lt_of_lt_of_le (Nat.mod_lt _ (by decide)) (by decide)⟩

/-- What trip `k` adds to the accumulator of triple `b`: head · relation · tail at the trip's column. -/
def term (ht tt : FVec F SDB .f32) (rp : FVec F SRP .f32) (idx : IVec SB 32) (b : Fin 16384) (k : ℕ) : F .f32 :=
  FloatOps.mulf (FloatOps.mulf (ht (ix2 (col b k) b)) (rp (ix2 (relRow (idx (ix1 b))) (colW b k)))) (tt (ix2 (col b k) b))

/-- The accumulator of triple `b` after `k` trips. -/
def accAt (ht tt : FVec F SDB .f32) (rp : FVec F SRP .f32) (idx : IVec SB 32) (b : Fin 16384) : ℕ → F .f32
  | 0 => Scalar.ofBits .f32 0x00000000#32
  | k + 1 => FloatOps.addf (accAt ht tt rp idx b k) (term ht tt rp idx b k)

/-- The kernel's result: every triple's accumulator after the 64 trips. -/
def kval (h : FVec F SBD .f32) (idx : IVec SB 32) (t : FVec F SBD .f32) (rel : FVec F SRD .f32) : FVec F SB .f32 :=
  fun b => accAt (HT h) (HT t) (RP rel) idx (b 0) 64

end Cert.KVal

end
-- ==== Proof.LibDiagonalSum.lean ====
/-
  A sum read along a rotated index, and a running sum unfolded.

  For an additive commutative monoid `M`, a positive `n` and any offset `l`, the map `k ↦ (l + k) % n` permutes
  `{0, …, n − 1}` (it is addition of `l` in `Fin n`), so a sum whose `k`-th term is read at index `(l + k) % n` is the plain
  sum over the indices. This module proves, for all such `M`, `n`, `l`:
  * `sum_range_add_mod`: for `f : ℕ → M`, `∑ k ∈ range n, f ((l + k) % n) = ∑ d ∈ range n, f d`;
  * `sum_range_add_mod_fin`: for `f : Fin n → M`, `∑ k ∈ range n, f ⟨(l + k) % n, _⟩ = ∑ d : Fin n, f d`;
  * `sum_fin_add_mod`: the same with the left side summed over `k : Fin n`;
  and, for a sequence given by a start value and one addition per step,
  * `fold_add_eq_sum`: if `a 0 = z` and `a (k + 1) = a k + g k` for every `k`, then `a n = z + ∑ k ∈ range n, g k`.
-/
import Mathlib

open scoped BigOperators

namespace Cert.LibDiagonalSum

variable {M : Type*} [AddCommMonoid M]

/-- Summing `f` over `Fin n` at the indices `(l + k) % n`, `k : Fin n`, is summing `f` over `Fin n`: adding `l` is a
    bijection of `Fin n`. -/
theorem sum_fin_add_mod {n : ℕ} (hn : 0 < n) (l : ℕ) (f : Fin n → M) :
    ∑ k : Fin n, f ⟨(l + k.val) % n, Nat.mod_lt _ hn⟩ = ∑ d : Fin n, f d := by
  haveI : NeZero n := ⟨Nat.pos_iff_ne_zero.mp hn⟩
  let c : Fin n := ⟨l % n, Nat.mod_lt _ hn⟩
  have hterm : ∀ k : Fin n, (⟨(l + k.val) % n, Nat.mod_lt _ hn⟩ : Fin n) = Equiv.addLeft c k := by
    intro k
    refine Fin.ext ?_
    show (l + k.val) % n = (c + k).val
    rw [Fin.val_add]
    show (l + k.val) % n = (l % n + k.val) % n
    rw [Nat.mod_add_mod]
  calc ∑ k : Fin n, f ⟨(l + k.val) % n, Nat.mod_lt _ hn⟩
      = ∑ k : Fin n, f (Equiv.addLeft c k) := Finset.sum_congr rfl fun k _ => by rw [hterm k]
    _ = ∑ d : Fin n, f d := Equiv.sum_comp (Equiv.addLeft c) f

/-- The same with the rotated side summed over `range n`. -/
theorem sum_range_add_mod_fin {n : ℕ} (hn : 0 < n) (l : ℕ) (f : Fin n → M) :
    ∑ k ∈ Finset.range n, f ⟨(l + k) % n, Nat.mod_lt _ hn⟩ = ∑ d : Fin n, f d := by
  rw [Finset.sum_range fun k => f ⟨(l + k) % n, Nat.mod_lt _ hn⟩]
  exact sum_fin_add_mod hn l f

/-- For a function of a natural index: the sum over `k < n` of `f ((l + k) % n)` is the sum over `d < n` of `f d`. -/
theorem sum_range_add_mod {n : ℕ} (hn : 0 < n) (l : ℕ) (f : ℕ → M) :
    ∑ k ∈ Finset.range n, f ((l + k) % n) = ∑ d ∈ Finset.range n, f d := by
  rw [Finset.sum_range f]
  exact sum_range_add_mod_fin hn l fun d => f d.val

/-- A sequence that starts at `z` and adds `g k` at step `k` is, after `n` steps, `z` plus the sum of the first `n`
    values of `g`. -/
theorem fold_add_eq_sum (z : M) (g a : ℕ → M) (h0 : a 0 = z) (hs : ∀ k, a (k + 1) = a k + g k) (n : ℕ) :
    a n = z + ∑ k ∈ Finset.range n, g k := by
  induction n with
  | zero => rw [Finset.range_zero, Finset.sum_empty, add_zero, h0]
  | succ m ih => rw [hs m, ih, Finset.sum_range_succ, add_assoc]

end Cert.LibDiagonalSum
-- ==== Proof.KValIdeal.lean ====
/-
  The kernel's value at the ideal float instance is the trilinear score.

  At the extended reals the float product and sum are `*` and `+` and the zero word is `0`. A transposed batch read at
  `(d, b)` is the batch at `(b, d)`; the padded table read at a column below 64 is the table there. So the accumulator of
  triple `b` after 64 trips is `0 + Σ_{k<64} g ((b mod 16 + k) mod 64)` with `g d = h(b, d) · rel(row, d) · t(b, d)`,
  and since `k ↦ (l + k) mod 64` permutes the 64 features that is `Σ_{d<64} g d`, the score. Only `+` is reordered, and
  `+` on the extended reals is commutative and associative, so nothing is assumed about the entries or the index words.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.KernelVsHost
import proofs.«205660_g30348238913567_cont_9to1_1764_14_alg».proof.Proof.Spec
import proofs.«205660_g30348238913567_cont_9to1_1764_14_alg».proof.Proof.KVal
import proofs.«205660_g30348238913567_cont_9to1_1764_14_alg».proof.Proof.LibDiagonalSum

noncomputable section

open scoped BigOperators

namespace Cert.KVal

open Idealize.ShloMosaic Idealize.ShloMosaic.ValueIdx Cert.Spec

/-- A transposed batch at `(d, b)` is the batch at `(b, d)`, for every float instance. -/
theorem HT_apply {F : FTy → Type} [FloatOps F] (x : FVec F SBD .f32) (d : Fin 64) (b : Fin 16384) :
    HT x (ix2 d b) = x (ix2 b d) :=
  transpose_ix2_apply x tr d b

/-- The padded table at a column below 64 is the table at that column, for every float instance. -/
theorem RP_apply {F : FTy → Type} [FloatOps F] (rel : FVec F SRD .f32) (r : Fin 1000) (c : Fin 128) (hc : c.val < 64) :
    RP rel (ix2 r c) = rel (ix2 r (⟨c.val, hc⟩ : Fin 64)) := by
  unfold RP
  refine pad_apply_of_inside _ _ _ rel _ pd h0 _ _ fun a => ?_
  match a with
  | ⟨0, _⟩ => simp
  | ⟨1, _⟩ => simp

/-- The column of the padded table trip `k` reads is, as a column of the table, the trip's feature column. -/
theorem colW_eq (b : Fin 16384) (k : ℕ) (hc : (colW b k).val < 64) : (⟨(colW b k).val, hc⟩ : Fin 64) = col b k :=
  Fin.ext rfl

theorem colW_lt (b : Fin 16384) (k : ℕ) : (colW b k).val < 64 := Nat.mod_lt _ (by decide)

/-- The product of the three entries at feature `d` of triple `b`. -/
def prod3 (h : FVec Ideal SBD .f32) (idx : IVec SB 32) (t : FVec Ideal SBD .f32) (rel : FVec Ideal SRD .f32)
    (b : Fin 16384) (d : Fin 64) : EReal :=
  h (ix2 b d) * rel (ix2 (relRow (idx (ix1 b))) d) * t (ix2 b d)

/-- At the ideal instance trip `k` adds the product of the three entries at the trip's feature column. -/
theorem term_ideal (h : FVec Ideal SBD .f32) (idx : IVec SB 32) (t : FVec Ideal SBD .f32) (rel : FVec Ideal SRD .f32)
    (b : Fin 16384) (k : ℕ) :
    term (HT h) (HT t) (RP rel) idx b k = prod3 h idx t rel b (col b k) := by
  unfold term prod3
  rw [HT_apply, HT_apply, RP_apply rel _ _ (colW_lt b k), colW_eq]
  rfl

/-- At the ideal instance the accumulator after `n` trips is zero plus the sum of the first `n` trips' products. -/
theorem accAt_ideal (h : FVec Ideal SBD .f32) (idx : IVec SB 32) (t : FVec Ideal SBD .f32) (rel : FVec Ideal SRD .f32)
    (b : Fin 16384) (n : ℕ) :
    accAt (HT h) (HT t) (RP rel) idx b n = (0 : EReal) + ∑ k ∈ Finset.range n, prod3 h idx t rel b (col b k) := by
  refine Cert.LibDiagonalSum.fold_add_eq_sum (M := EReal) 0 (fun k => prod3 h idx t rel b (col b k))
    (fun n => accAt (HT h) (HT t) (RP rel) idx b n) ?_ (fun k => ?_) n
  · show Ideal.ofBits .f32 0x00000000#32 = 0
    exact Ideal.ofBits_zero_f32
  · show accAt (HT h) (HT t) (RP rel) idx b k + term (HT h) (HT t) (RP rel) idx b k = _
    rw [term_ideal]

/-- At the ideal instance the kernel's value is the score: the 64 trips of triple `b` read the 64 features once each,
    starting at feature `b mod 16` and going around. -/
theorem kval_ideal (h : FVec Ideal Cert.Spec.SBD .f32) (idx : IVec Cert.Spec.SB 32) (t : FVec Ideal Cert.Spec.SBD .f32) (rel : FVec Ideal Cert.Spec.SRD .f32) :
    kval (F := Ideal) h idx t rel = Cert.Spec.score h idx t rel := by
  funext b
  obtain ⟨a, rfl⟩ : ∃ a : Fin 16384, b = ix1 a := ⟨b 0, eq_ix1 b⟩
  show accAt (HT h) (HT t) (RP rel) idx a 64
    = ∑ d : Fin 64, h (ix2 a d) * rel (ix2 (relRow (idx (ix1 a))) d) * t (ix2 a d)
  rw [accAt_ideal, zero_add]
  exact Cert.LibDiagonalSum.sum_range_add_mod_fin (M := EReal) (n := 64) (by decide) (a.val % 16)
    (prod3 h idx t rel a)

end Cert.KVal

end
-- ==== Proof.KSetup.lean ====
/-
  The kernel program as the launch theorem sees it, the ghost state of its proof, the arrays it works on and what the
  handshakes carry.

  Thirty-two vector subcores (two SparseCores of sixteen) each score 512 consecutive triples. Subcore `(c, i)` has
  worker number `2 i + c` and owns triples `512 (2 i + c) …`. Subcore 0 of each SparseCore first copies the padded
  relation table into the SparseCore's shared memory; all sixteen then meet at the subcore barrier, after which each
  reads rows of the shared table by an indexed copy. The four arrays the subcores only read (the transposed heads and
  tails, the index words, the padded table) are dealt out as thirty-two read shares each; the result array is dealt by
  its thirty-two blocks of 512. The shared table travels across the barrier: subcore 0's arrival at subcore `j`'s
  barrier semaphore hands `j` a sixteenth share of the shared table, holding the padded relation table.
-/
import proofs.«205660_g30348238913567_cont_9to1_1764_14_alg».proof.Defs
import proofs.«205660_g30348238913567_cont_9to1_1764_14_alg».proof.Proof.KVal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205660_g30348238913567_cont_9to1_1764_14_alg».proof.Proof.Gen.KernelIdeal
import proofs.«205660_g30348238913567_cont_9to1_1764_14_alg».proof.Proof.Gen.KernelIdeal.Skeleton

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their contents -/

variable (m : (ℓ : Loc nD τ sig) → Buf (Elt F) ℓ) (ρ : Dev nD → PrngReg)

/-- The four arguments, the transposed heads and tails, the padded table and the result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev htLoc (d : Dev nD) : Loc nD τ sig := (SparseCore.T d).loc main_v0
abbrev ttLoc (d : Dev nD) : Loc nD τ sig := (SparseCore.T d).loc main_v1
abbrev rpLoc (d : Dev nD) : Loc nD τ sig := (SparseCore.T d).loc main_v2
abbrev oLoc (d : Dev nD) : Loc nD τ sig := (SparseCore.T d).loc main_v3

/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The contents the kernel finds: the heads and tails transposed, the table padded; and what it leaves in the result. -/
def HTv (d : Dev nD) : Buf (Elt F) (htLoc d) := Cert.KVal.HT (F := F) (m (a0Loc d))
def TTv (d : Dev nD) : Buf (Elt F) (ttLoc d) := Cert.KVal.HT (F := F) (m (a2Loc d))
def RPv (d : Dev nD) : Buf (Elt F) (rpLoc d) := Cert.KVal.RP (F := F) (m (a3Loc d))
def KV (d : Dev nD) : Buf (Elt F) (oLoc d) := Cert.KVal.kval (F := F) (m (a0Loc d)) (m (a1Loc d)) (m (a2Loc d)) (m (a3Loc d))
/-- The padded table as the shared memory's contents. -/
def RPsh (d : Dev nD) (c : Fin τ.nSC) : Buf (Elt F) (shLoc d c) := Cert.KVal.RP (F := F) (m (a3Loc d))

/-! ## Workers, their blocks of the result, their read shares -/

/-- Subcore `(c, i)`'s worker number. -/
def wid (c : Fin τ.nSC) (i : Fin τ.nSub) : Fin 32 := ⟨2 * i.val + c.val, by have := c.isLt; have := i.isLt; change c.val < 2 at *; change i.val < 16 at *; omega⟩

theorem hdiv32 : 32 ∣ S16384.size 0 := ⟨512, rfl⟩
/-- Worker `w`'s block of the result: triples `512 w …`. -/
abbrev oRect (w : Fin 32) : Rect S16384 := Rect.part (s := S16384) (a₀ := 0) hdiv32 w
abbrev oSet (w : Fin 32) : Finset S16384.Idx := (oRect w).set

/-- Worker `w`'s read share of an array dealt among the thirty-two. -/
abbrev tokS (w : Fin 32) : PosShare TreeShare := Transfers.shareTokN fullShare w.val
/-- Subcore `j`'s share of its SparseCore's shared table. -/
abbrev shTok (j : Fin τ.nSub) : PosShare TreeShare := Transfers.shareTokN fullShare j.val
/-- What is left of the shared table once the sixteen shares are dealt. -/
abbrev shRest : PosShare TreeShare := Transfers.shareDrop fullShare 16

/-- A worker's read shares of the four arrays the kernel only reads. -/
def rTok (d : Dev nD) (w : Fin 32) : sProp 𝕄 :=
  iprop((htLoc d ↦{tokS w} HTv m d) ∗ (a1Loc d ↦{tokS w} m (a1Loc d)) ∗ (ttLoc d ↦{tokS w} TTv m d) ∗ (rpLoc d ↦{tokS w} RPv m d))
/-- A worker's block of the result, at contents `f`. -/
abbrev oPart (d : Dev nD) (w : Fin 32) (f : Buf (Elt F) (oLoc d)) : sProp 𝕄 := oLoc d ↦[oSet w]{fullShare} f

/-- What the sequencer hands subcore `(c, i)` with its task: its read shares, its block of the result, and — to
    subcore 0 — the shared table, at whatever it holds. -/
def goP (d : Dev nD) (c : Fin τ.nSC) (i : Fin τ.nSub) : sProp 𝕄 :=
  iprop(rTok m d (wid c i) ∗ oPart d (wid c i) (m (oLoc d)) ∗ (if i.val = 0 then iprop(∃ f, shLoc d c ↦{fullShare} f) else iprop(emp)))
/-- What the subcore hands back: its read shares, its block at the scores, its sixteenth of the shared table holding
    the padded table, and — from subcore 0 — what was left of the shared table when the sixteenths were dealt. -/
def tdP (d : Dev nD) (c : Fin τ.nSC) (i : Fin τ.nSub) : sProp 𝕄 :=
  iprop(rTok m d (wid c i) ∗ oPart d (wid c i) (KV m d) ∗ (shLoc d c ↦{shTok i} RPsh m d c)
    ∗ (if i.val = 0 then iprop(shLoc d c ↦{shRest} RPsh m d c) else iprop(emp)))

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What an arrival at subcore `j`'s barrier semaphore hands `j`: subcore 0's, `j`'s share of the shared table holding
    the padded table; the others', nothing. -/
def bPay (g : GSem nD τ sig) (n : ℕ) : sProp 𝕄 :=
  match g with
  | ((d, .scVector c j), _) => if n = 0 then iprop(shLoc d c ↦{shTok j} RPsh m d c) else iprop(emp)
  | _ => iprop(emp)

/-- The barrier cells' schedule: one round on each, one unit per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl
theorem bRd_payload_zero (d : Dev nD) (c : Fin τ.nSC) (j : Fin τ.nSub) :
    (bRd (F := F) m).payload (bcell d c j) 0 0 = iprop(shLoc d c ↦{shTok j} RPsh m d c) := by
  show bPay m (bcell d c j) 0 = _; unfold bPay; exact if_pos rfl
theorem bRd_payload_succ (d : Dev nD) (c : Fin τ.nSC) (j : Fin τ.nSub) (n : ℕ) :
    (bRd (F := F) m).payload (bcell d c j) 0 (n + 1) = iprop(emp) := by
  show bPay m (bcell d c j) (n + 1) = _; unfold bPay; exact if_neg (Nat.succ_ne_zero n)

/-- What the launch has a subcore owe for the barrier: a unit on every subcore's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every cell invariant of its SparseCore's sixteen and that each has reached round 0,
    its duty token in every subcore's round 0, its own position at the origin of round 0, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => iprop(dutyTok EB (bcell d c (j.castLE hsub0)) 0 i.val
        ∗ reached EB (bcell d c (j.castLE hsub0)) 0))
    ∗ atPos EB (bcell d c i) 0 ∅ 0
    ∗ cred (tallyAt (bcell d c i) (some 0) (grid0.bound 1)))

/-! ## What the handshakes carry -/

/-- The one call: each SparseCore takes its sixteen subcores' read shares and result blocks and brings them back, the
    blocks at the scores; each subcore's proof consumes its barrier kit and owes its sixteen arrivals. -/
def P : (K (F := F)).Pay (nD := nD) (Val := Elt F) (Name := ℕ) (U := UU) where
  st := fun q d c => match q with
    | 0 => bigSep Finset.univ fun i : Fin τ.nSub => iprop(rTok m d (wid ((K (F := F)).core 0 c) i) ∗ oPart d (wid ((K (F := F)).core 0 c) i) (m (oLoc d)))
  dn := fun q d c => match q with
    | 0 => bigSep Finset.univ fun i : Fin τ.nSub => iprop(rTok m d (wid ((K (F := F)).core 0 c) i) ∗ oPart d (wid ((K (F := F)).core 0 c) i) (KV m d))
  go := fun q d c i => match q with | 0 => goP m d ((K (F := F)).core 0 c) ((K (F := F)).sub 0 i)
  td := fun q d c i => match q with | 0 => tdP m d ((K (F := F)).core 0 c) ((K (F := F)).sub 0 i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

end Cert.Proof.KernelIdealSide

end
-- ==== Proof.KBlock.lean ====
/-
  One block of 128 triples inside a vector subcore, for any float instance: the subcore holds the block's heads and
  tails transposed (64 feature rows of 128 triples) and the block's 128 relation rows (128 columns wide, the features
  in the first 64). Triple `r` of the block sits in lane `r mod 16` of its group; at trip `k` that lane reads feature
  column `(r mod 16 + k) mod 64`, and its accumulator, started at the zero word, adds head · relation · tail there.
-/
import Idealize.ShloMosaic.PureOps.Ideal
import Idealize.ShloMosaic.Lib.ValueIdx

noncomputable section

namespace Cert.KBlock

open Idealize.ShloMosaic Idealize.ShloMosaic.ValueIdx

/-- A block of transposed rows: 64 features of 128 triples. -/
abbrev SHB : Shape := ⟨2, ![64, 128]⟩
/-- A block of gathered relation rows: 128 rows of 128 columns. -/
abbrev SRB : Shape := ⟨2, ![128, 128]⟩
/-- A subcore's 512 results. -/
abbrev SOB : Shape := ⟨1, ![512]⟩

variable {F : FTy → Type} [FloatOps F]

/-- The feature column triple `r` of a block reads at trip `k`. -/
def lcol (r : Fin 128) (k : ℕ) : Fin 64 := ⟨(r.val % 16 + k) % 64, Nat.mod_lt _ (by decide)⟩
/-- The same column, as a column of a gathered relation row. -/
def lcolW (r : Fin 128) (k : ℕ) : Fin 128 := ⟨(r.val % 16 + k) % 64, Nat.lt_of_lt_of_le (Nat.mod_lt _ (by decide)) (by decide)⟩

/-- What trip `k` adds to the accumulator of the block's triple `r`. -/
def lterm (fh ft : FVec F SHB .f32) (fr : FVec F SRB .f32) (r : Fin 128) (k : ℕ) : F .f32 :=
  FloatOps.mulf (FloatOps.mulf (fh (ix2 (lcol r k) r)) (fr (ix2 r (lcolW r k)))) (ft (ix2 (lcol r k) r))

/-- The accumulator of the block's triple `r` after `k` trips. -/
def lacc (fh ft : FVec F SHB .f32) (fr : FVec F SRB .f32) (r : Fin 128) : ℕ → F .f32
  | 0 => Scalar.ofBits .f32 0x00000000#32
  | k + 1 => FloatOps.addf (lacc fh ft fr r k) (lterm fh ft fr r k)

/-- The subcore's result scratch after block number `sub` (of four) is scored: entries `128 sub … 128 sub + 127` hold
    the block's accumulators after 64 trips, every other entry is as before. -/
def OutAfter (sub : ℕ) (fh ft : FVec F SHB .f32) (fr : FVec F SRB .f32) (fo fo' : FVec F SOB .f32) : Prop :=
  ∀ j : Fin 512, fo' (ix1 j) = if h : 128 * sub ≤ j.val ∧ j.val < 128 * sub + 128 then lacc fh ft fr ⟨j.val - 128 * sub, by omega⟩ 64 else fo (ix1 j)

end Cert.KBlock

end
-- ==== Proof.KMem.lean ====
/-
  The arrays and scratch buffers of one vector subcore's task, spelt as the program addresses them, and the subcore's
  coordinates.
-/
import proofs.«205660_g30348238913567_cont_9to1_1764_14_alg».proof.Proof.KSetup
import proofs.«205660_g30348238913567_cont_9to1_1764_14_alg».proof.Proof.KBlock

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The five arrays in HBM, whole, as a vector subcore addresses them: transposed heads, index words, transposed tails,
    padded table, result. -/
abbrev aHT : Memref sig .scVector .hbm S64x16384 .f32 := Memref.whole main_v0_scv
abbrev aID : Memref sig .scVector .hbm S16384 .i32 := Memref.whole main_arg1_scv
abbrev aTT : Memref sig .scVector .hbm S64x16384 .f32 := Memref.whole main_v1_scv
abbrev aRP : Memref sig .scVector .hbm S1000x128 .f32 := Memref.whole main_v2_scv
abbrev aO : Memref sig .scVector .hbm S16384 .f32 := Memref.whole main_v3_scv
/-- The two slots of a subcore's scratch (index words, head block, tail block, gathered relation rows), its result
    scratch, and its SparseCore's shared table. -/
abbrev sI0 : Memref sig .scVector .vmem S128 .i32 := Memref.whole cc0_scratch0
abbrev sH0 : Memref sig .scVector .vmem S64x128 .f32 := Memref.whole cc0_scratch1
abbrev sT0 : Memref sig .scVector .vmem S64x128 .f32 := Memref.whole cc0_scratch2
abbrev sR0 : Memref sig .scVector .vmem S128x128 .f32 := Memref.whole cc0_scratch3
abbrev sI1 : Memref sig .scVector .vmem S128 .i32 := Memref.whole cc0_scratch7
abbrev sH1 : Memref sig .scVector .vmem S64x128 .f32 := Memref.whole cc0_scratch8
abbrev sT1 : Memref sig .scVector .vmem S64x128 .f32 := Memref.whole cc0_scratch9
abbrev sR1 : Memref sig .scVector .vmem S128x128 .f32 := Memref.whole cc0_scratch10
abbrev sOut : Memref sig .scVector .vmem S512 .f32 := Memref.whole cc0_scratch14
abbrev sSh : Memref sig .scVector .shared S1000x128 .f32 := Memref.whole cc0_scratch15

/-- The SparseCore and the subcore of grid point `L`. -/
abbrev cV (L : grid0.Coords) : Fin τ.nSC := (L 0).castLE hcore0
abbrev jV (L : grid0.Coords) : Fin τ.nSub := (L 1).castLE hsub0
/-- Its thread on device `d`. -/
abbrev thrV (d : Dev nD) (L : grid0.Coords) : Thread nD τ := V d (cV L) (jV L)

/-- The lane numbers `0 … 15`, as the kernel makes them. -/
abbrev lanes : IVec S16 32 := iota .scVector S16 32 [0] iota_S16_d0_w32_scVector

/-- What the proof asks of the launch memory: every index word names a row of the relation table. -/
def PreOK (m : (ℓ : Loc nD τ sig) → Buf (Elt F) ℓ) : Prop := ∀ (d : Dev nD) (b : S16384.Idx), (m (a1Loc d) b).toNat ≤ 999

end Cert.Proof.KernelIdealSide

end
-- ==== Proof.KStageWords.lean ====
/-
  The words and lanes of a block's scoring loops. A block's 128 triples are taken in eight groups of sixteen lanes; in
  group `g` lane `l` is triple `16 g + l`, and at trip `k` of the feature loop it reads feature column
  `(l + k) mod 64` of its own head, tail and relation row. The index vectors the kernel makes are these numbers as
  32-bit words, all in range; so one trip adds head · relation · tail at that column to each lane's accumulator, and a
  group's store rewrites sixteen consecutive entries of the result scratch.
-/
import proofs.«205660_g30348238913567_cont_9to1_1764_14_alg».proof.Proof.KMem

noncomputable section

namespace Cert.Proof.KernelIdealSide

open Cert.KernelIdeal Cert.KernelIdeal.Gen

open Idealize.ShloMosaic Idealize.ShloMosaic.ValueIdx

variable {F : FTy → Type}

/-! ## Lanes, accumulators and the result scratch, for any block -/

/-- Triple number `16 g + l` of a block, lane `l` of group `g` (reduced below 128 so that it names a row for every `g`). -/
def rowAt (g : ℕ) (l : Fin 16) : Fin 128 := ⟨(16 * g + l.val) % 128, Nat.mod_lt _ (by decide)⟩

/-- The carried vector of group `g` after `k` trips: lane `l` holds the accumulator of triple `16 g + l`. -/
def AccAt [FloatOps F] (fh ft : FVec F Cert.KBlock.SHB .f32) (fr : FVec F Cert.KBlock.SRB .f32) (g k : ℕ) (acc : FVec F S16 .f32) : Prop :=
  ∀ l : Fin 16, acc (ix1 l) = Cert.KBlock.lacc fh ft fr (rowAt g l) k

/-- What the result scratch holds once `k` groups of block number `sub` are scored: entries `128 sub … 128 sub + 16 k - 1`
    hold their triples' accumulators after 64 trips, every other entry is as at the start. -/
def OutPart [FloatOps F] (sub : ℕ) (fh ft : FVec F Cert.KBlock.SHB .f32) (fr : FVec F Cert.KBlock.SRB .f32) (fo : FVec F Cert.KBlock.SOB .f32)
    (k : ℕ) (fo' : FVec F Cert.KBlock.SOB .f32) : Prop :=
  ∀ j : Fin 512, fo' (ix1 j) = if 128 * sub ≤ j.val ∧ j.val < 128 * sub + 16 * k
    then Cert.KBlock.lacc fh ft fr ⟨(j.val - 128 * sub) % 128, Nat.mod_lt _ (by decide)⟩ 64 else fo (ix1 j)

theorem outPart_zero [FloatOps F] (sub : ℕ) (fh ft : FVec F Cert.KBlock.SHB .f32) (fr : FVec F Cert.KBlock.SRB .f32) (fo : FVec F Cert.KBlock.SOB .f32) :
    OutPart sub fh ft fr fo 0 fo := fun j => by
  rw [if_neg]; omega

theorem outPart_done [FloatOps F] (sub : ℕ) (fh ft : FVec F Cert.KBlock.SHB .f32) (fr : FVec F Cert.KBlock.SRB .f32) (fo fo' : FVec F Cert.KBlock.SOB .f32)
    (h : OutPart sub fh ft fr fo 8 fo') : Cert.KBlock.OutAfter sub fh ft fr fo fo' := fun j => by
  rw [h j]
  by_cases hj : 128 * sub ≤ j.val ∧ j.val < 128 * sub + 128
  · rw [dif_pos hj, if_pos (by omega)]
    congr 1
    exact Fin.ext (Nat.mod_eq_of_lt (by omega))
  · rw [dif_neg hj, if_neg (by omega)]

/-- One more group: the sixteen entries from `128 sub + 16 k` on rewritten with the group's carried vector. -/
theorem outPart_succ [FloatOps F] (sub : ℕ) (fh ft : FVec F Cert.KBlock.SHB .f32) (fr : FVec F Cert.KBlock.SRB .f32) (fo fo' fo'' : FVec F Cert.KBlock.SOB .f32)
    (k : ℕ) (hk : k < 8) (acc : FVec F S16 .f32) (h : OutPart sub fh ft fr fo k fo') (hacc : AccAt fh ft fr k 64 acc)
    (hw : ∀ j : Fin 512, fo'' (ix1 j) = if hj : 128 * sub + 16 * k ≤ j.val ∧ j.val < 128 * sub + 16 * k + 16
      then acc (ix1 ⟨j.val - (128 * sub + 16 * k), by omega⟩) else fo' (ix1 j)) :
    OutPart sub fh ft fr fo (k + 1) fo'' := fun j => by
  rw [hw j]
  by_cases hj : 128 * sub + 16 * k ≤ j.val ∧ j.val < 128 * sub + 16 * k + 16
  · rw [dif_pos hj, if_pos (by omega), hacc]
    congr 1
    refine Fin.ext ?_
    show (16 * k + (j.val - (128 * sub + 16 * k))) % 128 = (j.val - 128 * sub) % 128
    congr 1; omega
  · rw [dif_neg hj, h j]
    by_cases hj' : 128 * sub ≤ j.val ∧ j.val < 128 * sub + 16 * k
    · rw [if_pos hj', if_pos (by omega)]
    · rw [if_neg hj', if_neg (by omega)]

omit F in
/-- A store of sixteen lanes into the result scratch at offset `o`: entries `o … o + 15` take the lanes, the others stay. -/
theorem write_sOut {F : FTy → Type} (off : Fin 1 → ℕ) (o : ℕ) (ho : off = ![o]) (inb : ∀ a, off a + S16.size a ≤ S512.size a)
    (f : FVec F Cert.KBlock.SOB .f32) (w : FVec F S16 .f32) (j : Fin 512) :
    ((sOut : Memref sig .scVector .vmem S512 .f32).access (Rect.unit (s := S512) off S16.size inb)).write (Elt F) f w Finset.univ (ix1 j)
      = if hj : o ≤ j.val ∧ j.val < o + 16 then w (ix1 ⟨j.val - o, by omega⟩) else f (ix1 j) := by
  subst ho
  by_cases hj : o ≤ j.val ∧ j.val < o + 16
  · rw [dif_pos hj]
    have e : (ix1 j : S512.Idx) = ((sOut : Memref sig .scVector .vmem S512 .f32).access (Rect.unit (s := S512) ![o] S16.size inb)).emb (ix1 ⟨j.val - o, by omega⟩) := by
      funext a
      match a with
      | ⟨0, _⟩ => exact Fin.ext (by show j.val = o + 1 * (j.val - o); omega)
    rw [e, View.write_emb_of_mem _ _ (Finset.mem_univ _)]
    rfl
  · rw [dif_neg hj]
    refine View.write_of_not_mem _ _ _ fun hm => hj ?_
    obtain ⟨x, -, hx⟩ := Finset.mem_map.mp hm
    have hx0 := congrArg (fun i : S512.Idx => (i 0).val) hx
    have hxl : (x 0).val < 16 := (x 0).isLt
    change o + 1 * (x 0).val = j.val at hx0
    omega

/-! ## Block number 0: the words of its two loops -/

theorem tripsO_1 : k0_t1_loop.trips = 8 := by decide +kernel
theorem tripsI_1 : k0_t2_loop.trips = 64 := by decide +kernel

/-- Lane `l` of group `g`'s row vector is the word `16 g + l`. -/
theorem rows_toNat_1 : ∀ (l : Fin 16) (g : Fin k0_t1_loop.trips), (k0_pay5 lanes g (ix1 l)).toNat = 16 * g.val + l.val := by decide +kernel
/-- Lane `l` of trip `k`'s column vector is the word `(l + k) mod 64`. -/
theorem cols_toNat_1 : ∀ (l : Fin 16) (k : Fin k0_t2_loop.trips), (k0_pay7 lanes k (ix1 l)).toNat = (l.val + k.val) % 64 := by decide +kernel

/-- Every index the three gathers of a trip name is in range: rows below 128, columns below 64. -/
theorem chk_holds_1 (g : Fin k0_t1_loop.trips) (k : Fin k0_t2_loop.trips) : k0_chk1 (k0_pay5 lanes g) (k0_pay7 lanes k) := by
  have hg : g.val < 8 := lt_of_lt_of_eq g.isLt tripsO_1
  have h5 : ∀ x : S16.Idx, (k0_pay5 lanes g x).toNat < 128 := fun x => by
    obtain ⟨l, rfl⟩ : ∃ l : Fin 16, x = ix1 l := ⟨x 0, eq_ix1 (n := 16) x⟩
    have hl := l.isLt
    rw [rows_toNat_1]; omega
  have h7 : ∀ x : S16.Idx, (k0_pay7 lanes k x).toNat < 64 := fun x => by
    obtain ⟨l, rfl⟩ : ∃ l : Fin 16, x = ix1 l := ⟨x 0, eq_ix1 (n := 16) x⟩
    rw [cols_toNat_1]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_1 (g : Fin k0_t1_loop.trips) (k : Fin k0_t2_loop.trips) (l : Fin 16)
    (h : ∀ a x, ((![k0_pay7 lanes k, k0_pay5 lanes g] : Fin 2 → IVec S16 32) a x).toNat < S64x128.size a) :
    idxAt ![k0_pay7 lanes k, k0_pay5 lanes g] h (ix1 l) = ix2 (Cert.KBlock.lcol (rowAt g.val l) k.val) (rowAt g.val l) := by
  have hg : g.val < 8 := lt_of_lt_of_eq g.isLt tripsO_1
  have hl := l.isLt
  funext c
  match c with
  | ⟨0, _⟩ =>
    refine Fin.ext ?_
    show (k0_pay7 lanes k (ix1 l)).toNat = ((16 * g.val + l.val) % 128 % 16 + k.val) % 64
    rw [cols_toNat_1]; omega
  | ⟨1, _⟩ =>
    refine Fin.ext ?_
    show (k0_pay5 lanes g (ix1 l)).toNat = (16 * g.val + l.val) % 128
    rw [rows_toNat_1]; omega

/-- The element of the block of relation rows that lane `l` gathers at trip `k` of group `g`. -/
theorem idxAt_R_1 (g : Fin k0_t1_loop.trips) (k : Fin k0_t2_loop.trips) (l : Fin 16)
    (h : ∀ a x, ((![k0_pay5 lanes g, k0_pay7 lanes k] : Fin 2 → IVec S16 32) a x).toNat < S128x128.size a) :
    idxAt ![k0_pay5 lanes g, k0_pay7 lanes k] h (ix1 l) = ix2 (rowAt g.val l) (Cert.KBlock.lcolW (rowAt g.val l) k.val) := by
  have hg : g.val < 8 := lt_of_lt_of_eq g.isLt tripsO_1
  have hl := l.isLt
  funext c
  match c with
  | ⟨0, _⟩ =>
    refine Fin.ext ?_
    show (k0_pay5 lanes g (ix1 l)).toNat = (16 * g.val + l.val) % 128
    rw [rows_toNat_1]; omega
  | ⟨1, _⟩ =>
    refine Fin.ext ?_
    show (k0_pay7 lanes k (ix1 l)).toNat = ((16 * g.val + l.val) % 128 % 16 + k.val) % 64
    rw [cols_toNat_1]; omega

/-- Before the first trip every lane holds the zero word. -/
theorem accAt_zero_1 [FloatOps F] (fh ft : FVec F Cert.KBlock.SHB .f32) (fr : FVec F Cert.KBlock.SRB .f32) (g : ℕ) :
    AccAt fh ft fr g 0 (k0_pay6 (F := F)) := fun _ => rfl

/-- One trip: each lane's accumulator takes its triple's term at the trip's column. -/
theorem accAt_succ_1 [FloatOps F] (fh ft : FVec F Cert.KBlock.SHB .f32) (fr : FVec F Cert.KBlock.SRB .f32)
    (g : Fin k0_t1_loop.trips) (k : Fin k0_t2_loop.trips) (acc : FVec F S16 .f32)
    (h1 h2 : ∀ a x, ((![k0_pay7 lanes k, k0_pay5 lanes g] : Fin 2 → IVec S16 32) a x).toNat < S64x128.size a)
    (h3 : ∀ a x, ((![k0_pay5 lanes g, k0_pay7 lanes k] : Fin 2 → IVec S16 32) a x).toNat < S128x128.size a)
    (hacc : AccAt fh ft fr g.val k.val acc) :
    AccAt fh ft fr g.val (k.val + 1) (k0_pay8 acc (loadIdx fh ![k0_pay7 lanes k, k0_pay5 lanes g] h1)
      (loadIdx ft ![k0_pay7 lanes k, k0_pay5 lanes g] h2) (loadIdx fr ![k0_pay5 lanes g, k0_pay7 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_1 g k l h1, idxAt_R_1 g k l h3]
  rfl

/-! ## Block number 1: the words of its two loops -/

theorem tripsO_2 : k0_t3_loop.trips = 8 := by decide +kernel
theorem tripsI_2 : k0_t4_loop.trips = 64 := by decide +kernel

/-- Lane `l` of group `g`'s row vector is the word `16 g + l`. -/
theorem rows_toNat_2 : ∀ (l : Fin 16) (g : Fin k0_t3_loop.trips), (k0_pay9 lanes g (ix1 l)).toNat = 16 * g.val + l.val := by decide +kernel
/-- Lane `l` of trip `k`'s column vector is the word `(l + k) mod 64`. -/
theorem cols_toNat_2 : ∀ (l : Fin 16) (k : Fin k0_t4_loop.trips), (k0_pay11 lanes k (ix1 l)).toNat = (l.val + k.val) % 64 := by decide +kernel

/-- Every index the three gathers of a trip name is in range: rows below 128, columns below 64. -/
theorem chk_holds_2 (g : Fin k0_t3_loop.trips) (k : Fin k0_t4_loop.trips) : k0_chk2 (k0_pay9 lanes g) (k0_pay11 lanes k) := by
  have hg : g.val < 8 := lt_of_lt_of_eq g.isLt tripsO_2
  have h5 : ∀ x : S16.Idx, (k0_pay9 lanes g x).toNat < 128 := fun x => by
    obtain ⟨l, rfl⟩ : ∃ l : Fin 16, x = ix1 l := ⟨x 0, eq_ix1 (n := 16) x⟩
    have hl := l.isLt
    rw [rows_toNat_2]; omega
  have h7 : ∀ x : S16.Idx, (k0_pay11 lanes k x).toNat < 64 := fun x => by
    obtain ⟨l, rfl⟩ : ∃ l : Fin 16, x = ix1 l := ⟨x 0, eq_ix1 (n := 16) x⟩
    rw [cols_toNat_2]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_2 (g : Fin k0_t3_loop.trips) (k : Fin k0_t4_loop.trips) (l : Fin 16)
    (h : ∀ a x, ((![k0_pay11 lanes k, k0_pay9 lanes g] : Fin 2 → IVec S16 32) a x).toNat < S64x128.size a) :
    idxAt ![k0_pay11 lanes k, k0_pay9 lanes g] h (ix1 l) = ix2 (Cert.KBlock.lcol (rowAt g.val l) k.val) (rowAt g.val l) := by
  have hg : g.val < 8 := lt_of_lt_of_eq g.isLt tripsO_2
  have hl := l.isLt
  funext c
  match c with
  | ⟨0, _⟩ =>
    refine Fin.ext ?_
    show (k0_pay11 lanes k (ix1 l)).toNat = ((16 * g.val + l.val) % 128 % 16 + k.val) % 64
    rw [cols_toNat_2]; omega
  | ⟨1, _⟩ =>
    refine Fin.ext ?_
    show (k0_pay9 lanes g (ix1 l)).toNat = (16 * g.val + l.val) % 128
    rw [rows_toNat_2]; omega

/-- The element of the block of relation rows that lane `l` gathers at trip `k` of group `g`. -/
theorem idxAt_R_2 (g : Fin k0_t3_loop.trips) (k : Fin k0_t4_loop.trips) (l : Fin 16)
    (h : ∀ a x, ((![k0_pay9 lanes g, k0_pay11 lanes k] : Fin 2 → IVec S16 32) a x).toNat < S128x128.size a) :
    idxAt ![k0_pay9 lanes g, k0_pay11 lanes k] h (ix1 l) = ix2 (rowAt g.val l) (Cert.KBlock.lcolW (rowAt g.val l) k.val) := by
  have hg : g.val < 8 := lt_of_lt_of_eq g.isLt tripsO_2
  have hl := l.isLt
  funext c
  match c with
  | ⟨0, _⟩ =>
    refine Fin.ext ?_
    show (k0_pay9 lanes g (ix1 l)).toNat = (16 * g.val + l.val) % 128
    rw [rows_toNat_2]; omega
  | ⟨1, _⟩ =>
    refine Fin.ext ?_
    show (k0_pay11 lanes k (ix1 l)).toNat = ((16 * g.val + l.val) % 128 % 16 + k.val) % 64
    rw [cols_toNat_2]; omega

/-- Before the first trip every lane holds the zero word. -/
theorem accAt_zero_2 [FloatOps F] (fh ft : FVec F Cert.KBlock.SHB .f32) (fr : FVec F Cert.KBlock.SRB .f32) (g : ℕ) :
    AccAt fh ft fr g 0 (k0_pay10 (F := F)) := fun _ => rfl

/-- One trip: each lane's accumulator takes its triple's term at the trip's column. -/
theorem accAt_succ_2 [FloatOps F] (fh ft : FVec F Cert.KBlock.SHB .f32) (fr : FVec F Cert.KBlock.SRB .f32)
    (g : Fin k0_t3_loop.trips) (k : Fin k0_t4_loop.trips) (acc : FVec F S16 .f32)
    (h1 h2 : ∀ a x, ((![k0_pay11 lanes k, k0_pay9 lanes g] : Fin 2 → IVec S16 32) a x).toNat < S64x128.size a)
    (h3 : ∀ a x, ((![k0_pay9 lanes g, k0_pay11 lanes k] : Fin 2 → IVec S16 32) a x).toNat < S128x128.size a)
    (hacc : AccAt fh ft fr g.val k.val acc) :
    AccAt fh ft fr g.val (k.val + 1) (k0_pay12 acc (loadIdx fh ![k0_pay11 lanes k, k0_pay9 lanes g] h1)
      (loadIdx ft ![k0_pay11 lanes k, k0_pay9 lanes g] h2) (loadIdx fr ![k0_pay9 lanes g, k0_pay11 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_2 g k l h1, idxAt_R_2 g k l h3]
  rfl

/-! ## Block number 2: the words of its two loops -/

theorem tripsO_3 : k0_t5_loop.trips = 8 := by decide +kernel
theorem tripsI_3 : k0_t6_loop.trips = 64 := by decide +kernel

/-- Lane `l` of group `g`'s row vector is the word `16 g + l`. -/
theorem rows_toNat_3 : ∀ (l : Fin 16) (g : Fin k0_t5_loop.trips), (k0_pay13 lanes g (ix1 l)).toNat = 16 * g.val + l.val := by decide +kernel
/-- Lane `l` of trip `k`'s column vector is the word `(l + k) mod 64`. -/
theorem cols_toNat_3 : ∀ (l : Fin 16) (k : Fin k0_t6_loop.trips), (k0_pay15 lanes k (ix1 l)).toNat = (l.val + k.val) % 64 := by decide +kernel

/-- Every index the three gathers of a trip name is in range: rows below 128, columns below 64. -/
theorem chk_holds_3 (g : Fin k0_t5_loop.trips) (k : Fin k0_t6_loop.trips) : k0_chk3 (k0_pay13 lanes g) (k0_pay15 lanes k) := by
  have hg : g.val < 8 := lt_of_lt_of_eq g.isLt tripsO_3
  have h5 : ∀ x : S16.Idx, (k0_pay13 lanes g x).toNat < 128 := fun x => by
    obtain ⟨l, rfl⟩ : ∃ l : Fin 16, x = ix1 l := ⟨x 0, eq_ix1 (n := 16) x⟩
    have hl := l.isLt
    rw [rows_toNat_3]; omega
  have h7 : ∀ x : S16.Idx, (k0_pay15 lanes k x).toNat < 64 := fun x => by
    obtain ⟨l, rfl⟩ : ∃ l : Fin 16, x = ix1 l := ⟨x 0, eq_ix1 (n := 16) x⟩
    rw [cols_toNat_3]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_3 (g : Fin k0_t5_loop.trips) (k : Fin k0_t6_loop.trips) (l : Fin 16)
    (h : ∀ a x, ((![k0_pay15 lanes k, k0_pay13 lanes g] : Fin 2 → IVec S16 32) a x).toNat < S64x128.size a) :
    idxAt ![k0_pay15 lanes k, k0_pay13 lanes g] h (ix1 l) = ix2 (Cert.KBlock.lcol (rowAt g.val l) k.val) (rowAt g.val l) := by
  have hg : g.val < 8 := lt_of_lt_of_eq g.isLt tripsO_3
  have hl := l.isLt
  funext c
  match c with
  | ⟨0, _⟩ =>
    refine Fin.ext ?_
    show (k0_pay15 lanes k (ix1 l)).toNat = ((16 * g.val + l.val) % 128 % 16 + k.val) % 64
    rw [cols_toNat_3]; omega
  | ⟨1, _⟩ =>
    refine Fin.ext ?_
    show (k0_pay13 lanes g (ix1 l)).toNat = (16 * g.val + l.val) % 128
    rw [rows_toNat_3]; omega

/-- The element of the block of relation rows that lane `l` gathers at trip `k` of group `g`. -/
theorem idxAt_R_3 (g : Fin k0_t5_loop.trips) (k : Fin k0_t6_loop.trips) (l : Fin 16)
    (h : ∀ a x, ((![k0_pay13 lanes g, k0_pay15 lanes k] : Fin 2 → IVec S16 32) a x).toNat < S128x128.size a) :
    idxAt ![k0_pay13 lanes g, k0_pay15 lanes k] h (ix1 l) = ix2 (rowAt g.val l) (Cert.KBlock.lcolW (rowAt g.val l) k.val) := by
  have hg : g.val < 8 := lt_of_lt_of_eq g.isLt tripsO_3
  have hl := l.isLt
  funext c
  match c with
  | ⟨0, _⟩ =>
    refine Fin.ext ?_
    show (k0_pay13 lanes g (ix1 l)).toNat = (16 * g.val + l.val) % 128
    rw [rows_toNat_3]; omega
  | ⟨1, _⟩ =>
    refine Fin.ext ?_
    show (k0_pay15 lanes k (ix1 l)).toNat = ((16 * g.val + l.val) % 128 % 16 + k.val) % 64
    rw [cols_toNat_3]; omega

/-- Before the first trip every lane holds the zero word. -/
theorem accAt_zero_3 [FloatOps F] (fh ft : FVec F Cert.KBlock.SHB .f32) (fr : FVec F Cert.KBlock.SRB .f32) (g : ℕ) :
    AccAt fh ft fr g 0 (k0_pay14 (F := F)) := fun _ => rfl

/-- One trip: each lane's accumulator takes its triple's term at the trip's column. -/
theorem accAt_succ_3 [FloatOps F] (fh ft : FVec F Cert.KBlock.SHB .f32) (fr : FVec F Cert.KBlock.SRB .f32)
    (g : Fin k0_t5_loop.trips) (k : Fin k0_t6_loop.trips) (acc : FVec F S16 .f32)
    (h1 h2 : ∀ a x, ((![k0_pay15 lanes k, k0_pay13 lanes g] : Fin 2 → IVec S16 32) a x).toNat < S64x128.size a)
    (h3 : ∀ a x, ((![k0_pay13 lanes g, k0_pay15 lanes k] : Fin 2 → IVec S16 32) a x).toNat < S128x128.size a)
    (hacc : AccAt fh ft fr g.val k.val acc) :
    AccAt fh ft fr g.val (k.val + 1) (k0_pay16 acc (loadIdx fh ![k0_pay15 lanes k, k0_pay13 lanes g] h1)
      (loadIdx ft ![k0_pay15 lanes k, k0_pay13 lanes g] h2) (loadIdx fr ![k0_pay13 lanes g, k0_pay15 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_3 g k l h1, idxAt_R_3 g k l h3]
  rfl

/-! ## Block number 3: the words of its two loops -/

theorem tripsO_4 : k0_t7_loop.trips = 8 := by decide +kernel
theorem tripsI_4 : k0_t8_loop.trips = 64 := by decide +kernel

/-- Lane `l` of group `g`'s row vector is the word `16 g + l`. -/
theorem rows_toNat_4 : ∀ (l : Fin 16) (g : Fin k0_t7_loop.trips), (k0_pay1 lanes g (ix1 l)).toNat = 16 * g.val + l.val := by decide +kernel
/-- Lane `l` of trip `k`'s column vector is the word `(l + k) mod 64`. -/
theorem cols_toNat_4 : ∀ (l : Fin 16) (k : Fin k0_t8_loop.trips), (k0_pay3 lanes k (ix1 l)).toNat = (l.val + k.val) % 64 := by decide +kernel

/-- Every index the three gathers of a trip name is in range: rows below 128, columns below 64. -/
theorem chk_holds_4 (g : Fin k0_t7_loop.trips) (k : Fin k0_t8_loop.trips) : k0_chk4 (k0_pay1 lanes g) (k0_pay3 lanes k) := by
  have hg : g.val < 8 := lt_of_lt_of_eq g.isLt tripsO_4
  have h5 : ∀ x : S16.Idx, (k0_pay1 lanes g x).toNat < 128 := fun x => by
    obtain ⟨l, rfl⟩ : ∃ l : Fin 16, x = ix1 l := ⟨x 0, eq_ix1 (n := 16) x⟩
    have hl := l.isLt
    rw [rows_toNat_4]; omega
  have h7 : ∀ x : S16.Idx, (k0_pay3 lanes k x).toNat < 64 := fun x => by
    obtain ⟨l, rfl⟩ : ∃ l : Fin 16, x = ix1 l := ⟨x 0, eq_ix1 (n := 16) x⟩
    rw [cols_toNat_4]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_4 (g : Fin k0_t7_loop.trips) (k : Fin k0_t8_loop.trips) (l : Fin 16)
    (h : ∀ a x, ((![k0_pay3 lanes k, k0_pay1 lanes g] : Fin 2 → IVec S16 32) a x).toNat < S64x128.size a) :
    idxAt ![k0_pay3 lanes k, k0_pay1 lanes g] h (ix1 l) = ix2 (Cert.KBlock.lcol (rowAt g.val l) k.val) (rowAt g.val l) := by
  have hg : g.val < 8 := lt_of_lt_of_eq g.isLt tripsO_4
  have hl := l.isLt
  funext c
  match c with
  | ⟨0, _⟩ =>
    refine Fin.ext ?_
    show (k0_pay3 lanes k (ix1 l)).toNat = ((16 * g.val + l.val) % 128 % 16 + k.val) % 64
    rw [cols_toNat_4]; omega
  | ⟨1, _⟩ =>
    refine Fin.ext ?_
    show (k0_pay1 lanes g (ix1 l)).toNat = (16 * g.val + l.val) % 128
    rw [rows_toNat_4]; omega

/-- The element of the block of relation rows that lane `l` gathers at trip `k` of group `g`. -/
theorem idxAt_R_4 (g : Fin k0_t7_loop.trips) (k : Fin k0_t8_loop.trips) (l : Fin 16)
    (h : ∀ a x, ((![k0_pay1 lanes g, k0_pay3 lanes k] : Fin 2 → IVec S16 32) a x).toNat < S128x128.size a) :
    idxAt ![k0_pay1 lanes g, k0_pay3 lanes k] h (ix1 l) = ix2 (rowAt g.val l) (Cert.KBlock.lcolW (rowAt g.val l) k.val) := by
  have hg : g.val < 8 := lt_of_lt_of_eq g.isLt tripsO_4
  have hl := l.isLt
  funext c
  match c with
  | ⟨0, _⟩ =>
    refine Fin.ext ?_
    show (k0_pay1 lanes g (ix1 l)).toNat = (16 * g.val + l.val) % 128
    rw [rows_toNat_4]; omega
  | ⟨1, _⟩ =>
    refine Fin.ext ?_
    show (k0_pay3 lanes k (ix1 l)).toNat = ((16 * g.val + l.val) % 128 % 16 + k.val) % 64
    rw [cols_toNat_4]; omega

/-- Before the first trip every lane holds the zero word. -/
theorem accAt_zero_4 [FloatOps F] (fh ft : FVec F Cert.KBlock.SHB .f32) (fr : FVec F Cert.KBlock.SRB .f32) (g : ℕ) :
    AccAt fh ft fr g 0 (k0_pay2 (F := F)) := fun _ => rfl

/-- One trip: each lane's accumulator takes its triple's term at the trip's column. -/
theorem accAt_succ_4 [FloatOps F] (fh ft : FVec F Cert.KBlock.SHB .f32) (fr : FVec F Cert.KBlock.SRB .f32)
    (g : Fin k0_t7_loop.trips) (k : Fin k0_t8_loop.trips) (acc : FVec F S16 .f32)
    (h1 h2 : ∀ a x, ((![k0_pay3 lanes k, k0_pay1 lanes g] : Fin 2 → IVec S16 32) a x).toNat < S64x128.size a)
    (h3 : ∀ a x, ((![k0_pay1 lanes g, k0_pay3 lanes k] : Fin 2 → IVec S16 32) a x).toNat < S128x128.size a)
    (hacc : AccAt fh ft fr g.val k.val acc) :
    AccAt fh ft fr g.val (k.val + 1) (k0_pay4 acc (loadIdx fh ![k0_pay3 lanes k, k0_pay1 lanes g] h1)
      (loadIdx ft ![k0_pay3 lanes k, k0_pay1 lanes g] h2) (loadIdx fr ![k0_pay1 lanes g, k0_pay3 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_4 g k l h1, idxAt_R_4 g k l h3]
  rfl

end Cert.Proof.KernelIdealSide

end
-- ==== Proof.KStage.lean ====
/-
  Scoring one block of 128 triples inside a vector subcore: the nested loops over the block's eight groups of sixteen
  lanes and the 64 features, read off as the block's accumulators.
-/
import proofs.«205660_g30348238913567_cont_9to1_1764_14_alg».proof.Proof.KStageWords

noncomputable section

namespace Cert.Proof.KernelIdealSide

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The result scratch through any rectangle of it is the same buffer. -/
theorem pts_sOut_access (d : Dev nD) (L : grid0.Coords) (r : Rect S512) (f : Buf (Elt F) ((thrV d L).loc cc0_scratch14)) :
    (((sOut : Memref sig .scVector .vmem S512 .f32).access r).loc (thrV d L) ↦{fullShare} f : sProp 𝕄) = (thrV d L).loc cc0_scratch14 ↦{fullShare} f := rfl

/-! ## Scratch slot 0: its three buffers as the gathers address them, and the two loops' invariants -/

theorem pts_sH0_access (d : Dev nD) (L : grid0.Coords) (f : Buf (Elt F) ((thrV d L).loc cc0_scratch1)) :
    (((sH0 : Memref sig .scVector .vmem S64x128 .f32).access (.whole S64x128)).loc (thrV d L) ↦{fullShare} f : sProp 𝕄) = (thrV d L).loc cc0_scratch1 ↦{fullShare} f := rfl
theorem pts_sT0_access (d : Dev nD) (L : grid0.Coords) (f : Buf (Elt F) ((thrV d L).loc cc0_scratch2)) :
    (((sT0 : Memref sig .scVector .vmem S64x128 .f32).access (.whole S64x128)).loc (thrV d L) ↦{fullShare} f : sProp 𝕄) = (thrV d L).loc cc0_scratch2 ↦{fullShare} f := rfl
theorem pts_sR0_access (d : Dev nD) (L : grid0.Coords) (f : Buf (Elt F) ((thrV d L).loc cc0_scratch3)) :
    (((sR0 : Memref sig .scVector .vmem S128x128 .f32).access (.whole S128x128)).loc (thrV d L) ↦{fullShare} f : sProp 𝕄) = (thrV d L).loc cc0_scratch3 ↦{fullShare} f := rfl

/-- A buffer read whole reads its contents. -/
theorem read_sH0 (f : FVec F Cert.KBlock.SHB .f32) :
    View.read (Elt F) ((sH0 : Memref sig .scVector .vmem S64x128 .f32).access (Rect.whole S64x128)) f = f := Memref.read_access_whole (Elt F) cc0_scratch1 f
theorem read_sT0 (f : FVec F Cert.KBlock.SHB .f32) :
    View.read (Elt F) ((sT0 : Memref sig .scVector .vmem S64x128 .f32).access (Rect.whole S64x128)) f = f := Memref.read_access_whole (Elt F) cc0_scratch2 f
theorem read_sR0 (f : FVec F Cert.KBlock.SRB .f32) :
    View.read (Elt F) ((sR0 : Memref sig .scVector .vmem S128x128 .f32).access (Rect.whole S128x128)) f = f := Memref.read_access_whole (Elt F) cc0_scratch3 f

/-- The feature loop's invariant: the three scratch buffers it reads, and what the carried vector holds after `k` trips. -/
def invI0 (d : Dev nD) (L : grid0.Coords) (fh : Buf (Elt F) ((thrV d L).loc cc0_scratch1)) (ft : Buf (Elt F) ((thrV d L).loc cc0_scratch2))
    (fr : Buf (Elt F) ((thrV d L).loc cc0_scratch3)) (P : ℕ → FVec F S16 .f32 → Prop) (k : ℕ) (acc : FVec F S16 .f32) : sProp 𝕄 :=
  iprop(((thrV d L).loc cc0_scratch1 ↦{fullShare} fh) ∗ ((thrV d L).loc cc0_scratch2 ↦{fullShare} ft)
        ∗ ((thrV d L).loc cc0_scratch3 ↦{fullShare} fr) ∗ ⌜P k acc⌝)

/-- The group loop's invariant: the three scratch buffers read, and the result scratch at contents as after `k` groups. -/
def invO0 (d : Dev nD) (L : grid0.Coords) (fh : Buf (Elt F) ((thrV d L).loc cc0_scratch1)) (ft : Buf (Elt F) ((thrV d L).loc cc0_scratch2))
    (fr : Buf (Elt F) ((thrV d L).loc cc0_scratch3)) (Q : ℕ → Buf (Elt F) ((thrV d L).loc cc0_scratch14) → Prop) (k : ℕ) (_ : Unit) : sProp 𝕄 :=
  iprop(((thrV d L).loc cc0_scratch1 ↦{fullShare} fh) ∗ ((thrV d L).loc cc0_scratch2 ↦{fullShare} ft)
        ∗ ((thrV d L).loc cc0_scratch3 ↦{fullShare} fr)
        ∗ ∃ fo' : Buf (Elt F) ((thrV d L).loc cc0_scratch14), ⌜Q k fo'⌝ ∗ ((thrV d L).loc cc0_scratch14 ↦{fullShare} fo'))

/-! ## Scratch slot 1: its three buffers as the gathers address them, and the two loops' invariants -/

theorem pts_sH1_access (d : Dev nD) (L : grid0.Coords) (f : Buf (Elt F) ((thrV d L).loc cc0_scratch8)) :
    (((sH1 : Memref sig .scVector .vmem S64x128 .f32).access (.whole S64x128)).loc (thrV d L) ↦{fullShare} f : sProp 𝕄) = (thrV d L).loc cc0_scratch8 ↦{fullShare} f := rfl
theorem pts_sT1_access (d : Dev nD) (L : grid0.Coords) (f : Buf (Elt F) ((thrV d L).loc cc0_scratch9)) :
    (((sT1 : Memref sig .scVector .vmem S64x128 .f32).access (.whole S64x128)).loc (thrV d L) ↦{fullShare} f : sProp 𝕄) = (thrV d L).loc cc0_scratch9 ↦{fullShare} f := rfl
theorem pts_sR1_access (d : Dev nD) (L : grid0.Coords) (f : Buf (Elt F) ((thrV d L).loc cc0_scratch10)) :
    (((sR1 : Memref sig .scVector .vmem S128x128 .f32).access (.whole S128x128)).loc (thrV d L) ↦{fullShare} f : sProp 𝕄) = (thrV d L).loc cc0_scratch10 ↦{fullShare} f := rfl

/-- A buffer read whole reads its contents. -/
theorem read_sH1 (f : FVec F Cert.KBlock.SHB .f32) :
    View.read (Elt F) ((sH1 : Memref sig .scVector .vmem S64x128 .f32).access (Rect.whole S64x128)) f = f := Memref.read_access_whole (Elt F) cc0_scratch8 f
theorem read_sT1 (f : FVec F Cert.KBlock.SHB .f32) :
    View.read (Elt F) ((sT1 : Memref sig .scVector .vmem S64x128 .f32).access (Rect.whole S64x128)) f = f := Memref.read_access_whole (Elt F) cc0_scratch9 f
theorem read_sR1 (f : FVec F Cert.KBlock.SRB .f32) :
    View.read (Elt F) ((sR1 : Memref sig .scVector .vmem S128x128 .f32).access (Rect.whole S128x128)) f = f := Memref.read_access_whole (Elt F) cc0_scratch10 f

/-- The feature loop's invariant: the three scratch buffers it reads, and what the carried vector holds after `k` trips. -/
def invI1 (d : Dev nD) (L : grid0.Coords) (fh : Buf (Elt F) ((thrV d L).loc cc0_scratch8)) (ft : Buf (Elt F) ((thrV d L).loc cc0_scratch9))
    (fr : Buf (Elt F) ((thrV d L).loc cc0_scratch10)) (P : ℕ → FVec F S16 .f32 → Prop) (k : ℕ) (acc : FVec F S16 .f32) : sProp 𝕄 :=
  iprop(((thrV d L).loc cc0_scratch8 ↦{fullShare} fh) ∗ ((thrV d L).loc cc0_scratch9 ↦{fullShare} ft)
        ∗ ((thrV d L).loc cc0_scratch10 ↦{fullShare} fr) ∗ ⌜P k acc⌝)

/-- The group loop's invariant: the three scratch buffers read, and the result scratch at contents as after `k` groups. -/
def invO1 (d : Dev nD) (L : grid0.Coords) (fh : Buf (Elt F) ((thrV d L).loc cc0_scratch8)) (ft : Buf (Elt F) ((thrV d L).loc cc0_scratch9))
    (fr : Buf (Elt F) ((thrV d L).loc cc0_scratch10)) (Q : ℕ → Buf (Elt F) ((thrV d L).loc cc0_scratch14) → Prop) (k : ℕ) (_ : Unit) : sProp 𝕄 :=
  iprop(((thrV d L).loc cc0_scratch8 ↦{fullShare} fh) ∗ ((thrV d L).loc cc0_scratch9 ↦{fullShare} ft)
        ∗ ((thrV d L).loc cc0_scratch10 ↦{fullShare} fr)
        ∗ ∃ fo' : Buf (Elt F) ((thrV d L).loc cc0_scratch14), ⌜Q k fo'⌝ ∗ ((thrV d L).loc cc0_scratch14 ↦{fullShare} fo'))

/-! ## Block number 0 -/

/-- One trip of block 0's feature loop, in group `g`: the side condition holds, the three gathers read the block, and
    the carried vector takes the trip's terms. -/
theorem inner_1 [FloatOps F] (d : Dev nD) (L : grid0.Coords) (v2 : BitVec 32) (g : Fin k0_t1_loop.trips)
    (fh : Buf (Elt F) ((thrV d L).loc cc0_scratch1)) (ft : Buf (Elt F) ((thrV d L).loc cc0_scratch2))
    (fr : Buf (Elt F) ((thrV d L).loc cc0_scratch3)) (k : Fin k0_t2_loop.trips) (acc : FVec F S16 .f32) :
    invI0 d L fh ft fr (AccAt fh ft fr g.val) k acc
      ⊢ wp frame (wpE (defs₀ (F := F)) 𝒱₀ (thrV d L) none) Set.univ
          (k0_t2_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes (k0_pay5 lanes g) k acc)
          (invI0 d L fh ft fr (AccAt fh ft fr g.val) (k.val + 1)) := by
  unfold invI0 k0_t2_body
  simp only [Prog.lift, Prog.bind_op, Prog.bind_ret, Prog.pure_eq_ret]
  iintro ⟨Hh, Ht, Hr, %hacc⟩
  rw [wp_assume_of _ _ _ _ (chk_holds_1 g k)]
  ihave Hh' := (Entails.of_eq (pts_sH0_access (F := F) d L _).symm) $$ Hh
  iapply (SparseCore.wp_vectorLoadIdx 𝒱₀ (thrV d L) none Set.univ (base := (sH0 : Memref sig .scVector .vmem S64x128 .f32)) (S := Finset.univ) (q := fullShare) (Finset.subset_univ _)) $$ Hh'; iintro Hh'
  ihave Ht' := (Entails.of_eq (pts_sT0_access (F := F) d L _).symm) $$ Ht
  iapply (SparseCore.wp_vectorLoadIdx 𝒱₀ (thrV d L) none Set.univ (base := (sT0 : Memref sig .scVector .vmem S64x128 .f32)) (S := Finset.univ) (q := fullShare) (Finset.subset_univ _)) $$ Ht'; iintro Ht'
  ihave Hr' := (Entails.of_eq (pts_sR0_access (F := F) d L _).symm) $$ Hr
  iapply (SparseCore.wp_vectorLoadIdx 𝒱₀ (thrV d L) none Set.univ (base := (sR0 : Memref sig .scVector .vmem S128x128 .f32)) (S := Finset.univ) (q := fullShare) (Finset.subset_univ _)) $$ Hr'; iintro Hr'
  rw [wp_ret]; imodintro
  isplitl [Hh']; · iapply (Entails.of_eq (pts_sH0_access (F := F) d L _)); iexact Hh'
  isplitl [Ht']; · iapply (Entails.of_eq (pts_sT0_access (F := F) d L _)); iexact Ht'
  isplitl [Hr']; · iapply (Entails.of_eq (pts_sR0_access (F := F) d L _)); iexact Hr'
  ipureintro
  rw [read_sH0, read_sT0, read_sR0]
  exact accAt_succ_1 fh ft fr g k acc _ _ _ hacc

/-- One trip of block 0's group loop: the feature loop from the zero vector, then the store of the group's sixteen
    accumulators into the result scratch at entry `0 + 16 g`. -/
theorem outer_1 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) (g : Fin k0_t1_loop.trips) (u : Unit) :
    invO0 d L fh ft fr (OutPart 0 fh ft fr fo) g u
      ⊢ wp frame (wpE (defs₀ (F := F)) 𝒱₀ (thrV d L) none) Set.univ
          (k0_t1_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes g u)
          (invO0 d L fh ft fr (OutPart 0 fh ft fr fo) (g.val + 1)) := by
  have hg : g.val < 8 := lt_of_lt_of_eq g.isLt tripsO_1
  unfold invO0 k0_t1_body
  simp only [Prog.lift, Prog.bind_op, Prog.bind_ret, Prog.pure_eq_ret]
  iintro ⟨Hh, Ht, Hr, %fo', %hfo, Ho⟩
  sl_for (invI0 d L fh ft fr (AccAt fh ft fr g.val)) $$ [Hh Ht Hr]
  case region =>
    intro k acc
    exact inner_1 d L v2 g fh ft fr k acc
  · unfold invI0
    isplitl [Hh]; · iexact Hh
    isplitl [Ht]; · iexact Ht
    isplitl [Hr]; · iexact Hr
    ipureintro; exact accAt_zero_1 fh ft fr g.val
  iintro %acc HI
  unfold invI0
  icases HI with ⟨Hh, Ht, Hr, %hacc⟩
  have ht : Scf.trips k0_t2_loop.lb k0_t2_loop.ub k0_t2_loop.st = 64 := tripsI_1
  rw [ht] at hacc
  unfold outer_1.sl.prog.cont_1
  simp only [Prog.lift, Prog.bind_op, Prog.bind_ret, Prog.pure_eq_ret]
  ihave Ho' := (Entails.of_eq (pts_sOut_access (F := F) d L (Rect.unit (s := S512) (k0_off3 g) S16.size (k0_off3_inb g)) fo').symm) $$ Ho
  iapply (wp_load_rect 𝒱₀ (thrV d L) none Set.univ (m := (sOut : Memref sig .scVector .vmem S512 .f32)) (r := (Rect.unit (s := S512) (k0_off3 g) S16.size (k0_off3_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off3 g) S16.size (k0_off3_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off3 g) S16.size (k0_off3_inb g))) fo' acc Finset.univ)
  isplitr
  · ipureintro
    have ho : k0_off3 g = ![128 * 0 + 16 * g.val] := (k0_off3_eq g).trans (congrArg (fun n : ℕ => (![n] : Fin 1 → ℕ)) (by omega))
    exact outPart_succ 0 fh ft fr fo fo' _ g.val hg acc hfo hacc fun j => write_sOut (k0_off3 g) _ ho (k0_off3_inb g) fo' acc j
  · iapply (Entails.of_eq (pts_sOut_access (F := F) d L (Rect.unit (s := S512) (k0_off3 g) S16.size (k0_off3_inb g)) _)); iexact Ho'

/-- Block number 0 of the subcore's four, scored: the eight groups of sixteen lanes, each by the 64-trip feature loop
    over the block's heads, tails and gathered relation rows; the three scratch buffers are only read, the result
    scratch ends with the block's 128 accumulators in entries `0 … 127`. -/
theorem stage1 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) :
    iprop(((thrV d L).loc cc0_scratch1 ↦{fullShare} fh) ∗ ((thrV d L).loc cc0_scratch2 ↦{fullShare} ft)
        ∗ ((thrV d L).loc cc0_scratch3 ↦{fullShare} fr) ∗ ((thrV d L).loc cc0_scratch14 ↦{fullShare} fo) : sProp 𝕄)
      ⊢ wp frame (wpE (defs₀ (F := F)) 𝒱₀ (thrV d L) none) Set.univ
          (Scf.Loop.for k0_t1_loop k0_t1_ok ⟨⟩ (k0_t1_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes))
          fun _ => iprop(((thrV d L).loc cc0_scratch1 ↦{fullShare} fh) ∗ ((thrV d L).loc cc0_scratch2 ↦{fullShare} ft)
            ∗ ((thrV d L).loc cc0_scratch3 ↦{fullShare} fr)
            ∗ ∃ fo' : Buf (Elt F) ((thrV d L).loc cc0_scratch14), ⌜Cert.KBlock.OutAfter (F := F) 0 fh ft fr fo fo'⌝
                ∗ ((thrV d L).loc cc0_scratch14 ↦{fullShare} fo')) := by
  iintro ⟨Hh, Ht, Hr, Ho⟩
  sl_for (invO0 d L fh ft fr (OutPart 0 fh ft fr fo)) $$ [Hh Ht Hr Ho]
  case region =>
    intro g u
    exact outer_1 d L v2 fh ft fr fo g u
  isplitl [Hh Ht Hr Ho]
  · unfold invO0
    isplitl [Hh]; · iexact Hh
    isplitl [Ht]; · iexact Ht
    isplitl [Hr]; · iexact Hr
    iexists fo
    isplitr
    · ipureintro; exact outPart_zero 0 fh ft fr fo
    · iexact Ho
  iintro %u HI
  unfold invO0
  icases HI with ⟨Hh, Ht, Hr, %fo', %hfo, Ho⟩
  have ht : Scf.trips k0_t1_loop.lb k0_t1_loop.ub k0_t1_loop.st = 8 := tripsO_1
  rw [ht] at hfo
  isplitl [Hh]; · iexact Hh
  isplitl [Ht]; · iexact Ht
  isplitl [Hr]; · iexact Hr
  iexists fo'
  isplitr
  · ipureintro; exact outPart_done 0 fh ft fr fo fo' hfo
  · iexact Ho

/-! ## Block number 1 -/

/-- One trip of block 1's feature loop, in group `g`: the side condition holds, the three gathers read the block, and
    the carried vector takes the trip's terms. -/
theorem inner_2 [FloatOps F] (d : Dev nD) (L : grid0.Coords) (v2 : BitVec 32) (g : Fin k0_t3_loop.trips)
    (fh : Buf (Elt F) ((thrV d L).loc cc0_scratch8)) (ft : Buf (Elt F) ((thrV d L).loc cc0_scratch9))
    (fr : Buf (Elt F) ((thrV d L).loc cc0_scratch10)) (k : Fin k0_t4_loop.trips) (acc : FVec F S16 .f32) :
    invI1 d L fh ft fr (AccAt fh ft fr g.val) k acc
      ⊢ wp frame (wpE (defs₀ (F := F)) 𝒱₀ (thrV d L) none) Set.univ
          (k0_t4_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes (k0_pay9 lanes g) k acc)
          (invI1 d L fh ft fr (AccAt fh ft fr g.val) (k.val + 1)) := by
  unfold invI1 k0_t4_body
  simp only [Prog.lift, Prog.bind_op, Prog.bind_ret, Prog.pure_eq_ret]
  iintro ⟨Hh, Ht, Hr, %hacc⟩
  rw [wp_assume_of _ _ _ _ (chk_holds_2 g k)]
  ihave Hh' := (Entails.of_eq (pts_sH1_access (F := F) d L _).symm) $$ Hh
  iapply (SparseCore.wp_vectorLoadIdx 𝒱₀ (thrV d L) none Set.univ (base := (sH1 : Memref sig .scVector .vmem S64x128 .f32)) (S := Finset.univ) (q := fullShare) (Finset.subset_univ _)) $$ Hh'; iintro Hh'
  ihave Ht' := (Entails.of_eq (pts_sT1_access (F := F) d L _).symm) $$ Ht
  iapply (SparseCore.wp_vectorLoadIdx 𝒱₀ (thrV d L) none Set.univ (base := (sT1 : Memref sig .scVector .vmem S64x128 .f32)) (S := Finset.univ) (q := fullShare) (Finset.subset_univ _)) $$ Ht'; iintro Ht'
  ihave Hr' := (Entails.of_eq (pts_sR1_access (F := F) d L _).symm) $$ Hr
  iapply (SparseCore.wp_vectorLoadIdx 𝒱₀ (thrV d L) none Set.univ (base := (sR1 : Memref sig .scVector .vmem S128x128 .f32)) (S := Finset.univ) (q := fullShare) (Finset.subset_univ _)) $$ Hr'; iintro Hr'
  rw [wp_ret]; imodintro
  isplitl [Hh']; · iapply (Entails.of_eq (pts_sH1_access (F := F) d L _)); iexact Hh'
  isplitl [Ht']; · iapply (Entails.of_eq (pts_sT1_access (F := F) d L _)); iexact Ht'
  isplitl [Hr']; · iapply (Entails.of_eq (pts_sR1_access (F := F) d L _)); iexact Hr'
  ipureintro
  rw [read_sH1, read_sT1, read_sR1]
  exact accAt_succ_2 fh ft fr g k acc _ _ _ hacc

/-- One trip of block 1's group loop: the feature loop from the zero vector, then the store of the group's sixteen
    accumulators into the result scratch at entry `128 + 16 g`. -/
theorem outer_2 [FloatOps F] (d : Dev nD) (L : grid0.Coords) (v2 : BitVec 32)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) (g : Fin k0_t3_loop.trips) (u : Unit) :
    invO1 d L fh ft fr (OutPart 1 fh ft fr fo) g u
      ⊢ wp frame (wpE (defs₀ (F := F)) 𝒱₀ (thrV d L) none) Set.univ
          (k0_t3_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes g u)
          (invO1 d L fh ft fr (OutPart 1 fh ft fr fo) (g.val + 1)) := by
  have hg : g.val < 8 := lt_of_lt_of_eq g.isLt tripsO_2
  unfold invO1 k0_t3_body
  simp only [Prog.lift, Prog.bind_op, Prog.bind_ret, Prog.pure_eq_ret]
  iintro ⟨Hh, Ht, Hr, %fo', %hfo, Ho⟩
  sl_for (invI1 d L fh ft fr (AccAt fh ft fr g.val)) $$ [Hh Ht Hr]
  case region =>
    intro k acc
    exact inner_2 d L v2 g fh ft fr k acc
  · unfold invI1
    isplitl [Hh]; · iexact Hh
    isplitl [Ht]; · iexact Ht
    isplitl [Hr]; · iexact Hr
    ipureintro; exact accAt_zero_2 fh ft fr g.val
  iintro %acc HI
  unfold invI1
  icases HI with ⟨Hh, Ht, Hr, %hacc⟩
  have ht : Scf.trips k0_t4_loop.lb k0_t4_loop.ub k0_t4_loop.st = 64 := tripsI_2
  rw [ht] at hacc
  unfold outer_2.sl.prog.cont_1
  simp only [Prog.lift, Prog.bind_op, Prog.bind_ret, Prog.pure_eq_ret]
  ihave Ho' := (Entails.of_eq (pts_sOut_access (F := F) d L (Rect.unit (s := S512) (k0_off4 g) S16.size (k0_off4_inb g)) fo').symm) $$ Ho
  iapply (wp_load_rect 𝒱₀ (thrV d L) none Set.univ (m := (sOut : Memref sig .scVector .vmem S512 .f32)) (r := (Rect.unit (s := S512) (k0_off4 g) S16.size (k0_off4_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off4 g) S16.size (k0_off4_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off4 g) S16.size (k0_off4_inb g))) fo' acc Finset.univ)
  isplitr
  · ipureintro
    have ho : k0_off4 g = ![128 * 1 + 16 * g.val] := (k0_off4_eq g).trans (congrArg (fun n : ℕ => (![n] : Fin 1 → ℕ)) (by omega))
    exact outPart_succ 1 fh ft fr fo fo' _ g.val hg acc hfo hacc fun j => write_sOut (k0_off4 g) _ ho (k0_off4_inb g) fo' acc j
  · iapply (Entails.of_eq (pts_sOut_access (F := F) d L (Rect.unit (s := S512) (k0_off4 g) S16.size (k0_off4_inb g)) _)); iexact Ho'

/-- Block number 1 of the subcore's four, scored: the eight groups of sixteen lanes, each by the 64-trip feature loop
    over the block's heads, tails and gathered relation rows; the three scratch buffers are only read, the result
    scratch ends with the block's 128 accumulators in entries `128 … 255`. -/
theorem stage2 [FloatOps F] (d : Dev nD) (L : grid0.Coords) (v2 : BitVec 32)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) :
    iprop(((thrV d L).loc cc0_scratch8 ↦{fullShare} fh) ∗ ((thrV d L).loc cc0_scratch9 ↦{fullShare} ft)
        ∗ ((thrV d L).loc cc0_scratch10 ↦{fullShare} fr) ∗ ((thrV d L).loc cc0_scratch14 ↦{fullShare} fo) : sProp 𝕄)
      ⊢ wp frame (wpE (defs₀ (F := F)) 𝒱₀ (thrV d L) none) Set.univ
          (Scf.Loop.for k0_t3_loop k0_t3_ok ⟨⟩ (k0_t3_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes))
          fun _ => iprop(((thrV d L).loc cc0_scratch8 ↦{fullShare} fh) ∗ ((thrV d L).loc cc0_scratch9 ↦{fullShare} ft)
            ∗ ((thrV d L).loc cc0_scratch10 ↦{fullShare} fr)
            ∗ ∃ fo' : Buf (Elt F) ((thrV d L).loc cc0_scratch14), ⌜Cert.KBlock.OutAfter (F := F) 1 fh ft fr fo fo'⌝
                ∗ ((thrV d L).loc cc0_scratch14 ↦{fullShare} fo')) := by
  iintro ⟨Hh, Ht, Hr, Ho⟩
  sl_for (invO1 d L fh ft fr (OutPart 1 fh ft fr fo)) $$ [Hh Ht Hr Ho]
  case region =>
    intro g u
    exact outer_2 d L v2 fh ft fr fo g u
  isplitl [Hh Ht Hr Ho]
  · unfold invO1
    isplitl [Hh]; · iexact Hh
    isplitl [Ht]; · iexact Ht
    isplitl [Hr]; · iexact Hr
    iexists fo
    isplitr
    · ipureintro; exact outPart_zero 1 fh ft fr fo
    · iexact Ho
  iintro %u HI
  unfold invO1
  icases HI with ⟨Hh, Ht, Hr, %fo', %hfo, Ho⟩
  have ht : Scf.trips k0_t3_loop.lb k0_t3_loop.ub k0_t3_loop.st = 8 := tripsO_2
  rw [ht] at hfo
  isplitl [Hh]; · iexact Hh
  isplitl [Ht]; · iexact Ht
  isplitl [Hr]; · iexact Hr
  iexists fo'
  isplitr
  · ipureintro; exact outPart_done 1 fh ft fr fo fo' hfo
  · iexact Ho

/-! ## Block number 2 -/

/-- One trip of block 2's feature loop, in group `g`: the side condition holds, the three gathers read the block, and
    the carried vector takes the trip's terms. -/
theorem inner_3 [FloatOps F] (d : Dev nD) (L : grid0.Coords) (v2 : BitVec 32) (g : Fin k0_t5_loop.trips)
    (fh : Buf (Elt F) ((thrV d L).loc cc0_scratch1)) (ft : Buf (Elt F) ((thrV d L).loc cc0_scratch2))
    (fr : Buf (Elt F) ((thrV d L).loc cc0_scratch3)) (k : Fin k0_t6_loop.trips) (acc : FVec F S16 .f32) :
    invI0 d L fh ft fr (AccAt fh ft fr g.val) k acc
      ⊢ wp frame (wpE (defs₀ (F := F)) 𝒱₀ (thrV d L) none) Set.univ
          (k0_t6_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes (k0_pay13 lanes g) k acc)
          (invI0 d L fh ft fr (AccAt fh ft fr g.val) (k.val + 1)) := by
  unfold invI0 k0_t6_body
  simp only [Prog.lift, Prog.bind_op, Prog.bind_ret, Prog.pure_eq_ret]
  iintro ⟨Hh, Ht, Hr, %hacc⟩
  rw [wp_assume_of _ _ _ _ (chk_holds_3 g k)]
  ihave Hh' := (Entails.of_eq (pts_sH0_access (F := F) d L _).symm) $$ Hh
  iapply (SparseCore.wp_vectorLoadIdx 𝒱₀ (thrV d L) none Set.univ (base := (sH0 : Memref sig .scVector .vmem S64x128 .f32)) (S := Finset.univ) (q := fullShare) (Finset.subset_univ _)) $$ Hh'; iintro Hh'
  ihave Ht' := (Entails.of_eq (pts_sT0_access (F := F) d L _).symm) $$ Ht
  iapply (SparseCore.wp_vectorLoadIdx 𝒱₀ (thrV d L) none Set.univ (base := (sT0 : Memref sig .scVector .vmem S64x128 .f32)) (S := Finset.univ) (q := fullShare) (Finset.subset_univ _)) $$ Ht'; iintro Ht'
  ihave Hr' := (Entails.of_eq (pts_sR0_access (F := F) d L _).symm) $$ Hr
  iapply (SparseCore.wp_vectorLoadIdx 𝒱₀ (thrV d L) none Set.univ (base := (sR0 : Memref sig .scVector .vmem S128x128 .f32)) (S := Finset.univ) (q := fullShare) (Finset.subset_univ _)) $$ Hr'; iintro Hr'
  rw [wp_ret]; imodintro
  isplitl [Hh']; · iapply (Entails.of_eq (pts_sH0_access (F := F) d L _)); iexact Hh'
  isplitl [Ht']; · iapply (Entails.of_eq (pts_sT0_access (F := F) d L _)); iexact Ht'
  isplitl [Hr']; · iapply (Entails.of_eq (pts_sR0_access (F := F) d L _)); iexact Hr'
  ipureintro
  rw [read_sH0, read_sT0, read_sR0]
  exact accAt_succ_3 fh ft fr g k acc _ _ _ hacc

/-- One trip of block 2's group loop: the feature loop from the zero vector, then the store of the group's sixteen
    accumulators into the result scratch at entry `256 + 16 g`. -/
theorem outer_3 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) (g : Fin k0_t5_loop.trips) (u : Unit) :
    invO0 d L fh ft fr (OutPart 2 fh ft fr fo) g u
      ⊢ wp frame (wpE (defs₀ (F := F)) 𝒱₀ (thrV d L) none) Set.univ
          (k0_t5_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes g u)
          (invO0 d L fh ft fr (OutPart 2 fh ft fr fo) (g.val + 1)) := by
  have hg : g.val < 8 := lt_of_lt_of_eq g.isLt tripsO_3
  unfold invO0 k0_t5_body
  simp only [Prog.lift, Prog.bind_op, Prog.bind_ret, Prog.pure_eq_ret]
  iintro ⟨Hh, Ht, Hr, %fo', %hfo, Ho⟩
  sl_for (invI0 d L fh ft fr (AccAt fh ft fr g.val)) $$ [Hh Ht Hr]
  case region =>
    intro k acc
    exact inner_3 d L v2 g fh ft fr k acc
  · unfold invI0
    isplitl [Hh]; · iexact Hh
    isplitl [Ht]; · iexact Ht
    isplitl [Hr]; · iexact Hr
    ipureintro; exact accAt_zero_3 fh ft fr g.val
  iintro %acc HI
  unfold invI0
  icases HI with ⟨Hh, Ht, Hr, %hacc⟩
  have ht : Scf.trips k0_t6_loop.lb k0_t6_loop.ub k0_t6_loop.st = 64 := tripsI_3
  rw [ht] at hacc
  unfold outer_3.sl.prog.cont_1
  simp only [Prog.lift, Prog.bind_op, Prog.bind_ret, Prog.pure_eq_ret]
  ihave Ho' := (Entails.of_eq (pts_sOut_access (F := F) d L (Rect.unit (s := S512) (k0_off5 g) S16.size (k0_off5_inb g)) fo').symm) $$ Ho
  iapply (wp_load_rect 𝒱₀ (thrV d L) none Set.univ (m := (sOut : Memref sig .scVector .vmem S512 .f32)) (r := (Rect.unit (s := S512) (k0_off5 g) S16.size (k0_off5_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off5 g) S16.size (k0_off5_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off5 g) S16.size (k0_off5_inb g))) fo' acc Finset.univ)
  isplitr
  · ipureintro
    have ho : k0_off5 g = ![128 * 2 + 16 * g.val] := (k0_off5_eq g).trans (congrArg (fun n : ℕ => (![n] : Fin 1 → ℕ)) (by omega))
    exact outPart_succ 2 fh ft fr fo fo' _ g.val hg acc hfo hacc fun j => write_sOut (k0_off5 g) _ ho (k0_off5_inb g) fo' acc j
  · iapply (Entails.of_eq (pts_sOut_access (F := F) d L (Rect.unit (s := S512) (k0_off5 g) S16.size (k0_off5_inb g)) _)); iexact Ho'

/-- Block number 2 of the subcore's four, scored: the eight groups of sixteen lanes, each by the 64-trip feature loop
    over the block's heads, tails and gathered relation rows; the three scratch buffers are only read, the result
    scratch ends with the block's 128 accumulators in entries `256 … 383`. -/
theorem stage3 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) :
    iprop(((thrV d L).loc cc0_scratch1 ↦{fullShare} fh) ∗ ((thrV d L).loc cc0_scratch2 ↦{fullShare} ft)
        ∗ ((thrV d L).loc cc0_scratch3 ↦{fullShare} fr) ∗ ((thrV d L).loc cc0_scratch14 ↦{fullShare} fo) : sProp 𝕄)
      ⊢ wp frame (wpE (defs₀ (F := F)) 𝒱₀ (thrV d L) none) Set.univ
          (Scf.Loop.for k0_t5_loop k0_t5_ok ⟨⟩ (k0_t5_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes))
          fun _ => iprop(((thrV d L).loc cc0_scratch1 ↦{fullShare} fh) ∗ ((thrV d L).loc cc0_scratch2 ↦{fullShare} ft)
            ∗ ((thrV d L).loc cc0_scratch3 ↦{fullShare} fr)
            ∗ ∃ fo' : Buf (Elt F) ((thrV d L).loc cc0_scratch14), ⌜Cert.KBlock.OutAfter (F := F) 2 fh ft fr fo fo'⌝
                ∗ ((thrV d L).loc cc0_scratch14 ↦{fullShare} fo')) := by
  iintro ⟨Hh, Ht, Hr, Ho⟩
  sl_for (invO0 d L fh ft fr (OutPart 2 fh ft fr fo)) $$ [Hh Ht Hr Ho]
  case region =>
    intro g u
    exact outer_3 d L v2 fh ft fr fo g u
  isplitl [Hh Ht Hr Ho]
  · unfold invO0
    isplitl [Hh]; · iexact Hh
    isplitl [Ht]; · iexact Ht
    isplitl [Hr]; · iexact Hr
    iexists fo
    isplitr
    · ipureintro; exact outPart_zero 2 fh ft fr fo
    · iexact Ho
  iintro %u HI
  unfold invO0
  icases HI with ⟨Hh, Ht, Hr, %fo', %hfo, Ho⟩
  have ht : Scf.trips k0_t5_loop.lb k0_t5_loop.ub k0_t5_loop.st = 8 := tripsO_3
  rw [ht] at hfo
  isplitl [Hh]; · iexact Hh
  isplitl [Ht]; · iexact Ht
  isplitl [Hr]; · iexact Hr
  iexists fo'
  isplitr
  · ipureintro; exact outPart_done 2 fh ft fr fo fo' hfo
  · iexact Ho

/-! ## Block number 3 -/

/-- One trip of block 3's feature loop, in group `g`: the side condition holds, the three gathers read the block, and
    the carried vector takes the trip's terms. -/
theorem inner_4 [FloatOps F] (d : Dev nD) (L : grid0.Coords) (g : Fin k0_t7_loop.trips)
    (fh : Buf (Elt F) ((thrV d L).loc cc0_scratch8)) (ft : Buf (Elt F) ((thrV d L).loc cc0_scratch9))
    (fr : Buf (Elt F) ((thrV d L).loc cc0_scratch10)) (k : Fin k0_t8_loop.trips) (acc : FVec F S16 .f32) :
    invI1 d L fh ft fr (AccAt fh ft fr g.val) k acc
      ⊢ wp frame (wpE (defs₀ (F := F)) 𝒱₀ (thrV d L) none) Set.univ
          (k0_t8_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 lanes (k0_pay1 lanes g) k acc)
          (invI1 d L fh ft fr (AccAt fh ft fr g.val) (k.val + 1)) := by
  unfold invI1 k0_t8_body
  simp only [Prog.lift, Prog.bind_op, Prog.bind_ret, Prog.pure_eq_ret]
  iintro ⟨Hh, Ht, Hr, %hacc⟩
  rw [wp_assume_of _ _ _ _ (chk_holds_4 g k)]
  ihave Hh' := (Entails.of_eq (pts_sH1_access (F := F) d L _).symm) $$ Hh
  iapply (SparseCore.wp_vectorLoadIdx 𝒱₀ (thrV d L) none Set.univ (base := (sH1 : Memref sig .scVector .vmem S64x128 .f32)) (S := Finset.univ) (q := fullShare) (Finset.subset_univ _)) $$ Hh'; iintro Hh'
  ihave Ht' := (Entails.of_eq (pts_sT1_access (F := F) d L _).symm) $$ Ht
  iapply (SparseCore.wp_vectorLoadIdx 𝒱₀ (thrV d L) none Set.univ (base := (sT1 : Memref sig .scVector .vmem S64x128 .f32)) (S := Finset.univ) (q := fullShare) (Finset.subset_univ _)) $$ Ht'; iintro Ht'
  ihave Hr' := (Entails.of_eq (pts_sR1_access (F := F) d L _).symm) $$ Hr
  iapply (SparseCore.wp_vectorLoadIdx 𝒱₀ (thrV d L) none Set.univ (base := (sR1 : Memref sig .scVector .vmem S128x128 .f32)) (S := Finset.univ) (q := fullShare) (Finset.subset_univ _)) $$ Hr'; iintro Hr'
  rw [wp_ret]; imodintro
  isplitl [Hh']; · iapply (Entails.of_eq (pts_sH1_access (F := F) d L _)); iexact Hh'
  isplitl [Ht']; · iapply (Entails.of_eq (pts_sT1_access (F := F) d L _)); iexact Ht'
  isplitl [Hr']; · iapply (Entails.of_eq (pts_sR1_access (F := F) d L _)); iexact Hr'
  ipureintro
  rw [read_sH1, read_sT1, read_sR1]
  exact accAt_succ_4 fh ft fr g k acc _ _ _ hacc

/-- One trip of block 3's group loop: the feature loop from the zero vector, then the store of the group's sixteen
    accumulators into the result scratch at entry `384 + 16 g`. -/
theorem outer_4 [FloatOps F] (d : Dev nD) (L : grid0.Coords)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) (g : Fin k0_t7_loop.trips) (u : Unit) :
    invO1 d L fh ft fr (OutPart 3 fh ft fr fo) g u
      ⊢ wp frame (wpE (defs₀ (F := F)) 𝒱₀ (thrV d L) none) Set.univ
          (k0_t7_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 lanes g u)
          (invO1 d L fh ft fr (OutPart 3 fh ft fr fo) (g.val + 1)) := by
  have hg : g.val < 8 := lt_of_lt_of_eq g.isLt tripsO_4
  unfold invO1 k0_t7_body
  simp only [Prog.lift, Prog.bind_op, Prog.bind_ret, Prog.pure_eq_ret]
  iintro ⟨Hh, Ht, Hr, %fo', %hfo, Ho⟩
  sl_for (invI1 d L fh ft fr (AccAt fh ft fr g.val)) $$ [Hh Ht Hr]
  case region =>
    intro k acc
    exact inner_4 d L g fh ft fr k acc
  · unfold invI1
    isplitl [Hh]; · iexact Hh
    isplitl [Ht]; · iexact Ht
    isplitl [Hr]; · iexact Hr
    ipureintro; exact accAt_zero_4 fh ft fr g.val
  iintro %acc HI
  unfold invI1
  icases HI with ⟨Hh, Ht, Hr, %hacc⟩
  have ht : Scf.trips k0_t8_loop.lb k0_t8_loop.ub k0_t8_loop.st = 64 := tripsI_4
  rw [ht] at hacc
  unfold outer_4.sl.prog.cont_1
  simp only [Prog.lift, Prog.bind_op, Prog.bind_ret, Prog.pure_eq_ret]
  ihave Ho' := (Entails.of_eq (pts_sOut_access (F := F) d L (Rect.unit (s := S512) (k0_off6 g) S16.size (k0_off6_inb g)) fo').symm) $$ Ho
  iapply (wp_load_rect 𝒱₀ (thrV d L) none Set.univ (m := (sOut : Memref sig .scVector .vmem S512 .f32)) (r := (Rect.unit (s := S512) (k0_off6 g) S16.size (k0_off6_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off6 g) S16.size (k0_off6_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off6 g) S16.size (k0_off6_inb g))) fo' acc Finset.univ)
  isplitr
  · ipureintro
    have ho : k0_off6 g = ![128 * 3 + 16 * g.val] := (k0_off6_eq g).trans (congrArg (fun n : ℕ => (![n] : Fin 1 → ℕ)) (by omega))
    exact outPart_succ 3 fh ft fr fo fo' _ g.val hg acc hfo hacc fun j => write_sOut (k0_off6 g) _ ho (k0_off6_inb g) fo' acc j
  · iapply (Entails.of_eq (pts_sOut_access (F := F) d L (Rect.unit (s := S512) (k0_off6 g) S16.size (k0_off6_inb g)) _)); iexact Ho'

/-- Block number 3 of the subcore's four, scored: the eight groups of sixteen lanes, each by the 64-trip feature loop
    over the block's heads, tails and gathered relation rows; the three scratch buffers are only read, the result
    scratch ends with the block's 128 accumulators in entries `384 … 511`. -/
theorem stage4 [FloatOps F] (d : Dev nD) (L : grid0.Coords)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) :
    iprop(((thrV d L).loc cc0_scratch8 ↦{fullShare} fh) ∗ ((thrV d L).loc cc0_scratch9 ↦{fullShare} ft)
        ∗ ((thrV d L).loc cc0_scratch10 ↦{fullShare} fr) ∗ ((thrV d L).loc cc0_scratch14 ↦{fullShare} fo) : sProp 𝕄)
      ⊢ wp frame (wpE (defs₀ (F := F)) 𝒱₀ (thrV d L) none) Set.univ
          (Scf.Loop.for k0_t7_loop k0_t7_ok ⟨⟩ (k0_t7_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 lanes))
          fun _ => iprop(((thrV d L).loc cc0_scratch8 ↦{fullShare} fh) ∗ ((thrV d L).loc cc0_scratch9 ↦{fullShare} ft)
            ∗ ((thrV d L).loc cc0_scratch10 ↦{fullShare} fr)
            ∗ ∃ fo' : Buf (Elt F) ((thrV d L).loc cc0_scratch14), ⌜Cert.KBlock.OutAfter (F := F) 3 fh ft fr fo fo'⌝
                ∗ ((thrV d L).loc cc0_scratch14 ↦{fullShare} fo')) := by
  iintro ⟨Hh, Ht, Hr, Ho⟩
  sl_for (invO1 d L fh ft fr (OutPart 3 fh ft fr fo)) $$ [Hh Ht Hr Ho]
  case region =>
    intro g u
    exact outer_4 d L fh ft fr fo g u
  isplitl [Hh Ht Hr Ho]
  · unfold invO1
    isplitl [Hh]; · iexact Hh
    isplitl [Ht]; · iexact Ht
    isplitl [Hr]; · iexact Hr
    iexists fo
    isplitr
    · ipureintro; exact outPart_zero 3 fh ft fr fo
    · iexact Ho
  iintro %u HI
  unfold invO1
  icases HI with ⟨Hh, Ht, Hr, %fo', %hfo, Ho⟩
  have ht : Scf.trips k0_t7_loop.lb k0_t7_loop.ub k0_t7_loop.st = 8 := tripsO_4
  rw [ht] at hfo
  isplitl [Hh]; · iexact Hh
  isplitl [Ht]; · iexact Ht
  isplitl [Hr]; · iexact Hr
  iexists fo'
  isplitr
  · ipureintro; exact outPart_done 3 fh ft fr fo fo' hfo
  · iexact Ho

end Cert.Proof.KernelIdealSide

end
-- ==== Proof.KOwn.lean ====
/-
  A vector subcore's own storage, named: its twelve DMA semaphores at zero and its nine scratch buffers at some contents,
  each beside the rest of what the subcore owns.
-/
import proofs.«205660_g30348238913567_cont_9to1_1764_14_alg».proof.Proof.KMem

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The subcore's DMA semaphore `a`, as a cell. -/
abbrev dcell (d : Dev nD) (L : grid0.Coords) (a : DmaSems sig S_) : GSem nD τ sig := (thrV d L, .dma a.sem)

theorem dcell_ne (d : Dev nD) (L : grid0.Coords) {a b : DmaSem sig} (h : a ≠ b) :
    ((thrV d L, SemLoc.dma a) : GSem nD τ sig) ≠ (thrV d L, SemLoc.dma b) :=
  fun e => h (SemLoc.dma.inj (Prod.mk.inj e).2)

/-- The rest of the subcore's own cells, the twelve named ones apart. -/
abbrev semsRest (d : Dev nD) (L : grid0.Coords) : Finset (GSem nD τ sig) :=
  ((((((((((((ownCells (thrV d L)).erase (dcell d L cc0_scratch4)).erase (dcell d L cc0_scratch5)).erase (dcell d L cc0_scratch6)).erase (dcell d L cc0_scratch11)).erase (dcell d L cc0_scratch12)).erase (dcell d L cc0_scratch13)).erase (dcell d L cc0_scoped0)).erase (dcell d L cc0_scoped1)).erase (dcell d L cc0_scoped2)).erase (dcell d L cc0_scoped3)).erase (dcell d L cc0_scoped4)).erase (dcell d L cc0_scoped5)

theorem ownSems0_V (d : Dev nD) (L : grid0.Coords) :
    (ownSems0 (thrV d L) : sProp 𝕄)
      = iprop(semVal (dcell d L cc0_scratch4) 0 ∗ semVal (dcell d L cc0_scratch5) 0 ∗ semVal (dcell d L cc0_scratch6) 0 ∗ semVal (dcell d L cc0_scratch11) 0 ∗ semVal (dcell d L cc0_scratch12) 0 ∗ semVal (dcell d L cc0_scratch13) 0 ∗ semVal (dcell d L cc0_scoped0) 0 ∗ semVal (dcell d L cc0_scoped1) 0 ∗ semVal (dcell d L cc0_scoped2) 0 ∗ semVal (dcell d L cc0_scoped3) 0 ∗ semVal (dcell d L cc0_scoped4) 0 ∗ semVal (dcell d L cc0_scoped5) 0
          ∗ bigSep (semsRest d L) fun g => semVal g 0) := by
  unfold SparseCore.Cfg.ownSems0
  rw [SparseCore.bigSep_erase' ((mem_ownCells (g := dcell d L cc0_scratch4)).mpr ⟨rfl, by show (SemLoc.dma cc0_scratch4.sem : SemLoc sig).isScoped .scVector = true; decide⟩),
    SparseCore.bigSep_erase' (Finset.mem_erase.mpr ⟨dcell_ne d L (by decide : (cc0_scratch5.sem : DmaSem sig) ≠ cc0_scratch4.sem), (mem_ownCells (g := dcell d L cc0_scratch5)).mpr ⟨rfl, by show (SemLoc.dma cc0_scratch5.sem : SemLoc sig).isScoped .scVector = true; decide⟩⟩),
    SparseCore.bigSep_erase' (Finset.mem_erase.mpr ⟨dcell_ne d L (by decide : (cc0_scratch6.sem : DmaSem sig) ≠ cc0_scratch5.sem), Finset.mem_erase.mpr ⟨dcell_ne d L (by decide : (cc0_scratch6.sem : DmaSem sig) ≠ cc0_scratch4.sem), (mem_ownCells (g := dcell d L cc0_scratch6)).mpr ⟨rfl, by show (SemLoc.dma cc0_scratch6.sem : SemLoc sig).isScoped .scVector = true; decide⟩⟩⟩),
    SparseCore.bigSep_erase' (Finset.mem_erase.mpr ⟨dcell_ne d L (by decide : (cc0_scratch11.sem : DmaSem sig) ≠ cc0_scratch6.sem), Finset.mem_erase.mpr ⟨dcell_ne d L (by decide : (cc0_scratch11.sem : DmaSem sig) ≠ cc0_scratch5.sem), Finset.mem_erase.mpr ⟨dcell_ne d L (by decide : (cc0_scratch11.sem : DmaSem sig) ≠ cc0_scratch4.sem), (mem_ownCells (g := dcell d L cc0_scratch11)).mpr ⟨rfl, by show (SemLoc.dma cc0_scratch11.sem : SemLoc sig).isScoped .scVector = true; decide⟩⟩⟩⟩),
    SparseCore.bigSep_erase' (Finset.mem_erase.mpr ⟨dcell_ne d L (by decide : (cc0_scratch12.sem : DmaSem sig) ≠ cc0_scratch11.sem), Finset.mem_erase.mpr ⟨dcell_ne d L (by decide : (cc0_scratch12.sem : DmaSem sig) ≠ cc0_scratch6.sem), Finset.mem_erase.mpr ⟨dcell_ne d L (by decide : (cc0_scratch12.sem : DmaSem sig) ≠ cc0_scratch5.sem), Finset.mem_erase.mpr ⟨dcell_ne d L (by decide : (cc0_scratch12.sem : DmaSem sig) ≠ cc0_scratch4.sem), (mem_ownCells (g := dcell d L cc0_scratch12)).mpr ⟨rfl, by show (SemLoc.dma cc0_scratch12.sem : SemLoc sig).isScoped .scVector = true; decide⟩⟩⟩⟩⟩),
    SparseCore.bigSep_erase' (Finset.mem_erase.mpr ⟨dcell_ne d L (by decide : (cc0_scratch13.sem : DmaSem sig) ≠ cc0_scratch12.sem), Finset.mem_erase.mpr ⟨dcell_ne d L (by decide : (cc0_scratch13.sem : DmaSem sig) ≠ cc0_scratch11.sem), Finset.mem_erase.mpr ⟨dcell_ne d L (by decide : (cc0_scratch13.sem : DmaSem sig) ≠ cc0_scratch6.sem), Finset.mem_erase.mpr ⟨dcell_ne d L (by decide : (cc0_scratch13.sem : DmaSem sig) ≠ cc0_scratch5.sem), Finset.mem_erase.mpr ⟨dcell_ne d L (by decide : (cc0_scratch13.sem : DmaSem sig) ≠ cc0_scratch4.sem), (mem_ownCells (g := dcell d L cc0_scratch13)).mpr ⟨rfl, by show (SemLoc.dma cc0_scratch13.sem : SemLoc sig).isScoped .scVector = true; decide⟩⟩⟩⟩⟩⟩),
    SparseCore.bigSep_erase' (Finset.mem_erase.mpr ⟨dcell_ne d L (by decide : (cc0_scoped0.sem : DmaSem sig) ≠ cc0_scratch13.sem), Finset.mem_erase.mpr ⟨dcell_ne d L (by decide : (cc0_scoped0.sem : DmaSem sig) ≠ cc0_scratch12.sem), Finset.mem_erase.mpr ⟨dcell_ne d L (by decide : (cc0_scoped0.sem : DmaSem sig) ≠ cc0_scratch11.sem), Finset.mem_erase.mpr ⟨dcell_ne d L (by decide : (cc0_scoped0.sem : DmaSem sig) ≠ cc0_scratch6.sem), Finset.mem_erase.mpr ⟨dcell_ne d L (by decide : (cc0_scoped0.sem : DmaSem sig) ≠ cc0_scratch5.sem), Finset.mem_erase.mpr ⟨dcell_ne d L (by decide : (cc0_scoped0.sem : DmaSem sig) ≠ cc0_scratch4.sem), (mem_ownCells (g := dcell d L cc0_scoped0)).mpr ⟨rfl, by show (SemLoc.dma cc0_scoped0.sem : SemLoc sig).isScoped .scVector = true; decide⟩⟩⟩⟩⟩⟩⟩),
    SparseCore.bigSep_erase' (Finset.mem_erase.mpr ⟨dcell_ne d L (by decide : (cc0_scoped1.sem : DmaSem sig) ≠ cc0_scoped0.sem), Finset.mem_erase.mpr ⟨dcell_ne d L (by decide : (cc0_scoped1.sem : DmaSem sig) ≠ cc0_scratch13.sem), Finset.mem_erase.mpr ⟨dcell_ne d L (by decide : (cc0_scoped1.sem : DmaSem sig) ≠ cc0_scratch12.sem), Finset.mem_erase.mpr ⟨dcell_ne d L (by decide : (cc0_scoped1.sem : DmaSem sig) ≠ cc0_scratch11.sem), Finset.mem_erase.mpr ⟨dcell_ne d L (by decide : (cc0_scoped1.sem : DmaSem sig) ≠ cc0_scratch6.sem), Finset.mem_erase.mpr ⟨dcell_ne d L (by decide : (cc0_scoped1.sem : DmaSem sig) ≠ cc0_scratch5.sem), Finset.mem_erase.mpr ⟨dcell_ne d L (by decide : (cc0_scoped1.sem : DmaSem sig) ≠ cc0_scratch4.sem), (mem_ownCells (g := dcell d L cc0_scoped1)).mpr ⟨rfl, by show (SemLoc.dma cc0_scoped1.sem : SemLoc sig).isScoped .scVector = true; decide⟩⟩⟩⟩⟩⟩⟩⟩),
    SparseCore.bigSep_erase' (Finset.mem_erase.mpr ⟨dcell_ne d L (by decide : (cc0_scoped2.sem : DmaSem sig) ≠ cc0_scoped1.sem), Finset.mem_erase.mpr ⟨dcell_ne d L (by decide : (cc0_scoped2.sem : DmaSem sig) ≠ cc0_scoped0.sem), Finset.mem_erase.mpr ⟨dcell_ne d L (by decide : (cc0_scoped2.sem : DmaSem sig) ≠ cc0_scratch13.sem), Finset.mem_erase.mpr ⟨dcell_ne d L (by decide : (cc0_scoped2.sem : DmaSem sig) ≠ cc0_scratch12.sem), Finset.mem_erase.mpr ⟨dcell_ne d L (by decide : (cc0_scoped2.sem : DmaSem sig) ≠ cc0_scratch11.sem), Finset.mem_erase.mpr ⟨dcell_ne d L (by decide : (cc0_scoped2.sem : DmaSem sig) ≠ cc0_scratch6.sem), Finset.mem_erase.mpr ⟨dcell_ne d L (by decide : (cc0_scoped2.sem : DmaSem sig) ≠ cc0_scratch5.sem), Finset.mem_erase.mpr ⟨dcell_ne d L (by decide : (cc0_scoped2.sem : DmaSem sig) ≠ cc0_scratch4.sem), (mem_ownCells (g := dcell d L cc0_scoped2)).mpr ⟨rfl, by show (SemLoc.dma cc0_scoped2.sem : SemLoc sig).isScoped .scVector = true; decide⟩⟩⟩⟩⟩⟩⟩⟩⟩),
    SparseCore.bigSep_erase' (Finset.mem_erase.mpr ⟨dcell_ne d L (by decide : (cc0_scoped3.sem : DmaSem sig) ≠ cc0_scoped2.sem), Finset.mem_erase.mpr ⟨dcell_ne d L (by decide : (cc0_scoped3.sem : DmaSem sig) ≠ cc0_scoped1.sem), Finset.mem_erase.mpr ⟨dcell_ne d L (by decide : (cc0_scoped3.sem : DmaSem sig) ≠ cc0_scoped0.sem), Finset.mem_erase.mpr ⟨dcell_ne d L (by decide : (cc0_scoped3.sem : DmaSem sig) ≠ cc0_scratch13.sem), Finset.mem_erase.mpr ⟨dcell_ne d L (by decide : (cc0_scoped3.sem : DmaSem sig) ≠ cc0_scratch12.sem), Finset.mem_erase.mpr ⟨dcell_ne d L (by decide : (cc0_scoped3.sem : DmaSem sig) ≠ cc0_scratch11.sem), Finset.mem_erase.mpr ⟨dcell_ne d L (by decide : (cc0_scoped3.sem : DmaSem sig) ≠ cc0_scratch6.sem), Finset.mem_erase.mpr ⟨dcell_ne d L (by decide : (cc0_scoped3.sem : DmaSem sig) ≠ cc0_scratch5.sem), Finset.mem_erase.mpr ⟨dcell_ne d L (by decide : (cc0_scoped3.sem : DmaSem sig) ≠ cc0_scratch4.sem), (mem_ownCells (g := dcell d L cc0_scoped3)).mpr ⟨rfl, by show (SemLoc.dma cc0_scoped3.sem : SemLoc sig).isScoped .scVector = true; decide⟩⟩⟩⟩⟩⟩⟩⟩⟩⟩),
    SparseCore.bigSep_erase' (Finset.mem_erase.mpr ⟨dcell_ne d L (by decide : (cc0_scoped4.sem : DmaSem sig) ≠ cc0_scoped3.sem), Finset.mem_erase.mpr ⟨dcell_ne d L (by decide : (cc0_scoped4.sem : DmaSem sig) ≠ cc0_scoped2.sem), Finset.mem_erase.mpr ⟨dcell_ne d L (by decide : (cc0_scoped4.sem : DmaSem sig) ≠ cc0_scoped1.sem), Finset.mem_erase.mpr ⟨dcell_ne d L (by decide : (cc0_scoped4.sem : DmaSem sig) ≠ cc0_scoped0.sem), Finset.mem_erase.mpr ⟨dcell_ne d L (by decide : (cc0_scoped4.sem : DmaSem sig) ≠ cc0_scratch13.sem), Finset.mem_erase.mpr ⟨dcell_ne d L (by decide : (cc0_scoped4.sem : DmaSem sig) ≠ cc0_scratch12.sem), Finset.mem_erase.mpr ⟨dcell_ne d L (by decide : (cc0_scoped4.sem : DmaSem sig) ≠ cc0_scratch11.sem), Finset.mem_erase.mpr ⟨dcell_ne d L (by decide : (cc0_scoped4.sem : DmaSem sig) ≠ cc0_scratch6.sem), Finset.mem_erase.mpr ⟨dcell_ne d L (by decide : (cc0_scoped4.sem : DmaSem sig) ≠ cc0_scratch5.sem), Finset.mem_erase.mpr ⟨dcell_ne d L (by decide : (cc0_scoped4.sem : DmaSem sig) ≠ cc0_scratch4.sem), (mem_ownCells (g := dcell d L cc0_scoped4)).mpr ⟨rfl, by show (SemLoc.dma cc0_scoped4.sem : SemLoc sig).isScoped .scVector = true; decide⟩⟩⟩⟩⟩⟩⟩⟩⟩⟩⟩),
    SparseCore.bigSep_erase' (Finset.mem_erase.mpr ⟨dcell_ne d L (by decide : (cc0_scoped5.sem : DmaSem sig) ≠ cc0_scoped4.sem), Finset.mem_erase.mpr ⟨dcell_ne d L (by decide : (cc0_scoped5.sem : DmaSem sig) ≠ cc0_scoped3.sem), Finset.mem_erase.mpr ⟨dcell_ne d L (by decide : (cc0_scoped5.sem : DmaSem sig) ≠ cc0_scoped2.sem), Finset.mem_erase.mpr ⟨dcell_ne d L (by decide : (cc0_scoped5.sem : DmaSem sig) ≠ cc0_scoped1.sem), Finset.mem_erase.mpr ⟨dcell_ne d L (by decide : (cc0_scoped5.sem : DmaSem sig) ≠ cc0_scoped0.sem), Finset.mem_erase.mpr ⟨dcell_ne d L (by decide : (cc0_scoped5.sem : DmaSem sig) ≠ cc0_scratch13.sem), Finset.mem_erase.mpr ⟨dcell_ne d L (by decide : (cc0_scoped5.sem : DmaSem sig) ≠ cc0_scratch12.sem), Finset.mem_erase.mpr ⟨dcell_ne d L (by decide : (cc0_scoped5.sem : DmaSem sig) ≠ cc0_scratch11.sem), Finset.mem_erase.mpr ⟨dcell_ne d L (by decide : (cc0_scoped5.sem : DmaSem sig) ≠ cc0_scratch6.sem), Finset.mem_erase.mpr ⟨dcell_ne d L (by decide : (cc0_scoped5.sem : DmaSem sig) ≠ cc0_scratch5.sem), Finset.mem_erase.mpr ⟨dcell_ne d L (by decide : (cc0_scoped5.sem : DmaSem sig) ≠ cc0_scratch4.sem), (mem_ownCells (g := dcell d L cc0_scoped5)).mpr ⟨rfl, by show (SemLoc.dma cc0_scoped5.sem : SemLoc sig).isScoped .scVector = true; decide⟩⟩⟩⟩⟩⟩⟩⟩⟩⟩⟩⟩)]

/-- The rest of the subcore's own buffers, the nine named ones apart. -/
abbrev bufsRest (L : grid0.Coords) : Finset (DevRef τ sig) :=
  (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10)).erase ((Proc.scVector (cV L) (jV L)).devRef cc0_scratch14)

theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch7 ↦{fullShare} f) ∗ (∃ f, (thrV d L).loc cc0_scratch8 ↦{fullShare} f) ∗ (∃ f, (thrV d L).loc cc0_scratch9 ↦{fullShare} f) ∗ (∃ f, (thrV d L).loc cc0_scratch10 ↦{fullShare} f) ∗ (∃ f, (thrV d L).loc cc0_scratch14 ↦{fullShare} f)
          ∗ bigSep (bufsRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩),
    SparseCore.bigSep_erase' (Finset.mem_erase.mpr ⟨fun e => absurd (Proc.devRef_injective _ e) (show (cc0_scratch10 : Ref sig .scVector) ≠ cc0_scratch9 by decide), Finset.mem_erase.mpr ⟨fun e => absurd (Proc.devRef_injective _ e) (show (cc0_scratch10 : Ref sig .scVector) ≠ cc0_scratch8 by decide), Finset.mem_erase.mpr ⟨fun e => absurd (Proc.devRef_injective _ e) (show (cc0_scratch10 : Ref sig .scVector) ≠ cc0_scratch7 by decide), Finset.mem_erase.mpr ⟨fun e => absurd (Proc.devRef_injective _ e) (show (cc0_scratch10 : Ref sig .scVector) ≠ cc0_scratch3 by decide), Finset.mem_erase.mpr ⟨fun e => absurd (Proc.devRef_injective _ e) (show (cc0_scratch10 : Ref sig .scVector) ≠ cc0_scratch2 by decide), Finset.mem_erase.mpr ⟨fun e => absurd (Proc.devRef_injective _ e) (show (cc0_scratch10 : Ref sig .scVector) ≠ cc0_scratch1 by decide), Finset.mem_erase.mpr ⟨fun e => absurd (Proc.devRef_injective _ e) (show (cc0_scratch10 : Ref sig .scVector) ≠ cc0_scratch0 by decide), SparseCore.Cfg.mem_ownRefs_of_owner (p := Proc.scVector (cV L) (jV L)) (b := (Proc.scVector (cV L) (jV L)).devRef cc0_scratch10) rfl⟩⟩⟩⟩⟩⟩⟩),
    SparseCore.bigSep_erase' (Finset.mem_erase.mpr ⟨fun e => absurd (Proc.devRef_injective _ e) (show (cc0_scratch14 : Ref sig .scVector) ≠ cc0_scratch10 by decide), Finset.mem_erase.mpr ⟨fun e => absurd (Proc.devRef_injective _ e) (show (cc0_scratch14 : Ref sig .scVector) ≠ cc0_scratch9 by decide), Finset.mem_erase.mpr ⟨fun e => absurd (Proc.devRef_injective _ e) (show (cc0_scratch14 : Ref sig .scVector) ≠ cc0_scratch8 by decide), Finset.mem_erase.mpr ⟨fun e => absurd (Proc.devRef_injective _ e) (show (cc0_scratch14 : Ref sig .scVector) ≠ cc0_scratch7 by decide), Finset.mem_erase.mpr ⟨fun e => absurd (Proc.devRef_injective _ e) (show (cc0_scratch14 : Ref sig .scVector) ≠ cc0_scratch3 by decide), Finset.mem_erase.mpr ⟨fun e => absurd (Proc.devRef_injective _ e) (show (cc0_scratch14 : Ref sig .scVector) ≠ cc0_scratch2 by decide), Finset.mem_erase.mpr ⟨fun e => absurd (Proc.devRef_injective _ e) (show (cc0_scratch14 : Ref sig .scVector) ≠ cc0_scratch1 by decide), Finset.mem_erase.mpr ⟨fun e => absurd (Proc.devRef_injective _ e) (show (cc0_scratch14 : Ref sig .scVector) ≠ cc0_scratch0 by decide), SparseCore.Cfg.mem_ownRefs_of_owner (p := Proc.scVector (cV L) (jV L)) (b := (Proc.scVector (cV L) (jV L)).devRef cc0_scratch14) rfl⟩⟩⟩⟩⟩⟩⟩⟩)]

end Cert.Proof.KernelIdealSide

end
-- ==== Proof.KBar.lean ====
/-
  The barrier, from one subcore's side: what it presents on arriving (subcore 0, every subcore's share of the shared
  table; the others, nothing) and what it reads on leaving (its own share of the shared table, holding the padded table).
-/
import proofs.«205660_g30348238913567_cont_9to1_1764_14_alg».proof.Proof.KMem
import proofs.«205660_g30348238913567_cont_9to1_1764_14_alg».proof.Proof.KOwn

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- Whether the subcore is its SparseCore's subcore 0, as the kernel's test computes it: not for a positive number. -/
theorem cond_pos : ∀ x : Fin 16, x.val ≠ 0 →
    ¬ (Scalar.cmpi .ne (Scalar.extui (Scalar.cmpi .eq (BitVec.ofNat 32 x.val) 0#32) : BitVec 32) 0#32 = 1#1) := by decide
/-- and so for number 0. -/
theorem cond_zero : ∀ x : Fin 16, x.val = 0 →
    (Scalar.cmpi .ne (Scalar.extui (Scalar.cmpi .eq (BitVec.ofNat 32 x.val) 0#32) : BitVec 32) 0#32 = 1#1) := by decide

variable [FloatOps F]

omit [FloatOps F] in
theorem sep_insert_emp {A B : sProp 𝕄} : iprop(A ∗ B) ⊢ iprop(A ∗ emp ∗ B) := by
  iintro ⟨A, B⟩
  isplitl [A]; · iexact A
  isplitr; · iempintro
  iexact B
omit [FloatOps F] in
theorem sep_insert_mid {A B C : sProp 𝕄} : iprop((A ∗ B) ∗ C) ⊢ iprop(A ∗ C ∗ B) := by
  iintro ⟨⟨A, B⟩, C⟩
  isplitl [A]; · iexact A
  isplitl [C]; · iexact C
  iexact B

/-- A subcore other than 0 presents nothing with its arrivals. -/
theorem duty_pay_emp (d : Dev nD) (L : grid0.Coords) (h0 : (jV L).val ≠ 0) :
    (bigSep Finset.univ fun j : Fin (grid0.bound 1) => iprop(dutyTok EB (bcell d (cV L) (j.castLE hsub0)) 0 (jV L).val
        ∗ reached EB (bcell d (cV L) (j.castLE hsub0)) 0) : sProp 𝕄)
      ⊢ bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) := by
  refine bigSep_mono fun j _ => ?_
  obtain ⟨n, hn⟩ := Nat.exists_eq_succ_of_ne_zero h0
  rw [hn, bRd_payload_succ]
  exact sep_insert_emp

/-- Subcore 0 presents, with its arrival at subcore `j`, `j`'s share of the shared table. -/
theorem duty_pay_zero (d : Dev nD) (L : grid0.Coords) (h0 : (jV L).val = 0) :
    iprop((bigSep Finset.univ fun j : Fin (grid0.bound 1) => iprop(dutyTok EB (bcell d (cV L) (j.castLE hsub0)) 0 (jV L).val
        ∗ reached EB (bcell d (cV L) (j.castLE hsub0)) 0))
      ∗ (bigSep Finset.univ fun j : Fin (grid0.bound 1) => shLoc d (cV L) ↦{shTok (j.castLE hsub0)} RPsh m d (cV L)) : sProp 𝕄)
      ⊢ bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) := by
  rw [← bigSep_sep']
  refine bigSep_mono fun j _ => ?_
  rw [h0, bRd_payload_zero]
  exact sep_insert_mid

/-- What a subcore reads on leaving the barrier: its share of the shared table, holding the padded table. -/
theorem own_share (d : Dev nD) (c : Fin τ.nSC) (j : Fin τ.nSub) :
    bigSep ((bRd (F := F) m).duties (bcell d c j) 0 \ ∅) (fun n => (bRd (F := F) m).payload (bcell d c j) 0 n)
      ⊢ (shLoc d c ↦{shTok j} RPsh m d c : sProp 𝕄) := by
  rw [Finset.sdiff_empty]
  refine (bigSep_elim (bRd_mem₀ m d c j ⟨0, by decide⟩)).trans ?_
  exact Entails.of_eq (bRd_payload_zero m d c j)

end Cert.Proof.KernelIdealSide

end
-- ==== Proof.KIdx.lean ====
/-
  Every index word a subcore fetches names a row of the relation table: the offsets of an indexed copy are in range.
-/
import proofs.«205660_g30348238913567_cont_9to1_1764_14_alg».proof.Proof.KMem

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- A block of 128 index words, read off the index array: every word is below the table's 1000 rows. -/
theorem idx_lt (hpre : PreOK m) (d : Dev nD) (off : Fin 1 → Nat) (h : ∀ a, off a + S128.size a ≤ S16384.size a) (x : S128.Idx) :
    (View.read (Elt F) (aID.slice (Rect.unit (s := S16384) off S128.size h) (fun _ => rfl)).view (m (a1Loc d)) x).toNat
      < S1000x128.size (gathers_S1000x128_S128x128).axis := by
  rw [View.read_apply, cast_eq]
  exact Nat.lt_of_le_of_lt (hpre d _) (by decide)

end Cert.Proof.KernelIdealSide

end
-- ==== Proof.KOut.lean ====
/-
  A subcore's block of the result array, as the program slices it: the 512 entries from `512 · (2 i + c)` on.
-/
import proofs.«205660_g30348238913567_cont_9to1_1764_14_alg».proof.Proof.KMem
import proofs.«205660_g30348238913567_cont_9to1_1764_14_alg».proof.Proof.KOwn

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The block of the result subcore `L` writes, as its copy-out addresses it. -/
abbrev oSl (L : grid0.Coords) : Memref sig .scVector .hbm S512 .f32 :=
  aO.slice (Rect.unit (s := S16384) (k0_off7 L) S512.size (k0_off7_inb L)) (fun _ => rfl)

theorem oRect_eq (L : grid0.Coords) : Rect.unit (s := S16384) (k0_off7 L) S512.size (k0_off7_inb L) = oRect (wid (cV L) (jV L)) := by
  unfold oRect Rect.part Rect.block
  congr 1 <;> funext a
  · rw [k0_off7_eq]
    match a with
    | 0 => simp [Shape.partIx, Shape.partSize, wid]; omega
  · match a with
    | 0 => simp [Shape.partSize]

theorem set_oSl (L : grid0.Coords) : (oSl L).view.set = oSet (wid (cV L) (jV L)) := by
  show ((View.whole (main_v3_scv : Ref sig .scVector)).slice _).set = _
  rw [View.set_slice, oRect_eq]; exact Finset.map_refl

theorem pts_oSl (d : Dev nD) (L : grid0.Coords) (f : Buf (Elt F) (oLoc d)) :
    ((oSl L).view.loc (thrV d L) ↦[(oSl L).view.set]{fullShare} f : sProp 𝕄) = oLoc d ↦[oSet (wid (cV L) (jV L))]{fullShare} f := by
  rw [set_oSl]

end Cert.Proof.KernelIdealSide

end
-- ==== Proof.LibGatherPayload.lean ====
/-
  An indirect row gather read at an index.

  A gather along axis 0 fills row `r` of its destination [o, C] with row `idx[r]` of its source [z, C], `idx` a list of
  `o` words each below `z`. This module proves, for all extents `z`, `o`, `C` and any evidence of the shape relation:
  * `rows_rank1`: entry `k` of the rows a rank-one list names (`SparseCore.rows`) is the list's word at `k`, read unsigned;
  * `gatherPayload_rank2_apply`: the gather's payload (`SparseCore.gatherPayload` over those rows) at (r, j) is the source
    at row `(idx r).toNat`, column `j`.
-/
import Idealize.ShloMosaic.Lib.SparseCore.Stream
import Idealize.ShloMosaic.Lib.ValueIdx

noncomputable section

namespace Cert.LibGatherPayload

open Idealize.ShloMosaic Idealize.ShloMosaic.ValueIdx Idealize.ShloMosaic.SparseCore

variable {F : FTy → Type} {e : EltTy}

/-- Entry `k` of the rows a rank-one list names is the list's word at `k`. -/
theorem rows_rank1 {o z : ℕ} (idx : (⟨1, ![o]⟩ : Shape).Idx → Elt F .i32) (hn : (⟨1, ![o]⟩ : Shape).numel = o)
    (h : ∀ x, (idx x).toNat < z) (k : Fin o) : (rows idx hn h k).val = (idx (ix1 k)).toNat := by
  unfold rows
  show (idx _).toNat = _
  congr 2
  rw [Equiv.symm_apply_eq]
  exact Fin.ext (by rw [Shape.rowMajor_val_one]; rfl)

/-- THE ROW GATHER READ AT (r, j): the source at the row the list's word `r` names, column `j`. -/
theorem gatherPayload_rank2_apply {z o C : ℕ} (hg : (⟨2, ![z, C]⟩ : Shape).Gathers 0 ⟨2, ![o, C]⟩)
    (g : (⟨2, ![z, C]⟩ : Shape).Idx → Elt F e) (idx : (⟨1, ![o]⟩ : Shape).Idx → Elt F .i32)
    (hn : (⟨1, ![o]⟩ : Shape).numel = (⟨2, ![o, C]⟩ : Shape).size hg.axis')
    (h : ∀ x, (idx x).toNat < (⟨2, ![z, C]⟩ : Shape).size hg.axis) (r : Fin o) (j : Fin C) :
    gatherPayload hg g (rows idx hn h) (ix2 r j) = g (ix2 (⟨(idx (ix1 r)).toNat, h _⟩ : Fin z) j) := by
  unfold gatherPayload
  refine congrArg g (funext fun b => Fin.ext ?_)
  match b with
  | ⟨0, hb⟩ =>
    show (hg.idx (rows idx hn h) (ix2 r j) hg.axis).val = _
    rw [Shape.Gathers.idx_axis]
    exact rows_rank1 idx hn h _
  | ⟨1, hb⟩ =>
    exact Shape.Gathers.idx_of_ne hg (rows idx hn h) (ix2 r j) ⟨1, hb⟩ Nat.one_ne_zero

end Cert.LibGatherPayload

end
-- ==== Proof.KContents.lean ====
/-
  What a subcore's scratch buffers hold after its copies, read at an index: a block of columns of a transposed batch,
  a block of index words, and the rows an indexed copy gathered out of the shared table.
-/
import proofs.«205660_g30348238913567_cont_9to1_1764_14_alg».proof.Proof.KMem
import proofs.«205660_g30348238913567_cont_9to1_1764_14_alg».proof.Proof.LibGatherPayload

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ)

/-- A block of 128 columns of the transposed heads, read off the array: entry `(c, r)` of the block is entry `(c, B + r)` of the array. -/
theorem ht_block (d : Dev nD) (off : Fin 2 → Nat) (h : ∀ a, off a + S64x128.size a ≤ S64x16384.size a) (B : ℕ) (hoff : off = ![0, B])
    (hB : B + 128 ≤ 16384) (f : Buf (Elt F) (htLoc d)) (c : Fin 64) (r : Fin 128) :
    (ReadAs.same.apply (View.read (Elt F) (aHT.slice (Rect.unit (s := S64x16384) off S64x128.size h) (fun _ => rfl)).view f)) (ix2 c r)
      = f (ix2 c (⟨B + r.val, by have := r.isLt; omega⟩ : Fin 16384)) := by
  subst hoff
  dsimp only [ReadAs.apply]
  rw [View.read_apply, cast_eq]
  refine congrArg f (funext fun a => Fin.ext ?_)
  match a with
  | ⟨0, _⟩ => show 0 + 1 * c.val = c.val; omega
  | ⟨1, _⟩ => show B + 1 * r.val = B + r.val; omega

/-- A block of 128 columns of the transposed tails, read off the array: entry `(c, r)` of the block is entry `(c, B + r)` of the array. -/
theorem tt_block (d : Dev nD) (off : Fin 2 → Nat) (h : ∀ a, off a + S64x128.size a ≤ S64x16384.size a) (B : ℕ) (hoff : off = ![0, B])
    (hB : B + 128 ≤ 16384) (f : Buf (Elt F) (ttLoc d)) (c : Fin 64) (r : Fin 128) :
    (ReadAs.same.apply (View.read (Elt F) (aTT.slice (Rect.unit (s := S64x16384) off S64x128.size h) (fun _ => rfl)).view f)) (ix2 c r)
      = f (ix2 c (⟨B + r.val, by have := r.isLt; omega⟩ : Fin 16384)) := by
  subst hoff
  dsimp only [ReadAs.apply]
  rw [View.read_apply, cast_eq]
  refine congrArg f (funext fun a => Fin.ext ?_)
  match a with
  | ⟨0, _⟩ => show 0 + 1 * c.val = c.val; omega
  | ⟨1, _⟩ => show B + 1 * r.val = B + r.val; omega

/-- A block of 128 index words, read off the index array: word `r` of the block is word `B + r` of the array. -/
theorem id_block (d : Dev nD) (off : Fin 1 → Nat) (h : ∀ a, off a + S128.size a ≤ S16384.size a) (B : ℕ) (hoff : off = ![B])
    (hB : B + 128 ≤ 16384) (f : Buf (Elt F) (a1Loc d)) (r : Fin 128) :
    (ReadAs.same.apply (View.read (Elt F) (aID.slice (Rect.unit (s := S16384) off S128.size h) (fun _ => rfl)).view f)) (ix1 r)
      = f (ix1 (⟨B + r.val, by have := r.isLt; omega⟩ : Fin 16384)) := by
  subst hoff
  dsimp only [ReadAs.apply]
  rw [View.read_apply, cast_eq]
  refine congrArg f (funext fun a => Fin.ext ?_)
  match a with
  | ⟨0, _⟩ => show B + 1 * r.val = B + r.val; omega

/-- The rows an indexed copy gathers out of the shared table: row `r` of the destination is the table's row the index
    word `r` names. -/
theorem gather_apply (d : Dev nD) (c : Fin τ.nSC) (f : Buf (Elt F) (shLoc d c)) (idx : S128.Idx → Elt F .i32)
    (hn : S128.numel = S128x128.size (gathers_S1000x128_S128x128).axis')
    (hin : ∀ x, (idx x).toNat < S1000x128.size (gathers_S1000x128_S128x128).axis) (r : Fin 128) (j : Fin 128) :
    SparseCore.gatherPayload gathers_S1000x128_S128x128
        (View.read (Elt F) (sSh.slice (Rect.unit (s := S1000x128) ![0, 0] S1000x128.size inb_S1000x128_S1000x128_0_0) (fun _ => rfl)).view f)
        (SparseCore.rows idx hn hin) (ix2 r j)
      = f (ix2 (⟨(idx (ix1 r)).toNat, hin _⟩ : Fin 1000) j) := by
  rw [Cert.LibGatherPayload.gatherPayload_rank2_apply (F := F) (z := 1000) (o := 128) (C := 128)]
  rw [View.read_apply, cast_eq]
  refine congrArg f (funext fun a => Fin.ext ?_)
  match a with
  | ⟨0, _⟩ => show 0 + 1 * (idx (ix1 r)).toNat = (idx (ix1 r)).toNat; omega
  | ⟨1, _⟩ => show 0 + 1 * j.val = j.val; omega

/-- The gathered rows against the padded table: when the index list holds words `B … B + 127` of the index array, every
    one of them below 1000, row `r` of the destination is the padded table's row named by word `B + r`. -/
theorem gathered_row [FloatOps F] (hpre : PreOK m) (d : Dev nD) (c : Fin τ.nSC) (idx : S128.Idx → Elt F .i32)
    (hn : S128.numel = S128x128.size (gathers_S1000x128_S128x128).axis')
    (hin : ∀ x, (idx x).toNat < S1000x128.size (gathers_S1000x128_S128x128).axis) (B : ℕ) (hB : B + 128 ≤ 16384)
    (hidx : ∀ r : Fin 128, idx (ix1 r) = m (a1Loc d) (ix1 (⟨B + r.val, by have := r.isLt; omega⟩ : Fin 16384))) (r : Fin 128) (j : Fin 128) :
    SparseCore.gatherPayload gathers_S1000x128_S128x128
        (View.read (Elt F) (sSh.slice (Rect.unit (s := S1000x128) ![0, 0] S1000x128.size inb_S1000x128_S1000x128_0_0) (fun _ => rfl)).view (RPsh m d c))
        (SparseCore.rows idx hn hin) (ix2 r j)
      = RPv m d (ix2 (Cert.Spec.relRow (m (a1Loc d) (ix1 (⟨B + r.val, by have := r.isLt; omega⟩ : Fin 16384)))) j) := by
  rw [gather_apply]
  show Cert.KVal.RP (F := F) (m (a3Loc d)) _ = Cert.KVal.RP (F := F) (m (a3Loc d)) _
  refine congrArg (Cert.KVal.RP (F := F) (m (a3Loc d))) (congrArg (fun a => ix2 a j) (Fin.ext ?_))
  show (idx (ix1 r)).toNat = (Cert.Spec.relRow _).val
  rw [hidx r, Cert.Spec.relRow_val_of_le _ (hpre d _)]

/-- What the gathered-rows scratch holds once a gather has filled it whole: the gather's payload. -/
theorem sR0_head (f : (sR0 : Memref sig .scVector .vmem S128x128 .f32).view.ty.Contents (Elt F)) (g : S128x128.Idx → Elt F .f32)
    (Lst : List (View.Piece (Elt F) S128x128 .f32)) (y : S128x128.Idx) :
    ((sR0 : Memref sig .scVector .vmem S128x128 .f32).view.writes (Elt F) f (⟨Rect.whole S128x128, g⟩ :: Lst)) y = g y := by
  have h := View.read_writes_cons_emb (v := (sR0 : Memref sig .scVector .vmem S128x128 .f32).view) (f := f) (Rect.whole S128x128) g Lst y
  rw [Rect.emb_whole_apply] at h
  exact h

/-- What the gathered-rows scratch holds once a gather has filled it whole: the gather's payload. -/
theorem sR1_head (f : (sR1 : Memref sig .scVector .vmem S128x128 .f32).view.ty.Contents (Elt F)) (g : S128x128.Idx → Elt F .f32)
    (Lst : List (View.Piece (Elt F) S128x128 .f32)) (y : S128x128.Idx) :
    ((sR1 : Memref sig .scVector .vmem S128x128 .f32).view.writes (Elt F) f (⟨Rect.whole S128x128, g⟩ :: Lst)) y = g y := by
  have h := View.read_writes_cons_emb (v := (sR1 : Memref sig .scVector .vmem S128x128 .f32).view) (f := f) (Rect.whole S128x128) g Lst y
  rw [Rect.emb_whole_apply] at h
  exact h

end Cert.Proof.KernelIdealSide

end
-- ==== Proof.KBlockVal.lean ====
/-
  A block's accumulators are the whole batch's: when a subcore's block holds columns `base … base + 127` of the
  transposed heads and tails and the relation rows their index words name, and `base` is a multiple of sixteen (so a
  triple sits in the same lane of its group in the block and in the batch), the block's accumulator of triple `r` after
  any number of trips is the batch's accumulator of triple `base + r`.
-/
import proofs.«205660_g30348238913567_cont_9to1_1764_14_alg».proof.Proof.KVal
import proofs.«205660_g30348238913567_cont_9to1_1764_14_alg».proof.Proof.KBlock

noncomputable section

namespace Cert.KBlock

open Idealize.ShloMosaic Idealize.ShloMosaic.ValueIdx Cert.Spec Cert.KVal

variable {F : FTy → Type} [FloatOps F]

theorem lcol_eq_col (base : ℕ) (hb : 16 ∣ base) (r : Fin 128) (hlt : base + r.val < 16384) (k : ℕ) :
    lcol r k = col ⟨base + r.val, hlt⟩ k := by
  apply Fin.ext
  show (r.val % 16 + k) % 64 = ((base + r.val) % 16 + k) % 64
  obtain ⟨q, rfl⟩ := hb
  rw [Nat.mul_add_mod]

theorem lcolW_eq_colW (base : ℕ) (hb : 16 ∣ base) (r : Fin 128) (hlt : base + r.val < 16384) (k : ℕ) :
    lcolW r k = colW ⟨base + r.val, hlt⟩ k := by
  apply Fin.ext
  show (r.val % 16 + k) % 64 = ((base + r.val) % 16 + k) % 64
  obtain ⟨q, rfl⟩ := hb
  rw [Nat.mul_add_mod]

/-- The block's accumulator of triple `r` is the batch's accumulator of triple `base + r`. -/
theorem lacc_eq_accAt (ht tt : FVec F SDB .f32) (rp : FVec F SRP .f32) (idx : IVec SB 32)
    (fh ft : FVec F SHB .f32) (fr : FVec F SRB .f32) (base : ℕ) (hb : 16 ∣ base) (hbase : base + 128 ≤ 16384)
    (hH : ∀ (c : Fin 64) (r : Fin 128), fh (ix2 c r) = ht (ix2 c (⟨base + r.val, by have := r.isLt; omega⟩ : Fin 16384)))
    (hT : ∀ (c : Fin 64) (r : Fin 128), ft (ix2 c r) = tt (ix2 c (⟨base + r.val, by have := r.isLt; omega⟩ : Fin 16384)))
    (hR : ∀ (r : Fin 128) (c : Fin 128),
      fr (ix2 r c) = rp (ix2 (relRow (idx (ix1 (⟨base + r.val, by have := r.isLt; omega⟩ : Fin 16384)))) c))
    (r : Fin 128) : ∀ n, lacc fh ft fr r n = accAt ht tt rp idx ⟨base + r.val, by have := r.isLt; omega⟩ n
  | 0 => rfl
  | n + 1 => by
    show FloatOps.addf (lacc fh ft fr r n) (lterm fh ft fr r n) = FloatOps.addf (accAt ht tt rp idx _ n) (term ht tt rp idx _ n)
    rw [lacc_eq_accAt ht tt rp idx fh ft fr base hb hbase hH hT hR r n]
    congr 1
    unfold lterm term
    rw [hH, hT, hR, lcol_eq_col base hb r _ n, lcolW_eq_colW base hb r _ n]

/-- A subcore's 512 results are the batch's accumulators of its 512 triples: the four blocks scored one after the other,
    each leaving its 128 accumulators in its quarter of the result scratch and the other quarters as they were. -/
theorem out_val (ht tt : FVec F SDB .f32) (rp : FVec F SRP .f32) (idx : IVec SB 32)
    (hs ts : Fin 4 → FVec F SHB .f32) (rs : Fin 4 → FVec F SRB .f32) (base : ℕ) (hb : 16 ∣ base) (hbase : base + 512 ≤ 16384)
    (hH : ∀ (k : Fin 4) (c : Fin 64) (r : Fin 128),
      hs k (ix2 c r) = ht (ix2 c (⟨base + 128 * k.val + r.val, by have := r.isLt; have := k.isLt; omega⟩ : Fin 16384)))
    (hT : ∀ (k : Fin 4) (c : Fin 64) (r : Fin 128),
      ts k (ix2 c r) = tt (ix2 c (⟨base + 128 * k.val + r.val, by have := r.isLt; have := k.isLt; omega⟩ : Fin 16384)))
    (hR : ∀ (k : Fin 4) (r : Fin 128) (c : Fin 128),
      rs k (ix2 r c) = rp (ix2 (relRow (idx (ix1 (⟨base + 128 * k.val + r.val, by have := r.isLt; have := k.isLt; omega⟩ : Fin 16384)))) c))
    (fo fo1 fo2 fo3 fo4 : FVec F SOB .f32)
    (H1 : OutAfter 0 (hs 0) (ts 0) (rs 0) fo fo1) (H2 : OutAfter 1 (hs 1) (ts 1) (rs 1) fo1 fo2)
    (H3 : OutAfter 2 (hs 2) (ts 2) (rs 2) fo2 fo3) (H4 : OutAfter 3 (hs 3) (ts 3) (rs 3) fo3 fo4) (j : Fin 512) :
    fo4 (ix1 j) = accAt ht tt rp idx (⟨base + j.val, by have := j.isLt; omega⟩ : Fin 16384) 64 := by
  have key : ∀ (k : Fin 4) (r : Fin 128), lacc (hs k) (ts k) (rs k) r 64
      = accAt ht tt rp idx (⟨base + 128 * k.val + r.val, by have := r.isLt; have := k.isLt; omega⟩ : Fin 16384) 64 := fun k r =>
    lacc_eq_accAt ht tt rp idx (hs k) (ts k) (rs k) (base + 128 * k.val)
      (Dvd.dvd.add hb (Dvd.dvd.mul_right (by decide : (16 : ℕ) ∣ 128) _)) (by have := k.isLt; omega) (hH k) (hT k) (hR k) r 64
  have e4 := H4 j; have e3 := H3 j; have e2 := H2 j; have e1 := H1 j
  by_cases h3 : 384 ≤ j.val
  · rw [dif_pos ⟨by omega, by have := j.isLt; omega⟩] at e4
    rw [e4, key 3]
    refine congrArg (fun b => accAt ht tt rp idx b 64) (Fin.ext ?_); show base + 128 * 3 + (j.val - 128 * 3) = base + j.val; omega
  · rw [dif_neg (by omega)] at e4
    by_cases h2 : 256 ≤ j.val
    · rw [dif_pos ⟨by omega, by omega⟩] at e3
      rw [e4, e3, key 2]
      refine congrArg (fun b => accAt ht tt rp idx b 64) (Fin.ext ?_); show base + 128 * 2 + (j.val - 128 * 2) = base + j.val; omega
    · rw [dif_neg (by omega)] at e3
      by_cases h1 : 128 ≤ j.val
      · rw [dif_pos ⟨by omega, by omega⟩] at e2
        rw [e4, e3, e2, key 1]
        refine congrArg (fun b => accAt ht tt rp idx b 64) (Fin.ext ?_); show base + 128 * 1 + (j.val - 128 * 1) = base + j.val; omega
      · rw [dif_neg (by omega)] at e2
        rw [dif_pos ⟨by omega, by omega⟩] at e1
        rw [e4, e3, e2, e1, key 0]
        refine congrArg (fun b => accAt ht tt rp idx b 64) (Fin.ext ?_); show base + 128 * 0 + (j.val - 128 * 0) = base + j.val; omega

/-- The same, the four blocks' contents given one by one. -/
theorem out_val4 (ht tt : FVec F SDB .f32) (rp : FVec F SRP .f32) (idx : IVec SB 32)
    (h0 h1 h2 h3 t0 t1 t2 t3 : FVec F SHB .f32) (r0 r1 r2 r3 : FVec F SRB .f32) (base : ℕ) (hb : 16 ∣ base) (hbase : base + 512 ≤ 16384)
    (hH0 : ∀ (c : Fin 64) (r : Fin 128), h0 (ix2 c r) = ht (ix2 c (⟨base + 128 * 0 + r.val, by have := r.isLt; omega⟩ : Fin 16384)))
    (hH1 : ∀ (c : Fin 64) (r : Fin 128), h1 (ix2 c r) = ht (ix2 c (⟨base + 128 * 1 + r.val, by have := r.isLt; omega⟩ : Fin 16384)))
    (hH2 : ∀ (c : Fin 64) (r : Fin 128), h2 (ix2 c r) = ht (ix2 c (⟨base + 128 * 2 + r.val, by have := r.isLt; omega⟩ : Fin 16384)))
    (hH3 : ∀ (c : Fin 64) (r : Fin 128), h3 (ix2 c r) = ht (ix2 c (⟨base + 128 * 3 + r.val, by have := r.isLt; omega⟩ : Fin 16384)))
    (hT0 : ∀ (c : Fin 64) (r : Fin 128), t0 (ix2 c r) = tt (ix2 c (⟨base + 128 * 0 + r.val, by have := r.isLt; omega⟩ : Fin 16384)))
    (hT1 : ∀ (c : Fin 64) (r : Fin 128), t1 (ix2 c r) = tt (ix2 c (⟨base + 128 * 1 + r.val, by have := r.isLt; omega⟩ : Fin 16384)))
    (hT2 : ∀ (c : Fin 64) (r : Fin 128), t2 (ix2 c r) = tt (ix2 c (⟨base + 128 * 2 + r.val, by have := r.isLt; omega⟩ : Fin 16384)))
    (hT3 : ∀ (c : Fin 64) (r : Fin 128), t3 (ix2 c r) = tt (ix2 c (⟨base + 128 * 3 + r.val, by have := r.isLt; omega⟩ : Fin 16384)))
    (hR0 : ∀ (r : Fin 128) (c : Fin 128), r0 (ix2 r c) = rp (ix2 (relRow (idx (ix1 (⟨base + 128 * 0 + r.val, by have := r.isLt; omega⟩ : Fin 16384)))) c))
    (hR1 : ∀ (r : Fin 128) (c : Fin 128), r1 (ix2 r c) = rp (ix2 (relRow (idx (ix1 (⟨base + 128 * 1 + r.val, by have := r.isLt; omega⟩ : Fin 16384)))) c))
    (hR2 : ∀ (r : Fin 128) (c : Fin 128), r2 (ix2 r c) = rp (ix2 (relRow (idx (ix1 (⟨base + 128 * 2 + r.val, by have := r.isLt; omega⟩ : Fin 16384)))) c))
    (hR3 : ∀ (r : Fin 128) (c : Fin 128), r3 (ix2 r c) = rp (ix2 (relRow (idx (ix1 (⟨base + 128 * 3 + r.val, by have := r.isLt; omega⟩ : Fin 16384)))) c))
    (fo fo1 fo2 fo3 fo4 : FVec F SOB .f32)
    (H1 : OutAfter 0 h0 t0 r0 fo fo1) (H2 : OutAfter 1 h1 t1 r1 fo1 fo2)
    (H3 : OutAfter 2 h2 t2 r2 fo2 fo3) (H4 : OutAfter 3 h3 t3 r3 fo3 fo4) (j : Fin 512) :
    fo4 (ix1 j) = accAt ht tt rp idx (⟨base + j.val, by have := j.isLt; omega⟩ : Fin 16384) 64 :=
  out_val ht tt rp idx (fun k => match k with | ⟨0, _⟩ => h0 | ⟨1, _⟩ => h1 | ⟨2, _⟩ => h2 | ⟨3, _⟩ => h3)
    (fun k => match k with | ⟨0, _⟩ => t0 | ⟨1, _⟩ => t1 | ⟨2, _⟩ => t2 | ⟨3, _⟩ => t3)
    (fun k => match k with | ⟨0, _⟩ => r0 | ⟨1, _⟩ => r1 | ⟨2, _⟩ => r2 | ⟨3, _⟩ => r3) base hb hbase
    (fun k => match k with | ⟨0, _⟩ => hH0 | ⟨1, _⟩ => hH1 | ⟨2, _⟩ => hH2 | ⟨3, _⟩ => hH3) (fun k => match k with | ⟨0, _⟩ => hT0 | ⟨1, _⟩ => hT1 | ⟨2, _⟩ => hT2 | ⟨3, _⟩ => hT3)
    (fun k => match k with | ⟨0, _⟩ => hR0 | ⟨1, _⟩ => hR1 | ⟨2, _⟩ => hR2 | ⟨3, _⟩ => hR3) fo fo1 fo2 fo3 fo4 H1 H2 H3 H4 j

end Cert.KBlock

end
-- ==== Proof.KBody.lean ====
/-
  One vector subcore's task, from what the sequencer hands it to what it hands back.

  Subcore 0 of a SparseCore first copies the padded relation table into the shared table; every subcore then arrives at
  the barrier — subcore 0 presenting each subcore's sixteenth share of the shared table, now holding the padded table, the
  others nothing — and leaves it with its own share. Each of its four blocks of 128 triples is then fetched (index words,
  a block of the transposed heads and tails, the relation rows the index words name gathered out of the shared table) into
  one of two scratch slots, the next block's fetch issued before the current block is scored; a block's 128 accumulators
  go to its quarter of the result scratch, and the 512 results are copied out to the subcore's block of the result array.
  The index words are in range of the table, so every gather completes; what is copied out is, entry by entry, the
  batch's accumulator of that triple after the 64 feature trips.
-/
import proofs.«205660_g30348238913567_cont_9to1_1764_14_alg».proof.Proof.KMem
import proofs.«205660_g30348238913567_cont_9to1_1764_14_alg».proof.Proof.KStage
import proofs.«205660_g30348238913567_cont_9to1_1764_14_alg».proof.Proof.KOwn
import proofs.«205660_g30348238913567_cont_9to1_1764_14_alg».proof.Proof.KBar
import proofs.«205660_g30348238913567_cont_9to1_1764_14_alg».proof.Proof.KIdx
import proofs.«205660_g30348238913567_cont_9to1_1764_14_alg».proof.Proof.KOut
import proofs.«205660_g30348238913567_cont_9to1_1764_14_alg».proof.Proof.KContents
import proofs.«205660_g30348238913567_cont_9to1_1764_14_alg».proof.Proof.KBlockVal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

set_option maxHeartbeats 4000000 in
/-- The task on a subcore other than its SparseCore's subcore 0: it arrives at the barrier empty-handed. -/
theorem tile_body_pos [FloatOps F] (hF : (K (F := F)).Facts) (hpre : PreOK m) (d : Dev nD) (L : grid0.Coords)
    (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val ≠ 0) :
    iprop(levAts (K (F := F)).L (K (F := F)).lev ∗ bkit m d (cV L) (jV L) ∗ goP m d (cV L) (jV L)
        ∗ scopedBufs (thrV d L) ∗ scopedSems0 (thrV d L) ∗ owes (thrV d L) (O + oxV d (cV L)) W : sProp 𝕄)
      ⊢ wp frame (wpE (defs₀ (F := F)) 𝒱₀ (thrV d L) none) Set.univ
          (cc0__sc_kernel (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5)
          fun _ => iprop(tdP m d (cV L) (jV L) ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__sc_kernel_eq_skeleton]; unfold cc0__sc_kernel_skel
  rw [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  unfold bkit goP rTok
  rw [if_neg (show ¬ (jV L).val = 0 from h0)]
  iintro ⟨#Hlv, ⟨⟨%κ, #Hinv⟩, Hduty, Hat, Hcred⟩, ⟨⟨Hht, Hid, Htt, Hrp⟩, Ho, -⟩,
    ⟨⟨%fi0, Hi0⟩, ⟨%fh0, Hh0⟩, ⟨%ft0, Ht0⟩, ⟨%fr0, Hr0⟩, ⟨%fi1, Hi1⟩, ⟨%fh1, Hh1⟩, ⟨%ft1, Ht1⟩, ⟨%fr1, Hr1⟩, ⟨%fo, Hout⟩, Hbufs⟩,
    ⟨Hs4, Hs5, Hs6, Hs11, Hs12, Hs13, Hc0, Hc1, Hc2, Hc3, Hc4, Hc5, Hsems⟩, HO⟩
  ihave Hmw := ((K (F := F)).mayWaits_none (thr := thrV d L) hO) $$ Hlv
  ihave Hmwb := ((K (F := F)).mayOwe_of_bound (thr := thrV d L) (W := {(SemLoc.reg sc_bar0, some (0 : Fin 1))}) (O := O) 3
      (fun p hp => by
        rw [Finset.mem_singleton] at hp; subst hp
        rw [(K (F := F)).lev_V_reg d _ _ (show (sc_bar0 : Sem sig) ≠ (K (F := F)).go from sc_bar0_ne_go)]; simp)
      (fun g ι h => by have := hOlev g ι h; omega)) $$ Hlv
  ihave Hht := (Entails.of_eq (show ((htLoc d ↦{tokS (wid (cV L) (jV L))} HTv m d : sProp 𝕄)) = ((aHT).view.loc (thrV d L) ↦{tokS (wid (cV L) (jV L))} HTv m d) from rfl)) $$ Hht
  ihave Hid := (Entails.of_eq (show ((a1Loc d ↦{tokS (wid (cV L) (jV L))} m (a1Loc d) : sProp 𝕄)) = ((aID).view.loc (thrV d L) ↦{tokS (wid (cV L) (jV L))} m (a1Loc d)) from rfl)) $$ Hid
  ihave Htt := (Entails.of_eq (show ((ttLoc d ↦{tokS (wid (cV L) (jV L))} TTv m d : sProp 𝕄)) = ((aTT).view.loc (thrV d L) ↦{tokS (wid (cV L) (jV L))} TTv m d) from rfl)) $$ Htt
  ihave Hrp := (Entails.of_eq (show ((rpLoc d ↦{tokS (wid (cV L) (jV L))} RPv m d : sProp 𝕄)) = ((aRP).view.loc (thrV d L) ↦{tokS (wid (cV L) (jV L))} RPv m d) from rfl)) $$ Hrp
  ihave Hi0 := (Entails.of_eq (show (((thrV d L).loc cc0_scratch0 ↦{fullShare} fi0 : sProp 𝕄)) = ((sI0).view.loc (thrV d L) ↦{fullShare} fi0) from rfl)) $$ Hi0
  ihave Hh0 := (Entails.of_eq (show (((thrV d L).loc cc0_scratch1 ↦{fullShare} fh0 : sProp 𝕄)) = ((sH0).view.loc (thrV d L) ↦{fullShare} fh0) from rfl)) $$ Hh0
  ihave Ht0 := (Entails.of_eq (show (((thrV d L).loc cc0_scratch2 ↦{fullShare} ft0 : sProp 𝕄)) = ((sT0).view.loc (thrV d L) ↦{fullShare} ft0) from rfl)) $$ Ht0
  ihave Hr0 := (Entails.of_eq (show (((thrV d L).loc cc0_scratch3 ↦{fullShare} fr0 : sProp 𝕄)) = ((sR0).view.loc (thrV d L) ↦{fullShare} fr0) from rfl)) $$ Hr0
  ihave Hi1 := (Entails.of_eq (show (((thrV d L).loc cc0_scratch7 ↦{fullShare} fi1 : sProp 𝕄)) = ((sI1).view.loc (thrV d L) ↦{fullShare} fi1) from rfl)) $$ Hi1
  ihave Hh1 := (Entails.of_eq (show (((thrV d L).loc cc0_scratch8 ↦{fullShare} fh1 : sProp 𝕄)) = ((sH1).view.loc (thrV d L) ↦{fullShare} fh1) from rfl)) $$ Hh1
  ihave Ht1 := (Entails.of_eq (show (((thrV d L).loc cc0_scratch9 ↦{fullShare} ft1 : sProp 𝕄)) = ((sT1).view.loc (thrV d L) ↦{fullShare} ft1) from rfl)) $$ Ht1
  ihave Hr1 := (Entails.of_eq (show (((thrV d L).loc cc0_scratch10 ↦{fullShare} fr1 : sProp 𝕄)) = ((sR1).view.loc (thrV d L) ↦{fullShare} fr1) from rfl)) $$ Hr1
  ihave Hout := (Entails.of_eq (show (((thrV d L).loc cc0_scratch14 ↦{fullShare} fo : sProp 𝕄)) = ((sOut).view.loc (thrV d L) ↦{fullShare} fo) from rfl)) $$ Hout
  sl_exec
  have hv6 : ¬ (tile_body_pos.sl.v6 L = 1#1) := by
    show ¬ (Scalar.cmpi .ne (Scalar.extui (Scalar.cmpi .eq (BitVec.ofNat 32 (L 1).val) 0#32) : BitVec 32) 0#32 = 1#1)
    exact cond_pos (L 1) h0
  rw [dif_neg hv6]
  rw [bind_assoc]
  ihave Hduty' := (duty_pay_emp m d L h0) $$ Hduty
  iapply (SparseCore.wp_subcoreBarrier 𝒱₀ none EB (bRd m) d (sc := cV L) (i := jV L) sc_bar0 (grid0.bound 1) hsub0 (L 1) rfl κ (fun _ => 0) (jV L).val
      (fun j => bRd_mem₀ m d (cV L) (j.castLE hsub0) (jV L)) (fun _ => rfl) (bRd_expect m d (cV L) (jV L)) (some 0) O W) $$ [HO Hduty' Hcred Hat Hmwb]
  · isplitr; · iexact Hinv
    isplitl [HO]; · iexact HO
    isplitl [Hduty']; · iexact Hduty'
    isplitl [Hcred]; · iexact Hcred
    isplitl [Hat]; · iexact Hat
    iexact Hmwb
  iintro ⟨HO, Hat, #Hreached, Hpay⟩
  ihave Hsh := (own_share m d (cV L) (jV L)) $$ Hpay
  ihave Hsh := (Entails.of_eq (show ((shLoc d (cV L) ↦{shTok (jV L)} RPsh m d (cV L) : sProp 𝕄)) = ((sSh).view.loc (thrV d L) ↦{shTok (jV L)} RPsh m d (cV L)) from rfl)) $$ Hsh
  sl_exec
  have hin0 : ∀ x, ((sI0).view.read (Elt F) (View.write (Elt F) sI0.view (fi0) (tile_body_pos.sl.dma0 m d L) Finset.univ) x).toNat
      < S1000x128.size (gathers_S1000x128_S128x128).axis := by
    intro x; unfold tile_body_pos.sl.dma0; rw [View.write_whole_univ]; exact idx_lt m hpre d _ _ x
  sl_exec
  have hin1 : ∀ x, ((sI1).view.read (Elt F) (View.write (Elt F) sI1.view (fi1) (tile_body_pos.sl.dma0_3 m d L) Finset.univ) x).toNat
      < S1000x128.size (gathers_S1000x128_S128x128).axis := by
    intro x; unfold tile_body_pos.sl.dma0_3; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage1 (F := F) d L (tile_body_pos.sl.v2 L) _ _ _ _)
    isplitl [Hh0]; · iexact Hh0
    isplitl [Ht0]; · iexact Ht0
    isplitl [Hr0]; · iexact Hr0
    iexact Hout
  iintro %u1 ⟨Hh0, Ht0, Hr0, %fo1, %hfo1, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  have hin2 : ∀ x, ((sI0).view.read (Elt F) (View.write (Elt F) sI0.view (View.write (Elt F) sI0.view fi0 (tile_body_pos.sl.dma0 m d L) Finset.univ) (tile_body_pos.sl.dma0_6 m d L) Finset.univ) x).toNat
      < S1000x128.size (gathers_S1000x128_S128x128).axis := by
    intro x; unfold tile_body_pos.sl.dma0_6; rw [View.write_whole_univ]; exact idx_lt m hpre d _ _ x
  sl_exec
  rw [bind_assoc, wp_bind]
  iapply (wp_wand_r frame (wpE (defs₀ (F := F)) 𝒱₀ (thrV d L) none) Set.univ)
  isplitl [Hh1 Ht1 Hr1 Hout]
  · iapply (stage2 (F := F) d L (tile_body_pos.sl.v2 L) _ _ _ _)
    isplitl [Hh1]; · iexact Hh1
    isplitl [Ht1]; · iexact Ht1
    isplitl [Hr1]; · iexact Hr1
    iexact Hout
  iintro %u2 ⟨Hh1, Ht1, Hr1, %fo2, %hfo2, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  sl_exec
  have hin3 : ∀ x, ((sI1).view.read (Elt F) (View.write (Elt F) sI1.view (View.write (Elt F) sI1.view fi1 (tile_body_pos.sl.dma0_3 m d L) Finset.univ) (tile_body_pos.sl.dma0_9 m d L) Finset.univ) x).toNat
      < S1000x128.size (gathers_S1000x128_S128x128).axis := by
    intro x; unfold tile_body_pos.sl.dma0_9; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage3 (F := F) d L (tile_body_pos.sl.v2 L) _ _ _ _)
    isplitl [Hh0]; · iexact Hh0
    isplitl [Ht0]; · iexact Ht0
    isplitl [Hr0]; · iexact Hr0
    iexact Hout
  iintro %u3 ⟨Hh0, Ht0, Hr0, %fo3, %hfo3, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  rw [wp_bind]
  iapply (wp_wand_r frame (wpE (defs₀ (F := F)) 𝒱₀ (thrV d L) none) Set.univ)
  isplitl [Hh1 Ht1 Hr1 Hout]
  · iapply (stage4 (F := F) d L _ _ _ _)
    isplitl [Hh1]; · iexact Hh1
    isplitl [Ht1]; · iexact Ht1
    isplitl [Hr1]; · iexact Hr1
    iexact Hout
  iintro %u4 ⟨Hh1, Ht1, Hr1, %fo4, %hfo4, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  ihave Ho := (Entails.of_eq (pts_oSl (F := F) d L _).symm) $$ Ho
  sl_exec
  rw [wp_ret]; imodintro
  have hL0 : (L 0).val < 2 := (L 0).isLt
  have hL1 : (L 1).val < 16 := (L 1).isLt
  have hw : (wid (cV L) (jV L)).val = 2 * (L 1).val + (L 0).val := rfl
  have hwlt : (wid (cV L) (jV L)).val < 32 := (wid (cV L) (jV L)).isLt
  have e7 : k0_off7 L 0 = 1024 * (L 1).val + 512 * (L 0).val := congrFun (k0_off7_eq L) 0
  have hH0 : ∀ prev (c : Fin 64) (r : Fin 128), (View.write (Elt F) sH0.view prev (tile_body_pos.sl.dma0_1 m d L) Finset.univ) (ix2 c r)
      = HTv m d (ix2 c (⟨512 * (wid (cV L) (jV L)).val + 128 * 0 + r.val, by have := r.isLt; omega⟩ : Fin 16384)) := by
    intro prev c r
    rw [View.write_whole_univ]; unfold tile_body_pos.sl.dma0_1
    refine (ht_block d _ _ (1024 * (L 1).val + 512 * (L 0).val + 128 * 0) (k0_off2_eq L ⟨0, by decide⟩) (by omega) (HTv m d) c r).trans ?_
    exact congrArg (fun b => HTv m d (ix2 c b)) (Fin.ext (by show 1024 * (L 1).val + 512 * (L 0).val + 128 * 0 + r.val = 512 * (wid (cV L) (jV L)).val + 128 * 0 + r.val; rw [hw]; omega))
  have hT0 : ∀ prev (c : Fin 64) (r : Fin 128), (View.write (Elt F) sT0.view prev (tile_body_pos.sl.dma0_2 m d L) Finset.univ) (ix2 c r)
      = TTv m d (ix2 c (⟨512 * (wid (cV L) (jV L)).val + 128 * 0 + r.val, by have := r.isLt; omega⟩ : Fin 16384)) := by
    intro prev c r
    rw [View.write_whole_univ]; unfold tile_body_pos.sl.dma0_2
    refine (tt_block d _ _ (1024 * (L 1).val + 512 * (L 0).val + 128 * 0) (k0_off2_eq L ⟨0, by decide⟩) (by omega) (TTv m d) c r).trans ?_
    exact congrArg (fun b => TTv m d (ix2 c b)) (Fin.ext (by show 1024 * (L 1).val + 512 * (L 0).val + 128 * 0 + r.val = 512 * (wid (cV L) (jV L)).val + 128 * 0 + r.val; rw [hw]; omega))
  have hR0 : ∀ prev Lst (r : Fin 128) (c : Fin 128), (sR0.view.writes (Elt F) prev (⟨Rect.whole S128x128, tile_body_pos.sl.gather0 m d L fi0 hin0⟩ :: Lst)) (ix2 r c)
      = RPv m d (ix2 (Cert.Spec.relRow (m (a1Loc d) (ix1 (⟨512 * (wid (cV L) (jV L)).val + 128 * 0 + r.val, by have := r.isLt; omega⟩ : Fin 16384)))) c) := by
    intro prev Lst r c
    rw [sR0_head]; unfold tile_body_pos.sl.gather0
    refine (gathered_row m hpre d (cV L) _ _ hin0 (1024 * (L 1).val + 512 * (L 0).val + 128 * 0) (by omega) ?_ r c).trans ?_
    · intro r'
      rw [View.write_whole_univ]
      simp only [Memref.view_whole, View.read_whole]
      unfold tile_body_pos.sl.dma0
      exact id_block d _ _ _ (k0_off1_eq L ⟨0, by decide⟩) (by omega) (m (a1Loc d)) r'
    · exact congrArg (fun b => RPv m d (ix2 (Cert.Spec.relRow (m (a1Loc d) (ix1 b))) c)) (Fin.ext (by show 1024 * (L 1).val + 512 * (L 0).val + 128 * 0 + r.val = 512 * (wid (cV L) (jV L)).val + 128 * 0 + r.val; rw [hw]; omega))
  have hH1 : ∀ prev (c : Fin 64) (r : Fin 128), (View.write (Elt F) sH1.view prev (tile_body_pos.sl.dma0_4 m d L) Finset.univ) (ix2 c r)
      = HTv m d (ix2 c (⟨512 * (wid (cV L) (jV L)).val + 128 * 1 + r.val, by have := r.isLt; omega⟩ : Fin 16384)) := by
    intro prev c r
    rw [View.write_whole_univ]; unfold tile_body_pos.sl.dma0_4
    refine (ht_block d _ _ (1024 * (L 1).val + 512 * (L 0).val + 128 * 1) (k0_off2_eq L ⟨1, by decide⟩) (by omega) (HTv m d) c r).trans ?_
    exact congrArg (fun b => HTv m d (ix2 c b)) (Fin.ext (by show 1024 * (L 1).val + 512 * (L 0).val + 128 * 1 + r.val = 512 * (wid (cV L) (jV L)).val + 128 * 1 + r.val; rw [hw]; omega))
  have hT1 : ∀ prev (c : Fin 64) (r : Fin 128), (View.write (Elt F) sT1.view prev (tile_body_pos.sl.dma0_5 m d L) Finset.univ) (ix2 c r)
      = TTv m d (ix2 c (⟨512 * (wid (cV L) (jV L)).val + 128 * 1 + r.val, by have := r.isLt; omega⟩ : Fin 16384)) := by
    intro prev c r
    rw [View.write_whole_univ]; unfold tile_body_pos.sl.dma0_5
    refine (tt_block d _ _ (1024 * (L 1).val + 512 * (L 0).val + 128 * 1) (k0_off2_eq L ⟨1, by decide⟩) (by omega) (TTv m d) c r).trans ?_
    exact congrArg (fun b => TTv m d (ix2 c b)) (Fin.ext (by show 1024 * (L 1).val + 512 * (L 0).val + 128 * 1 + r.val = 512 * (wid (cV L) (jV L)).val + 128 * 1 + r.val; rw [hw]; omega))
  have hR1 : ∀ prev Lst (r : Fin 128) (c : Fin 128), (sR1.view.writes (Elt F) prev (⟨Rect.whole S128x128, tile_body_pos.sl.gather0_1 m d L fi1 hin1⟩ :: Lst)) (ix2 r c)
      = RPv m d (ix2 (Cert.Spec.relRow (m (a1Loc d) (ix1 (⟨512 * (wid (cV L) (jV L)).val + 128 * 1 + r.val, by have := r.isLt; omega⟩ : Fin 16384)))) c) := by
    intro prev Lst r c
    rw [sR1_head]; unfold tile_body_pos.sl.gather0_1
    refine (gathered_row m hpre d (cV L) _ _ hin1 (1024 * (L 1).val + 512 * (L 0).val + 128 * 1) (by omega) ?_ r c).trans ?_
    · intro r'
      rw [View.write_whole_univ]
      simp only [Memref.view_whole, View.read_whole]
      unfold tile_body_pos.sl.dma0_3
      exact id_block d _ _ _ (k0_off1_eq L ⟨1, by decide⟩) (by omega) (m (a1Loc d)) r'
    · exact congrArg (fun b => RPv m d (ix2 (Cert.Spec.relRow (m (a1Loc d) (ix1 b))) c)) (Fin.ext (by show 1024 * (L 1).val + 512 * (L 0).val + 128 * 1 + r.val = 512 * (wid (cV L) (jV L)).val + 128 * 1 + r.val; rw [hw]; omega))
  have hH2 : ∀ prev (c : Fin 64) (r : Fin 128), (View.write (Elt F) sH0.view prev (tile_body_pos.sl.dma0_7 m d L) Finset.univ) (ix2 c r)
      = HTv m d (ix2 c (⟨512 * (wid (cV L) (jV L)).val + 128 * 2 + r.val, by have := r.isLt; omega⟩ : Fin 16384)) := by
    intro prev c r
    rw [View.write_whole_univ]; unfold tile_body_pos.sl.dma0_7
    refine (ht_block d _ _ (1024 * (L 1).val + 512 * (L 0).val + 128 * 2) (k0_off2_eq L ⟨2, by decide⟩) (by omega) (HTv m d) c r).trans ?_
    exact congrArg (fun b => HTv m d (ix2 c b)) (Fin.ext (by show 1024 * (L 1).val + 512 * (L 0).val + 128 * 2 + r.val = 512 * (wid (cV L) (jV L)).val + 128 * 2 + r.val; rw [hw]; omega))
  have hT2 : ∀ prev (c : Fin 64) (r : Fin 128), (View.write (Elt F) sT0.view prev (tile_body_pos.sl.dma0_8 m d L) Finset.univ) (ix2 c r)
      = TTv m d (ix2 c (⟨512 * (wid (cV L) (jV L)).val + 128 * 2 + r.val, by have := r.isLt; omega⟩ : Fin 16384)) := by
    intro prev c r
    rw [View.write_whole_univ]; unfold tile_body_pos.sl.dma0_8
    refine (tt_block d _ _ (1024 * (L 1).val + 512 * (L 0).val + 128 * 2) (k0_off2_eq L ⟨2, by decide⟩) (by omega) (TTv m d) c r).trans ?_
    exact congrArg (fun b => TTv m d (ix2 c b)) (Fin.ext (by show 1024 * (L 1).val + 512 * (L 0).val + 128 * 2 + r.val = 512 * (wid (cV L) (jV L)).val + 128 * 2 + r.val; rw [hw]; omega))
  have hR2 : ∀ prev Lst (r : Fin 128) (c : Fin 128), (sR0.view.writes (Elt F) prev (⟨Rect.whole S128x128, tile_body_pos.sl.gather0_2 m d L fi0 hin2⟩ :: Lst)) (ix2 r c)
      = RPv m d (ix2 (Cert.Spec.relRow (m (a1Loc d) (ix1 (⟨512 * (wid (cV L) (jV L)).val + 128 * 2 + r.val, by have := r.isLt; omega⟩ : Fin 16384)))) c) := by
    intro prev Lst r c
    rw [sR0_head]; unfold tile_body_pos.sl.gather0_2
    refine (gathered_row m hpre d (cV L) _ _ hin2 (1024 * (L 1).val + 512 * (L 0).val + 128 * 2) (by omega) ?_ r c).trans ?_
    · intro r'
      rw [View.write_whole_univ]
      simp only [Memref.view_whole, View.read_whole]
      unfold tile_body_pos.sl.dma0_6
      exact id_block d _ _ _ (k0_off1_eq L ⟨2, by decide⟩) (by omega) (m (a1Loc d)) r'
    · exact congrArg (fun b => RPv m d (ix2 (Cert.Spec.relRow (m (a1Loc d) (ix1 b))) c)) (Fin.ext (by show 1024 * (L 1).val + 512 * (L 0).val + 128 * 2 + r.val = 512 * (wid (cV L) (jV L)).val + 128 * 2 + r.val; rw [hw]; omega))
  have hH3 : ∀ prev (c : Fin 64) (r : Fin 128), (View.write (Elt F) sH1.view prev (tile_body_pos.sl.dma0_10 m d L) Finset.univ) (ix2 c r)
      = HTv m d (ix2 c (⟨512 * (wid (cV L) (jV L)).val + 128 * 3 + r.val, by have := r.isLt; omega⟩ : Fin 16384)) := by
    intro prev c r
    rw [View.write_whole_univ]; unfold tile_body_pos.sl.dma0_10
    refine (ht_block d _ _ (1024 * (L 1).val + 512 * (L 0).val + 128 * 3) (k0_off2_eq L ⟨3, by decide⟩) (by omega) (HTv m d) c r).trans ?_
    exact congrArg (fun b => HTv m d (ix2 c b)) (Fin.ext (by show 1024 * (L 1).val + 512 * (L 0).val + 128 * 3 + r.val = 512 * (wid (cV L) (jV L)).val + 128 * 3 + r.val; rw [hw]; omega))
  have hT3 : ∀ prev (c : Fin 64) (r : Fin 128), (View.write (Elt F) sT1.view prev (tile_body_pos.sl.dma0_11 m d L) Finset.univ) (ix2 c r)
      = TTv m d (ix2 c (⟨512 * (wid (cV L) (jV L)).val + 128 * 3 + r.val, by have := r.isLt; omega⟩ : Fin 16384)) := by
    intro prev c r
    rw [View.write_whole_univ]; unfold tile_body_pos.sl.dma0_11
    refine (tt_block d _ _ (1024 * (L 1).val + 512 * (L 0).val + 128 * 3) (k0_off2_eq L ⟨3, by decide⟩) (by omega) (TTv m d) c r).trans ?_
    exact congrArg (fun b => TTv m d (ix2 c b)) (Fin.ext (by show 1024 * (L 1).val + 512 * (L 0).val + 128 * 3 + r.val = 512 * (wid (cV L) (jV L)).val + 128 * 3 + r.val; rw [hw]; omega))
  have hR3 : ∀ prev Lst (r : Fin 128) (c : Fin 128), (sR1.view.writes (Elt F) prev (⟨Rect.whole S128x128, tile_body_pos.sl.gather0_3 m d L fi1 hin3⟩ :: Lst)) (ix2 r c)
      = RPv m d (ix2 (Cert.Spec.relRow (m (a1Loc d) (ix1 (⟨512 * (wid (cV L) (jV L)).val + 128 * 3 + r.val, by have := r.isLt; omega⟩ : Fin 16384)))) c) := by
    intro prev Lst r c
    rw [sR1_head]; unfold tile_body_pos.sl.gather0_3
    refine (gathered_row m hpre d (cV L) _ _ hin3 (1024 * (L 1).val + 512 * (L 0).val + 128 * 3) (by omega) ?_ r c).trans ?_
    · intro r'
      rw [View.write_whole_univ]
      simp only [Memref.view_whole, View.read_whole]
      unfold tile_body_pos.sl.dma0_9
      exact id_block d _ _ _ (k0_off1_eq L ⟨3, by decide⟩) (by omega) (m (a1Loc d)) r'
    · exact congrArg (fun b => RPv m d (ix2 (Cert.Spec.relRow (m (a1Loc d) (ix1 b))) c)) (Fin.ext (by show 1024 * (L 1).val + 512 * (L 0).val + 128 * 3 + r.val = 512 * (wid (cV L) (jV L)).val + 128 * 3 + r.val; rw [hw]; omega))
  have hval : ∀ i ∈ oSet (wid (cV L) (jV L)), ((oSl L).view.writes (Elt F) (m (oLoc d)) [⟨Rect.whole S512, tile_body_pos.sl.dma0_12 d L fo4⟩]) i = KV m d i := by
    intro i hi
    rw [← set_oSl] at hi
    obtain ⟨j, -, rfl⟩ := Finset.mem_map.mp hi
    obtain ⟨jj, rfl⟩ : ∃ jj : Fin 512, j = ix1 jj := ⟨j 0, eq_ix1 j⟩
    have hwr := View.read_writes_cons_emb (v := (oSl L).view) (f := m (oLoc d)) (Rect.whole S512) (tile_body_pos.sl.dma0_12 d L fo4) [] (ix1 jj)
    rw [Rect.emb_whole_apply, View.read_apply, cast_eq] at hwr
    rw [hwr]
    have hv := Cert.KBlock.out_val4 (F := F) (HTv m d) (TTv m d) (RPv m d) (m (a1Loc d)) _ _ _ _ _ _ _ _ _ _ _ _ (512 * (wid (cV L) (jV L)).val)
      (Dvd.dvd.mul_right (by decide : (16 : ℕ) ∣ 512) _) (by omega)
      (hH0 _) (hH1 _) (hH2 _) (hH3 _) (hT0 _) (hT1 _) (hT2 _) (hT3 _) (hR0 _ _) (hR1 _ _) (hR2 _ _) (hR3 _ _)
      fo fo1 fo2 fo3 fo4 hfo1 hfo2 hfo3 hfo4 jj
    refine (show tile_body_pos.sl.dma0_12 d L fo4 (ix1 jj) = fo4 (ix1 jj) from rfl).trans (hv.trans ?_)
    unfold KV HTv TTv RPv Cert.KVal.kval
    refine congrArg (fun b => Cert.KVal.accAt _ _ _ _ b 64) (Fin.ext ?_)
    show 512 * (wid (cV L) (jV L)).val + jj.val = k0_off7 L 0 + 1 * jj.val
    rw [e7, hw]; omega
  ihave Ho := (Entails.of_eq (pts_oSl (F := F) d L _)) $$ Ho
  ihave Ho := (Entails.of_eq (pointsTo_congr hval)) $$ Ho
  unfold tdP rTok
  rw [if_neg (show ¬ (jV L).val = 0 from h0)]
  isplitl [Hht Hid Htt Hrp Ho Hsh]
  · isplitl [Hht Hid Htt Hrp]
    · isplitl [Hht]; · iexact Hht
      isplitl [Hid]; · iexact Hid
      isplitl [Htt]; · iexact Htt
      iexact Hrp
    isplitl [Ho]; · iexact Ho
    isplitl [Hsh]; · iexact Hsh
    iempintro
  isplitl [Hi0 Hh0 Ht0 Hr0 Hi1 Hh1 Ht1 Hr1 Hout Hbufs]
  · isplitl [Hi0]; · iexists _; iexact Hi0
    isplitl [Hh0]; · iexists _; iexact Hh0
    isplitl [Ht0]; · iexists _; iexact Ht0
    isplitl [Hr0]; · iexists _; iexact Hr0
    isplitl [Hi1]; · iexists _; iexact Hi1
    isplitl [Hh1]; · iexists _; iexact Hh1
    isplitl [Ht1]; · iexists _; iexact Ht1
    isplitl [Hr1]; · iexists _; iexact Hr1
    isplitl [Hout]; · iexists _; iexact Hout
    iexact Hbufs
  isplitl [Hs4 Hs5 Hs6 Hs11 Hs12 Hs13 Hc0 Hc1 Hc2 Hc3 Hc4 Hc5 Hsems]
  · isplitl [Hs4]; · iexact Hs4
    isplitl [Hs5]; · iexact Hs5
    isplitl [Hs6]; · iexact Hs6
    isplitl [Hs11]; · iexact Hs11
    isplitl [Hs12]; · iexact Hs12
    isplitl [Hs13]; · iexact Hs13
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap
  · iexact HO
  ipureintro; intro p hp
  repeat (rcases Finset.mem_insert.mp hp with rfl | hp; · first | exact .inr (.inl rfl) | exact .inr (.inr rfl))
  exact .inl hp

set_option maxHeartbeats 4000000 in
/-- The task on a SparseCore's subcore 0: it fills the shared table and hands every subcore its share at the barrier. -/
theorem tile_body_zero [FloatOps F] (hF : (K (F := F)).Facts) (hpre : PreOK m) (d : Dev nD) (L : grid0.Coords)
    (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val = 0) :
    iprop(levAts (K (F := F)).L (K (F := F)).lev ∗ bkit m d (cV L) (jV L) ∗ goP m d (cV L) (jV L)
        ∗ scopedBufs (thrV d L) ∗ scopedSems0 (thrV d L) ∗ owes (thrV d L) (O + oxV d (cV L)) W : sProp 𝕄)
      ⊢ wp frame (wpE (defs₀ (F := F)) 𝒱₀ (thrV d L) none) Set.univ
          (cc0__sc_kernel (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5)
          fun _ => iprop(tdP m d (cV L) (jV L) ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__sc_kernel_eq_skeleton]; unfold cc0__sc_kernel_skel
  rw [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  unfold bkit goP rTok
  rw [if_pos (show (jV L).val = 0 from h0)]
  iintro ⟨#Hlv, ⟨⟨%κ, #Hinv⟩, Hduty, Hat, Hcred⟩, ⟨⟨Hht, Hid, Htt, Hrp⟩, Ho, ⟨%fsh, Hshf⟩⟩,
    ⟨⟨%fi0, Hi0⟩, ⟨%fh0, Hh0⟩, ⟨%ft0, Ht0⟩, ⟨%fr0, Hr0⟩, ⟨%fi1, Hi1⟩, ⟨%fh1, Hh1⟩, ⟨%ft1, Ht1⟩, ⟨%fr1, Hr1⟩, ⟨%fo, Hout⟩, Hbufs⟩,
    ⟨Hs4, Hs5, Hs6, Hs11, Hs12, Hs13, Hc0, Hc1, Hc2, Hc3, Hc4, Hc5, Hsems⟩, HO⟩
  have hO' : ∀ g, (O + oxV d (cV L)) g none = 0 := fun g => by rw [Pi.add_apply, Finsupp.add_apply, hO g, oxV_none]
  ihave Hmw0 := ((K (F := F)).mayWaits_none (thr := thrV d L) hO') $$ Hlv
  ihave Hshf := (Entails.of_eq (show ((shLoc d (cV L) ↦{fullShare} fsh : sProp 𝕄)) = ((sSh).view.loc (thrV d L) ↦{fullShare} fsh) from rfl)) $$ Hshf
  ihave Hmw := ((K (F := F)).mayWaits_none (thr := thrV d L) hO) $$ Hlv
  ihave Hmwb := ((K (F := F)).mayOwe_of_bound (thr := thrV d L) (W := {(SemLoc.reg sc_bar0, some (0 : Fin 1))}) (O := O) 3
      (fun p hp => by
        rw [Finset.mem_singleton] at hp; subst hp
        rw [(K (F := F)).lev_V_reg d _ _ (show (sc_bar0 : Sem sig) ≠ (K (F := F)).go from sc_bar0_ne_go)]; simp)
      (fun g ι h => by have := hOlev g ι h; omega)) $$ Hlv
  ihave Hht := (Entails.of_eq (show ((htLoc d ↦{tokS (wid (cV L) (jV L))} HTv m d : sProp 𝕄)) = ((aHT).view.loc (thrV d L) ↦{tokS (wid (cV L) (jV L))} HTv m d) from rfl)) $$ Hht
  ihave Hid := (Entails.of_eq (show ((a1Loc d ↦{tokS (wid (cV L) (jV L))} m (a1Loc d) : sProp 𝕄)) = ((aID).view.loc (thrV d L) ↦{tokS (wid (cV L) (jV L))} m (a1Loc d)) from rfl)) $$ Hid
  ihave Htt := (Entails.of_eq (show ((ttLoc d ↦{tokS (wid (cV L) (jV L))} TTv m d : sProp 𝕄)) = ((aTT).view.loc (thrV d L) ↦{tokS (wid (cV L) (jV L))} TTv m d) from rfl)) $$ Htt
  ihave Hrp := (Entails.of_eq (show ((rpLoc d ↦{tokS (wid (cV L) (jV L))} RPv m d : sProp 𝕄)) = ((aRP).view.loc (thrV d L) ↦{tokS (wid (cV L) (jV L))} RPv m d) from rfl)) $$ Hrp
  ihave Hi0 := (Entails.of_eq (show (((thrV d L).loc cc0_scratch0 ↦{fullShare} fi0 : sProp 𝕄)) = ((sI0).view.loc (thrV d L) ↦{fullShare} fi0) from rfl)) $$ Hi0
  ihave Hh0 := (Entails.of_eq (show (((thrV d L).loc cc0_scratch1 ↦{fullShare} fh0 : sProp 𝕄)) = ((sH0).view.loc (thrV d L) ↦{fullShare} fh0) from rfl)) $$ Hh0
  ihave Ht0 := (Entails.of_eq (show (((thrV d L).loc cc0_scratch2 ↦{fullShare} ft0 : sProp 𝕄)) = ((sT0).view.loc (thrV d L) ↦{fullShare} ft0) from rfl)) $$ Ht0
  ihave Hr0 := (Entails.of_eq (show (((thrV d L).loc cc0_scratch3 ↦{fullShare} fr0 : sProp 𝕄)) = ((sR0).view.loc (thrV d L) ↦{fullShare} fr0) from rfl)) $$ Hr0
  ihave Hi1 := (Entails.of_eq (show (((thrV d L).loc cc0_scratch7 ↦{fullShare} fi1 : sProp 𝕄)) = ((sI1).view.loc (thrV d L) ↦{fullShare} fi1) from rfl)) $$ Hi1
  ihave Hh1 := (Entails.of_eq (show (((thrV d L).loc cc0_scratch8 ↦{fullShare} fh1 : sProp 𝕄)) = ((sH1).view.loc (thrV d L) ↦{fullShare} fh1) from rfl)) $$ Hh1
  ihave Ht1 := (Entails.of_eq (show (((thrV d L).loc cc0_scratch9 ↦{fullShare} ft1 : sProp 𝕄)) = ((sT1).view.loc (thrV d L) ↦{fullShare} ft1) from rfl)) $$ Ht1
  ihave Hr1 := (Entails.of_eq (show (((thrV d L).loc cc0_scratch10 ↦{fullShare} fr1 : sProp 𝕄)) = ((sR1).view.loc (thrV d L) ↦{fullShare} fr1) from rfl)) $$ Hr1
  ihave Hout := (Entails.of_eq (show (((thrV d L).loc cc0_scratch14 ↦{fullShare} fo : sProp 𝕄)) = ((sOut).view.loc (thrV d L) ↦{fullShare} fo) from rfl)) $$ Hout
  sl_exec
  have hv6 : tile_body_zero.sl.v6 L = 1#1 := by
    show (Scalar.cmpi .ne (Scalar.extui (Scalar.cmpi .eq (BitVec.ofNat 32 (L 1).val) 0#32) : BitVec 32) 0#32 = 1#1)
    exact cond_zero (L 1) h0
  rw [dif_pos hv6]
  have hsh : (View.write (Elt F) sSh.view fsh (tile_body_zero.sl.dma0 m d) Finset.univ) = RPsh m d (cV L) := by
    rw [View.write_whole_univ]; rfl
  ihave Hshf := (Entails.of_eq (congrArg (fun f => ((sSh).view.loc (thrV d L) ↦{fullShare} f : sProp 𝕄)) hsh)) $$ Hshf
  ihave Hshf := (Entails.of_eq (show ((sSh).view.loc (thrV d L) ↦{fullShare} RPsh m d (cV L) : sProp 𝕄) = (shLoc d (cV L) ↦{fullShare} RPsh m d (cV L)) from rfl)) $$ Hshf
  ihave Hspl := (Transfers.pointsTo_toks_split fullShare 16) $$ Hshf
  icases Hspl with ⟨Hrest, Htoks⟩
  ihave Hduty' := (duty_pay_zero m d L h0) $$ [Hduty Htoks]
  · isplitl [Hduty]; · iexact Hduty
    iexact Htoks
  iapply (SparseCore.wp_subcoreBarrier 𝒱₀ none EB (bRd m) d (sc := cV L) (i := jV L) sc_bar0 (grid0.bound 1) hsub0 (L 1) rfl κ (fun _ => 0) (jV L).val
      (fun j => bRd_mem₀ m d (cV L) (j.castLE hsub0) (jV L)) (fun _ => rfl) (bRd_expect m d (cV L) (jV L)) (some 0) O _) $$ [HO Hduty' Hcred Hat Hmwb]
  · isplitr; · iexact Hinv
    isplitl [HO]; · iexact HO
    isplitl [Hduty']; · iexact Hduty'
    isplitl [Hcred]; · iexact Hcred
    isplitl [Hat]; · iexact Hat
    iexact Hmwb
  iintro ⟨HO, Hat, #Hreached, Hpay⟩
  ihave Hsh := (own_share m d (cV L) (jV L)) $$ Hpay
  ihave Hsh := (Entails.of_eq (show ((shLoc d (cV L) ↦{shTok (jV L)} RPsh m d (cV L) : sProp 𝕄)) = ((sSh).view.loc (thrV d L) ↦{shTok (jV L)} RPsh m d (cV L)) from rfl)) $$ Hsh
  sl_exec
  have hin0 : ∀ x, ((sI0).view.read (Elt F) (View.write (Elt F) sI0.view (fi0) (tile_body_zero.sl.dma0_1 m d L) Finset.univ) x).toNat
      < S1000x128.size (gathers_S1000x128_S128x128).axis := by
    intro x; unfold tile_body_zero.sl.dma0_1; rw [View.write_whole_univ]; exact idx_lt m hpre d _ _ x
  sl_exec
  have hin1 : ∀ x, ((sI1).view.read (Elt F) (View.write (Elt F) sI1.view (fi1) (tile_body_zero.sl.dma0_4 m d L) Finset.univ) x).toNat
      < S1000x128.size (gathers_S1000x128_S128x128).axis := by
    intro x; unfold tile_body_zero.sl.dma0_4; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage1 (F := F) d L (tile_body_zero.sl.v2 L) _ _ _ _)
    isplitl [Hh0]; · iexact Hh0
    isplitl [Ht0]; · iexact Ht0
    isplitl [Hr0]; · iexact Hr0
    iexact Hout
  iintro %u1 ⟨Hh0, Ht0, Hr0, %fo1, %hfo1, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  have hin2 : ∀ x, ((sI0).view.read (Elt F) (View.write (Elt F) sI0.view (View.write (Elt F) sI0.view fi0 (tile_body_zero.sl.dma0_1 m d L) Finset.univ) (tile_body_zero.sl.dma0_7 m d L) Finset.univ) x).toNat
      < S1000x128.size (gathers_S1000x128_S128x128).axis := by
    intro x; unfold tile_body_zero.sl.dma0_7; rw [View.write_whole_univ]; exact idx_lt m hpre d _ _ x
  sl_exec
  rw [bind_assoc, wp_bind]
  iapply (wp_wand_r frame (wpE (defs₀ (F := F)) 𝒱₀ (thrV d L) none) Set.univ)
  isplitl [Hh1 Ht1 Hr1 Hout]
  · iapply (stage2 (F := F) d L (tile_body_zero.sl.v2 L) _ _ _ _)
    isplitl [Hh1]; · iexact Hh1
    isplitl [Ht1]; · iexact Ht1
    isplitl [Hr1]; · iexact Hr1
    iexact Hout
  iintro %u2 ⟨Hh1, Ht1, Hr1, %fo2, %hfo2, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  sl_exec
  have hin3 : ∀ x, ((sI1).view.read (Elt F) (View.write (Elt F) sI1.view (View.write (Elt F) sI1.view fi1 (tile_body_zero.sl.dma0_4 m d L) Finset.univ) (tile_body_zero.sl.dma0_10 m d L) Finset.univ) x).toNat
      < S1000x128.size (gathers_S1000x128_S128x128).axis := by
    intro x; unfold tile_body_zero.sl.dma0_10; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage3 (F := F) d L (tile_body_zero.sl.v2 L) _ _ _ _)
    isplitl [Hh0]; · iexact Hh0
    isplitl [Ht0]; · iexact Ht0
    isplitl [Hr0]; · iexact Hr0
    iexact Hout
  iintro %u3 ⟨Hh0, Ht0, Hr0, %fo3, %hfo3, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  rw [wp_bind]
  iapply (wp_wand_r frame (wpE (defs₀ (F := F)) 𝒱₀ (thrV d L) none) Set.univ)
  isplitl [Hh1 Ht1 Hr1 Hout]
  · iapply (stage4 (F := F) d L _ _ _ _)
    isplitl [Hh1]; · iexact Hh1
    isplitl [Ht1]; · iexact Ht1
    isplitl [Hr1]; · iexact Hr1
    iexact Hout
  iintro %u4 ⟨Hh1, Ht1, Hr1, %fo4, %hfo4, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  ihave Ho := (Entails.of_eq (pts_oSl (F := F) d L _).symm) $$ Ho
  sl_exec
  rw [wp_ret]; imodintro
  have hL0 : (L 0).val < 2 := (L 0).isLt
  have hL1 : (L 1).val < 16 := (L 1).isLt
  have hw : (wid (cV L) (jV L)).val = 2 * (L 1).val + (L 0).val := rfl
  have hwlt : (wid (cV L) (jV L)).val < 32 := (wid (cV L) (jV L)).isLt
  have e7 : k0_off7 L 0 = 1024 * (L 1).val + 512 * (L 0).val := congrFun (k0_off7_eq L) 0
  have hH0 : ∀ prev (c : Fin 64) (r : Fin 128), (View.write (Elt F) sH0.view prev (tile_body_zero.sl.dma0_2 m d L) Finset.univ) (ix2 c r)
      = HTv m d (ix2 c (⟨512 * (wid (cV L) (jV L)).val + 128 * 0 + r.val, by have := r.isLt; omega⟩ : Fin 16384)) := by
    intro prev c r
    rw [View.write_whole_univ]; unfold tile_body_zero.sl.dma0_2
    refine (ht_block d _ _ (1024 * (L 1).val + 512 * (L 0).val + 128 * 0) (k0_off2_eq L ⟨0, by decide⟩) (by omega) (HTv m d) c r).trans ?_
    exact congrArg (fun b => HTv m d (ix2 c b)) (Fin.ext (by show 1024 * (L 1).val + 512 * (L 0).val + 128 * 0 + r.val = 512 * (wid (cV L) (jV L)).val + 128 * 0 + r.val; rw [hw]; omega))
  have hT0 : ∀ prev (c : Fin 64) (r : Fin 128), (View.write (Elt F) sT0.view prev (tile_body_zero.sl.dma0_3 m d L) Finset.univ) (ix2 c r)
      = TTv m d (ix2 c (⟨512 * (wid (cV L) (jV L)).val + 128 * 0 + r.val, by have := r.isLt; omega⟩ : Fin 16384)) := by
    intro prev c r
    rw [View.write_whole_univ]; unfold tile_body_zero.sl.dma0_3
    refine (tt_block d _ _ (1024 * (L 1).val + 512 * (L 0).val + 128 * 0) (k0_off2_eq L ⟨0, by decide⟩) (by omega) (TTv m d) c r).trans ?_
    exact congrArg (fun b => TTv m d (ix2 c b)) (Fin.ext (by show 1024 * (L 1).val + 512 * (L 0).val + 128 * 0 + r.val = 512 * (wid (cV L) (jV L)).val + 128 * 0 + r.val; rw [hw]; omega))
  have hR0 : ∀ prev Lst (r : Fin 128) (c : Fin 128), (sR0.view.writes (Elt F) prev (⟨Rect.whole S128x128, tile_body_zero.sl.gather0 m d L fi0 hin0⟩ :: Lst)) (ix2 r c)
      = RPv m d (ix2 (Cert.Spec.relRow (m (a1Loc d) (ix1 (⟨512 * (wid (cV L) (jV L)).val + 128 * 0 + r.val, by have := r.isLt; omega⟩ : Fin 16384)))) c) := by
    intro prev Lst r c
    rw [sR0_head]; unfold tile_body_zero.sl.gather0
    refine (gathered_row m hpre d (cV L) _ _ hin0 (1024 * (L 1).val + 512 * (L 0).val + 128 * 0) (by omega) ?_ r c).trans ?_
    · intro r'
      rw [View.write_whole_univ]
      simp only [Memref.view_whole, View.read_whole]
      unfold tile_body_zero.sl.dma0_1
      exact id_block d _ _ _ (k0_off1_eq L ⟨0, by decide⟩) (by omega) (m (a1Loc d)) r'
    · exact congrArg (fun b => RPv m d (ix2 (Cert.Spec.relRow (m (a1Loc d) (ix1 b))) c)) (Fin.ext (by show 1024 * (L 1).val + 512 * (L 0).val + 128 * 0 + r.val = 512 * (wid (cV L) (jV L)).val + 128 * 0 + r.val; rw [hw]; omega))
  have hH1 : ∀ prev (c : Fin 64) (r : Fin 128), (View.write (Elt F) sH1.view prev (tile_body_zero.sl.dma0_5 m d L) Finset.univ) (ix2 c r)
      = HTv m d (ix2 c (⟨512 * (wid (cV L) (jV L)).val + 128 * 1 + r.val, by have := r.isLt; omega⟩ : Fin 16384)) := by
    intro prev c r
    rw [View.write_whole_univ]; unfold tile_body_zero.sl.dma0_5
    refine (ht_block d _ _ (1024 * (L 1).val + 512 * (L 0).val + 128 * 1) (k0_off2_eq L ⟨1, by decide⟩) (by omega) (HTv m d) c r).trans ?_
    exact congrArg (fun b => HTv m d (ix2 c b)) (Fin.ext (by show 1024 * (L 1).val + 512 * (L 0).val + 128 * 1 + r.val = 512 * (wid (cV L) (jV L)).val + 128 * 1 + r.val; rw [hw]; omega))
  have hT1 : ∀ prev (c : Fin 64) (r : Fin 128), (View.write (Elt F) sT1.view prev (tile_body_zero.sl.dma0_6 m d L) Finset.univ) (ix2 c r)
      = TTv m d (ix2 c (⟨512 * (wid (cV L) (jV L)).val + 128 * 1 + r.val, by have := r.isLt; omega⟩ : Fin 16384)) := by
    intro prev c r
    rw [View.write_whole_univ]; unfold tile_body_zero.sl.dma0_6
    refine (tt_block d _ _ (1024 * (L 1).val + 512 * (L 0).val + 128 * 1) (k0_off2_eq L ⟨1, by decide⟩) (by omega) (TTv m d) c r).trans ?_
    exact congrArg (fun b => TTv m d (ix2 c b)) (Fin.ext (by show 1024 * (L 1).val + 512 * (L 0).val + 128 * 1 + r.val = 512 * (wid (cV L) (jV L)).val + 128 * 1 + r.val; rw [hw]; omega))
  have hR1 : ∀ prev Lst (r : Fin 128) (c : Fin 128), (sR1.view.writes (Elt F) prev (⟨Rect.whole S128x128, tile_body_zero.sl.gather0_1 m d L fi1 hin1⟩ :: Lst)) (ix2 r c)
      = RPv m d (ix2 (Cert.Spec.relRow (m (a1Loc d) (ix1 (⟨512 * (wid (cV L) (jV L)).val + 128 * 1 + r.val, by have := r.isLt; omega⟩ : Fin 16384)))) c) := by
    intro prev Lst r c
    rw [sR1_head]; unfold tile_body_zero.sl.gather0_1
    refine (gathered_row m hpre d (cV L) _ _ hin1 (1024 * (L 1).val + 512 * (L 0).val + 128 * 1) (by omega) ?_ r c).trans ?_
    · intro r'
      rw [View.write_whole_univ]
      simp only [Memref.view_whole, View.read_whole]
      unfold tile_body_zero.sl.dma0_4
      exact id_block d _ _ _ (k0_off1_eq L ⟨1, by decide⟩) (by omega) (m (a1Loc d)) r'
    · exact congrArg (fun b => RPv m d (ix2 (Cert.Spec.relRow (m (a1Loc d) (ix1 b))) c)) (Fin.ext (by show 1024 * (L 1).val + 512 * (L 0).val + 128 * 1 + r.val = 512 * (wid (cV L) (jV L)).val + 128 * 1 + r.val; rw [hw]; omega))
  have hH2 : ∀ prev (c : Fin 64) (r : Fin 128), (View.write (Elt F) sH0.view prev (tile_body_zero.sl.dma0_8 m d L) Finset.univ) (ix2 c r)
      = HTv m d (ix2 c (⟨512 * (wid (cV L) (jV L)).val + 128 * 2 + r.val, by have := r.isLt; omega⟩ : Fin 16384)) := by
    intro prev c r
    rw [View.write_whole_univ]; unfold tile_body_zero.sl.dma0_8
    refine (ht_block d _ _ (1024 * (L 1).val + 512 * (L 0).val + 128 * 2) (k0_off2_eq L ⟨2, by decide⟩) (by omega) (HTv m d) c r).trans ?_
    exact congrArg (fun b => HTv m d (ix2 c b)) (Fin.ext (by show 1024 * (L 1).val + 512 * (L 0).val + 128 * 2 + r.val = 512 * (wid (cV L) (jV L)).val + 128 * 2 + r.val; rw [hw]; omega))
  have hT2 : ∀ prev (c : Fin 64) (r : Fin 128), (View.write (Elt F) sT0.view prev (tile_body_zero.sl.dma0_9 m d L) Finset.univ) (ix2 c r)
      = TTv m d (ix2 c (⟨512 * (wid (cV L) (jV L)).val + 128 * 2 + r.val, by have := r.isLt; omega⟩ : Fin 16384)) := by
    intro prev c r
    rw [View.write_whole_univ]; unfold tile_body_zero.sl.dma0_9
    refine (tt_block d _ _ (1024 * (L 1).val + 512 * (L 0).val + 128 * 2) (k0_off2_eq L ⟨2, by decide⟩) (by omega) (TTv m d) c r).trans ?_
    exact congrArg (fun b => TTv m d (ix2 c b)) (Fin.ext (by show 1024 * (L 1).val + 512 * (L 0).val + 128 * 2 + r.val = 512 * (wid (cV L) (jV L)).val + 128 * 2 + r.val; rw [hw]; omega))
  have hR2 : ∀ prev Lst (r : Fin 128) (c : Fin 128), (sR0.view.writes (Elt F) prev (⟨Rect.whole S128x128, tile_body_zero.sl.gather0_2 m d L fi0 hin2⟩ :: Lst)) (ix2 r c)
      = RPv m d (ix2 (Cert.Spec.relRow (m (a1Loc d) (ix1 (⟨512 * (wid (cV L) (jV L)).val + 128 * 2 + r.val, by have := r.isLt; omega⟩ : Fin 16384)))) c) := by
    intro prev Lst r c
    rw [sR0_head]; unfold tile_body_zero.sl.gather0_2
    refine (gathered_row m hpre d (cV L) _ _ hin2 (1024 * (L 1).val + 512 * (L 0).val + 128 * 2) (by omega) ?_ r c).trans ?_
    · intro r'
      rw [View.write_whole_univ]
      simp only [Memref.view_whole, View.read_whole]
      unfold tile_body_zero.sl.dma0_7
      exact id_block d _ _ _ (k0_off1_eq L ⟨2, by decide⟩) (by omega) (m (a1Loc d)) r'
    · exact congrArg (fun b => RPv m d (ix2 (Cert.Spec.relRow (m (a1Loc d) (ix1 b))) c)) (Fin.ext (by show 1024 * (L 1).val + 512 * (L 0).val + 128 * 2 + r.val = 512 * (wid (cV L) (jV L)).val + 128 * 2 + r.val; rw [hw]; omega))
  have hH3 : ∀ prev (c : Fin 64) (r : Fin 128), (View.write (Elt F) sH1.view prev (tile_body_zero.sl.dma0_11 m d L) Finset.univ) (ix2 c r)
      = HTv m d (ix2 c (⟨512 * (wid (cV L) (jV L)).val + 128 * 3 + r.val, by have := r.isLt; omega⟩ : Fin 16384)) := by
    intro prev c r
    rw [View.write_whole_univ]; unfold tile_body_zero.sl.dma0_11
    refine (ht_block d _ _ (1024 * (L 1).val + 512 * (L 0).val + 128 * 3) (k0_off2_eq L ⟨3, by decide⟩) (by omega) (HTv m d) c r).trans ?_
    exact congrArg (fun b => HTv m d (ix2 c b)) (Fin.ext (by show 1024 * (L 1).val + 512 * (L 0).val + 128 * 3 + r.val = 512 * (wid (cV L) (jV L)).val + 128 * 3 + r.val; rw [hw]; omega))
  have hT3 : ∀ prev (c : Fin 64) (r : Fin 128), (View.write (Elt F) sT1.view prev (tile_body_zero.sl.dma0_12 m d L) Finset.univ) (ix2 c r)
      = TTv m d (ix2 c (⟨512 * (wid (cV L) (jV L)).val + 128 * 3 + r.val, by have := r.isLt; omega⟩ : Fin 16384)) := by
    intro prev c r
    rw [View.write_whole_univ]; unfold tile_body_zero.sl.dma0_12
    refine (tt_block d _ _ (1024 * (L 1).val + 512 * (L 0).val + 128 * 3) (k0_off2_eq L ⟨3, by decide⟩) (by omega) (TTv m d) c r).trans ?_
    exact congrArg (fun b => TTv m d (ix2 c b)) (Fin.ext (by show 1024 * (L 1).val + 512 * (L 0).val + 128 * 3 + r.val = 512 * (wid (cV L) (jV L)).val + 128 * 3 + r.val; rw [hw]; omega))
  have hR3 : ∀ prev Lst (r : Fin 128) (c : Fin 128), (sR1.view.writes (Elt F) prev (⟨Rect.whole S128x128, tile_body_zero.sl.gather0_3 m d L fi1 hin3⟩ :: Lst)) (ix2 r c)
      = RPv m d (ix2 (Cert.Spec.relRow (m (a1Loc d) (ix1 (⟨512 * (wid (cV L) (jV L)).val + 128 * 3 + r.val, by have := r.isLt; omega⟩ : Fin 16384)))) c) := by
    intro prev Lst r c
    rw [sR1_head]; unfold tile_body_zero.sl.gather0_3
    refine (gathered_row m hpre d (cV L) _ _ hin3 (1024 * (L 1).val + 512 * (L 0).val + 128 * 3) (by omega) ?_ r c).trans ?_
    · intro r'
      rw [View.write_whole_univ]
      simp only [Memref.view_whole, View.read_whole]
      unfold tile_body_zero.sl.dma0_10
      exact id_block d _ _ _ (k0_off1_eq L ⟨3, by decide⟩) (by omega) (m (a1Loc d)) r'
    · exact congrArg (fun b => RPv m d (ix2 (Cert.Spec.relRow (m (a1Loc d) (ix1 b))) c)) (Fin.ext (by show 1024 * (L 1).val + 512 * (L 0).val + 128 * 3 + r.val = 512 * (wid (cV L) (jV L)).val + 128 * 3 + r.val; rw [hw]; omega))
  have hval : ∀ i ∈ oSet (wid (cV L) (jV L)), ((oSl L).view.writes (Elt F) (m (oLoc d)) [⟨Rect.whole S512, tile_body_zero.sl.dma0_13 d L fo4⟩]) i = KV m d i := by
    intro i hi
    rw [← set_oSl] at hi
    obtain ⟨j, -, rfl⟩ := Finset.mem_map.mp hi
    obtain ⟨jj, rfl⟩ : ∃ jj : Fin 512, j = ix1 jj := ⟨j 0, eq_ix1 j⟩
    have hwr := View.read_writes_cons_emb (v := (oSl L).view) (f := m (oLoc d)) (Rect.whole S512) (tile_body_zero.sl.dma0_13 d L fo4) [] (ix1 jj)
    rw [Rect.emb_whole_apply, View.read_apply, cast_eq] at hwr
    rw [hwr]
    have hv := Cert.KBlock.out_val4 (F := F) (HTv m d) (TTv m d) (RPv m d) (m (a1Loc d)) _ _ _ _ _ _ _ _ _ _ _ _ (512 * (wid (cV L) (jV L)).val)
      (Dvd.dvd.mul_right (by decide : (16 : ℕ) ∣ 512) _) (by omega)
      (hH0 _) (hH1 _) (hH2 _) (hH3 _) (hT0 _) (hT1 _) (hT2 _) (hT3 _) (hR0 _ _) (hR1 _ _) (hR2 _ _) (hR3 _ _)
      fo fo1 fo2 fo3 fo4 hfo1 hfo2 hfo3 hfo4 jj
    refine (show tile_body_zero.sl.dma0_13 d L fo4 (ix1 jj) = fo4 (ix1 jj) from rfl).trans (hv.trans ?_)
    unfold KV HTv TTv RPv Cert.KVal.kval
    refine congrArg (fun b => Cert.KVal.accAt _ _ _ _ b 64) (Fin.ext ?_)
    show 512 * (wid (cV L) (jV L)).val + jj.val = k0_off7 L 0 + 1 * jj.val
    rw [e7, hw]; omega
  ihave Ho := (Entails.of_eq (pts_oSl (F := F) d L _)) $$ Ho
  ihave Ho := (Entails.of_eq (pointsTo_congr hval)) $$ Ho
  unfold tdP rTok
  rw [if_pos (show (jV L).val = 0 from h0)]
  isplitl [Hht Hid Htt Hrp Ho Hsh Hrest]
  · isplitl [Hht Hid Htt Hrp]
    · isplitl [Hht]; · iexact Hht
      isplitl [Hid]; · iexact Hid
      isplitl [Htt]; · iexact Htt
      iexact Hrp
    isplitl [Ho]; · iexact Ho
    isplitl [Hsh]; · iexact Hsh
    iexact Hrest
  isplitl [Hi0 Hh0 Ht0 Hr0 Hi1 Hh1 Ht1 Hr1 Hout Hbufs]
  · isplitl [Hi0]; · iexists _; iexact Hi0
    isplitl [Hh0]; · iexists _; iexact Hh0
    isplitl [Ht0]; · iexists _; iexact Ht0
    isplitl [Hr0]; · iexists _; iexact Hr0
    isplitl [Hi1]; · iexists _; iexact Hi1
    isplitl [Hh1]; · iexists _; iexact Hh1
    isplitl [Ht1]; · iexists _; iexact Ht1
    isplitl [Hr1]; · iexists _; iexact Hr1
    isplitl [Hout]; · iexists _; iexact Hout
    iexact Hbufs
  isplitl [Hs4 Hs5 Hs6 Hs11 Hs12 Hs13 Hc0 Hc1 Hc2 Hc3 Hc4 Hc5 Hsems]
  · isplitl [Hs4]; · iexact Hs4
    isplitl [Hs5]; · iexact Hs5
    isplitl [Hs6]; · iexact Hs6
    isplitl [Hs11]; · iexact Hs11
    isplitl [Hs12]; · iexact Hs12
    isplitl [Hs13]; · iexact Hs13
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap
  · iexact HO
  ipureintro; intro p hp
  repeat (rcases Finset.mem_insert.mp hp with rfl | hp; · first | exact .inr (.inl rfl) | exact .inr (.inr rfl))
  unfold tile_body_zero.sl.W0 at hp; rw [dif_pos hv6] at hp
  rcases Finset.mem_insert.mp hp with rfl | hp
  · exact .inr (.inl rfl)
  exact .inl hp

set_option maxHeartbeats 4000000 in
/-- The task on vector subcore `(L 0, L 1)` of device `d`. -/
theorem tile_body [FloatOps F] (hF : (K (F := F)).Facts) (hpre : PreOK m) (d : Dev nD) (L : grid0.Coords)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (jV L)
        ∗ scopedBufs (thrV d L) ∗ scopedSems0 (thrV d L) ∗ owes (thrV d L) (O + oxV d (cV L)) W : sProp 𝕄)
      ⊢ wp frame (wpE (defs₀ (F := F)) 𝒱₀ (thrV d L) none) Set.univ
          (cc0__sc_kernel (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5)
          fun _ => iprop(tdP m d (cV L) (jV L) ∗ scopedBufs (thrV d L) ∗ scopedSems0 (thrV d L)
            ∗ ∃ W', ⌜∀ p ∈ W', p ∈ W ∨ p.2 = none ∨ p.2 = some (0 : Fin 1)⌝ ∗ owes (thrV d L) O W') := by
  by_cases h0 : (L 1).val = 0
  · exact tile_body_zero m hF hpre d L O W hO hOlev h0
  · exact tile_body_pos m hF hpre d L O W hO hOlev h0

end Cert.Proof.KernelIdealSide

end
-- ==== Proof.KLaunch.lean ====
/-
  The launch of the kernel program: what the handshakes carry is storable; one vector subcore's task as the launch
  theorem's obligation; how a SparseCore's operands split among its sixteen subcores and gather back, the shared table
  leaving and rejoining the sequencer's own buffers; the launch element of the ghost state, the barrier cells funded and
  their invariants allocated; @main on the TensorCore, the two transposes, the constant, the conversion and the padding
  before the call, the arrays dealt to the thirty-two workers and gathered back; and the run of the whole program.
-/
import proofs.«205660_g30348238913567_cont_9to1_1764_14_alg».proof.Proof.KBody

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry is storable -/

instance P_storable : (P (F := F) m).IsStorable where
  st q d c := match q with
    | 0 => by
      show BI.Storable (upEmb : UEmb _ 𝕄) (bigSep Finset.univ fun i : Fin τ.nSub =>
        iprop(rTok m d (wid ((K (F := F)).core 0 c) i) ∗ oPart d (wid ((K (F := F)).core 0 c) i) (m (oLoc d))))
      unfold rTok; infer_instance
  dn q d c := match q with
    | 0 => by
      show BI.Storable (upEmb : UEmb _ 𝕄) (bigSep Finset.univ fun i : Fin τ.nSub =>
        iprop(rTok m d (wid ((K (F := F)).core 0 c) i) ∗ oPart d (wid ((K (F := F)).core 0 c) i) (KV m d)))
      unfold rTok; infer_instance
  go q d c i := match q with
    | 0 => by
      show BI.Storable (upEmb : UEmb _ 𝕄) (goP m d ((K (F := F)).core 0 c) ((K (F := F)).sub 0 i))
      unfold goP rTok; split <;> infer_instance
  td q d c i := match q with
    | 0 => by
      show BI.Storable (upEmb : UEmb _ 𝕄) (tdP m d ((K (F := F)).core 0 c) ((K (F := F)).sub 0 i))
      unfold tdP rTok; split <;> infer_instance

/-! ## One vector subcore's task as the launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_kernel (F := F) (coordsV c s) aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5) ⟨⟩ c s := rfl

set_option maxRecDepth 16384 in
/-- The task of call 0 on every subcore of its grid: the body's proof at that subcore's grid point. -/
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hF hpre d (coordsV ⟨_, hci.1⟩ ⟨_, hci.2⟩) O W hO hOlev

/-! ## How a SparseCore's operands split among its subcores -/

omit [FloatOps F] in
/-- A family over the subcores of call 0's grid is one over every subcore. -/
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

omit [FloatOps F] in
theorem bigSep_emp' {I : Type} (s : Finset I) : (bigSep s fun _ => iprop(emp)) = (iprop(emp) : sProp 𝕄) := bigSep_emp_const s

omit [FloatOps F] in
/-- What only subcore 0 is handed, among the sixteen. -/
theorem at_zero_intro (X : sProp 𝕄) : X ⊢ bigSep Finset.univ fun i : Fin τ.nSub => if i.val = 0 then X else iprop(emp) := by
  rw [SparseCore.bigSep_erase' (Finset.mem_univ (⟨0, by decide⟩ : Fin τ.nSub)), if_pos rfl,
    bigSep_congr (Ψ := fun _ => iprop(emp)) fun i hi => if_neg fun h => (Finset.mem_erase.mp hi).1 (Fin.ext h), bigSep_emp']
  iintro H
  isplitl [H]
  · iexact H
  · iempintro
omit [FloatOps F] in
theorem at_zero_elim (X : sProp 𝕄) : (bigSep Finset.univ fun i : Fin τ.nSub => if i.val = 0 then X else iprop(emp)) ⊢ X := by
  rw [SparseCore.bigSep_erase' (Finset.mem_univ (⟨0, by decide⟩ : Fin τ.nSub)), if_pos rfl]
  exact sep_elim_left

omit [FloatOps F] in
/-- The SparseCore's shared table is among its sequencer's own buffers: it, at some contents, and the rest. -/
theorem ownBufs_S (d : Dev nD) (c : Fin τ.nSC) :
    (ownBufs (S d c) : sProp 𝕄) = iprop((∃ f, shLoc d c ↦{fullShare} f)
      ∗ bigSep ((ownRefs (τ := τ) (.scScalar c)).erase (shRef c)) fun b => iprop(∃ f, ((d, b) : Loc nD τ sig) ↦{fullShare} f)) := by
  unfold SparseCore.Cfg.ownBufs
  refine SparseCore.bigSep_erase' (s := ownRefs (τ := τ) (sig := sig) (.scScalar c)) (i := shRef c) ?_
  exact mem_ownRefs.mpr rfl

/-- The sixteen shares of the shared table and what was left when they were dealt are the table whole. -/
theorem sh_join (d : Dev nD) (c : Fin τ.nSC) :
    iprop((shLoc d c ↦{shRest} RPsh m d c) ∗ bigSep Finset.univ fun i : Fin τ.nSub => shLoc d c ↦{shTok i} RPsh m d c)
      ⊢ (shLoc d c ↦{fullShare} RPsh m d c : sProp 𝕄) :=
  Transfers.pointsTo_toks_join fullShare 16

theorem vecSplit : (K (F := F)).VecSplit (P m) 0 := by
  intro d c
  show iprop((bigSep Finset.univ fun i : Fin τ.nSub => iprop(rTok m d (wid ((K (F := F)).core 0 c) i) ∗ oPart d (wid ((K (F := F)).core 0 c) i) (m (oLoc d))))
      ∗ ownBufs (S d ((K (F := F)).core 0 c)))
    ⊢ |={Set.univ}=> iprop((bigSep Finset.univ fun i : Fin ((K (F := F)).nSub 0) => goP m d ((K (F := F)).core 0 c) ((K (F := F)).sub 0 i))
        ∗ ((bigSep Finset.univ fun i : Fin ((K (F := F)).nSub 0) => tdP m d ((K (F := F)).core 0 c) ((K (F := F)).sub 0 i))
          -∗ iprop((bigSep Finset.univ fun i : Fin τ.nSub => iprop(rTok m d (wid ((K (F := F)).core 0 c) i) ∗ oPart d (wid ((K (F := F)).core 0 c) i) (KV m d)))
            ∗ ownBufs (S d ((K (F := F)).core 0 c)))))
  rw [bigSep_tasks (F := F) (fun i => goP m d ((K (F := F)).core 0 c) i), bigSep_tasks (F := F) (fun i => tdP m d ((K (F := F)).core 0 c) i), ownBufs_S]
  generalize (K (F := F)).core 0 c = c'
  unfold goP tdP
  simp only [bigSep_sep']
  iintro ⟨⟨HR, HO⟩, ⟨%f, Hsh⟩, Hrest⟩
  imodintro
  isplitl [HR HO Hsh]
  · isplitl [HR]; · iexact HR
    isplitl [HO]; · iexact HO
    iapply (at_zero_intro (F := F) iprop(∃ f, shLoc d c' ↦{fullShare} f))
    iexists f; iexact Hsh
  iintro ⟨HR, HO, Hts, Hrs⟩
  ihave Hr := (at_zero_elim (F := F) iprop(shLoc d c' ↦{shRest} RPsh m d c')) $$ Hrs
  ihave Hfull := (sh_join m d c') $$ [Hr Hts]
  · isplitl [Hr]; · iexact Hr
    iexact Hts
  isplitl [HR HO]
  · isplitl [HR]; · iexact HR
    iexact HO
  isplitl [Hfull]
  · iexists _; iexact Hfull
  iexact Hrest

/-! ## The launch element

The element is the handshakes' rounds beside the barrier cells' rounds, no transfer counted. The barrier cells are
funded at their schedule; their counters, free semaphores of the vector subcores, read zero at the launch, so their
invariants are allocated at once; the credit for what the subcores owe one another is regrouped, sixteen units of its
own cell to each subcore; and each subcore is dealt its kit, the invariants and the reached rounds shared by all. -/

abbrev Sub3 : Type := Dev nD × Fin τ.nSC × Fin τ.nSub
abbrev bcell₃ (x : Sub3) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : Sub3 × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : Sub3 → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem bCells_eq (Φ : GSem nD τ sig → sProp 𝕄) : bigSep bCells Φ = bigSep Finset.univ fun x : Sub3 => Φ (bcell₃ x) := by
  unfold bCells; exact SparseCore.bigSep_image_of_injOn (fun a _ b _ e => bcell₃_injective e) Φ

omit [FloatOps F] in
/-- The element splits into the handshakes' rounds and the barrier cells'. -/
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores of the vector subcores. -/
theorem sems_b : ((K (F := F)).freeSems0 : sProp 𝕄) ⊢ bigSep bCells fun g => semVal g 0 := by
  rw [bCells_eq]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once from their counters at zero and their round states at zero. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
/-- `n` single units at one cell and index are `n` units there. -/
theorem sum_tallyAt (g : GSem nD τ sig) (ι : HIx 1) (n : ℕ) : (∑ _i : Fin n, tallyAt g ι 1 : CellTallies nD τ sig (HIx 1)) = tallyAt g ι n := by
  rw [Finset.sum_const, Finset.card_univ, Fintype.card_fin]
  induction n with
  | zero => rw [zero_nsmul, tallyAt_zero]
  | succ n ih => rw [succ_nsmul, ih, tallyAt_add]

/-- What a vector subcore owes for the kernel's own protocol from the launch: call 0's. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]; rfl

/-- The credit for the kernel's own debts, regrouped: each subcore the sixteen units of its own cell (one from each
    subcore of its SparseCore). -/
theorem creds_b : ((P (F := F) m).oxCred : sProp 𝕄)
    ⊢ bigSep Finset.univ fun x : Sub3 => cred (tallyAt (bcell₃ x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [oxFrom_V]
  rw [bigSep_univ_prod, bigSep_univ_prod (fun x : Sub3 => (cred (tallyAt (bcell₃ x) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  unfold oxV
  rw [SparseCore.Cfg.cred_finsum, bigSep_univ_comm]
  refine bigSep_mono fun j _ => ?_
  rw [← SparseCore.Cfg.cred_finsum, sum_tallyAt]; rfl

omit [FloatOps F] in
/-- The launch tokens, per subcore: its token in every cell of its SparseCore. -/
theorem toks_eq : (bigSep bToks fun x => (dutyTok EB x.1 x.2.1 x.2.2 : sProp 𝕄))
    = bigSep Finset.univ fun x : Sub3 => bigSep Finset.univ fun j : Fin (grid0.bound 1) => dutyTok EB (bcell x.1 x.2.1 (j.castLE hsub0)) 0 x.2.2.val := by
  unfold bToks
  rw [SparseCore.bigSep_image_of_injOn, bigSep_univ_prod]
  rintro ⟨⟨d, c, i⟩, j⟩ - ⟨⟨d', c', i'⟩, j'⟩ - e
  have e1 : bcell₃ (d, c, j.castLE hsub0) = bcell₃ (d', c', j'.castLE hsub0) := (Prod.mk.inj e).1
  have e2 : i.val = i'.val := (Prod.mk.inj (Prod.mk.inj e).2).2
  obtain ⟨rfl, h⟩ := Prod.mk.inj (bcell₃_injective e1)
  obtain ⟨rfl, hj⟩ := Prod.mk.inj h
  obtain rfl : j = j' := Fin.ext (congrArg Fin.val hj)
  obtain rfl : i = i' := Fin.ext e2
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

/-- What every subcore is handed alike: every barrier cell's invariant, and that each has reached round 0. -/
abbrev shared : sProp 𝕄 :=
  iprop((∃ κ : GSem nD τ sig → ℕ, bigSep Finset.univ fun x : Sub3 => cellInv EB (bRd (F := F) m) (κ (bcell₃ x)) (bcell₃ x))
    ∗ bigSep Finset.univ fun x : Sub3 => reached EB (bcell₃ x) 0)
/-- What each subcore is handed of its own: its position, its tokens, its credit. -/
abbrev mine (x : Sub3) : sProp 𝕄 :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

/-- One subcore's kit out of those. -/
theorem kit_intro (x : Sub3) : iprop(shared (F := F) m ∗ mine (F := F) x) ⊢ (bkit (F := F) m x.1 x.2.1 x.2.2 : sProp 𝕄) := by
  obtain ⟨d, c, i⟩ := x
  have htok : ∀ j ∈ (Finset.univ : Finset (Fin (grid0.bound 1))),
      iprop((bigSep Finset.univ fun x : Sub3 => reached EB (bcell₃ x) 0) ∗ dutyTok EB (bcell d c (j.castLE hsub0)) 0 i.val)
        ⊢ (iprop(dutyTok EB (bcell d c (j.castLE hsub0)) 0 i.val ∗ reached EB (bcell d c (j.castLE hsub0)) 0) : sProp 𝕄) := by
    intro j _
    iintro ⟨#Hr, Ht⟩
    isplitl [Ht]; · iexact Ht
    iapply (SparseCore.ent (bigSep_elim (Φ := fun x : Sub3 => (reached EB (bcell₃ x) 0 : sProp 𝕄)) (i := (d, c, j.castLE hsub0)) (Finset.mem_univ _)))
    iexact Hr
  iintro ⟨⟨⟨%κ, #Hinv⟩, #Hr⟩, Hat, Htok, Hcred⟩
  dsimp only
  unfold bkit
  isplitr
  · iexists κ
    iapply (bigSep_intro_persistent (S := (Finset.univ : Finset (Fin (grid0.bound 1))))
      (R := bigSep Finset.univ fun x : Sub3 => cellInv EB (bRd (F := F) m) (κ (bcell₃ x)) (bcell₃ x))
      (Φ := fun j : Fin (grid0.bound 1) => cellInv EB (bRd (F := F) m) (κ (bcell d c (j.castLE hsub0))) (bcell d c (j.castLE hsub0)))
      fun j _ => bigSep_elim (Φ := fun x : Sub3 => (cellInv EB (bRd (F := F) m) (κ (bcell₃ x)) (bcell₃ x) : sProp 𝕄))
        (i := (d, c, Fin.castLE hsub0 j)) (Finset.mem_univ _))
    iexact Hinv
  isplitl [Htok]
  · iapply (bigSep_with_persistent (S := (Finset.univ : Finset (Fin (grid0.bound 1))))
      (R := bigSep Finset.univ fun x : Sub3 => reached EB (bcell₃ x) 0)
      (Φ := fun j : Fin (grid0.bound 1) => dutyTok EB (bcell d c (j.castLE hsub0)) 0 i.val)
      (Ψ := fun j : Fin (grid0.bound 1) => iprop(dutyTok EB (bcell d c (j.castLE hsub0)) 0 i.val ∗ reached EB (bcell d c (j.castLE hsub0)) 0))
      htok)
    isplitr; · iexact Hr
    iexact Htok
  isplitl [Hat]; · iexact Hat
  iexact Hcred

/-- Each subcore its kit; the TensorCores and the sequencers nothing. -/
theorem kits_deal :
    iprop(((∃ κ : GSem nD τ sig → ℕ, bigSep bCells fun g => cellInv EB (bRd (F := F) m) (κ g) g) ∗ bigSep bCells fun g => reached EB g 0)
        ∗ ((bigSep bCells fun g => atPos EB g 0 ∅ 0) ∗ (bigSep bToks fun x => dutyTok EB x.1 x.2.1 x.2.2)
          ∗ bigSep Finset.univ fun x : Sub3 => cred (tallyAt (bcell₃ x) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  rw [toks_eq, bCells_eq, bCells_eq]
  iintro ⟨⟨⟨%κ, Hinv⟩, #Hr⟩, Hat, Htok, Hcred⟩
  ihave #Hinv' := (Entails.of_eq (bCells_eq (F := F) fun g => cellInv EB (bRd (F := F) m) (κ g) g)) $$ Hinv
  isplitr; · iempintro
  isplitr; · iempintro
  iapply (bigSep_with_persistent (R := shared (F := F) m) (Φ := mine (F := F)) fun x _ => kit_intro (F := F) m x)
  isplitr
  · isplitl; · iexists κ; iexact Hinv'
    iexact Hr
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  have h := SparseCore.Cfg.launch_elem (nD := nD) (τ := τ) (sig := sig) (Val := Elt F) (Q := 1) (Name := ℕ) (U := UU)
    (Fr := iprop(emp)) (Inv := fun κ : GSem nD τ sig → ℕ => bigSep bCells fun g => cellInv EB (bRd (F := F) m) (κ g) g)
    (ownU_split (F := F) (initOf (K (F := F)).hsCells (K (F := F)).hsToks) (initOf bCells bToks))
    (Rounds.fund EB (bRd (F := F) m) bCells bToks) (sems_b (F := F)) (invs_b m) (creds_b m) (kits_deal m)
  iintro ⟨Hu, Hc, Hf⟩
  iapply h
  isplitl [Hu]; · iexact Hu
  isplitl [Hc]; · iexact Hc
  isplitr; · iempintro
  iexact Hf

/-! ## @main on the TensorCore -/

/-- The TensorCore's ten arrays, as device buffers: the four arguments, the two transposes, the constant, the converted
    constant, the padded table, the result. -/
abbrev x0' : DevRef τ sig := Proc.devRef .tc (main_arg0 : Ref sig .tc)
abbrev x1' : DevRef τ sig := Proc.devRef .tc (main_arg1 : Ref sig .tc)
abbrev x2' : DevRef τ sig := Proc.devRef .tc (main_arg2 : Ref sig .tc)
abbrev x3' : DevRef τ sig := Proc.devRef .tc (main_arg3 : Ref sig .tc)
abbrev y0' : DevRef τ sig := Proc.devRef .tc (main_v0 : Ref sig .tc)
abbrev y1' : DevRef τ sig := Proc.devRef .tc (main_v1 : Ref sig .tc)
abbrev yc' : DevRef τ sig := Proc.devRef .tc (main_c : Ref sig .tc)
abbrev yk' : DevRef τ sig := Proc.devRef .tc (main_call0_v0 : Ref sig .tc)
abbrev y2' : DevRef τ sig := Proc.devRef .tc (main_v2 : Ref sig .tc)
abbrev y3' : DevRef τ sig := Proc.devRef .tc (main_v3 : Ref sig .tc)

abbrev S10 : Finset (DevRef τ sig) := {x0', x1', x2', x3', y0', y1', yc', yk', y2', y3'}

abbrev cLoc (d : Dev nD) : Loc nD τ sig := (SparseCore.T d).loc main_c
abbrev kLoc (d : Dev nD) : Loc nD τ sig := (SparseCore.T d).loc main_call0_v0

omit [FloatOps F] in
theorem held_S10 (d : Dev nD) (W : Valuation τ sig (Elt F)) :
    (held (T d) S10 W : sProp 𝕄) = iprop((a0Loc d ↦{fullShare} W x0') ∗ (a1Loc d ↦{fullShare} W x1') ∗ (a2Loc d ↦{fullShare} W x2')
      ∗ (a3Loc d ↦{fullShare} W x3') ∗ (htLoc d ↦{fullShare} W y0') ∗ (ttLoc d ↦{fullShare} W y1') ∗ (cLoc d ↦{fullShare} W yc')
      ∗ (kLoc d ↦{fullShare} W yk') ∗ (rpLoc d ↦{fullShare} W y2') ∗ oLoc d ↦{fullShare} W y3') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (htLoc d ↦{fullShare} W main_v0) ∗ (ttLoc d ↦{fullShare} W main_v1) ∗ (cLoc d ↦{fullShare} W main_c)
      ∗ (kLoc d ↦{fullShare} W main_call0_v0) ∗ (rpLoc d ↦{fullShare} W main_v2) ∗ oLoc d ↦{fullShare} W main_v3) := by
  unfold unscopedBufs
  rw [show (Finset.univ.filter fun b : Ref sig .tc => ¬ b.isScoped)
      = {main_arg0, main_arg1, main_arg2, main_arg3, main_v0, main_v1, main_c, main_call0_v0, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S10 (V0 m d) := by
  rw [unscopedBufs_eq, held_S10]; rfl

/-- The five host operations before the call: the two transposes, the constant, its conversion, the padding. -/
abbrev opT0 : HloOp τ sig (Elt F) :=
  StableHlo.unary main_arg0 main_v0 ((transpose S64x16384 [1, 0] · transposes_S16384x64_S64x16384_1_0) : (⟨S16384x64, .f32⟩ : BufTy).Contents (Elt F) → (⟨S64x16384, .f32⟩ : BufTy).Contents (Elt F))
abbrev opT1 : HloOp τ sig (Elt F) :=
  StableHlo.unary main_arg2 main_v1 ((transpose S64x16384 [1, 0] · transposes_S16384x64_S64x16384_1_0) : (⟨S16384x64, .f32⟩ : BufTy).Contents (Elt F) → (⟨S64x16384, .f32⟩ : BufTy).Contents (Elt F))
abbrev opC : HloOp τ sig (Elt F) := StableHlo.nullary main_c (constantI S_ 32 0#32)
abbrev opK : HloOp τ sig (Elt F) :=
  StableHlo.TRef.unary (.of main_c : StableHlo.TRef sig ⟨S_, .i32⟩) (main_call0.v0) (sitofp .f32)
abbrev opP : HloOp τ sig (Elt F) :=
  StableHlo.TRef.binary (.of main_arg3 : StableHlo.TRef sig ⟨S1000x64, .f32⟩) (main_call0.v0) (main_call0.v1)
    (fun x v => pad S1000x128 ![0, 0] ![0, 64] ![0, 0] x v pads_S1000x64_S1000x128_000_0640 h_S_)
abbrev ops : List (HloOp τ sig (Elt F)) := [opT0, opT1, opC, opK, opP]

/-- The call, and @main's return. -/
abbrev callK (d : Dev nD) : Prog (TpuEff nD τ sig (Elt F) (SparseCore.Sig (ΛP (F := F)) 1) .tc) PUnit :=
  (K (F := F)).run d 0 >>= fun _ => pure ⟨⟩

/-- @main is the five operations in line, then the call. -/
theorem main_eq (d : Dev nD) : main (F := F) d = (StableHlo.seq (ops (F := F)) >>= fun _ => callK (F := F) d) := rfl

theorem ops_sub : ∀ op ∈ ops (F := F), op.bufs ⊆ S10 := by
  intro op hop
  simp only [ops, List.mem_cons, List.not_mem_nil, or_false] at hop
  rcases hop with rfl | rfl | rfl | rfl | rfl
  · show ({x0', y0'} : Finset (DevRef τ sig)) ⊆ S10; decide
  · show ({x2', y1'} : Finset (DevRef τ sig)) ⊆ S10; decide
  · show ({yc'} : Finset (DevRef τ sig)) ⊆ S10; decide
  · show ({yc', yk'} : Finset (DevRef τ sig)) ⊆ S10; decide
  · show ({x3', yk', y2'} : Finset (DevRef τ sig)) ⊆ S10; decide

theorem ops_fresh : ∀ op ∈ ops (F := F), op.fresh = ∅ := by
  intro op hop
  simp only [ops, List.mem_cons, List.not_mem_nil, or_false] at hop
  rcases hop with rfl | rfl | rfl | rfl | rfl <;> rfl

/-! ### What the arrays hold after the five operations -/

theorem after_x0 (d : Dev nD) : StableHlo.after (ops (F := F)) (V0 m d) x0' = m (a0Loc d) := by
  simp only [ops]; after_results_simp; rfl
theorem after_x1 (d : Dev nD) : StableHlo.after (ops (F := F)) (V0 m d) x1' = m (a1Loc d) := by
  simp only [ops]; after_results_simp; rfl
theorem after_x2 (d : Dev nD) : StableHlo.after (ops (F := F)) (V0 m d) x2' = m (a2Loc d) := by
  simp only [ops]; after_results_simp; rfl
theorem after_x3 (d : Dev nD) : StableHlo.after (ops (F := F)) (V0 m d) x3' = m (a3Loc d) := by
  simp only [ops]; after_results_simp; rfl
theorem after_y0 (d : Dev nD) : StableHlo.after (ops (F := F)) (V0 m d) y0' = HTv m d := by
  simp only [ops]; after_results_simp; rfl
theorem after_y1 (d : Dev nD) : StableHlo.after (ops (F := F)) (V0 m d) y1' = TTv m d := by
  simp only [ops]; after_results_simp; rfl
theorem after_y2 (d : Dev nD) : StableHlo.after (ops (F := F)) (V0 m d) y2' = RPv m d := by
  simp only [ops]; after_results_simp; rfl
theorem after_y3 (d : Dev nD) : StableHlo.after (ops (F := F)) (V0 m d) y3' = m (oLoc d) := by
  simp only [ops]; after_results_simp; rfl

/-- The ten arrays after the five operations. -/
theorem held_after (d : Dev nD) :
    (held (T d) S10 (StableHlo.after (ops (F := F)) (V0 m d)) : sProp 𝕄) = iprop((a0Loc d ↦{fullShare} m (a0Loc d)) ∗ (a1Loc d ↦{fullShare} m (a1Loc d))
      ∗ (a2Loc d ↦{fullShare} m (a2Loc d)) ∗ (a3Loc d ↦{fullShare} m (a3Loc d)) ∗ (htLoc d ↦{fullShare} HTv m d) ∗ (ttLoc d ↦{fullShare} TTv m d)
      ∗ (cLoc d ↦{fullShare} StableHlo.after (ops (F := F)) (V0 m d) yc') ∗ (kLoc d ↦{fullShare} StableHlo.after (ops (F := F)) (V0 m d) yk')
      ∗ (rpLoc d ↦{fullShare} RPv m d) ∗ oLoc d ↦{fullShare} m (oLoc d)) := by
  rw [held_S10, after_x0, after_x1, after_x2, after_x3, after_y0, after_y1, after_y2, after_y3]

/-! ### The arrays dealt to the thirty-two workers -/

omit [FloatOps F] in
/-- An array held whole, dealt to the thirty-two workers as read shares; what is left is kept aside. -/
theorem deal32 (ℓ : Loc nD τ sig) (f : Buf (Elt F) ℓ) :
    (ℓ ↦{fullShare} f : sProp 𝕄) ⊢ iprop((ℓ ↦{Transfers.shareDrop fullShare 32} f) ∗ bigSep Finset.univ fun w : Fin 32 => ℓ ↦{tokS w} f) :=
  Transfers.pointsTo_toks_split fullShare 32
omit [FloatOps F] in
theorem join32 (ℓ : Loc nD τ sig) (f : Buf (Elt F) ℓ) :
    iprop((ℓ ↦{Transfers.shareDrop fullShare 32} f) ∗ bigSep Finset.univ fun w : Fin 32 => ℓ ↦{tokS w} f) ⊢ (ℓ ↦{fullShare} f : sProp 𝕄) :=
  Transfers.pointsTo_toks_join fullShare 32

omit [FloatOps F] in
theorem oBlocks_disjoint : ∀ i ∈ (Finset.univ : Finset (Fin 32)), ∀ j ∈ (Finset.univ : Finset (Fin 32)), i ≠ j → Disjoint (oSet i) (oSet j) :=
  fun _ _ _ _ h => Rect.part_disjoint hdiv32 h
omit [FloatOps F] in
theorem oBlocks_cover : (Finset.univ : Finset (Fin 32)).biUnion oSet = Finset.univ := Rect.biUnion_part hdiv32

omit [FloatOps F] in
/-- The result array whole is its thirty-two blocks. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oBlocks_disjoint, oBlocks_cover]; try rfl

/-- Worker numbers are the pairs of a SparseCore and a subcore. -/
def widEquiv : Fin τ.nSC × Fin τ.nSub ≃ Fin 32 where
  toFun p := wid p.1 p.2
  invFun w := (⟨w.val % 2, Nat.mod_lt _ (by decide)⟩, ⟨w.val / 2, by have := w.isLt; show w.val / 2 < 16; omega⟩)
  left_inv := by
    rintro ⟨c, i⟩
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

omit [FloatOps F] in
theorem bigSep_workers (Φ : Fin 32 → sProp 𝕄) :
    bigSep Finset.univ Φ = bigSep Finset.univ fun c : Fin τ.nSC => bigSep Finset.univ fun i : Fin τ.nSub => Φ (wid c i) := by
  rw [bigSep_univ_equiv widEquiv Φ, bigSep_univ_prod]; rfl

omit [FloatOps F] in
theorem bigSep_cores (Φ : Fin τ.nSC → sProp 𝕄) :
    (bigSep Finset.univ fun c : Fin ((K (F := F)).nCore 0) => Φ ((K (F := F)).core 0 c)) = bigSep Finset.univ Φ :=
  bigSep_congr fun _ _ => congrArg Φ (Fin.ext rfl)

/-- The workers' shares and blocks, regrouped: per array its thirty-two read shares, and the result whole. -/
theorem workers_eq (d : Dev nD) (f : Buf (Elt F) (oLoc d)) :
    (bigSep Finset.univ fun w : Fin 32 => iprop(rTok m d w ∗ oPart d w f))
      = iprop(((bigSep Finset.univ fun w : Fin 32 => htLoc d ↦{tokS w} HTv m d) ∗ (bigSep Finset.univ fun w : Fin 32 => a1Loc d ↦{tokS w} m (a1Loc d))
          ∗ (bigSep Finset.univ fun w : Fin 32 => ttLoc d ↦{tokS w} TTv m d) ∗ (bigSep Finset.univ fun w : Fin 32 => rpLoc d ↦{tokS w} RPv m d))
        ∗ oLoc d ↦{fullShare} f) := by
  rw [oPts_blocks]
  unfold rTok
  simp only [bigSep_sep']

theorem st0_eq (d : Dev nD) : (bigSep Finset.univ fun c : Fin ((K (F := F)).nCore 0) => (P m).st 0 d c)
    = bigSep Finset.univ fun w : Fin 32 => iprop(rTok m d w ∗ oPart d w (m (oLoc d))) := by
  exact (bigSep_cores (F := F) (fun c' : Fin τ.nSC => bigSep Finset.univ fun i : Fin τ.nSub =>
    iprop(rTok m d (wid c' i) ∗ oPart d (wid c' i) (m (oLoc d))))).trans
    (bigSep_workers (F := F) (fun w => iprop(rTok m d w ∗ oPart d w (m (oLoc d))))).symm
theorem dn0_eq (d : Dev nD) : (bigSep Finset.univ fun c : Fin ((K (F := F)).nCore 0) => (P m).dn 0 d c)
    = bigSep Finset.univ fun w : Fin 32 => iprop(rTok m d w ∗ oPart d w (KV m d)) := by
  exact (bigSep_cores (F := F) (fun c' : Fin τ.nSC => bigSep Finset.univ fun i : Fin τ.nSub =>
    iprop(rTok m d (wid c' i) ∗ oPart d (wid c' i) (KV m d)))).trans
    (bigSep_workers (F := F) (fun w => iprop(rTok m d w ∗ oPart d w (KV m d)))).symm

/-- What @main leaves the claim: the four arguments at their launch contents, the result at the scores. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ oLoc d ↦{fullShare} KV m d)

/-- The call and what follows it, from the arrays as the five operations left them. -/
theorem hcall (κ : GSem nD τ sig → ℕ) (d : Dev nD) :
    iprop((K (F := F)).ctx EH (P m) κ ∗ (K (F := F)).tcSt EH d 0
        ∗ (a0Loc d ↦{fullShare} m (a0Loc d)) ∗ (a1Loc d ↦{fullShare} m (a1Loc d)) ∗ (a2Loc d ↦{fullShare} m (a2Loc d))
        ∗ (a3Loc d ↦{fullShare} m (a3Loc d)) ∗ (htLoc d ↦{fullShare} HTv m d) ∗ (ttLoc d ↦{fullShare} TTv m d)
        ∗ (rpLoc d ↦{fullShare} RPv m d) ∗ (oLoc d ↦{fullShare} m (oLoc d)))
      ⊢ wp frame (wpE ((K (F := F)).defs (D (F := F))) 𝒱 (SparseCore.T d) none) Set.univ (callK (F := F) d)
          fun _ => iprop((K (F := F)).tcSt EH d 1 ∗ FIN m d) := by
  simp only [callK, wp_bind, wp_pure]
  iintro ⟨#Hctx, Hst, H0, H1, H2, H3, Hy0, Hy1, Hy2, Hy3⟩
  ihave Hd := (deal32 (F := F) (htLoc d) (HTv m d)) $$ Hy0
  icases Hd with ⟨-, Ht0⟩
  ihave Hd := (deal32 (F := F) (a1Loc d) (m (a1Loc d))) $$ H1
  icases Hd with ⟨Hr1, Ht1⟩
  ihave Hd := (deal32 (F := F) (ttLoc d) (TTv m d)) $$ Hy1
  icases Hd with ⟨-, Ht2⟩
  ihave Hd := (deal32 (F := F) (rpLoc d) (RPv m d)) $$ Hy2
  icases Hd with ⟨-, Ht3⟩
  iapply ((K (F := F)).wp_run (D (F := F)) 𝒱 (EH := EH) (P := P m) κ d 0) $$ [Hst Ht0 Ht1 Ht2 Ht3 Hy3 H0 Hr1 H2 H3]
  isplitr; · iexact Hctx
  isplitl [Hst]; · iexact Hst
  isplitl [Ht0 Ht1 Ht2 Ht3 Hy3]
  · rw [st0_eq, workers_eq]
    isplitl [Ht0 Ht1 Ht2 Ht3]
    · isplitl [Ht0]; · iexact Ht0
      isplitl [Ht1]; · iexact Ht1
      isplitl [Ht2]; · iexact Ht2
      iexact Ht3
    iexact Hy3
  iintro ⟨Hst, Hdn⟩
  ihave Hdn' := (Entails.of_eq ((dn0_eq m d).trans (workers_eq m d (KV m d)))) $$ Hdn
  icases Hdn' with ⟨⟨-, Ht1, -, -⟩, Ho⟩
  ihave H1 := (join32 (F := F) (a1Loc d) (m (a1Loc d))) $$ [Hr1 Ht1]
  · isplitl [Hr1]; · iexact Hr1
    iexact Ht1
  imodintro
  isplitl [Hst]; · iexact Hst
  isplitl [H0]; · iexact H0
  isplitl [H1]; · iexact H1
  isplitl [H2]; · iexact H2
  isplitl [H3]; · iexact H3
  iexact Ho

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S10 (fun _ => callK (F := F) d) (ops (F := F)) ops_sub ops_fresh (V0 m d)) $$ [Hb Hheld]
  · isplitl [Hb]; · iexact Hb
    iexact Hheld
  iintro ⟨-, Hheld⟩
  ihave Hh := (Entails.of_eq (held_after m d)) $$ Hheld
  icases Hh with ⟨H0, H1, H2, H3, Hy0, Hy1, -, -, Hy2, Hy3⟩
  iapply (hcall m κ d)
  isplitr; · iexact Hctx
  isplitl [Hst]; · iexact Hst
  isplitl [H0]; · iexact H0
  isplitl [H1]; · iexact H1
  isplitl [H2]; · iexact H2
  isplitl [H3]; · iexact H3
  isplitl [Hy0]; · iexact Hy0
  isplitl [Hy1]; · iexact Hy1
  isplitl [Hy2]; · iexact Hy2
  iexact Hy3

/-! ## The final memory reads the claim -/

def fq (d : Dev nD) (s' : Phys nD τ sig (Elt F)) : Prop :=
  s'.mem.mem (oLoc d) = KV m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
/-- An array held whole at contents `f` holds `f` in the state. -/
theorem agree_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, Ho⟩, HSI⟩
  ihave H := (agree_whole (F := F) s' (a0Loc d) _) $$ [H0 HSI]
  · isplitl [H0] <;> iassumption
  icases H with ⟨%h0, HSI⟩
  ihave H := (agree_whole (F := F) s' (a1Loc d) _) $$ [H1 HSI]
  · isplitl [H1] <;> iassumption
  icases H with ⟨%h1, HSI⟩
  ihave H := (agree_whole (F := F) s' (a2Loc d) _) $$ [H2 HSI]
  · isplitl [H2] <;> iassumption
  icases H with ⟨%h2, HSI⟩
  ihave H := (agree_whole (F := F) s' (a3Loc d) _) $$ [H3 HSI]
  · isplitl [H3] <;> iassumption
  icases H with ⟨%h3, HSI⟩
  ihave H := (agree_whole (F := F) s' (oLoc d) _) $$ [Ho HSI]
  · isplitl [Ho] <;> iassumption
  icases H with ⟨%ho, -⟩
  ipureintro; exact ⟨ho, h0, h1, h2, h3⟩

/-! ## The program's run -/

def QC : PUnit × MemSt nD τ sig (Elt F) → Prop := fun r => ∀ c : Dev nD,
  r.2.mem (oLoc c) = KV m c ∧ r.2.mem (a0Loc c) = m (a0Loc c) ∧ r.2.mem (a1Loc c) = m (a1Loc c)
    ∧ r.2.mem (a2Loc c) = m (a2Loc c) ∧ r.2.mem (a3Loc c) = m (a3Loc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

end Cert.Proof.KernelIdealSide

end
-- ==== Proof.BSetup.lean ====
/-
  The kernel program as the launch theorem sees it, the ghost state of its proof, the arrays it works on and what the
  handshakes carry.

  Thirty-two vector subcores (two SparseCores of sixteen) each score 512 consecutive triples. Subcore `(c, i)` has
  worker number `2 i + c` and owns triples `512 (2 i + c) …`. Subcore 0 of each SparseCore first copies the padded
  relation table into the SparseCore's shared memory; all sixteen then meet at the subcore barrier, after which each
  reads rows of the shared table by an indexed copy. The four arrays the subcores only read (the transposed heads and
  tails, the index words, the padded table) are dealt out as thirty-two read shares each; the result array is dealt by
  its thirty-two blocks of 512. The shared table travels across the barrier: subcore 0's arrival at subcore `j`'s
  barrier semaphore hands `j` a sixteenth share of the shared table, holding the padded relation table.
-/
import proofs.«205660_g30348238913567_cont_9to1_1764_14_alg».proof.Defs
import proofs.«205660_g30348238913567_cont_9to1_1764_14_alg».proof.Proof.KVal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205660_g30348238913567_cont_9to1_1764_14_alg».proof.Proof.Gen.Kernel
import proofs.«205660_g30348238913567_cont_9to1_1764_14_alg».proof.Proof.Gen.Kernel.Skeleton

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their contents -/

variable (m : (ℓ : Loc nD τ sig) → Buf (Elt F) ℓ) (ρ : Dev nD → PrngReg)

/-- The four arguments, the transposed heads and tails, the padded table and the result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev htLoc (d : Dev nD) : Loc nD τ sig := (SparseCore.T d).loc main_v0
abbrev ttLoc (d : Dev nD) : Loc nD τ sig := (SparseCore.T d).loc main_v1
abbrev rpLoc (d : Dev nD) : Loc nD τ sig := (SparseCore.T d).loc main_v2
abbrev oLoc (d : Dev nD) : Loc nD τ sig := (SparseCore.T d).loc main_v3

/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The contents the kernel finds: the heads and tails transposed, the table padded; and what it leaves in the result. -/
def HTv (d : Dev nD) : Buf (Elt F) (htLoc d) := Cert.KVal.HT (F := F) (m (a0Loc d))
def TTv (d : Dev nD) : Buf (Elt F) (ttLoc d) := Cert.KVal.HT (F := F) (m (a2Loc d))
def RPv (d : Dev nD) : Buf (Elt F) (rpLoc d) := Cert.KVal.RP (F := F) (m (a3Loc d))
def KV (d : Dev nD) : Buf (Elt F) (oLoc d) := Cert.KVal.kval (F := F) (m (a0Loc d)) (m (a1Loc d)) (m (a2Loc d)) (m (a3Loc d))
/-- The padded table as the shared memory's contents. -/
def RPsh (d : Dev nD) (c : Fin τ.nSC) : Buf (Elt F) (shLoc d c) := Cert.KVal.RP (F := F) (m (a3Loc d))

/-! ## Workers, their blocks of the result, their read shares -/

/-- Subcore `(c, i)`'s worker number. -/
def wid (c : Fin τ.nSC) (i : Fin τ.nSub) : Fin 32 := ⟨2 * i.val + c.val, by have := c.isLt; have := i.isLt; change c.val < 2 at *; change i.val < 16 at *; omega⟩

theorem hdiv32 : 32 ∣ S16384.size 0 := ⟨512, rfl⟩
/-- Worker `w`'s block of the result: triples `512 w …`. -/
abbrev oRect (w : Fin 32) : Rect S16384 := Rect.part (s := S16384) (a₀ := 0) hdiv32 w
abbrev oSet (w : Fin 32) : Finset S16384.Idx := (oRect w).set

/-- Worker `w`'s read share of an array dealt among the thirty-two. -/
abbrev tokS (w : Fin 32) : PosShare TreeShare := Transfers.shareTokN fullShare w.val
/-- Subcore `j`'s share of its SparseCore's shared table. -/
abbrev shTok (j : Fin τ.nSub) : PosShare TreeShare := Transfers.shareTokN fullShare j.val
/-- What is left of the shared table once the sixteen shares are dealt. -/
abbrev shRest : PosShare TreeShare := Transfers.shareDrop fullShare 16

/-- A worker's read shares of the four arrays the kernel only reads. -/
def rTok (d : Dev nD) (w : Fin 32) : sProp 𝕄 :=
  iprop((htLoc d ↦{tokS w} HTv m d) ∗ (a1Loc d ↦{tokS w} m (a1Loc d)) ∗ (ttLoc d ↦{tokS w} TTv m d) ∗ (rpLoc d ↦{tokS w} RPv m d))
/-- A worker's block of the result, at contents `f`. -/
abbrev oPart (d : Dev nD) (w : Fin 32) (f : Buf (Elt F) (oLoc d)) : sProp 𝕄 := oLoc d ↦[oSet w]{fullShare} f

/-- What the sequencer hands subcore `(c, i)` with its task: its read shares, its block of the result, and — to
    subcore 0 — the shared table, at whatever it holds. -/
def goP (d : Dev nD) (c : Fin τ.nSC) (i : Fin τ.nSub) : sProp 𝕄 :=
  iprop(rTok m d (wid c i) ∗ oPart d (wid c i) (m (oLoc d)) ∗ (if i.val = 0 then iprop(∃ f, shLoc d c ↦{fullShare} f) else iprop(emp)))
/-- What the subcore hands back: its read shares, its block at the scores, its sixteenth of the shared table holding
    the padded table, and — from subcore 0 — what was left of the shared table when the sixteenths were dealt. -/
def tdP (d : Dev nD) (c : Fin τ.nSC) (i : Fin τ.nSub) : sProp 𝕄 :=
  iprop(rTok m d (wid c i) ∗ oPart d (wid c i) (KV m d) ∗ (shLoc d c ↦{shTok i} RPsh m d c)
    ∗ (if i.val = 0 then iprop(shLoc d c ↦{shRest} RPsh m d c) else iprop(emp)))

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What an arrival at subcore `j`'s barrier semaphore hands `j`: subcore 0's, `j`'s share of the shared table holding
    the padded table; the others', nothing. -/
def bPay (g : GSem nD τ sig) (n : ℕ) : sProp 𝕄 :=
  match g with
  | ((d, .scVector c j), _) => if n = 0 then iprop(shLoc d c ↦{shTok j} RPsh m d c) else iprop(emp)
  | _ => iprop(emp)

/-- The barrier cells' schedule: one round on each, one unit per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl
theorem bRd_payload_zero (d : Dev nD) (c : Fin τ.nSC) (j : Fin τ.nSub) :
    (bRd (F := F) m).payload (bcell d c j) 0 0 = iprop(shLoc d c ↦{shTok j} RPsh m d c) := by
  show bPay m (bcell d c j) 0 = _; unfold bPay; exact if_pos rfl
theorem bRd_payload_succ (d : Dev nD) (c : Fin τ.nSC) (j : Fin τ.nSub) (n : ℕ) :
    (bRd (F := F) m).payload (bcell d c j) 0 (n + 1) = iprop(emp) := by
  show bPay m (bcell d c j) (n + 1) = _; unfold bPay; exact if_neg (Nat.succ_ne_zero n)

/-- What the launch has a subcore owe for the barrier: a unit on every subcore's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every cell invariant of its SparseCore's sixteen and that each has reached round 0,
    its duty token in every subcore's round 0, its own position at the origin of round 0, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => iprop(dutyTok EB (bcell d c (j.castLE hsub0)) 0 i.val
        ∗ reached EB (bcell d c (j.castLE hsub0)) 0))
    ∗ atPos EB (bcell d c i) 0 ∅ 0
    ∗ cred (tallyAt (bcell d c i) (some 0) (grid0.bound 1)))

/-! ## What the handshakes carry -/

/-- The one call: each SparseCore takes its sixteen subcores' read shares and result blocks and brings them back, the
    blocks at the scores; each subcore's proof consumes its barrier kit and owes its sixteen arrivals. -/
def P : (K (F := F)).Pay (nD := nD) (Val := Elt F) (Name := ℕ) (U := UU) where
  st := fun q d c => match q with
    | 0 => bigSep Finset.univ fun i : Fin τ.nSub => iprop(rTok m d (wid ((K (F := F)).core 0 c) i) ∗ oPart d (wid ((K (F := F)).core 0 c) i) (m (oLoc d)))
  dn := fun q d c => match q with
    | 0 => bigSep Finset.univ fun i : Fin τ.nSub => iprop(rTok m d (wid ((K (F := F)).core 0 c) i) ∗ oPart d (wid ((K (F := F)).core 0 c) i) (KV m d))
  go := fun q d c i => match q with | 0 => goP m d ((K (F := F)).core 0 c) ((K (F := F)).sub 0 i)
  td := fun q d c i => match q with | 0 => tdP m d ((K (F := F)).core 0 c) ((K (F := F)).sub 0 i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

end Cert.Proof.KernelSide

end
-- ==== Proof.BMem.lean ====
/-
  The arrays and scratch buffers of one vector subcore's task, spelt as the program addresses them, and the subcore's
  coordinates.
-/
import proofs.«205660_g30348238913567_cont_9to1_1764_14_alg».proof.Proof.BSetup
import proofs.«205660_g30348238913567_cont_9to1_1764_14_alg».proof.Proof.KBlock

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The five arrays in HBM, whole, as a vector subcore addresses them: transposed heads, index words, transposed tails,
    padded table, result. -/
abbrev aHT : Memref sig .scVector .hbm S64x16384 .f32 := Memref.whole main_v0_scv
abbrev aID : Memref sig .scVector .hbm S16384 .i32 := Memref.whole main_arg1_scv
abbrev aTT : Memref sig .scVector .hbm S64x16384 .f32 := Memref.whole main_v1_scv
abbrev aRP : Memref sig .scVector .hbm S1000x128 .f32 := Memref.whole main_v2_scv
abbrev aO : Memref sig .scVector .hbm S16384 .f32 := Memref.whole main_v3_scv
/-- The two slots of a subcore's scratch (index words, head block, tail block, gathered relation rows), its result
    scratch, and its SparseCore's shared table. -/
abbrev sI0 : Memref sig .scVector .vmem S128 .i32 := Memref.whole cc0_scratch0
abbrev sH0 : Memref sig .scVector .vmem S64x128 .f32 := Memref.whole cc0_scratch1
abbrev sT0 : Memref sig .scVector .vmem S64x128 .f32 := Memref.whole cc0_scratch2
abbrev sR0 : Memref sig .scVector .vmem S128x128 .f32 := Memref.whole cc0_scratch3
abbrev sI1 : Memref sig .scVector .vmem S128 .i32 := Memref.whole cc0_scratch7
abbrev sH1 : Memref sig .scVector .vmem S64x128 .f32 := Memref.whole cc0_scratch8
abbrev sT1 : Memref sig .scVector .vmem S64x128 .f32 := Memref.whole cc0_scratch9
abbrev sR1 : Memref sig .scVector .vmem S128x128 .f32 := Memref.whole cc0_scratch10
abbrev sOut : Memref sig .scVector .vmem S512 .f32 := Memref.whole cc0_scratch14
abbrev sSh : Memref sig .scVector .shared S1000x128 .f32 := Memref.whole cc0_scratch15

/-- The SparseCore and the subcore of grid point `L`. -/
abbrev cV (L : grid0.Coords) : Fin τ.nSC := (L 0).castLE hcore0
abbrev jV (L : grid0.Coords) : Fin τ.nSub := (L 1).castLE hsub0
/-- Its thread on device `d`. -/
abbrev thrV (d : Dev nD) (L : grid0.Coords) : Thread nD τ := V d (cV L) (jV L)

/-- The lane numbers `0 … 15`, as the kernel makes them. -/
abbrev lanes : IVec S16 32 := iota .scVector S16 32 [0] iota_S16_d0_w32_scVector

/-- What the proof asks of the launch memory: every index word names a row of the relation table. -/
def PreOK (m : (ℓ : Loc nD τ sig) → Buf (Elt F) ℓ) : Prop := ∀ (d : Dev nD) (b : S16384.Idx), (m (a1Loc d) b).toNat ≤ 999

end Cert.Proof.KernelSide

end
-- ==== Proof.BStageWords.lean ====
/-
  The words and lanes of a block's scoring loops. A block's 128 triples are taken in eight groups of sixteen lanes; in
  group `g` lane `l` is triple `16 g + l`, and at trip `k` of the feature loop it reads feature column
  `(l + k) mod 64` of its own head, tail and relation row. The index vectors the kernel makes are these numbers as
  32-bit words, all in range; so one trip adds head · relation · tail at that column to each lane's accumulator, and a
  group's store rewrites sixteen consecutive entries of the result scratch.
-/
import proofs.«205660_g30348238913567_cont_9to1_1764_14_alg».proof.Proof.BMem

noncomputable section

namespace Cert.Proof.KernelSide

open Cert.Kernel Cert.Kernel.Gen

open Idealize.ShloMosaic Idealize.ShloMosaic.ValueIdx

variable {F : FTy → Type}

/-! ## Lanes, accumulators and the result scratch, for any block -/

/-- Triple number `16 g + l` of a block, lane `l` of group `g` (reduced below 128 so that it names a row for every `g`). -/
def rowAt (g : ℕ) (l : Fin 16) : Fin 128 := ⟨(16 * g + l.val) % 128, Nat.mod_lt _ (by decide)⟩

/-- The carried vector of group `g` after `k` trips: lane `l` holds the accumulator of triple `16 g + l`. -/
def AccAt [FloatOps F] (fh ft : FVec F Cert.KBlock.SHB .f32) (fr : FVec F Cert.KBlock.SRB .f32) (g k : ℕ) (acc : FVec F S16 .f32) : Prop :=
  ∀ l : Fin 16, acc (ix1 l) = Cert.KBlock.lacc fh ft fr (rowAt g l) k

/-- What the result scratch holds once `k` groups of block number `sub` are scored: entries `128 sub … 128 sub + 16 k - 1`
    hold their triples' accumulators after 64 trips, every other entry is as at the start. -/
def OutPart [FloatOps F] (sub : ℕ) (fh ft : FVec F Cert.KBlock.SHB .f32) (fr : FVec F Cert.KBlock.SRB .f32) (fo : FVec F Cert.KBlock.SOB .f32)
    (k : ℕ) (fo' : FVec F Cert.KBlock.SOB .f32) : Prop :=
  ∀ j : Fin 512, fo' (ix1 j) = if 128 * sub ≤ j.val ∧ j.val < 128 * sub + 16 * k
    then Cert.KBlock.lacc fh ft fr ⟨(j.val - 128 * sub) % 128, Nat.mod_lt _ (by decide)⟩ 64 else fo (ix1 j)

theorem outPart_zero [FloatOps F] (sub : ℕ) (fh ft : FVec F Cert.KBlock.SHB .f32) (fr : FVec F Cert.KBlock.SRB .f32) (fo : FVec F Cert.KBlock.SOB .f32) :
    OutPart sub fh ft fr fo 0 fo := fun j => by
  rw [if_neg]; omega

theorem outPart_done [FloatOps F] (sub : ℕ) (fh ft : FVec F Cert.KBlock.SHB .f32) (fr : FVec F Cert.KBlock.SRB .f32) (fo fo' : FVec F Cert.KBlock.SOB .f32)
    (h : OutPart sub fh ft fr fo 8 fo') : Cert.KBlock.OutAfter sub fh ft fr fo fo' := fun j => by
  rw [h j]
  by_cases hj : 128 * sub ≤ j.val ∧ j.val < 128 * sub + 128
  · rw [dif_pos hj, if_pos (by omega)]
    congr 1
    exact Fin.ext (Nat.mod_eq_of_lt (by omega))
  · rw [dif_neg hj, if_neg (by omega)]

/-- One more group: the sixteen entries from `128 sub + 16 k` on rewritten with the group's carried vector. -/
theorem outPart_succ [FloatOps F] (sub : ℕ) (fh ft : FVec F Cert.KBlock.SHB .f32) (fr : FVec F Cert.KBlock.SRB .f32) (fo fo' fo'' : FVec F Cert.KBlock.SOB .f32)
    (k : ℕ) (hk : k < 8) (acc : FVec F S16 .f32) (h : OutPart sub fh ft fr fo k fo') (hacc : AccAt fh ft fr k 64 acc)
    (hw : ∀ j : Fin 512, fo'' (ix1 j) = if hj : 128 * sub + 16 * k ≤ j.val ∧ j.val < 128 * sub + 16 * k + 16
      then acc (ix1 ⟨j.val - (128 * sub + 16 * k), by omega⟩) else fo' (ix1 j)) :
    OutPart sub fh ft fr fo (k + 1) fo'' := fun j => by
  rw [hw j]
  by_cases hj : 128 * sub + 16 * k ≤ j.val ∧ j.val < 128 * sub + 16 * k + 16
  · rw [dif_pos hj, if_pos (by omega), hacc]
    congr 1
    refine Fin.ext ?_
    show (16 * k + (j.val - (128 * sub + 16 * k))) % 128 = (j.val - 128 * sub) % 128
    congr 1; omega
  · rw [dif_neg hj, h j]
    by_cases hj' : 128 * sub ≤ j.val ∧ j.val < 128 * sub + 16 * k
    · rw [if_pos hj', if_pos (by omega)]
    · rw [if_neg hj', if_neg (by omega)]

omit F in
/-- A store of sixteen lanes into the result scratch at offset `o`: entries `o … o + 15` take the lanes, the others stay. -/
theorem write_sOut {F : FTy → Type} (off : Fin 1 → ℕ) (o : ℕ) (ho : off = ![o]) (inb : ∀ a, off a + S16.size a ≤ S512.size a)
    (f : FVec F Cert.KBlock.SOB .f32) (w : FVec F S16 .f32) (j : Fin 512) :
    ((sOut : Memref sig .scVector .vmem S512 .f32).access (Rect.unit (s := S512) off S16.size inb)).write (Elt F) f w Finset.univ (ix1 j)
      = if hj : o ≤ j.val ∧ j.val < o + 16 then w (ix1 ⟨j.val - o, by omega⟩) else f (ix1 j) := by
  subst ho
  by_cases hj : o ≤ j.val ∧ j.val < o + 16
  · rw [dif_pos hj]
    have e : (ix1 j : S512.Idx) = ((sOut : Memref sig .scVector .vmem S512 .f32).access (Rect.unit (s := S512) ![o] S16.size inb)).emb (ix1 ⟨j.val - o, by omega⟩) := by
      funext a
      match a with
      | ⟨0, _⟩ => exact Fin.ext (by show j.val = o + 1 * (j.val - o); omega)
    rw [e, View.write_emb_of_mem _ _ (Finset.mem_univ _)]
    rfl
  · rw [dif_neg hj]
    refine View.write_of_not_mem _ _ _ fun hm => hj ?_
    obtain ⟨x, -, hx⟩ := Finset.mem_map.mp hm
    have hx0 := congrArg (fun i : S512.Idx => (i 0).val) hx
    have hxl : (x 0).val < 16 := (x 0).isLt
    change o + 1 * (x 0).val = j.val at hx0
    omega

/-! ## Block number 0: the words of its two loops -/

theorem tripsO_1 : k0_t1_loop.trips = 8 := by decide +kernel
theorem tripsI_1 : k0_t2_loop.trips = 64 := by decide +kernel

/-- Lane `l` of group `g`'s row vector is the word `16 g + l`. -/
theorem rows_toNat_1 : ∀ (l : Fin 16) (g : Fin k0_t1_loop.trips), (k0_pay5 lanes g (ix1 l)).toNat = 16 * g.val + l.val := by decide +kernel
/-- Lane `l` of trip `k`'s column vector is the word `(l + k) mod 64`. -/
theorem cols_toNat_1 : ∀ (l : Fin 16) (k : Fin k0_t2_loop.trips), (k0_pay7 lanes k (ix1 l)).toNat = (l.val + k.val) % 64 := by decide +kernel

/-- Every index the three gathers of a trip name is in range: rows below 128, columns below 64. -/
theorem chk_holds_1 (g : Fin k0_t1_loop.trips) (k : Fin k0_t2_loop.trips) : k0_chk1 (k0_pay5 lanes g) (k0_pay7 lanes k) := by
  have hg : g.val < 8 := lt_of_lt_of_eq g.isLt tripsO_1
  have h5 : ∀ x : S16.Idx, (k0_pay5 lanes g x).toNat < 128 := fun x => by
    obtain ⟨l, rfl⟩ : ∃ l : Fin 16, x = ix1 l := ⟨x 0, eq_ix1 (n := 16) x⟩
    have hl := l.isLt
    rw [rows_toNat_1]; omega
  have h7 : ∀ x : S16.Idx, (k0_pay7 lanes k x).toNat < 64 := fun x => by
    obtain ⟨l, rfl⟩ : ∃ l : Fin 16, x = ix1 l := ⟨x 0, eq_ix1 (n := 16) x⟩
    rw [cols_toNat_1]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_1 (g : Fin k0_t1_loop.trips) (k : Fin k0_t2_loop.trips) (l : Fin 16)
    (h : ∀ a x, ((![k0_pay7 lanes k, k0_pay5 lanes g] : Fin 2 → IVec S16 32) a x).toNat < S64x128.size a) :
    idxAt ![k0_pay7 lanes k, k0_pay5 lanes g] h (ix1 l) = ix2 (Cert.KBlock.lcol (rowAt g.val l) k.val) (rowAt g.val l) := by
  have hg : g.val < 8 := lt_of_lt_of_eq g.isLt tripsO_1
  have hl := l.isLt
  funext c
  match c with
  | ⟨0, _⟩ =>
    refine Fin.ext ?_
    show (k0_pay7 lanes k (ix1 l)).toNat = ((16 * g.val + l.val) % 128 % 16 + k.val) % 64
    rw [cols_toNat_1]; omega
  | ⟨1, _⟩ =>
    refine Fin.ext ?_
    show (k0_pay5 lanes g (ix1 l)).toNat = (16 * g.val + l.val) % 128
    rw [rows_toNat_1]; omega

/-- The element of the block of relation rows that lane `l` gathers at trip `k` of group `g`. -/
theorem idxAt_R_1 (g : Fin k0_t1_loop.trips) (k : Fin k0_t2_loop.trips) (l : Fin 16)
    (h : ∀ a x, ((![k0_pay5 lanes g, k0_pay7 lanes k] : Fin 2 → IVec S16 32) a x).toNat < S128x128.size a) :
    idxAt ![k0_pay5 lanes g, k0_pay7 lanes k] h (ix1 l) = ix2 (rowAt g.val l) (Cert.KBlock.lcolW (rowAt g.val l) k.val) := by
  have hg : g.val < 8 := lt_of_lt_of_eq g.isLt tripsO_1
  have hl := l.isLt
  funext c
  match c with
  | ⟨0, _⟩ =>
    refine Fin.ext ?_
    show (k0_pay5 lanes g (ix1 l)).toNat = (16 * g.val + l.val) % 128
    rw [rows_toNat_1]; omega
  | ⟨1, _⟩ =>
    refine Fin.ext ?_
    show (k0_pay7 lanes k (ix1 l)).toNat = ((16 * g.val + l.val) % 128 % 16 + k.val) % 64
    rw [cols_toNat_1]; omega

/-- Before the first trip every lane holds the zero word. -/
theorem accAt_zero_1 [FloatOps F] (fh ft : FVec F Cert.KBlock.SHB .f32) (fr : FVec F Cert.KBlock.SRB .f32) (g : ℕ) :
    AccAt fh ft fr g 0 (k0_pay6 (F := F)) := fun _ => rfl

/-- One trip: each lane's accumulator takes its triple's term at the trip's column. -/
theorem accAt_succ_1 [FloatOps F] (fh ft : FVec F Cert.KBlock.SHB .f32) (fr : FVec F Cert.KBlock.SRB .f32)
    (g : Fin k0_t1_loop.trips) (k : Fin k0_t2_loop.trips) (acc : FVec F S16 .f32)
    (h1 h2 : ∀ a x, ((![k0_pay7 lanes k, k0_pay5 lanes g] : Fin 2 → IVec S16 32) a x).toNat < S64x128.size a)
    (h3 : ∀ a x, ((![k0_pay5 lanes g, k0_pay7 lanes k] : Fin 2 → IVec S16 32) a x).toNat < S128x128.size a)
    (hacc : AccAt fh ft fr g.val k.val acc) :
    AccAt fh ft fr g.val (k.val + 1) (k0_pay8 acc (loadIdx fh ![k0_pay7 lanes k, k0_pay5 lanes g] h1)
      (loadIdx ft ![k0_pay7 lanes k, k0_pay5 lanes g] h2) (loadIdx fr ![k0_pay5 lanes g, k0_pay7 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_1 g k l h1, idxAt_R_1 g k l h3]
  rfl

/-! ## Block number 1: the words of its two loops -/

theorem tripsO_2 : k0_t3_loop.trips = 8 := by decide +kernel
theorem tripsI_2 : k0_t4_loop.trips = 64 := by decide +kernel

/-- Lane `l` of group `g`'s row vector is the word `16 g + l`. -/
theorem rows_toNat_2 : ∀ (l : Fin 16) (g : Fin k0_t3_loop.trips), (k0_pay9 lanes g (ix1 l)).toNat = 16 * g.val + l.val := by decide +kernel
/-- Lane `l` of trip `k`'s column vector is the word `(l + k) mod 64`. -/
theorem cols_toNat_2 : ∀ (l : Fin 16) (k : Fin k0_t4_loop.trips), (k0_pay11 lanes k (ix1 l)).toNat = (l.val + k.val) % 64 := by decide +kernel

/-- Every index the three gathers of a trip name is in range: rows below 128, columns below 64. -/
theorem chk_holds_2 (g : Fin k0_t3_loop.trips) (k : Fin k0_t4_loop.trips) : k0_chk2 (k0_pay9 lanes g) (k0_pay11 lanes k) := by
  have hg : g.val < 8 := lt_of_lt_of_eq g.isLt tripsO_2
  have h5 : ∀ x : S16.Idx, (k0_pay9 lanes g x).toNat < 128 := fun x => by
    obtain ⟨l, rfl⟩ : ∃ l : Fin 16, x = ix1 l := ⟨x 0, eq_ix1 (n := 16) x⟩
    have hl := l.isLt
    rw [rows_toNat_2]; omega
  have h7 : ∀ x : S16.Idx, (k0_pay11 lanes k x).toNat < 64 := fun x => by
    obtain ⟨l, rfl⟩ : ∃ l : Fin 16, x = ix1 l := ⟨x 0, eq_ix1 (n := 16) x⟩
    rw [cols_toNat_2]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_2 (g : Fin k0_t3_loop.trips) (k : Fin k0_t4_loop.trips) (l : Fin 16)
    (h : ∀ a x, ((![k0_pay11 lanes k, k0_pay9 lanes g] : Fin 2 → IVec S16 32) a x).toNat < S64x128.size a) :
    idxAt ![k0_pay11 lanes k, k0_pay9 lanes g] h (ix1 l) = ix2 (Cert.KBlock.lcol (rowAt g.val l) k.val) (rowAt g.val l) := by
  have hg : g.val < 8 := lt_of_lt_of_eq g.isLt tripsO_2
  have hl := l.isLt
  funext c
  match c with
  | ⟨0, _⟩ =>
    refine Fin.ext ?_
    show (k0_pay11 lanes k (ix1 l)).toNat = ((16 * g.val + l.val) % 128 % 16 + k.val) % 64
    rw [cols_toNat_2]; omega
  | ⟨1, _⟩ =>
    refine Fin.ext ?_
    show (k0_pay9 lanes g (ix1 l)).toNat = (16 * g.val + l.val) % 128
    rw [rows_toNat_2]; omega

/-- The element of the block of relation rows that lane `l` gathers at trip `k` of group `g`. -/
theorem idxAt_R_2 (g : Fin k0_t3_loop.trips) (k : Fin k0_t4_loop.trips) (l : Fin 16)
    (h : ∀ a x, ((![k0_pay9 lanes g, k0_pay11 lanes k] : Fin 2 → IVec S16 32) a x).toNat < S128x128.size a) :
    idxAt ![k0_pay9 lanes g, k0_pay11 lanes k] h (ix1 l) = ix2 (rowAt g.val l) (Cert.KBlock.lcolW (rowAt g.val l) k.val) := by
  have hg : g.val < 8 := lt_of_lt_of_eq g.isLt tripsO_2
  have hl := l.isLt
  funext c
  match c with
  | ⟨0, _⟩ =>
    refine Fin.ext ?_
    show (k0_pay9 lanes g (ix1 l)).toNat = (16 * g.val + l.val) % 128
    rw [rows_toNat_2]; omega
  | ⟨1, _⟩ =>
    refine Fin.ext ?_
    show (k0_pay11 lanes k (ix1 l)).toNat = ((16 * g.val + l.val) % 128 % 16 + k.val) % 64
    rw [cols_toNat_2]; omega

/-- Before the first trip every lane holds the zero word. -/
theorem accAt_zero_2 [FloatOps F] (fh ft : FVec F Cert.KBlock.SHB .f32) (fr : FVec F Cert.KBlock.SRB .f32) (g : ℕ) :
    AccAt fh ft fr g 0 (k0_pay10 (F := F)) := fun _ => rfl

/-- One trip: each lane's accumulator takes its triple's term at the trip's column. -/
theorem accAt_succ_2 [FloatOps F] (fh ft : FVec F Cert.KBlock.SHB .f32) (fr : FVec F Cert.KBlock.SRB .f32)
    (g : Fin k0_t3_loop.trips) (k : Fin k0_t4_loop.trips) (acc : FVec F S16 .f32)
    (h1 h2 : ∀ a x, ((![k0_pay11 lanes k, k0_pay9 lanes g] : Fin 2 → IVec S16 32) a x).toNat < S64x128.size a)
    (h3 : ∀ a x, ((![k0_pay9 lanes g, k0_pay11 lanes k] : Fin 2 → IVec S16 32) a x).toNat < S128x128.size a)
    (hacc : AccAt fh ft fr g.val k.val acc) :
    AccAt fh ft fr g.val (k.val + 1) (k0_pay12 acc (loadIdx fh ![k0_pay11 lanes k, k0_pay9 lanes g] h1)
      (loadIdx ft ![k0_pay11 lanes k, k0_pay9 lanes g] h2) (loadIdx fr ![k0_pay9 lanes g, k0_pay11 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_2 g k l h1, idxAt_R_2 g k l h3]
  rfl

/-! ## Block number 2: the words of its two loops -/

theorem tripsO_3 : k0_t5_loop.trips = 8 := by decide +kernel
theorem tripsI_3 : k0_t6_loop.trips = 64 := by decide +kernel

/-- Lane `l` of group `g`'s row vector is the word `16 g + l`. -/
theorem rows_toNat_3 : ∀ (l : Fin 16) (g : Fin k0_t5_loop.trips), (k0_pay13 lanes g (ix1 l)).toNat = 16 * g.val + l.val := by decide +kernel
/-- Lane `l` of trip `k`'s column vector is the word `(l + k) mod 64`. -/
theorem cols_toNat_3 : ∀ (l : Fin 16) (k : Fin k0_t6_loop.trips), (k0_pay15 lanes k (ix1 l)).toNat = (l.val + k.val) % 64 := by decide +kernel

/-- Every index the three gathers of a trip name is in range: rows below 128, columns below 64. -/
theorem chk_holds_3 (g : Fin k0_t5_loop.trips) (k : Fin k0_t6_loop.trips) : k0_chk3 (k0_pay13 lanes g) (k0_pay15 lanes k) := by
  have hg : g.val < 8 := lt_of_lt_of_eq g.isLt tripsO_3
  have h5 : ∀ x : S16.Idx, (k0_pay13 lanes g x).toNat < 128 := fun x => by
    obtain ⟨l, rfl⟩ : ∃ l : Fin 16, x = ix1 l := ⟨x 0, eq_ix1 (n := 16) x⟩
    have hl := l.isLt
    rw [rows_toNat_3]; omega
  have h7 : ∀ x : S16.Idx, (k0_pay15 lanes k x).toNat < 64 := fun x => by
    obtain ⟨l, rfl⟩ : ∃ l : Fin 16, x = ix1 l := ⟨x 0, eq_ix1 (n := 16) x⟩
    rw [cols_toNat_3]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_3 (g : Fin k0_t5_loop.trips) (k : Fin k0_t6_loop.trips) (l : Fin 16)
    (h : ∀ a x, ((![k0_pay15 lanes k, k0_pay13 lanes g] : Fin 2 → IVec S16 32) a x).toNat < S64x128.size a) :
    idxAt ![k0_pay15 lanes k, k0_pay13 lanes g] h (ix1 l) = ix2 (Cert.KBlock.lcol (rowAt g.val l) k.val) (rowAt g.val l) := by
  have hg : g.val < 8 := lt_of_lt_of_eq g.isLt tripsO_3
  have hl := l.isLt
  funext c
  match c with
  | ⟨0, _⟩ =>
    refine Fin.ext ?_
    show (k0_pay15 lanes k (ix1 l)).toNat = ((16 * g.val + l.val) % 128 % 16 + k.val) % 64
    rw [cols_toNat_3]; omega
  | ⟨1, _⟩ =>
    refine Fin.ext ?_
    show (k0_pay13 lanes g (ix1 l)).toNat = (16 * g.val + l.val) % 128
    rw [rows_toNat_3]; omega

/-- The element of the block of relation rows that lane `l` gathers at trip `k` of group `g`. -/
theorem idxAt_R_3 (g : Fin k0_t5_loop.trips) (k : Fin k0_t6_loop.trips) (l : Fin 16)
    (h : ∀ a x, ((![k0_pay13 lanes g, k0_pay15 lanes k] : Fin 2 → IVec S16 32) a x).toNat < S128x128.size a) :
    idxAt ![k0_pay13 lanes g, k0_pay15 lanes k] h (ix1 l) = ix2 (rowAt g.val l) (Cert.KBlock.lcolW (rowAt g.val l) k.val) := by
  have hg : g.val < 8 := lt_of_lt_of_eq g.isLt tripsO_3
  have hl := l.isLt
  funext c
  match c with
  | ⟨0, _⟩ =>
    refine Fin.ext ?_
    show (k0_pay13 lanes g (ix1 l)).toNat = (16 * g.val + l.val) % 128
    rw [rows_toNat_3]; omega
  | ⟨1, _⟩ =>
    refine Fin.ext ?_
    show (k0_pay15 lanes k (ix1 l)).toNat = ((16 * g.val + l.val) % 128 % 16 + k.val) % 64
    rw [cols_toNat_3]; omega

/-- Before the first trip every lane holds the zero word. -/
theorem accAt_zero_3 [FloatOps F] (fh ft : FVec F Cert.KBlock.SHB .f32) (fr : FVec F Cert.KBlock.SRB .f32) (g : ℕ) :
    AccAt fh ft fr g 0 (k0_pay14 (F := F)) := fun _ => rfl

/-- One trip: each lane's accumulator takes its triple's term at the trip's column. -/
theorem accAt_succ_3 [FloatOps F] (fh ft : FVec F Cert.KBlock.SHB .f32) (fr : FVec F Cert.KBlock.SRB .f32)
    (g : Fin k0_t5_loop.trips) (k : Fin k0_t6_loop.trips) (acc : FVec F S16 .f32)
    (h1 h2 : ∀ a x, ((![k0_pay15 lanes k, k0_pay13 lanes g] : Fin 2 → IVec S16 32) a x).toNat < S64x128.size a)
    (h3 : ∀ a x, ((![k0_pay13 lanes g, k0_pay15 lanes k] : Fin 2 → IVec S16 32) a x).toNat < S128x128.size a)
    (hacc : AccAt fh ft fr g.val k.val acc) :
    AccAt fh ft fr g.val (k.val + 1) (k0_pay16 acc (loadIdx fh ![k0_pay15 lanes k, k0_pay13 lanes g] h1)
      (loadIdx ft ![k0_pay15 lanes k, k0_pay13 lanes g] h2) (loadIdx fr ![k0_pay13 lanes g, k0_pay15 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_3 g k l h1, idxAt_R_3 g k l h3]
  rfl

/-! ## Block number 3: the words of its two loops -/

theorem tripsO_4 : k0_t7_loop.trips = 8 := by decide +kernel
theorem tripsI_4 : k0_t8_loop.trips = 64 := by decide +kernel

/-- Lane `l` of group `g`'s row vector is the word `16 g + l`. -/
theorem rows_toNat_4 : ∀ (l : Fin 16) (g : Fin k0_t7_loop.trips), (k0_pay1 lanes g (ix1 l)).toNat = 16 * g.val + l.val := by decide +kernel
/-- Lane `l` of trip `k`'s column vector is the word `(l + k) mod 64`. -/
theorem cols_toNat_4 : ∀ (l : Fin 16) (k : Fin k0_t8_loop.trips), (k0_pay3 lanes k (ix1 l)).toNat = (l.val + k.val) % 64 := by decide +kernel

/-- Every index the three gathers of a trip name is in range: rows below 128, columns below 64. -/
theorem chk_holds_4 (g : Fin k0_t7_loop.trips) (k : Fin k0_t8_loop.trips) : k0_chk4 (k0_pay1 lanes g) (k0_pay3 lanes k) := by
  have hg : g.val < 8 := lt_of_lt_of_eq g.isLt tripsO_4
  have h5 : ∀ x : S16.Idx, (k0_pay1 lanes g x).toNat < 128 := fun x => by
    obtain ⟨l, rfl⟩ : ∃ l : Fin 16, x = ix1 l := ⟨x 0, eq_ix1 (n := 16) x⟩
    have hl := l.isLt
    rw [rows_toNat_4]; omega
  have h7 : ∀ x : S16.Idx, (k0_pay3 lanes k x).toNat < 64 := fun x => by
    obtain ⟨l, rfl⟩ : ∃ l : Fin 16, x = ix1 l := ⟨x 0, eq_ix1 (n := 16) x⟩
    rw [cols_toNat_4]; exact Nat.mod_lt _ (by decide)
  exact ⟨Fin.forall_fin_two.mpr ⟨fun x => h7 x, fun x => h5 x⟩, Fin.forall_fin_two.mpr ⟨fun x => h7 x, fun x => h5 x⟩,
    Fin.forall_fin_two.mpr ⟨fun x => h5 x, fun x => Nat.lt_of_lt_of_le (h7 x) (by decide)⟩⟩

/-- The element of a block of transposed rows that lane `l` gathers at trip `k` of group `g`. -/
theorem idxAt_HT_4 (g : Fin k0_t7_loop.trips) (k : Fin k0_t8_loop.trips) (l : Fin 16)
    (h : ∀ a x, ((![k0_pay3 lanes k, k0_pay1 lanes g] : Fin 2 → IVec S16 32) a x).toNat < S64x128.size a) :
    idxAt ![k0_pay3 lanes k, k0_pay1 lanes g] h (ix1 l) = ix2 (Cert.KBlock.lcol (rowAt g.val l) k.val) (rowAt g.val l) := by
  have hg : g.val < 8 := lt_of_lt_of_eq g.isLt tripsO_4
  have hl := l.isLt
  funext c
  match c with
  | ⟨0, _⟩ =>
    refine Fin.ext ?_
    show (k0_pay3 lanes k (ix1 l)).toNat = ((16 * g.val + l.val) % 128 % 16 + k.val) % 64
    rw [cols_toNat_4]; omega
  | ⟨1, _⟩ =>
    refine Fin.ext ?_
    show (k0_pay1 lanes g (ix1 l)).toNat = (16 * g.val + l.val) % 128
    rw [rows_toNat_4]; omega

/-- The element of the block of relation rows that lane `l` gathers at trip `k` of group `g`. -/
theorem idxAt_R_4 (g : Fin k0_t7_loop.trips) (k : Fin k0_t8_loop.trips) (l : Fin 16)
    (h : ∀ a x, ((![k0_pay1 lanes g, k0_pay3 lanes k] : Fin 2 → IVec S16 32) a x).toNat < S128x128.size a) :
    idxAt ![k0_pay1 lanes g, k0_pay3 lanes k] h (ix1 l) = ix2 (rowAt g.val l) (Cert.KBlock.lcolW (rowAt g.val l) k.val) := by
  have hg : g.val < 8 := lt_of_lt_of_eq g.isLt tripsO_4
  have hl := l.isLt
  funext c
  match c with
  | ⟨0, _⟩ =>
    refine Fin.ext ?_
    show (k0_pay1 lanes g (ix1 l)).toNat = (16 * g.val + l.val) % 128
    rw [rows_toNat_4]; omega
  | ⟨1, _⟩ =>
    refine Fin.ext ?_
    show (k0_pay3 lanes k (ix1 l)).toNat = ((16 * g.val + l.val) % 128 % 16 + k.val) % 64
    rw [cols_toNat_4]; omega

/-- Before the first trip every lane holds the zero word. -/
theorem accAt_zero_4 [FloatOps F] (fh ft : FVec F Cert.KBlock.SHB .f32) (fr : FVec F Cert.KBlock.SRB .f32) (g : ℕ) :
    AccAt fh ft fr g 0 (k0_pay2 (F := F)) := fun _ => rfl

/-- One trip: each lane's accumulator takes its triple's term at the trip's column. -/
theorem accAt_succ_4 [FloatOps F] (fh ft : FVec F Cert.KBlock.SHB .f32) (fr : FVec F Cert.KBlock.SRB .f32)
    (g : Fin k0_t7_loop.trips) (k : Fin k0_t8_loop.trips) (acc : FVec F S16 .f32)
    (h1 h2 : ∀ a x, ((![k0_pay3 lanes k, k0_pay1 lanes g] : Fin 2 → IVec S16 32) a x).toNat < S64x128.size a)
    (h3 : ∀ a x, ((![k0_pay1 lanes g, k0_pay3 lanes k] : Fin 2 → IVec S16 32) a x).toNat < S128x128.size a)
    (hacc : AccAt fh ft fr g.val k.val acc) :
    AccAt fh ft fr g.val (k.val + 1) (k0_pay4 acc (loadIdx fh ![k0_pay3 lanes k, k0_pay1 lanes g] h1)
      (loadIdx ft ![k0_pay3 lanes k, k0_pay1 lanes g] h2) (loadIdx fr ![k0_pay1 lanes g, k0_pay3 lanes k] h3)) := by
  intro l
  show FloatOps.addf (acc (ix1 l)) (FloatOps.mulf (FloatOps.mulf (fh (idxAt _ h1 (ix1 l))) (fr (idxAt _ h3 (ix1 l)))) (ft (idxAt _ h2 (ix1 l)))) = _
  rw [hacc l, idxAt_HT_4 g k l h1, idxAt_R_4 g k l h3]
  rfl

end Cert.Proof.KernelSide

end
-- ==== Proof.BStage.lean ====
/-
  Scoring one block of 128 triples inside a vector subcore: the nested loops over the block's eight groups of sixteen
  lanes and the 64 features, read off as the block's accumulators.
-/
import proofs.«205660_g30348238913567_cont_9to1_1764_14_alg».proof.Proof.BStageWords

noncomputable section

namespace Cert.Proof.KernelSide

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The result scratch through any rectangle of it is the same buffer. -/
theorem pts_sOut_access (d : Dev nD) (L : grid0.Coords) (r : Rect S512) (f : Buf (Elt F) ((thrV d L).loc cc0_scratch14)) :
    (((sOut : Memref sig .scVector .vmem S512 .f32).access r).loc (thrV d L) ↦{fullShare} f : sProp 𝕄) = (thrV d L).loc cc0_scratch14 ↦{fullShare} f := rfl

/-! ## Scratch slot 0: its three buffers as the gathers address them, and the two loops' invariants -/

theorem pts_sH0_access (d : Dev nD) (L : grid0.Coords) (f : Buf (Elt F) ((thrV d L).loc cc0_scratch1)) :
    (((sH0 : Memref sig .scVector .vmem S64x128 .f32).access (.whole S64x128)).loc (thrV d L) ↦{fullShare} f : sProp 𝕄) = (thrV d L).loc cc0_scratch1 ↦{fullShare} f := rfl
theorem pts_sT0_access (d : Dev nD) (L : grid0.Coords) (f : Buf (Elt F) ((thrV d L).loc cc0_scratch2)) :
    (((sT0 : Memref sig .scVector .vmem S64x128 .f32).access (.whole S64x128)).loc (thrV d L) ↦{fullShare} f : sProp 𝕄) = (thrV d L).loc cc0_scratch2 ↦{fullShare} f := rfl
theorem pts_sR0_access (d : Dev nD) (L : grid0.Coords) (f : Buf (Elt F) ((thrV d L).loc cc0_scratch3)) :
    (((sR0 : Memref sig .scVector .vmem S128x128 .f32).access (.whole S128x128)).loc (thrV d L) ↦{fullShare} f : sProp 𝕄) = (thrV d L).loc cc0_scratch3 ↦{fullShare} f := rfl

/-- A buffer read whole reads its contents. -/
theorem read_sH0 (f : FVec F Cert.KBlock.SHB .f32) :
    View.read (Elt F) ((sH0 : Memref sig .scVector .vmem S64x128 .f32).access (Rect.whole S64x128)) f = f := Memref.read_access_whole (Elt F) cc0_scratch1 f
theorem read_sT0 (f : FVec F Cert.KBlock.SHB .f32) :
    View.read (Elt F) ((sT0 : Memref sig .scVector .vmem S64x128 .f32).access (Rect.whole S64x128)) f = f := Memref.read_access_whole (Elt F) cc0_scratch2 f
theorem read_sR0 (f : FVec F Cert.KBlock.SRB .f32) :
    View.read (Elt F) ((sR0 : Memref sig .scVector .vmem S128x128 .f32).access (Rect.whole S128x128)) f = f := Memref.read_access_whole (Elt F) cc0_scratch3 f

/-- The feature loop's invariant: the three scratch buffers it reads, and what the carried vector holds after `k` trips. -/
def invI0 (d : Dev nD) (L : grid0.Coords) (fh : Buf (Elt F) ((thrV d L).loc cc0_scratch1)) (ft : Buf (Elt F) ((thrV d L).loc cc0_scratch2))
    (fr : Buf (Elt F) ((thrV d L).loc cc0_scratch3)) (P : ℕ → FVec F S16 .f32 → Prop) (k : ℕ) (acc : FVec F S16 .f32) : sProp 𝕄 :=
  iprop(((thrV d L).loc cc0_scratch1 ↦{fullShare} fh) ∗ ((thrV d L).loc cc0_scratch2 ↦{fullShare} ft)
        ∗ ((thrV d L).loc cc0_scratch3 ↦{fullShare} fr) ∗ ⌜P k acc⌝)

/-- The group loop's invariant: the three scratch buffers read, and the result scratch at contents as after `k` groups. -/
def invO0 (d : Dev nD) (L : grid0.Coords) (fh : Buf (Elt F) ((thrV d L).loc cc0_scratch1)) (ft : Buf (Elt F) ((thrV d L).loc cc0_scratch2))
    (fr : Buf (Elt F) ((thrV d L).loc cc0_scratch3)) (Q : ℕ → Buf (Elt F) ((thrV d L).loc cc0_scratch14) → Prop) (k : ℕ) (_ : Unit) : sProp 𝕄 :=
  iprop(((thrV d L).loc cc0_scratch1 ↦{fullShare} fh) ∗ ((thrV d L).loc cc0_scratch2 ↦{fullShare} ft)
        ∗ ((thrV d L).loc cc0_scratch3 ↦{fullShare} fr)
        ∗ ∃ fo' : Buf (Elt F) ((thrV d L).loc cc0_scratch14), ⌜Q k fo'⌝ ∗ ((thrV d L).loc cc0_scratch14 ↦{fullShare} fo'))

/-! ## Scratch slot 1: its three buffers as the gathers address them, and the two loops' invariants -/

theorem pts_sH1_access (d : Dev nD) (L : grid0.Coords) (f : Buf (Elt F) ((thrV d L).loc cc0_scratch8)) :
    (((sH1 : Memref sig .scVector .vmem S64x128 .f32).access (.whole S64x128)).loc (thrV d L) ↦{fullShare} f : sProp 𝕄) = (thrV d L).loc cc0_scratch8 ↦{fullShare} f := rfl
theorem pts_sT1_access (d : Dev nD) (L : grid0.Coords) (f : Buf (Elt F) ((thrV d L).loc cc0_scratch9)) :
    (((sT1 : Memref sig .scVector .vmem S64x128 .f32).access (.whole S64x128)).loc (thrV d L) ↦{fullShare} f : sProp 𝕄) = (thrV d L).loc cc0_scratch9 ↦{fullShare} f := rfl
theorem pts_sR1_access (d : Dev nD) (L : grid0.Coords) (f : Buf (Elt F) ((thrV d L).loc cc0_scratch10)) :
    (((sR1 : Memref sig .scVector .vmem S128x128 .f32).access (.whole S128x128)).loc (thrV d L) ↦{fullShare} f : sProp 𝕄) = (thrV d L).loc cc0_scratch10 ↦{fullShare} f := rfl

/-- A buffer read whole reads its contents. -/
theorem read_sH1 (f : FVec F Cert.KBlock.SHB .f32) :
    View.read (Elt F) ((sH1 : Memref sig .scVector .vmem S64x128 .f32).access (Rect.whole S64x128)) f = f := Memref.read_access_whole (Elt F) cc0_scratch8 f
theorem read_sT1 (f : FVec F Cert.KBlock.SHB .f32) :
    View.read (Elt F) ((sT1 : Memref sig .scVector .vmem S64x128 .f32).access (Rect.whole S64x128)) f = f := Memref.read_access_whole (Elt F) cc0_scratch9 f
theorem read_sR1 (f : FVec F Cert.KBlock.SRB .f32) :
    View.read (Elt F) ((sR1 : Memref sig .scVector .vmem S128x128 .f32).access (Rect.whole S128x128)) f = f := Memref.read_access_whole (Elt F) cc0_scratch10 f

/-- The feature loop's invariant: the three scratch buffers it reads, and what the carried vector holds after `k` trips. -/
def invI1 (d : Dev nD) (L : grid0.Coords) (fh : Buf (Elt F) ((thrV d L).loc cc0_scratch8)) (ft : Buf (Elt F) ((thrV d L).loc cc0_scratch9))
    (fr : Buf (Elt F) ((thrV d L).loc cc0_scratch10)) (P : ℕ → FVec F S16 .f32 → Prop) (k : ℕ) (acc : FVec F S16 .f32) : sProp 𝕄 :=
  iprop(((thrV d L).loc cc0_scratch8 ↦{fullShare} fh) ∗ ((thrV d L).loc cc0_scratch9 ↦{fullShare} ft)
        ∗ ((thrV d L).loc cc0_scratch10 ↦{fullShare} fr) ∗ ⌜P k acc⌝)

/-- The group loop's invariant: the three scratch buffers read, and the result scratch at contents as after `k` groups. -/
def invO1 (d : Dev nD) (L : grid0.Coords) (fh : Buf (Elt F) ((thrV d L).loc cc0_scratch8)) (ft : Buf (Elt F) ((thrV d L).loc cc0_scratch9))
    (fr : Buf (Elt F) ((thrV d L).loc cc0_scratch10)) (Q : ℕ → Buf (Elt F) ((thrV d L).loc cc0_scratch14) → Prop) (k : ℕ) (_ : Unit) : sProp 𝕄 :=
  iprop(((thrV d L).loc cc0_scratch8 ↦{fullShare} fh) ∗ ((thrV d L).loc cc0_scratch9 ↦{fullShare} ft)
        ∗ ((thrV d L).loc cc0_scratch10 ↦{fullShare} fr)
        ∗ ∃ fo' : Buf (Elt F) ((thrV d L).loc cc0_scratch14), ⌜Q k fo'⌝ ∗ ((thrV d L).loc cc0_scratch14 ↦{fullShare} fo'))

/-! ## Block number 0 -/

/-- One trip of block 0's feature loop, in group `g`: the side condition holds, the three gathers read the block, and
    the carried vector takes the trip's terms. -/
theorem inner_1 [FloatOps F] (d : Dev nD) (L : grid0.Coords) (v2 : BitVec 32) (g : Fin k0_t1_loop.trips)
    (fh : Buf (Elt F) ((thrV d L).loc cc0_scratch1)) (ft : Buf (Elt F) ((thrV d L).loc cc0_scratch2))
    (fr : Buf (Elt F) ((thrV d L).loc cc0_scratch3)) (k : Fin k0_t2_loop.trips) (acc : FVec F S16 .f32) :
    invI0 d L fh ft fr (AccAt fh ft fr g.val) k acc
      ⊢ wp frame (wpE (defs₀ (F := F)) 𝒱₀ (thrV d L) none) Set.univ
          (k0_t2_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes (k0_pay5 lanes g) k acc)
          (invI0 d L fh ft fr (AccAt fh ft fr g.val) (k.val + 1)) := by
  unfold invI0 k0_t2_body
  simp only [Prog.lift, Prog.bind_op, Prog.bind_ret, Prog.pure_eq_ret]
  iintro ⟨Hh, Ht, Hr, %hacc⟩
  rw [wp_assume_of _ _ _ _ (chk_holds_1 g k)]
  ihave Hh' := (Entails.of_eq (pts_sH0_access (F := F) d L _).symm) $$ Hh
  iapply (SparseCore.wp_vectorLoadIdx 𝒱₀ (thrV d L) none Set.univ (base := (sH0 : Memref sig .scVector .vmem S64x128 .f32)) (S := Finset.univ) (q := fullShare) (Finset.subset_univ _)) $$ Hh'; iintro Hh'
  ihave Ht' := (Entails.of_eq (pts_sT0_access (F := F) d L _).symm) $$ Ht
  iapply (SparseCore.wp_vectorLoadIdx 𝒱₀ (thrV d L) none Set.univ (base := (sT0 : Memref sig .scVector .vmem S64x128 .f32)) (S := Finset.univ) (q := fullShare) (Finset.subset_univ _)) $$ Ht'; iintro Ht'
  ihave Hr' := (Entails.of_eq (pts_sR0_access (F := F) d L _).symm) $$ Hr
  iapply (SparseCore.wp_vectorLoadIdx 𝒱₀ (thrV d L) none Set.univ (base := (sR0 : Memref sig .scVector .vmem S128x128 .f32)) (S := Finset.univ) (q := fullShare) (Finset.subset_univ _)) $$ Hr'; iintro Hr'
  rw [wp_ret]; imodintro
  isplitl [Hh']; · iapply (Entails.of_eq (pts_sH0_access (F := F) d L _)); iexact Hh'
  isplitl [Ht']; · iapply (Entails.of_eq (pts_sT0_access (F := F) d L _)); iexact Ht'
  isplitl [Hr']; · iapply (Entails.of_eq (pts_sR0_access (F := F) d L _)); iexact Hr'
  ipureintro
  rw [read_sH0, read_sT0, read_sR0]
  exact accAt_succ_1 fh ft fr g k acc _ _ _ hacc

/-- One trip of block 0's group loop: the feature loop from the zero vector, then the store of the group's sixteen
    accumulators into the result scratch at entry `0 + 16 g`. -/
theorem outer_1 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) (g : Fin k0_t1_loop.trips) (u : Unit) :
    invO0 d L fh ft fr (OutPart 0 fh ft fr fo) g u
      ⊢ wp frame (wpE (defs₀ (F := F)) 𝒱₀ (thrV d L) none) Set.univ
          (k0_t1_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes g u)
          (invO0 d L fh ft fr (OutPart 0 fh ft fr fo) (g.val + 1)) := by
  have hg : g.val < 8 := lt_of_lt_of_eq g.isLt tripsO_1
  unfold invO0 k0_t1_body
  simp only [Prog.lift, Prog.bind_op, Prog.bind_ret, Prog.pure_eq_ret]
  iintro ⟨Hh, Ht, Hr, %fo', %hfo, Ho⟩
  sl_for (invI0 d L fh ft fr (AccAt fh ft fr g.val)) $$ [Hh Ht Hr]
  case region =>
    intro k acc
    exact inner_1 d L v2 g fh ft fr k acc
  · unfold invI0
    isplitl [Hh]; · iexact Hh
    isplitl [Ht]; · iexact Ht
    isplitl [Hr]; · iexact Hr
    ipureintro; exact accAt_zero_1 fh ft fr g.val
  iintro %acc HI
  unfold invI0
  icases HI with ⟨Hh, Ht, Hr, %hacc⟩
  have ht : Scf.trips k0_t2_loop.lb k0_t2_loop.ub k0_t2_loop.st = 64 := tripsI_1
  rw [ht] at hacc
  unfold outer_1.sl.prog.cont_1
  simp only [Prog.lift, Prog.bind_op, Prog.bind_ret, Prog.pure_eq_ret]
  ihave Ho' := (Entails.of_eq (pts_sOut_access (F := F) d L (Rect.unit (s := S512) (k0_off3 g) S16.size (k0_off3_inb g)) fo').symm) $$ Ho
  iapply (wp_load_rect 𝒱₀ (thrV d L) none Set.univ (m := (sOut : Memref sig .scVector .vmem S512 .f32)) (r := (Rect.unit (s := S512) (k0_off3 g) S16.size (k0_off3_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off3 g) S16.size (k0_off3_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off3 g) S16.size (k0_off3_inb g))) fo' acc Finset.univ)
  isplitr
  · ipureintro
    have ho : k0_off3 g = ![128 * 0 + 16 * g.val] := (k0_off3_eq g).trans (congrArg (fun n : ℕ => (![n] : Fin 1 → ℕ)) (by omega))
    exact outPart_succ 0 fh ft fr fo fo' _ g.val hg acc hfo hacc fun j => write_sOut (k0_off3 g) _ ho (k0_off3_inb g) fo' acc j
  · iapply (Entails.of_eq (pts_sOut_access (F := F) d L (Rect.unit (s := S512) (k0_off3 g) S16.size (k0_off3_inb g)) _)); iexact Ho'

/-- Block number 0 of the subcore's four, scored: the eight groups of sixteen lanes, each by the 64-trip feature loop
    over the block's heads, tails and gathered relation rows; the three scratch buffers are only read, the result
    scratch ends with the block's 128 accumulators in entries `0 … 127`. -/
theorem stage1 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) :
    iprop(((thrV d L).loc cc0_scratch1 ↦{fullShare} fh) ∗ ((thrV d L).loc cc0_scratch2 ↦{fullShare} ft)
        ∗ ((thrV d L).loc cc0_scratch3 ↦{fullShare} fr) ∗ ((thrV d L).loc cc0_scratch14 ↦{fullShare} fo) : sProp 𝕄)
      ⊢ wp frame (wpE (defs₀ (F := F)) 𝒱₀ (thrV d L) none) Set.univ
          (Scf.Loop.for k0_t1_loop k0_t1_ok ⟨⟩ (k0_t1_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes))
          fun _ => iprop(((thrV d L).loc cc0_scratch1 ↦{fullShare} fh) ∗ ((thrV d L).loc cc0_scratch2 ↦{fullShare} ft)
            ∗ ((thrV d L).loc cc0_scratch3 ↦{fullShare} fr)
            ∗ ∃ fo' : Buf (Elt F) ((thrV d L).loc cc0_scratch14), ⌜Cert.KBlock.OutAfter (F := F) 0 fh ft fr fo fo'⌝
                ∗ ((thrV d L).loc cc0_scratch14 ↦{fullShare} fo')) := by
  iintro ⟨Hh, Ht, Hr, Ho⟩
  sl_for (invO0 d L fh ft fr (OutPart 0 fh ft fr fo)) $$ [Hh Ht Hr Ho]
  case region =>
    intro g u
    exact outer_1 d L v2 fh ft fr fo g u
  isplitl [Hh Ht Hr Ho]
  · unfold invO0
    isplitl [Hh]; · iexact Hh
    isplitl [Ht]; · iexact Ht
    isplitl [Hr]; · iexact Hr
    iexists fo
    isplitr
    · ipureintro; exact outPart_zero 0 fh ft fr fo
    · iexact Ho
  iintro %u HI
  unfold invO0
  icases HI with ⟨Hh, Ht, Hr, %fo', %hfo, Ho⟩
  have ht : Scf.trips k0_t1_loop.lb k0_t1_loop.ub k0_t1_loop.st = 8 := tripsO_1
  rw [ht] at hfo
  isplitl [Hh]; · iexact Hh
  isplitl [Ht]; · iexact Ht
  isplitl [Hr]; · iexact Hr
  iexists fo'
  isplitr
  · ipureintro; exact outPart_done 0 fh ft fr fo fo' hfo
  · iexact Ho

/-! ## Block number 1 -/

/-- One trip of block 1's feature loop, in group `g`: the side condition holds, the three gathers read the block, and
    the carried vector takes the trip's terms. -/
theorem inner_2 [FloatOps F] (d : Dev nD) (L : grid0.Coords) (v2 : BitVec 32) (g : Fin k0_t3_loop.trips)
    (fh : Buf (Elt F) ((thrV d L).loc cc0_scratch8)) (ft : Buf (Elt F) ((thrV d L).loc cc0_scratch9))
    (fr : Buf (Elt F) ((thrV d L).loc cc0_scratch10)) (k : Fin k0_t4_loop.trips) (acc : FVec F S16 .f32) :
    invI1 d L fh ft fr (AccAt fh ft fr g.val) k acc
      ⊢ wp frame (wpE (defs₀ (F := F)) 𝒱₀ (thrV d L) none) Set.univ
          (k0_t4_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes (k0_pay9 lanes g) k acc)
          (invI1 d L fh ft fr (AccAt fh ft fr g.val) (k.val + 1)) := by
  unfold invI1 k0_t4_body
  simp only [Prog.lift, Prog.bind_op, Prog.bind_ret, Prog.pure_eq_ret]
  iintro ⟨Hh, Ht, Hr, %hacc⟩
  rw [wp_assume_of _ _ _ _ (chk_holds_2 g k)]
  ihave Hh' := (Entails.of_eq (pts_sH1_access (F := F) d L _).symm) $$ Hh
  iapply (SparseCore.wp_vectorLoadIdx 𝒱₀ (thrV d L) none Set.univ (base := (sH1 : Memref sig .scVector .vmem S64x128 .f32)) (S := Finset.univ) (q := fullShare) (Finset.subset_univ _)) $$ Hh'; iintro Hh'
  ihave Ht' := (Entails.of_eq (pts_sT1_access (F := F) d L _).symm) $$ Ht
  iapply (SparseCore.wp_vectorLoadIdx 𝒱₀ (thrV d L) none Set.univ (base := (sT1 : Memref sig .scVector .vmem S64x128 .f32)) (S := Finset.univ) (q := fullShare) (Finset.subset_univ _)) $$ Ht'; iintro Ht'
  ihave Hr' := (Entails.of_eq (pts_sR1_access (F := F) d L _).symm) $$ Hr
  iapply (SparseCore.wp_vectorLoadIdx 𝒱₀ (thrV d L) none Set.univ (base := (sR1 : Memref sig .scVector .vmem S128x128 .f32)) (S := Finset.univ) (q := fullShare) (Finset.subset_univ _)) $$ Hr'; iintro Hr'
  rw [wp_ret]; imodintro
  isplitl [Hh']; · iapply (Entails.of_eq (pts_sH1_access (F := F) d L _)); iexact Hh'
  isplitl [Ht']; · iapply (Entails.of_eq (pts_sT1_access (F := F) d L _)); iexact Ht'
  isplitl [Hr']; · iapply (Entails.of_eq (pts_sR1_access (F := F) d L _)); iexact Hr'
  ipureintro
  rw [read_sH1, read_sT1, read_sR1]
  exact accAt_succ_2 fh ft fr g k acc _ _ _ hacc

/-- One trip of block 1's group loop: the feature loop from the zero vector, then the store of the group's sixteen
    accumulators into the result scratch at entry `128 + 16 g`. -/
theorem outer_2 [FloatOps F] (d : Dev nD) (L : grid0.Coords) (v2 : BitVec 32)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) (g : Fin k0_t3_loop.trips) (u : Unit) :
    invO1 d L fh ft fr (OutPart 1 fh ft fr fo) g u
      ⊢ wp frame (wpE (defs₀ (F := F)) 𝒱₀ (thrV d L) none) Set.univ
          (k0_t3_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes g u)
          (invO1 d L fh ft fr (OutPart 1 fh ft fr fo) (g.val + 1)) := by
  have hg : g.val < 8 := lt_of_lt_of_eq g.isLt tripsO_2
  unfold invO1 k0_t3_body
  simp only [Prog.lift, Prog.bind_op, Prog.bind_ret, Prog.pure_eq_ret]
  iintro ⟨Hh, Ht, Hr, %fo', %hfo, Ho⟩
  sl_for (invI1 d L fh ft fr (AccAt fh ft fr g.val)) $$ [Hh Ht Hr]
  case region =>
    intro k acc
    exact inner_2 d L v2 g fh ft fr k acc
  · unfold invI1
    isplitl [Hh]; · iexact Hh
    isplitl [Ht]; · iexact Ht
    isplitl [Hr]; · iexact Hr
    ipureintro; exact accAt_zero_2 fh ft fr g.val
  iintro %acc HI
  unfold invI1
  icases HI with ⟨Hh, Ht, Hr, %hacc⟩
  have ht : Scf.trips k0_t4_loop.lb k0_t4_loop.ub k0_t4_loop.st = 64 := tripsI_2
  rw [ht] at hacc
  unfold outer_2.sl.prog.cont_1
  simp only [Prog.lift, Prog.bind_op, Prog.bind_ret, Prog.pure_eq_ret]
  ihave Ho' := (Entails.of_eq (pts_sOut_access (F := F) d L (Rect.unit (s := S512) (k0_off4 g) S16.size (k0_off4_inb g)) fo').symm) $$ Ho
  iapply (wp_load_rect 𝒱₀ (thrV d L) none Set.univ (m := (sOut : Memref sig .scVector .vmem S512 .f32)) (r := (Rect.unit (s := S512) (k0_off4 g) S16.size (k0_off4_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off4 g) S16.size (k0_off4_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off4 g) S16.size (k0_off4_inb g))) fo' acc Finset.univ)
  isplitr
  · ipureintro
    have ho : k0_off4 g = ![128 * 1 + 16 * g.val] := (k0_off4_eq g).trans (congrArg (fun n : ℕ => (![n] : Fin 1 → ℕ)) (by omega))
    exact outPart_succ 1 fh ft fr fo fo' _ g.val hg acc hfo hacc fun j => write_sOut (k0_off4 g) _ ho (k0_off4_inb g) fo' acc j
  · iapply (Entails.of_eq (pts_sOut_access (F := F) d L (Rect.unit (s := S512) (k0_off4 g) S16.size (k0_off4_inb g)) _)); iexact Ho'

/-- Block number 1 of the subcore's four, scored: the eight groups of sixteen lanes, each by the 64-trip feature loop
    over the block's heads, tails and gathered relation rows; the three scratch buffers are only read, the result
    scratch ends with the block's 128 accumulators in entries `128 … 255`. -/
theorem stage2 [FloatOps F] (d : Dev nD) (L : grid0.Coords) (v2 : BitVec 32)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) :
    iprop(((thrV d L).loc cc0_scratch8 ↦{fullShare} fh) ∗ ((thrV d L).loc cc0_scratch9 ↦{fullShare} ft)
        ∗ ((thrV d L).loc cc0_scratch10 ↦{fullShare} fr) ∗ ((thrV d L).loc cc0_scratch14 ↦{fullShare} fo) : sProp 𝕄)
      ⊢ wp frame (wpE (defs₀ (F := F)) 𝒱₀ (thrV d L) none) Set.univ
          (Scf.Loop.for k0_t3_loop k0_t3_ok ⟨⟩ (k0_t3_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes))
          fun _ => iprop(((thrV d L).loc cc0_scratch8 ↦{fullShare} fh) ∗ ((thrV d L).loc cc0_scratch9 ↦{fullShare} ft)
            ∗ ((thrV d L).loc cc0_scratch10 ↦{fullShare} fr)
            ∗ ∃ fo' : Buf (Elt F) ((thrV d L).loc cc0_scratch14), ⌜Cert.KBlock.OutAfter (F := F) 1 fh ft fr fo fo'⌝
                ∗ ((thrV d L).loc cc0_scratch14 ↦{fullShare} fo')) := by
  iintro ⟨Hh, Ht, Hr, Ho⟩
  sl_for (invO1 d L fh ft fr (OutPart 1 fh ft fr fo)) $$ [Hh Ht Hr Ho]
  case region =>
    intro g u
    exact outer_2 d L v2 fh ft fr fo g u
  isplitl [Hh Ht Hr Ho]
  · unfold invO1
    isplitl [Hh]; · iexact Hh
    isplitl [Ht]; · iexact Ht
    isplitl [Hr]; · iexact Hr
    iexists fo
    isplitr
    · ipureintro; exact outPart_zero 1 fh ft fr fo
    · iexact Ho
  iintro %u HI
  unfold invO1
  icases HI with ⟨Hh, Ht, Hr, %fo', %hfo, Ho⟩
  have ht : Scf.trips k0_t3_loop.lb k0_t3_loop.ub k0_t3_loop.st = 8 := tripsO_2
  rw [ht] at hfo
  isplitl [Hh]; · iexact Hh
  isplitl [Ht]; · iexact Ht
  isplitl [Hr]; · iexact Hr
  iexists fo'
  isplitr
  · ipureintro; exact outPart_done 1 fh ft fr fo fo' hfo
  · iexact Ho

/-! ## Block number 2 -/

/-- One trip of block 2's feature loop, in group `g`: the side condition holds, the three gathers read the block, and
    the carried vector takes the trip's terms. -/
theorem inner_3 [FloatOps F] (d : Dev nD) (L : grid0.Coords) (v2 : BitVec 32) (g : Fin k0_t5_loop.trips)
    (fh : Buf (Elt F) ((thrV d L).loc cc0_scratch1)) (ft : Buf (Elt F) ((thrV d L).loc cc0_scratch2))
    (fr : Buf (Elt F) ((thrV d L).loc cc0_scratch3)) (k : Fin k0_t6_loop.trips) (acc : FVec F S16 .f32) :
    invI0 d L fh ft fr (AccAt fh ft fr g.val) k acc
      ⊢ wp frame (wpE (defs₀ (F := F)) 𝒱₀ (thrV d L) none) Set.univ
          (k0_t6_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes (k0_pay13 lanes g) k acc)
          (invI0 d L fh ft fr (AccAt fh ft fr g.val) (k.val + 1)) := by
  unfold invI0 k0_t6_body
  simp only [Prog.lift, Prog.bind_op, Prog.bind_ret, Prog.pure_eq_ret]
  iintro ⟨Hh, Ht, Hr, %hacc⟩
  rw [wp_assume_of _ _ _ _ (chk_holds_3 g k)]
  ihave Hh' := (Entails.of_eq (pts_sH0_access (F := F) d L _).symm) $$ Hh
  iapply (SparseCore.wp_vectorLoadIdx 𝒱₀ (thrV d L) none Set.univ (base := (sH0 : Memref sig .scVector .vmem S64x128 .f32)) (S := Finset.univ) (q := fullShare) (Finset.subset_univ _)) $$ Hh'; iintro Hh'
  ihave Ht' := (Entails.of_eq (pts_sT0_access (F := F) d L _).symm) $$ Ht
  iapply (SparseCore.wp_vectorLoadIdx 𝒱₀ (thrV d L) none Set.univ (base := (sT0 : Memref sig .scVector .vmem S64x128 .f32)) (S := Finset.univ) (q := fullShare) (Finset.subset_univ _)) $$ Ht'; iintro Ht'
  ihave Hr' := (Entails.of_eq (pts_sR0_access (F := F) d L _).symm) $$ Hr
  iapply (SparseCore.wp_vectorLoadIdx 𝒱₀ (thrV d L) none Set.univ (base := (sR0 : Memref sig .scVector .vmem S128x128 .f32)) (S := Finset.univ) (q := fullShare) (Finset.subset_univ _)) $$ Hr'; iintro Hr'
  rw [wp_ret]; imodintro
  isplitl [Hh']; · iapply (Entails.of_eq (pts_sH0_access (F := F) d L _)); iexact Hh'
  isplitl [Ht']; · iapply (Entails.of_eq (pts_sT0_access (F := F) d L _)); iexact Ht'
  isplitl [Hr']; · iapply (Entails.of_eq (pts_sR0_access (F := F) d L _)); iexact Hr'
  ipureintro
  rw [read_sH0, read_sT0, read_sR0]
  exact accAt_succ_3 fh ft fr g k acc _ _ _ hacc

/-- One trip of block 2's group loop: the feature loop from the zero vector, then the store of the group's sixteen
    accumulators into the result scratch at entry `256 + 16 g`. -/
theorem outer_3 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) (g : Fin k0_t5_loop.trips) (u : Unit) :
    invO0 d L fh ft fr (OutPart 2 fh ft fr fo) g u
      ⊢ wp frame (wpE (defs₀ (F := F)) 𝒱₀ (thrV d L) none) Set.univ
          (k0_t5_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes g u)
          (invO0 d L fh ft fr (OutPart 2 fh ft fr fo) (g.val + 1)) := by
  have hg : g.val < 8 := lt_of_lt_of_eq g.isLt tripsO_3
  unfold invO0 k0_t5_body
  simp only [Prog.lift, Prog.bind_op, Prog.bind_ret, Prog.pure_eq_ret]
  iintro ⟨Hh, Ht, Hr, %fo', %hfo, Ho⟩
  sl_for (invI0 d L fh ft fr (AccAt fh ft fr g.val)) $$ [Hh Ht Hr]
  case region =>
    intro k acc
    exact inner_3 d L v2 g fh ft fr k acc
  · unfold invI0
    isplitl [Hh]; · iexact Hh
    isplitl [Ht]; · iexact Ht
    isplitl [Hr]; · iexact Hr
    ipureintro; exact accAt_zero_3 fh ft fr g.val
  iintro %acc HI
  unfold invI0
  icases HI with ⟨Hh, Ht, Hr, %hacc⟩
  have ht : Scf.trips k0_t6_loop.lb k0_t6_loop.ub k0_t6_loop.st = 64 := tripsI_3
  rw [ht] at hacc
  unfold outer_3.sl.prog.cont_1
  simp only [Prog.lift, Prog.bind_op, Prog.bind_ret, Prog.pure_eq_ret]
  ihave Ho' := (Entails.of_eq (pts_sOut_access (F := F) d L (Rect.unit (s := S512) (k0_off5 g) S16.size (k0_off5_inb g)) fo').symm) $$ Ho
  iapply (wp_load_rect 𝒱₀ (thrV d L) none Set.univ (m := (sOut : Memref sig .scVector .vmem S512 .f32)) (r := (Rect.unit (s := S512) (k0_off5 g) S16.size (k0_off5_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off5 g) S16.size (k0_off5_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off5 g) S16.size (k0_off5_inb g))) fo' acc Finset.univ)
  isplitr
  · ipureintro
    have ho : k0_off5 g = ![128 * 2 + 16 * g.val] := (k0_off5_eq g).trans (congrArg (fun n : ℕ => (![n] : Fin 1 → ℕ)) (by omega))
    exact outPart_succ 2 fh ft fr fo fo' _ g.val hg acc hfo hacc fun j => write_sOut (k0_off5 g) _ ho (k0_off5_inb g) fo' acc j
  · iapply (Entails.of_eq (pts_sOut_access (F := F) d L (Rect.unit (s := S512) (k0_off5 g) S16.size (k0_off5_inb g)) _)); iexact Ho'

/-- Block number 2 of the subcore's four, scored: the eight groups of sixteen lanes, each by the 64-trip feature loop
    over the block's heads, tails and gathered relation rows; the three scratch buffers are only read, the result
    scratch ends with the block's 128 accumulators in entries `256 … 383`. -/
theorem stage3 [FloatOps F] (d : Dev nD) (L : grid0.Coords) (v2 : BitVec 32)
    (fh : Buf (Elt F) ((thrV d L).loc cc0_scratch1)) (ft : Buf (Elt F) ((thrV d L).loc cc0_scratch2))
    (fr : Buf (Elt F) ((thrV d L).loc cc0_scratch3)) (fo : Buf (Elt F) ((thrV d L).loc cc0_scratch14)) :
    iprop(((thrV d L).loc cc0_scratch1 ↦{fullShare} fh) ∗ ((thrV d L).loc cc0_scratch2 ↦{fullShare} ft)
        ∗ ((thrV d L).loc cc0_scratch3 ↦{fullShare} fr) ∗ ((thrV d L).loc cc0_scratch14 ↦{fullShare} fo) : sProp 𝕄)
      ⊢ wp frame (wpE (defs₀ (F := F)) 𝒱₀ (thrV d L) none) Set.univ
          (Scf.Loop.for k0_t5_loop k0_t5_ok ⟨⟩ (k0_t5_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 v2 lanes))
          fun _ => iprop(((thrV d L).loc cc0_scratch1 ↦{fullShare} fh) ∗ ((thrV d L).loc cc0_scratch2 ↦{fullShare} ft)
            ∗ ((thrV d L).loc cc0_scratch3 ↦{fullShare} fr)
            ∗ ∃ fo' : Buf (Elt F) ((thrV d L).loc cc0_scratch14), ⌜Cert.KBlock.OutAfter (F := F) 2 fh ft fr fo fo'⌝
                ∗ ((thrV d L).loc cc0_scratch14 ↦{fullShare} fo')) := by
  iintro ⟨Hh, Ht, Hr, Ho⟩
  sl_for (invO0 d L fh ft fr (OutPart 2 fh ft fr fo)) $$ [Hh Ht Hr Ho]
  case region =>
    intro g u
    exact outer_3 d L v2 fh ft fr fo g u
  isplitl [Hh Ht Hr Ho]
  · unfold invO0
    isplitl [Hh]; · iexact Hh
    isplitl [Ht]; · iexact Ht
    isplitl [Hr]; · iexact Hr
    iexists fo
    isplitr
    · ipureintro; exact outPart_zero 2 fh ft fr fo
    · iexact Ho
  iintro %u HI
  unfold invO0
  icases HI with ⟨Hh, Ht, Hr, %fo', %hfo, Ho⟩
  have ht : Scf.trips k0_t5_loop.lb k0_t5_loop.ub k0_t5_loop.st = 8 := tripsO_3
  rw [ht] at hfo
  isplitl [Hh]; · iexact Hh
  isplitl [Ht]; · iexact Ht
  isplitl [Hr]; · iexact Hr
  iexists fo'
  isplitr
  · ipureintro; exact outPart_done 2 fh ft fr fo fo' hfo
  · iexact Ho

/-! ## Block number 3 -/

/-- One trip of block 3's feature loop, in group `g`: the side condition holds, the three gathers read the block, and
    the carried vector takes the trip's terms. -/
theorem inner_4 [FloatOps F] (d : Dev nD) (L : grid0.Coords) (g : Fin k0_t7_loop.trips)
    (fh : Buf (Elt F) ((thrV d L).loc cc0_scratch8)) (ft : Buf (Elt F) ((thrV d L).loc cc0_scratch9))
    (fr : Buf (Elt F) ((thrV d L).loc cc0_scratch10)) (k : Fin k0_t8_loop.trips) (acc : FVec F S16 .f32) :
    invI1 d L fh ft fr (AccAt fh ft fr g.val) k acc
      ⊢ wp frame (wpE (defs₀ (F := F)) 𝒱₀ (thrV d L) none) Set.univ
          (k0_t8_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 lanes (k0_pay1 lanes g) k acc)
          (invI1 d L fh ft fr (AccAt fh ft fr g.val) (k.val + 1)) := by
  unfold invI1 k0_t8_body
  simp only [Prog.lift, Prog.bind_op, Prog.bind_ret, Prog.pure_eq_ret]
  iintro ⟨Hh, Ht, Hr, %hacc⟩
  rw [wp_assume_of _ _ _ _ (chk_holds_4 g k)]
  ihave Hh' := (Entails.of_eq (pts_sH1_access (F := F) d L _).symm) $$ Hh
  iapply (SparseCore.wp_vectorLoadIdx 𝒱₀ (thrV d L) none Set.univ (base := (sH1 : Memref sig .scVector .vmem S64x128 .f32)) (S := Finset.univ) (q := fullShare) (Finset.subset_univ _)) $$ Hh'; iintro Hh'
  ihave Ht' := (Entails.of_eq (pts_sT1_access (F := F) d L _).symm) $$ Ht
  iapply (SparseCore.wp_vectorLoadIdx 𝒱₀ (thrV d L) none Set.univ (base := (sT1 : Memref sig .scVector .vmem S64x128 .f32)) (S := Finset.univ) (q := fullShare) (Finset.subset_univ _)) $$ Ht'; iintro Ht'
  ihave Hr' := (Entails.of_eq (pts_sR1_access (F := F) d L _).symm) $$ Hr
  iapply (SparseCore.wp_vectorLoadIdx 𝒱₀ (thrV d L) none Set.univ (base := (sR1 : Memref sig .scVector .vmem S128x128 .f32)) (S := Finset.univ) (q := fullShare) (Finset.subset_univ _)) $$ Hr'; iintro Hr'
  rw [wp_ret]; imodintro
  isplitl [Hh']; · iapply (Entails.of_eq (pts_sH1_access (F := F) d L _)); iexact Hh'
  isplitl [Ht']; · iapply (Entails.of_eq (pts_sT1_access (F := F) d L _)); iexact Ht'
  isplitl [Hr']; · iapply (Entails.of_eq (pts_sR1_access (F := F) d L _)); iexact Hr'
  ipureintro
  rw [read_sH1, read_sT1, read_sR1]
  exact accAt_succ_4 fh ft fr g k acc _ _ _ hacc

/-- One trip of block 3's group loop: the feature loop from the zero vector, then the store of the group's sixteen
    accumulators into the result scratch at entry `384 + 16 g`. -/
theorem outer_4 [FloatOps F] (d : Dev nD) (L : grid0.Coords)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) (g : Fin k0_t7_loop.trips) (u : Unit) :
    invO1 d L fh ft fr (OutPart 3 fh ft fr fo) g u
      ⊢ wp frame (wpE (defs₀ (F := F)) 𝒱₀ (thrV d L) none) Set.univ
          (k0_t7_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 lanes g u)
          (invO1 d L fh ft fr (OutPart 3 fh ft fr fo) (g.val + 1)) := by
  have hg : g.val < 8 := lt_of_lt_of_eq g.isLt tripsO_4
  unfold invO1 k0_t7_body
  simp only [Prog.lift, Prog.bind_op, Prog.bind_ret, Prog.pure_eq_ret]
  iintro ⟨Hh, Ht, Hr, %fo', %hfo, Ho⟩
  sl_for (invI1 d L fh ft fr (AccAt fh ft fr g.val)) $$ [Hh Ht Hr]
  case region =>
    intro k acc
    exact inner_4 d L g fh ft fr k acc
  · unfold invI1
    isplitl [Hh]; · iexact Hh
    isplitl [Ht]; · iexact Ht
    isplitl [Hr]; · iexact Hr
    ipureintro; exact accAt_zero_4 fh ft fr g.val
  iintro %acc HI
  unfold invI1
  icases HI with ⟨Hh, Ht, Hr, %hacc⟩
  have ht : Scf.trips k0_t8_loop.lb k0_t8_loop.ub k0_t8_loop.st = 64 := tripsI_4
  rw [ht] at hacc
  unfold outer_4.sl.prog.cont_1
  simp only [Prog.lift, Prog.bind_op, Prog.bind_ret, Prog.pure_eq_ret]
  ihave Ho' := (Entails.of_eq (pts_sOut_access (F := F) d L (Rect.unit (s := S512) (k0_off6 g) S16.size (k0_off6_inb g)) fo').symm) $$ Ho
  iapply (wp_load_rect 𝒱₀ (thrV d L) none Set.univ (m := (sOut : Memref sig .scVector .vmem S512 .f32)) (r := (Rect.unit (s := S512) (k0_off6 g) S16.size (k0_off6_inb g))) (S := Finset.univ) (q := fullShare) (Finset.subset_univ _)) $$ Ho'; iintro Ho'
  iapply (wp_store 𝒱₀ (thrV d L) none Set.univ (m := (sOut : Memref sig .scVector .vmem S512 .f32)) (r := (Rect.unit (s := S512) (k0_off6 g) S16.size (k0_off6_inb g))) (Mk := Finset.univ) (S := Finset.univ) (Finset.subset_univ _)) $$ Ho'; iintro Ho'
  rw [wp_ret]; imodintro
  isplitl [Hh]; · iexact Hh
  isplitl [Ht]; · iexact Ht
  isplitl [Hr]; · iexact Hr
  iexists (View.write (Elt F) ((sOut : Memref sig .scVector .vmem S512 .f32).access (Rect.unit (s := S512) (k0_off6 g) S16.size (k0_off6_inb g))) fo' acc Finset.univ)
  isplitr
  · ipureintro
    have ho : k0_off6 g = ![128 * 3 + 16 * g.val] := (k0_off6_eq g).trans (congrArg (fun n : ℕ => (![n] : Fin 1 → ℕ)) (by omega))
    exact outPart_succ 3 fh ft fr fo fo' _ g.val hg acc hfo hacc fun j => write_sOut (k0_off6 g) _ ho (k0_off6_inb g) fo' acc j
  · iapply (Entails.of_eq (pts_sOut_access (F := F) d L (Rect.unit (s := S512) (k0_off6 g) S16.size (k0_off6_inb g)) _)); iexact Ho'

/-- Block number 3 of the subcore's four, scored: the eight groups of sixteen lanes, each by the 64-trip feature loop
    over the block's heads, tails and gathered relation rows; the three scratch buffers are only read, the result
    scratch ends with the block's 128 accumulators in entries `384 … 511`. -/
theorem stage4 [FloatOps F] (d : Dev nD) (L : grid0.Coords)
    (fh : Buf (Elt F) ((thrV d L).loc cc0_scratch8)) (ft : Buf (Elt F) ((thrV d L).loc cc0_scratch9))
    (fr : Buf (Elt F) ((thrV d L).loc cc0_scratch10)) (fo : Buf (Elt F) ((thrV d L).loc cc0_scratch14)) :
    iprop(((thrV d L).loc cc0_scratch8 ↦{fullShare} fh) ∗ ((thrV d L).loc cc0_scratch9 ↦{fullShare} ft)
        ∗ ((thrV d L).loc cc0_scratch10 ↦{fullShare} fr) ∗ ((thrV d L).loc cc0_scratch14 ↦{fullShare} fo) : sProp 𝕄)
      ⊢ wp frame (wpE (defs₀ (F := F)) 𝒱₀ (thrV d L) none) Set.univ
          (Scf.Loop.for k0_t7_loop k0_t7_ok ⟨⟩ (k0_t7_body (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5 lanes))
          fun _ => iprop(((thrV d L).loc cc0_scratch8 ↦{fullShare} fh) ∗ ((thrV d L).loc cc0_scratch9 ↦{fullShare} ft)
            ∗ ((thrV d L).loc cc0_scratch10 ↦{fullShare} fr)
            ∗ ∃ fo' : Buf (Elt F) ((thrV d L).loc cc0_scratch14), ⌜Cert.KBlock.OutAfter (F := F) 3 fh ft fr fo fo'⌝
                ∗ ((thrV d L).loc cc0_scratch14 ↦{fullShare} fo')) := by
  iintro ⟨Hh, Ht, Hr, Ho⟩
  sl_for (invO1 d L fh ft fr (OutPart 3 fh ft fr fo)) $$ [Hh Ht Hr Ho]
  case region =>
    intro g u
    exact outer_4 d L fh ft fr fo g u
  isplitl [Hh Ht Hr Ho]
  · unfold invO1
    isplitl [Hh]; · iexact Hh
    isplitl [Ht]; · iexact Ht
    isplitl [Hr]; · iexact Hr
    iexists fo
    isplitr
    · ipureintro; exact outPart_zero 3 fh ft fr fo
    · iexact Ho
  iintro %u HI
  unfold invO1
  icases HI with ⟨Hh, Ht, Hr, %fo', %hfo, Ho⟩
  have ht : Scf.trips k0_t7_loop.lb k0_t7_loop.ub k0_t7_loop.st = 8 := tripsO_4
  rw [ht] at hfo
  isplitl [Hh]; · iexact Hh
  isplitl [Ht]; · iexact Ht
  isplitl [Hr]; · iexact Hr
  iexists fo'
  isplitr
  · ipureintro; exact outPart_done 3 fh ft fr fo fo' hfo
  · iexact Ho

end Cert.Proof.KernelSide

end
-- ==== Proof.BOwn.lean ====
/-
  A vector subcore's own storage, named: its twelve DMA semaphores at zero and its nine scratch buffers at some contents,
  each beside the rest of what the subcore owns.
-/
import proofs.«205660_g30348238913567_cont_9to1_1764_14_alg».proof.Proof.BMem

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The subcore's DMA semaphore `a`, as a cell. -/
abbrev dcell (d : Dev nD) (L : grid0.Coords) (a : DmaSems sig S_) : GSem nD τ sig := (thrV d L, .dma a.sem)

theorem dcell_ne (d : Dev nD) (L : grid0.Coords) {a b : DmaSem sig} (h : a ≠ b) :
    ((thrV d L, SemLoc.dma a) : GSem nD τ sig) ≠ (thrV d L, SemLoc.dma b) :=
  fun e => h (SemLoc.dma.inj (Prod.mk.inj e).2)

/-- The rest of the subcore's own cells, the twelve named ones apart. -/
abbrev semsRest (d : Dev nD) (L : grid0.Coords) : Finset (GSem nD τ sig) :=
  ((((((((((((ownCells (thrV d L)).erase (dcell d L cc0_scratch4)).erase (dcell d L cc0_scratch5)).erase (dcell d L cc0_scratch6)).erase (dcell d L cc0_scratch11)).erase (dcell d L cc0_scratch12)).erase (dcell d L cc0_scratch13)).erase (dcell d L cc0_scoped0)).erase (dcell d L cc0_scoped1)).erase (dcell d L cc0_scoped2)).erase (dcell d L cc0_scoped3)).erase (dcell d L cc0_scoped4)).erase (dcell d L cc0_scoped5)

theorem ownSems0_V (d : Dev nD) (L : grid0.Coords) :
    (ownSems0 (thrV d L) : sProp 𝕄)
      = iprop(semVal (dcell d L cc0_scratch4) 0 ∗ semVal (dcell d L cc0_scratch5) 0 ∗ semVal (dcell d L cc0_scratch6) 0 ∗ semVal (dcell d L cc0_scratch11) 0 ∗ semVal (dcell d L cc0_scratch12) 0 ∗ semVal (dcell d L cc0_scratch13) 0 ∗ semVal (dcell d L cc0_scoped0) 0 ∗ semVal (dcell d L cc0_scoped1) 0 ∗ semVal (dcell d L cc0_scoped2) 0 ∗ semVal (dcell d L cc0_scoped3) 0 ∗ semVal (dcell d L cc0_scoped4) 0 ∗ semVal (dcell d L cc0_scoped5) 0
          ∗ bigSep (semsRest d L) fun g => semVal g 0) := by
  unfold SparseCore.Cfg.ownSems0
  rw [SparseCore.bigSep_erase' ((mem_ownCells (g := dcell d L cc0_scratch4)).mpr ⟨rfl, by show (SemLoc.dma cc0_scratch4.sem : SemLoc sig).isScoped .scVector = true; decide⟩),
    SparseCore.bigSep_erase' (Finset.mem_erase.mpr ⟨dcell_ne d L (by decide : (cc0_scratch5.sem : DmaSem sig) ≠ cc0_scratch4.sem), (mem_ownCells (g := dcell d L cc0_scratch5)).mpr ⟨rfl, by show (SemLoc.dma cc0_scratch5.sem : SemLoc sig).isScoped .scVector = true; decide⟩⟩),
    SparseCore.bigSep_erase' (Finset.mem_erase.mpr ⟨dcell_ne d L (by decide : (cc0_scratch6.sem : DmaSem sig) ≠ cc0_scratch5.sem), Finset.mem_erase.mpr ⟨dcell_ne d L (by decide : (cc0_scratch6.sem : DmaSem sig) ≠ cc0_scratch4.sem), (mem_ownCells (g := dcell d L cc0_scratch6)).mpr ⟨rfl, by show (SemLoc.dma cc0_scratch6.sem : SemLoc sig).isScoped .scVector = true; decide⟩⟩⟩),
    SparseCore.bigSep_erase' (Finset.mem_erase.mpr ⟨dcell_ne d L (by decide : (cc0_scratch11.sem : DmaSem sig) ≠ cc0_scratch6.sem), Finset.mem_erase.mpr ⟨dcell_ne d L (by decide : (cc0_scratch11.sem : DmaSem sig) ≠ cc0_scratch5.sem), Finset.mem_erase.mpr ⟨dcell_ne d L (by decide : (cc0_scratch11.sem : DmaSem sig) ≠ cc0_scratch4.sem), (mem_ownCells (g := dcell d L cc0_scratch11)).mpr ⟨rfl, by show (SemLoc.dma cc0_scratch11.sem : SemLoc sig).isScoped .scVector = true; decide⟩⟩⟩⟩),
    SparseCore.bigSep_erase' (Finset.mem_erase.mpr ⟨dcell_ne d L (by decide : (cc0_scratch12.sem : DmaSem sig) ≠ cc0_scratch11.sem), Finset.mem_erase.mpr ⟨dcell_ne d L (by decide : (cc0_scratch12.sem : DmaSem sig) ≠ cc0_scratch6.sem), Finset.mem_erase.mpr ⟨dcell_ne d L (by decide : (cc0_scratch12.sem : DmaSem sig) ≠ cc0_scratch5.sem), Finset.mem_erase.mpr ⟨dcell_ne d L (by decide : (cc0_scratch12.sem : DmaSem sig) ≠ cc0_scratch4.sem), (mem_ownCells (g := dcell d L cc0_scratch12)).mpr ⟨rfl, by show (SemLoc.dma cc0_scratch12.sem : SemLoc sig).isScoped .scVector = true; decide⟩⟩⟩⟩⟩),
    SparseCore.bigSep_erase' (Finset.mem_erase.mpr ⟨dcell_ne d L (by decide : (cc0_scratch13.sem : DmaSem sig) ≠ cc0_scratch12.sem), Finset.mem_erase.mpr ⟨dcell_ne d L (by decide : (cc0_scratch13.sem : DmaSem sig) ≠ cc0_scratch11.sem), Finset.mem_erase.mpr ⟨dcell_ne d L (by decide : (cc0_scratch13.sem : DmaSem sig) ≠ cc0_scratch6.sem), Finset.mem_erase.mpr ⟨dcell_ne d L (by decide : (cc0_scratch13.sem : DmaSem sig) ≠ cc0_scratch5.sem), Finset.mem_erase.mpr ⟨dcell_ne d L (by decide : (cc0_scratch13.sem : DmaSem sig) ≠ cc0_scratch4.sem), (mem_ownCells (g := dcell d L cc0_scratch13)).mpr ⟨rfl, by show (SemLoc.dma cc0_scratch13.sem : SemLoc sig).isScoped .scVector = true; decide⟩⟩⟩⟩⟩⟩),
    SparseCore.bigSep_erase' (Finset.mem_erase.mpr ⟨dcell_ne d L (by decide : (cc0_scoped0.sem : DmaSem sig) ≠ cc0_scratch13.sem), Finset.mem_erase.mpr ⟨dcell_ne d L (by decide : (cc0_scoped0.sem : DmaSem sig) ≠ cc0_scratch12.sem), Finset.mem_erase.mpr ⟨dcell_ne d L (by decide : (cc0_scoped0.sem : DmaSem sig) ≠ cc0_scratch11.sem), Finset.mem_erase.mpr ⟨dcell_ne d L (by decide : (cc0_scoped0.sem : DmaSem sig) ≠ cc0_scratch6.sem), Finset.mem_erase.mpr ⟨dcell_ne d L (by decide : (cc0_scoped0.sem : DmaSem sig) ≠ cc0_scratch5.sem), Finset.mem_erase.mpr ⟨dcell_ne d L (by decide : (cc0_scoped0.sem : DmaSem sig) ≠ cc0_scratch4.sem), (mem_ownCells (g := dcell d L cc0_scoped0)).mpr ⟨rfl, by show (SemLoc.dma cc0_scoped0.sem : SemLoc sig).isScoped .scVector = true; decide⟩⟩⟩⟩⟩⟩⟩),
    SparseCore.bigSep_erase' (Finset.mem_erase.mpr ⟨dcell_ne d L (by decide : (cc0_scoped1.sem : DmaSem sig) ≠ cc0_scoped0.sem), Finset.mem_erase.mpr ⟨dcell_ne d L (by decide : (cc0_scoped1.sem : DmaSem sig) ≠ cc0_scratch13.sem), Finset.mem_erase.mpr ⟨dcell_ne d L (by decide : (cc0_scoped1.sem : DmaSem sig) ≠ cc0_scratch12.sem), Finset.mem_erase.mpr ⟨dcell_ne d L (by decide : (cc0_scoped1.sem : DmaSem sig) ≠ cc0_scratch11.sem), Finset.mem_erase.mpr ⟨dcell_ne d L (by decide : (cc0_scoped1.sem : DmaSem sig) ≠ cc0_scratch6.sem), Finset.mem_erase.mpr ⟨dcell_ne d L (by decide : (cc0_scoped1.sem : DmaSem sig) ≠ cc0_scratch5.sem), Finset.mem_erase.mpr ⟨dcell_ne d L (by decide : (cc0_scoped1.sem : DmaSem sig) ≠ cc0_scratch4.sem), (mem_ownCells (g := dcell d L cc0_scoped1)).mpr ⟨rfl, by show (SemLoc.dma cc0_scoped1.sem : SemLoc sig).isScoped .scVector = true; decide⟩⟩⟩⟩⟩⟩⟩⟩),
    SparseCore.bigSep_erase' (Finset.mem_erase.mpr ⟨dcell_ne d L (by decide : (cc0_scoped2.sem : DmaSem sig) ≠ cc0_scoped1.sem), Finset.mem_erase.mpr ⟨dcell_ne d L (by decide : (cc0_scoped2.sem : DmaSem sig) ≠ cc0_scoped0.sem), Finset.mem_erase.mpr ⟨dcell_ne d L (by decide : (cc0_scoped2.sem : DmaSem sig) ≠ cc0_scratch13.sem), Finset.mem_erase.mpr ⟨dcell_ne d L (by decide : (cc0_scoped2.sem : DmaSem sig) ≠ cc0_scratch12.sem), Finset.mem_erase.mpr ⟨dcell_ne d L (by decide : (cc0_scoped2.sem : DmaSem sig) ≠ cc0_scratch11.sem), Finset.mem_erase.mpr ⟨dcell_ne d L (by decide : (cc0_scoped2.sem : DmaSem sig) ≠ cc0_scratch6.sem), Finset.mem_erase.mpr ⟨dcell_ne d L (by decide : (cc0_scoped2.sem : DmaSem sig) ≠ cc0_scratch5.sem), Finset.mem_erase.mpr ⟨dcell_ne d L (by decide : (cc0_scoped2.sem : DmaSem sig) ≠ cc0_scratch4.sem), (mem_ownCells (g := dcell d L cc0_scoped2)).mpr ⟨rfl, by show (SemLoc.dma cc0_scoped2.sem : SemLoc sig).isScoped .scVector = true; decide⟩⟩⟩⟩⟩⟩⟩⟩⟩),
    SparseCore.bigSep_erase' (Finset.mem_erase.mpr ⟨dcell_ne d L (by decide : (cc0_scoped3.sem : DmaSem sig) ≠ cc0_scoped2.sem), Finset.mem_erase.mpr ⟨dcell_ne d L (by decide : (cc0_scoped3.sem : DmaSem sig) ≠ cc0_scoped1.sem), Finset.mem_erase.mpr ⟨dcell_ne d L (by decide : (cc0_scoped3.sem : DmaSem sig) ≠ cc0_scoped0.sem), Finset.mem_erase.mpr ⟨dcell_ne d L (by decide : (cc0_scoped3.sem : DmaSem sig) ≠ cc0_scratch13.sem), Finset.mem_erase.mpr ⟨dcell_ne d L (by decide : (cc0_scoped3.sem : DmaSem sig) ≠ cc0_scratch12.sem), Finset.mem_erase.mpr ⟨dcell_ne d L (by decide : (cc0_scoped3.sem : DmaSem sig) ≠ cc0_scratch11.sem), Finset.mem_erase.mpr ⟨dcell_ne d L (by decide : (cc0_scoped3.sem : DmaSem sig) ≠ cc0_scratch6.sem), Finset.mem_erase.mpr ⟨dcell_ne d L (by decide : (cc0_scoped3.sem : DmaSem sig) ≠ cc0_scratch5.sem), Finset.mem_erase.mpr ⟨dcell_ne d L (by decide : (cc0_scoped3.sem : DmaSem sig) ≠ cc0_scratch4.sem), (mem_ownCells (g := dcell d L cc0_scoped3)).mpr ⟨rfl, by show (SemLoc.dma cc0_scoped3.sem : SemLoc sig).isScoped .scVector = true; decide⟩⟩⟩⟩⟩⟩⟩⟩⟩⟩),
    SparseCore.bigSep_erase' (Finset.mem_erase.mpr ⟨dcell_ne d L (by decide : (cc0_scoped4.sem : DmaSem sig) ≠ cc0_scoped3.sem), Finset.mem_erase.mpr ⟨dcell_ne d L (by decide : (cc0_scoped4.sem : DmaSem sig) ≠ cc0_scoped2.sem), Finset.mem_erase.mpr ⟨dcell_ne d L (by decide : (cc0_scoped4.sem : DmaSem sig) ≠ cc0_scoped1.sem), Finset.mem_erase.mpr ⟨dcell_ne d L (by decide : (cc0_scoped4.sem : DmaSem sig) ≠ cc0_scoped0.sem), Finset.mem_erase.mpr ⟨dcell_ne d L (by decide : (cc0_scoped4.sem : DmaSem sig) ≠ cc0_scratch13.sem), Finset.mem_erase.mpr ⟨dcell_ne d L (by decide : (cc0_scoped4.sem : DmaSem sig) ≠ cc0_scratch12.sem), Finset.mem_erase.mpr ⟨dcell_ne d L (by decide : (cc0_scoped4.sem : DmaSem sig) ≠ cc0_scratch11.sem), Finset.mem_erase.mpr ⟨dcell_ne d L (by decide : (cc0_scoped4.sem : DmaSem sig) ≠ cc0_scratch6.sem), Finset.mem_erase.mpr ⟨dcell_ne d L (by decide : (cc0_scoped4.sem : DmaSem sig) ≠ cc0_scratch5.sem), Finset.mem_erase.mpr ⟨dcell_ne d L (by decide : (cc0_scoped4.sem : DmaSem sig) ≠ cc0_scratch4.sem), (mem_ownCells (g := dcell d L cc0_scoped4)).mpr ⟨rfl, by show (SemLoc.dma cc0_scoped4.sem : SemLoc sig).isScoped .scVector = true; decide⟩⟩⟩⟩⟩⟩⟩⟩⟩⟩⟩),
    SparseCore.bigSep_erase' (Finset.mem_erase.mpr ⟨dcell_ne d L (by decide : (cc0_scoped5.sem : DmaSem sig) ≠ cc0_scoped4.sem), Finset.mem_erase.mpr ⟨dcell_ne d L (by decide : (cc0_scoped5.sem : DmaSem sig) ≠ cc0_scoped3.sem), Finset.mem_erase.mpr ⟨dcell_ne d L (by decide : (cc0_scoped5.sem : DmaSem sig) ≠ cc0_scoped2.sem), Finset.mem_erase.mpr ⟨dcell_ne d L (by decide : (cc0_scoped5.sem : DmaSem sig) ≠ cc0_scoped1.sem), Finset.mem_erase.mpr ⟨dcell_ne d L (by decide : (cc0_scoped5.sem : DmaSem sig) ≠ cc0_scoped0.sem), Finset.mem_erase.mpr ⟨dcell_ne d L (by decide : (cc0_scoped5.sem : DmaSem sig) ≠ cc0_scratch13.sem), Finset.mem_erase.mpr ⟨dcell_ne d L (by decide : (cc0_scoped5.sem : DmaSem sig) ≠ cc0_scratch12.sem), Finset.mem_erase.mpr ⟨dcell_ne d L (by decide : (cc0_scoped5.sem : DmaSem sig) ≠ cc0_scratch11.sem), Finset.mem_erase.mpr ⟨dcell_ne d L (by decide : (cc0_scoped5.sem : DmaSem sig) ≠ cc0_scratch6.sem), Finset.mem_erase.mpr ⟨dcell_ne d L (by decide : (cc0_scoped5.sem : DmaSem sig) ≠ cc0_scratch5.sem), Finset.mem_erase.mpr ⟨dcell_ne d L (by decide : (cc0_scoped5.sem : DmaSem sig) ≠ cc0_scratch4.sem), (mem_ownCells (g := dcell d L cc0_scoped5)).mpr ⟨rfl, by show (SemLoc.dma cc0_scoped5.sem : SemLoc sig).isScoped .scVector = true; decide⟩⟩⟩⟩⟩⟩⟩⟩⟩⟩⟩⟩)]

/-- The rest of the subcore's own buffers, the nine named ones apart. -/
abbrev bufsRest (L : grid0.Coords) : Finset (DevRef τ sig) :=
  (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10)).erase ((Proc.scVector (cV L) (jV L)).devRef cc0_scratch14)

theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch7 ↦{fullShare} f) ∗ (∃ f, (thrV d L).loc cc0_scratch8 ↦{fullShare} f) ∗ (∃ f, (thrV d L).loc cc0_scratch9 ↦{fullShare} f) ∗ (∃ f, (thrV d L).loc cc0_scratch10 ↦{fullShare} f) ∗ (∃ f, (thrV d L).loc cc0_scratch14 ↦{fullShare} f)
          ∗ bigSep (bufsRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩),
    SparseCore.bigSep_erase' (Finset.mem_erase.mpr ⟨fun e => absurd (Proc.devRef_injective _ e) (show (cc0_scratch10 : Ref sig .scVector) ≠ cc0_scratch9 by decide), Finset.mem_erase.mpr ⟨fun e => absurd (Proc.devRef_injective _ e) (show (cc0_scratch10 : Ref sig .scVector) ≠ cc0_scratch8 by decide), Finset.mem_erase.mpr ⟨fun e => absurd (Proc.devRef_injective _ e) (show (cc0_scratch10 : Ref sig .scVector) ≠ cc0_scratch7 by decide), Finset.mem_erase.mpr ⟨fun e => absurd (Proc.devRef_injective _ e) (show (cc0_scratch10 : Ref sig .scVector) ≠ cc0_scratch3 by decide), Finset.mem_erase.mpr ⟨fun e => absurd (Proc.devRef_injective _ e) (show (cc0_scratch10 : Ref sig .scVector) ≠ cc0_scratch2 by decide), Finset.mem_erase.mpr ⟨fun e => absurd (Proc.devRef_injective _ e) (show (cc0_scratch10 : Ref sig .scVector) ≠ cc0_scratch1 by decide), Finset.mem_erase.mpr ⟨fun e => absurd (Proc.devRef_injective _ e) (show (cc0_scratch10 : Ref sig .scVector) ≠ cc0_scratch0 by decide), SparseCore.Cfg.mem_ownRefs_of_owner (p := Proc.scVector (cV L) (jV L)) (b := (Proc.scVector (cV L) (jV L)).devRef cc0_scratch10) rfl⟩⟩⟩⟩⟩⟩⟩),
    SparseCore.bigSep_erase' (Finset.mem_erase.mpr ⟨fun e => absurd (Proc.devRef_injective _ e) (show (cc0_scratch14 : Ref sig .scVector) ≠ cc0_scratch10 by decide), Finset.mem_erase.mpr ⟨fun e => absurd (Proc.devRef_injective _ e) (show (cc0_scratch14 : Ref sig .scVector) ≠ cc0_scratch9 by decide), Finset.mem_erase.mpr ⟨fun e => absurd (Proc.devRef_injective _ e) (show (cc0_scratch14 : Ref sig .scVector) ≠ cc0_scratch8 by decide), Finset.mem_erase.mpr ⟨fun e => absurd (Proc.devRef_injective _ e) (show (cc0_scratch14 : Ref sig .scVector) ≠ cc0_scratch7 by decide), Finset.mem_erase.mpr ⟨fun e => absurd (Proc.devRef_injective _ e) (show (cc0_scratch14 : Ref sig .scVector) ≠ cc0_scratch3 by decide), Finset.mem_erase.mpr ⟨fun e => absurd (Proc.devRef_injective _ e) (show (cc0_scratch14 : Ref sig .scVector) ≠ cc0_scratch2 by decide), Finset.mem_erase.mpr ⟨fun e => absurd (Proc.devRef_injective _ e) (show (cc0_scratch14 : Ref sig .scVector) ≠ cc0_scratch1 by decide), Finset.mem_erase.mpr ⟨fun e => absurd (Proc.devRef_injective _ e) (show (cc0_scratch14 : Ref sig .scVector) ≠ cc0_scratch0 by decide), SparseCore.Cfg.mem_ownRefs_of_owner (p := Proc.scVector (cV L) (jV L)) (b := (Proc.scVector (cV L) (jV L)).devRef cc0_scratch14) rfl⟩⟩⟩⟩⟩⟩⟩⟩)]

end Cert.Proof.KernelSide

end
-- ==== Proof.BBar.lean ====
/-
  The barrier, from one subcore's side: what it presents on arriving (subcore 0, every subcore's share of the shared
  table; the others, nothing) and what it reads on leaving (its own share of the shared table, holding the padded table).
-/
import proofs.«205660_g30348238913567_cont_9to1_1764_14_alg».proof.Proof.BMem
import proofs.«205660_g30348238913567_cont_9to1_1764_14_alg».proof.Proof.BOwn

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- Whether the subcore is its SparseCore's subcore 0, as the kernel's test computes it: not for a positive number. -/
theorem cond_pos : ∀ x : Fin 16, x.val ≠ 0 →
    ¬ (Scalar.cmpi .ne (Scalar.extui (Scalar.cmpi .eq (BitVec.ofNat 32 x.val) 0#32) : BitVec 32) 0#32 = 1#1) := by decide
/-- and so for number 0. -/
theorem cond_zero : ∀ x : Fin 16, x.val = 0 →
    (Scalar.cmpi .ne (Scalar.extui (Scalar.cmpi .eq (BitVec.ofNat 32 x.val) 0#32) : BitVec 32) 0#32 = 1#1) := by decide

variable [FloatOps F]

omit [FloatOps F] in
theorem sep_insert_emp {A B : sProp 𝕄} : iprop(A ∗ B) ⊢ iprop(A ∗ emp ∗ B) := by
  iintro ⟨A, B⟩
  isplitl [A]; · iexact A
  isplitr; · iempintro
  iexact B
omit [FloatOps F] in
theorem sep_insert_mid {A B C : sProp 𝕄} : iprop((A ∗ B) ∗ C) ⊢ iprop(A ∗ C ∗ B) := by
  iintro ⟨⟨A, B⟩, C⟩
  isplitl [A]; · iexact A
  isplitl [C]; · iexact C
  iexact B

/-- A subcore other than 0 presents nothing with its arrivals. -/
theorem duty_pay_emp (d : Dev nD) (L : grid0.Coords) (h0 : (jV L).val ≠ 0) :
    (bigSep Finset.univ fun j : Fin (grid0.bound 1) => iprop(dutyTok EB (bcell d (cV L) (j.castLE hsub0)) 0 (jV L).val
        ∗ reached EB (bcell d (cV L) (j.castLE hsub0)) 0) : sProp 𝕄)
      ⊢ bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) := by
  refine bigSep_mono fun j _ => ?_
  obtain ⟨n, hn⟩ := Nat.exists_eq_succ_of_ne_zero h0
  rw [hn, bRd_payload_succ]
  exact sep_insert_emp

/-- Subcore 0 presents, with its arrival at subcore `j`, `j`'s share of the shared table. -/
theorem duty_pay_zero (d : Dev nD) (L : grid0.Coords) (h0 : (jV L).val = 0) :
    iprop((bigSep Finset.univ fun j : Fin (grid0.bound 1) => iprop(dutyTok EB (bcell d (cV L) (j.castLE hsub0)) 0 (jV L).val
        ∗ reached EB (bcell d (cV L) (j.castLE hsub0)) 0))
      ∗ (bigSep Finset.univ fun j : Fin (grid0.bound 1) => shLoc d (cV L) ↦{shTok (j.castLE hsub0)} RPsh m d (cV L)) : sProp 𝕄)
      ⊢ bigSep Finset.univ fun j : Fin (grid0.bound 1) => iprop(dutyTok EB (bcell d (cV L) (j.castLE hsub0)) 0 (jV L).val
          ∗ (bRd (F := F) m).payload (bcell d (cV L) (j.castLE hsub0)) 0 (jV L).val ∗ reached EB (bcell d (cV L) (j.castLE hsub0)) 0) := by
  rw [← bigSep_sep']
  refine bigSep_mono fun j _ => ?_
  rw [h0, bRd_payload_zero]
  exact sep_insert_mid

/-- What a subcore reads on leaving the barrier: its share of the shared table, holding the padded table. -/
theorem own_share (d : Dev nD) (c : Fin τ.nSC) (j : Fin τ.nSub) :
    bigSep ((bRd (F := F) m).duties (bcell d c j) 0 \ ∅) (fun n => (bRd (F := F) m).payload (bcell d c j) 0 n)
      ⊢ (shLoc d c ↦{shTok j} RPsh m d c : sProp 𝕄) := by
  rw [Finset.sdiff_empty]
  refine (bigSep_elim (bRd_mem₀ m d c j ⟨0, by decide⟩)).trans ?_
  exact Entails.of_eq (bRd_payload_zero m d c j)

end Cert.Proof.KernelSide

end
-- ==== Proof.BIdx.lean ====
/-
  Every index word a subcore fetches names a row of the relation table: the offsets of an indexed copy are in range.
-/
import proofs.«205660_g30348238913567_cont_9to1_1764_14_alg».proof.Proof.BMem

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- A block of 128 index words, read off the index array: every word is below the table's 1000 rows. -/
theorem idx_lt (hpre : PreOK m) (d : Dev nD) (off : Fin 1 → Nat) (h : ∀ a, off a + S128.size a ≤ S16384.size a) (x : S128.Idx) :
    (View.read (Elt F) (aID.slice (Rect.unit (s := S16384) off S128.size h) (fun _ => rfl)).view (m (a1Loc d)) x).toNat
      < S1000x128.size (gathers_S1000x128_S128x128).axis := by
  rw [View.read_apply, cast_eq]
  exact Nat.lt_of_le_of_lt (hpre d _) (by decide)

end Cert.Proof.KernelSide

end
-- ==== Proof.BOut.lean ====
/-
  A subcore's block of the result array, as the program slices it: the 512 entries from `512 · (2 i + c)` on.
-/
import proofs.«205660_g30348238913567_cont_9to1_1764_14_alg».proof.Proof.BMem
import proofs.«205660_g30348238913567_cont_9to1_1764_14_alg».proof.Proof.BOwn

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The block of the result subcore `L` writes, as its copy-out addresses it. -/
abbrev oSl (L : grid0.Coords) : Memref sig .scVector .hbm S512 .f32 :=
  aO.slice (Rect.unit (s := S16384) (k0_off7 L) S512.size (k0_off7_inb L)) (fun _ => rfl)

theorem oRect_eq (L : grid0.Coords) : Rect.unit (s := S16384) (k0_off7 L) S512.size (k0_off7_inb L) = oRect (wid (cV L) (jV L)) := by
  unfold oRect Rect.part Rect.block
  congr 1 <;> funext a
  · rw [k0_off7_eq]
    match a with
    | 0 => simp [Shape.partIx, Shape.partSize, wid]; omega
  · match a with
    | 0 => simp [Shape.partSize]

theorem set_oSl (L : grid0.Coords) : (oSl L).view.set = oSet (wid (cV L) (jV L)) := by
  show ((View.whole (main_v3_scv : Ref sig .scVector)).slice _).set = _
  rw [View.set_slice, oRect_eq]; exact Finset.map_refl

theorem pts_oSl (d : Dev nD) (L : grid0.Coords) (f : Buf (Elt F) (oLoc d)) :
    ((oSl L).view.loc (thrV d L) ↦[(oSl L).view.set]{fullShare} f : sProp 𝕄) = oLoc d ↦[oSet (wid (cV L) (jV L))]{fullShare} f := by
  rw [set_oSl]

end Cert.Proof.KernelSide

end
-- ==== Proof.BContents.lean ====
/-
  What a subcore's scratch buffers hold after its copies, read at an index: a block of columns of a transposed batch,
  a block of index words, and the rows an indexed copy gathered out of the shared table.
-/
import proofs.«205660_g30348238913567_cont_9to1_1764_14_alg».proof.Proof.BMem
import proofs.«205660_g30348238913567_cont_9to1_1764_14_alg».proof.Proof.LibGatherPayload

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ)

/-- A block of 128 columns of the transposed heads, read off the array: entry `(c, r)` of the block is entry `(c, B + r)` of the array. -/
theorem ht_block (d : Dev nD) (off : Fin 2 → Nat) (h : ∀ a, off a + S64x128.size a ≤ S64x16384.size a) (B : ℕ) (hoff : off = ![0, B])
    (hB : B + 128 ≤ 16384) (f : Buf (Elt F) (htLoc d)) (c : Fin 64) (r : Fin 128) :
    (ReadAs.same.apply (View.read (Elt F) (aHT.slice (Rect.unit (s := S64x16384) off S64x128.size h) (fun _ => rfl)).view f)) (ix2 c r)
      = f (ix2 c (⟨B + r.val, by have := r.isLt; omega⟩ : Fin 16384)) := by
  subst hoff
  dsimp only [ReadAs.apply]
  rw [View.read_apply, cast_eq]
  refine congrArg f (funext fun a => Fin.ext ?_)
  match a with
  | ⟨0, _⟩ => show 0 + 1 * c.val = c.val; omega
  | ⟨1, _⟩ => show B + 1 * r.val = B + r.val; omega

/-- A block of 128 columns of the transposed tails, read off the array: entry `(c, r)` of the block is entry `(c, B + r)` of the array. -/
theorem tt_block (d : Dev nD) (off : Fin 2 → Nat) (h : ∀ a, off a + S64x128.size a ≤ S64x16384.size a) (B : ℕ) (hoff : off = ![0, B])
    (hB : B + 128 ≤ 16384) (f : Buf (Elt F) (ttLoc d)) (c : Fin 64) (r : Fin 128) :
    (ReadAs.same.apply (View.read (Elt F) (aTT.slice (Rect.unit (s := S64x16384) off S64x128.size h) (fun _ => rfl)).view f)) (ix2 c r)
      = f (ix2 c (⟨B + r.val, by have := r.isLt; omega⟩ : Fin 16384)) := by
  subst hoff
  dsimp only [ReadAs.apply]
  rw [View.read_apply, cast_eq]
  refine congrArg f (funext fun a => Fin.ext ?_)
  match a with
  | ⟨0, _⟩ => show 0 + 1 * c.val = c.val; omega
  | ⟨1, _⟩ => show B + 1 * r.val = B + r.val; omega

/-- A block of 128 index words, read off the index array: word `r` of the block is word `B + r` of the array. -/
theorem id_block (d : Dev nD) (off : Fin 1 → Nat) (h : ∀ a, off a + S128.size a ≤ S16384.size a) (B : ℕ) (hoff : off = ![B])
    (hB : B + 128 ≤ 16384) (f : Buf (Elt F) (a1Loc d)) (r : Fin 128) :
    (ReadAs.same.apply (View.read (Elt F) (aID.slice (Rect.unit (s := S16384) off S128.size h) (fun _ => rfl)).view f)) (ix1 r)
      = f (ix1 (⟨B + r.val, by have := r.isLt; omega⟩ : Fin 16384)) := by
  subst hoff
  dsimp only [ReadAs.apply]
  rw [View.read_apply, cast_eq]
  refine congrArg f (funext fun a => Fin.ext ?_)
  match a with
  | ⟨0, _⟩ => show B + 1 * r.val = B + r.val; omega

/-- The rows an indexed copy gathers out of the shared table: row `r` of the destination is the table's row the index
    word `r` names. -/
theorem gather_apply (d : Dev nD) (c : Fin τ.nSC) (f : Buf (Elt F) (shLoc d c)) (idx : S128.Idx → Elt F .i32)
    (hn : S128.numel = S128x128.size (gathers_S1000x128_S128x128).axis')
    (hin : ∀ x, (idx x).toNat < S1000x128.size (gathers_S1000x128_S128x128).axis) (r : Fin 128) (j : Fin 128) :
    SparseCore.gatherPayload gathers_S1000x128_S128x128
        (View.read (Elt F) (sSh.slice (Rect.unit (s := S1000x128) ![0, 0] S1000x128.size inb_S1000x128_S1000x128_0_0) (fun _ => rfl)).view f)
        (SparseCore.rows idx hn hin) (ix2 r j)
      = f (ix2 (⟨(idx (ix1 r)).toNat, hin _⟩ : Fin 1000) j) := by
  rw [Cert.LibGatherPayload.gatherPayload_rank2_apply (F := F) (z := 1000) (o := 128) (C := 128)]
  rw [View.read_apply, cast_eq]
  refine congrArg f (funext fun a => Fin.ext ?_)
  match a with
  | ⟨0, _⟩ => show 0 + 1 * (idx (ix1 r)).toNat = (idx (ix1 r)).toNat; omega
  | ⟨1, _⟩ => show 0 + 1 * j.val = j.val; omega

/-- The gathered rows against the padded table: when the index list holds words `B … B + 127` of the index array, every
    one of them below 1000, row `r` of the destination is the padded table's row named by word `B + r`. -/
theorem gathered_row [FloatOps F] (hpre : PreOK m) (d : Dev nD) (c : Fin τ.nSC) (idx : S128.Idx → Elt F .i32)
    (hn : S128.numel = S128x128.size (gathers_S1000x128_S128x128).axis')
    (hin : ∀ x, (idx x).toNat < S1000x128.size (gathers_S1000x128_S128x128).axis) (B : ℕ) (hB : B + 128 ≤ 16384)
    (hidx : ∀ r : Fin 128, idx (ix1 r) = m (a1Loc d) (ix1 (⟨B + r.val, by have := r.isLt; omega⟩ : Fin 16384))) (r : Fin 128) (j : Fin 128) :
    SparseCore.gatherPayload gathers_S1000x128_S128x128
        (View.read (Elt F) (sSh.slice (Rect.unit (s := S1000x128) ![0, 0] S1000x128.size inb_S1000x128_S1000x128_0_0) (fun _ => rfl)).view (RPsh m d c))
        (SparseCore.rows idx hn hin) (ix2 r j)
      = RPv m d (ix2 (Cert.Spec.relRow (m (a1Loc d) (ix1 (⟨B + r.val, by have := r.isLt; omega⟩ : Fin 16384)))) j) := by
  rw [gather_apply]
  show Cert.KVal.RP (F := F) (m (a3Loc d)) _ = Cert.KVal.RP (F := F) (m (a3Loc d)) _
  refine congrArg (Cert.KVal.RP (F := F) (m (a3Loc d))) (congrArg (fun a => ix2 a j) (Fin.ext ?_))
  show (idx (ix1 r)).toNat = (Cert.Spec.relRow _).val
  rw [hidx r, Cert.Spec.relRow_val_of_le _ (hpre d _)]

/-- What the gathered-rows scratch holds once a gather has filled it whole: the gather's payload. -/
theorem sR0_head (f : (sR0 : Memref sig .scVector .vmem S128x128 .f32).view.ty.Contents (Elt F)) (g : S128x128.Idx → Elt F .f32)
    (Lst : List (View.Piece (Elt F) S128x128 .f32)) (y : S128x128.Idx) :
    ((sR0 : Memref sig .scVector .vmem S128x128 .f32).view.writes (Elt F) f (⟨Rect.whole S128x128, g⟩ :: Lst)) y = g y := by
  have h := View.read_writes_cons_emb (v := (sR0 : Memref sig .scVector .vmem S128x128 .f32).view) (f := f) (Rect.whole S128x128) g Lst y
  rw [Rect.emb_whole_apply] at h
  exact h

/-- What the gathered-rows scratch holds once a gather has filled it whole: the gather's payload. -/
theorem sR1_head (f : (sR1 : Memref sig .scVector .vmem S128x128 .f32).view.ty.Contents (Elt F)) (g : S128x128.Idx → Elt F .f32)
    (Lst : List (View.Piece (Elt F) S128x128 .f32)) (y : S128x128.Idx) :
    ((sR1 : Memref sig .scVector .vmem S128x128 .f32).view.writes (Elt F) f (⟨Rect.whole S128x128, g⟩ :: Lst)) y = g y := by
  have h := View.read_writes_cons_emb (v := (sR1 : Memref sig .scVector .vmem S128x128 .f32).view) (f := f) (Rect.whole S128x128) g Lst y
  rw [Rect.emb_whole_apply] at h
  exact h

end Cert.Proof.KernelSide

end
-- ==== Proof.BBody.lean ====
/-
  One vector subcore's task, from what the sequencer hands it to what it hands back.

  Subcore 0 of a SparseCore first copies the padded relation table into the shared table; every subcore then arrives at
  the barrier — subcore 0 presenting each subcore's sixteenth share of the shared table, now holding the padded table, the
  others nothing — and leaves it with its own share. Each of its four blocks of 128 triples is then fetched (index words,
  a block of the transposed heads and tails, the relation rows the index words name gathered out of the shared table) into
  one of two scratch slots, the next block's fetch issued before the current block is scored; a block's 128 accumulators
  go to its quarter of the result scratch, and the 512 results are copied out to the subcore's block of the result array.
  The index words are in range of the table, so every gather completes; what is copied out is, entry by entry, the
  batch's accumulator of that triple after the 64 feature trips.
-/
import proofs.«205660_g30348238913567_cont_9to1_1764_14_alg».proof.Proof.BMem
import proofs.«205660_g30348238913567_cont_9to1_1764_14_alg».proof.Proof.BStage
import proofs.«205660_g30348238913567_cont_9to1_1764_14_alg».proof.Proof.BOwn
import proofs.«205660_g30348238913567_cont_9to1_1764_14_alg».proof.Proof.BBar
import proofs.«205660_g30348238913567_cont_9to1_1764_14_alg».proof.Proof.BIdx
import proofs.«205660_g30348238913567_cont_9to1_1764_14_alg».proof.Proof.BOut
import proofs.«205660_g30348238913567_cont_9to1_1764_14_alg».proof.Proof.BContents
import proofs.«205660_g30348238913567_cont_9to1_1764_14_alg».proof.Proof.KBlockVal

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

set_option maxHeartbeats 4000000 in
/-- The task on a subcore other than its SparseCore's subcore 0: it arrives at the barrier empty-handed. -/
theorem tile_body_pos [FloatOps F] (hF : (K (F := F)).Facts) (hpre : PreOK m) (d : Dev nD) (L : grid0.Coords)
    (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val ≠ 0) :
    iprop(levAts (K (F := F)).L (K (F := F)).lev ∗ bkit m d (cV L) (jV L) ∗ goP m d (cV L) (jV L)
        ∗ scopedBufs (thrV d L) ∗ scopedSems0 (thrV d L) ∗ owes (thrV d L) (O + oxV d (cV L)) W : sProp 𝕄)
      ⊢ wp frame (wpE (defs₀ (F := F)) 𝒱₀ (thrV d L) none) Set.univ
          (cc0__sc_kernel (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5)
          fun _ => iprop(tdP m d (cV L) (jV L) ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__sc_kernel_eq_skeleton]; unfold cc0__sc_kernel_skel
  rw [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  unfold bkit goP rTok
  rw [if_neg (show ¬ (jV L).val = 0 from h0)]
  iintro ⟨#Hlv, ⟨⟨%κ, #Hinv⟩, Hduty, Hat, Hcred⟩, ⟨⟨Hht, Hid, Htt, Hrp⟩, Ho, -⟩,
    ⟨⟨%fi0, Hi0⟩, ⟨%fh0, Hh0⟩, ⟨%ft0, Ht0⟩, ⟨%fr0, Hr0⟩, ⟨%fi1, Hi1⟩, ⟨%fh1, Hh1⟩, ⟨%ft1, Ht1⟩, ⟨%fr1, Hr1⟩, ⟨%fo, Hout⟩, Hbufs⟩,
    ⟨Hs4, Hs5, Hs6, Hs11, Hs12, Hs13, Hc0, Hc1, Hc2, Hc3, Hc4, Hc5, Hsems⟩, HO⟩
  ihave Hmw := ((K (F := F)).mayWaits_none (thr := thrV d L) hO) $$ Hlv
  ihave Hmwb := ((K (F := F)).mayOwe_of_bound (thr := thrV d L) (W := {(SemLoc.reg sc_bar0, some (0 : Fin 1))}) (O := O) 3
      (fun p hp => by
        rw [Finset.mem_singleton] at hp; subst hp
        rw [(K (F := F)).lev_V_reg d _ _ (show (sc_bar0 : Sem sig) ≠ (K (F := F)).go from sc_bar0_ne_go)]; simp)
      (fun g ι h => by have := hOlev g ι h; omega)) $$ Hlv
  ihave Hht := (Entails.of_eq (show ((htLoc d ↦{tokS (wid (cV L) (jV L))} HTv m d : sProp 𝕄)) = ((aHT).view.loc (thrV d L) ↦{tokS (wid (cV L) (jV L))} HTv m d) from rfl)) $$ Hht
  ihave Hid := (Entails.of_eq (show ((a1Loc d ↦{tokS (wid (cV L) (jV L))} m (a1Loc d) : sProp 𝕄)) = ((aID).view.loc (thrV d L) ↦{tokS (wid (cV L) (jV L))} m (a1Loc d)) from rfl)) $$ Hid
  ihave Htt := (Entails.of_eq (show ((ttLoc d ↦{tokS (wid (cV L) (jV L))} TTv m d : sProp 𝕄)) = ((aTT).view.loc (thrV d L) ↦{tokS (wid (cV L) (jV L))} TTv m d) from rfl)) $$ Htt
  ihave Hrp := (Entails.of_eq (show ((rpLoc d ↦{tokS (wid (cV L) (jV L))} RPv m d : sProp 𝕄)) = ((aRP).view.loc (thrV d L) ↦{tokS (wid (cV L) (jV L))} RPv m d) from rfl)) $$ Hrp
  ihave Hi0 := (Entails.of_eq (show (((thrV d L).loc cc0_scratch0 ↦{fullShare} fi0 : sProp 𝕄)) = ((sI0).view.loc (thrV d L) ↦{fullShare} fi0) from rfl)) $$ Hi0
  ihave Hh0 := (Entails.of_eq (show (((thrV d L).loc cc0_scratch1 ↦{fullShare} fh0 : sProp 𝕄)) = ((sH0).view.loc (thrV d L) ↦{fullShare} fh0) from rfl)) $$ Hh0
  ihave Ht0 := (Entails.of_eq (show (((thrV d L).loc cc0_scratch2 ↦{fullShare} ft0 : sProp 𝕄)) = ((sT0).view.loc (thrV d L) ↦{fullShare} ft0) from rfl)) $$ Ht0
  ihave Hr0 := (Entails.of_eq (show (((thrV d L).loc cc0_scratch3 ↦{fullShare} fr0 : sProp 𝕄)) = ((sR0).view.loc (thrV d L) ↦{fullShare} fr0) from rfl)) $$ Hr0
  ihave Hi1 := (Entails.of_eq (show (((thrV d L).loc cc0_scratch7 ↦{fullShare} fi1 : sProp 𝕄)) = ((sI1).view.loc (thrV d L) ↦{fullShare} fi1) from rfl)) $$ Hi1
  ihave Hh1 := (Entails.of_eq (show (((thrV d L).loc cc0_scratch8 ↦{fullShare} fh1 : sProp 𝕄)) = ((sH1).view.loc (thrV d L) ↦{fullShare} fh1) from rfl)) $$ Hh1
  ihave Ht1 := (Entails.of_eq (show (((thrV d L).loc cc0_scratch9 ↦{fullShare} ft1 : sProp 𝕄)) = ((sT1).view.loc (thrV d L) ↦{fullShare} ft1) from rfl)) $$ Ht1
  ihave Hr1 := (Entails.of_eq (show (((thrV d L).loc cc0_scratch10 ↦{fullShare} fr1 : sProp 𝕄)) = ((sR1).view.loc (thrV d L) ↦{fullShare} fr1) from rfl)) $$ Hr1
  ihave Hout := (Entails.of_eq (show (((thrV d L).loc cc0_scratch14 ↦{fullShare} fo : sProp 𝕄)) = ((sOut).view.loc (thrV d L) ↦{fullShare} fo) from rfl)) $$ Hout
  sl_exec
  have hv6 : ¬ (tile_body_pos.sl.v6 L = 1#1) := by
    show ¬ (Scalar.cmpi .ne (Scalar.extui (Scalar.cmpi .eq (BitVec.ofNat 32 (L 1).val) 0#32) : BitVec 32) 0#32 = 1#1)
    exact cond_pos (L 1) h0
  rw [dif_neg hv6]
  rw [bind_assoc]
  ihave Hduty' := (duty_pay_emp m d L h0) $$ Hduty
  iapply (SparseCore.wp_subcoreBarrier 𝒱₀ none EB (bRd m) d (sc := cV L) (i := jV L) sc_bar0 (grid0.bound 1) hsub0 (L 1) rfl κ (fun _ => 0) (jV L).val
      (fun j => bRd_mem₀ m d (cV L) (j.castLE hsub0) (jV L)) (fun _ => rfl) (bRd_expect m d (cV L) (jV L)) (some 0) O W) $$ [HO Hduty' Hcred Hat Hmwb]
  · isplitr; · iexact Hinv
    isplitl [HO]; · iexact HO
    isplitl [Hduty']; · iexact Hduty'
    isplitl [Hcred]; · iexact Hcred
    isplitl [Hat]; · iexact Hat
    iexact Hmwb
  iintro ⟨HO, Hat, #Hreached, Hpay⟩
  ihave Hsh := (own_share m d (cV L) (jV L)) $$ Hpay
  ihave Hsh := (Entails.of_eq (show ((shLoc d (cV L) ↦{shTok (jV L)} RPsh m d (cV L) : sProp 𝕄)) = ((sSh).view.loc (thrV d L) ↦{shTok (jV L)} RPsh m d (cV L)) from rfl)) $$ Hsh
  sl_exec
  have hin0 : ∀ x, ((sI0).view.read (Elt F) (View.write (Elt F) sI0.view (fi0) (tile_body_pos.sl.dma0 m d L) Finset.univ) x).toNat
      < S1000x128.size (gathers_S1000x128_S128x128).axis := by
    intro x; unfold tile_body_pos.sl.dma0; rw [View.write_whole_univ]; exact idx_lt m hpre d _ _ x
  sl_exec
  have hin1 : ∀ x, ((sI1).view.read (Elt F) (View.write (Elt F) sI1.view (fi1) (tile_body_pos.sl.dma0_3 m d L) Finset.univ) x).toNat
      < S1000x128.size (gathers_S1000x128_S128x128).axis := by
    intro x; unfold tile_body_pos.sl.dma0_3; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage1 (F := F) d L (tile_body_pos.sl.v2 L) _ _ _ _)
    isplitl [Hh0]; · iexact Hh0
    isplitl [Ht0]; · iexact Ht0
    isplitl [Hr0]; · iexact Hr0
    iexact Hout
  iintro %u1 ⟨Hh0, Ht0, Hr0, %fo1, %hfo1, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  have hin2 : ∀ x, ((sI0).view.read (Elt F) (View.write (Elt F) sI0.view (View.write (Elt F) sI0.view fi0 (tile_body_pos.sl.dma0 m d L) Finset.univ) (tile_body_pos.sl.dma0_6 m d L) Finset.univ) x).toNat
      < S1000x128.size (gathers_S1000x128_S128x128).axis := by
    intro x; unfold tile_body_pos.sl.dma0_6; rw [View.write_whole_univ]; exact idx_lt m hpre d _ _ x
  sl_exec
  rw [bind_assoc, wp_bind]
  iapply (wp_wand_r frame (wpE (defs₀ (F := F)) 𝒱₀ (thrV d L) none) Set.univ)
  isplitl [Hh1 Ht1 Hr1 Hout]
  · iapply (stage2 (F := F) d L (tile_body_pos.sl.v2 L) _ _ _ _)
    isplitl [Hh1]; · iexact Hh1
    isplitl [Ht1]; · iexact Ht1
    isplitl [Hr1]; · iexact Hr1
    iexact Hout
  iintro %u2 ⟨Hh1, Ht1, Hr1, %fo2, %hfo2, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  sl_exec
  have hin3 : ∀ x, ((sI1).view.read (Elt F) (View.write (Elt F) sI1.view (View.write (Elt F) sI1.view fi1 (tile_body_pos.sl.dma0_3 m d L) Finset.univ) (tile_body_pos.sl.dma0_9 m d L) Finset.univ) x).toNat
      < S1000x128.size (gathers_S1000x128_S128x128).axis := by
    intro x; unfold tile_body_pos.sl.dma0_9; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage3 (F := F) d L (tile_body_pos.sl.v2 L) _ _ _ _)
    isplitl [Hh0]; · iexact Hh0
    isplitl [Ht0]; · iexact Ht0
    isplitl [Hr0]; · iexact Hr0
    iexact Hout
  iintro %u3 ⟨Hh0, Ht0, Hr0, %fo3, %hfo3, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  rw [wp_bind]
  iapply (wp_wand_r frame (wpE (defs₀ (F := F)) 𝒱₀ (thrV d L) none) Set.univ)
  isplitl [Hh1 Ht1 Hr1 Hout]
  · iapply (stage4 (F := F) d L _ _ _ _)
    isplitl [Hh1]; · iexact Hh1
    isplitl [Ht1]; · iexact Ht1
    isplitl [Hr1]; · iexact Hr1
    iexact Hout
  iintro %u4 ⟨Hh1, Ht1, Hr1, %fo4, %hfo4, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  ihave Ho := (Entails.of_eq (pts_oSl (F := F) d L _).symm) $$ Ho
  sl_exec
  rw [wp_ret]; imodintro
  have hL0 : (L 0).val < 2 := (L 0).isLt
  have hL1 : (L 1).val < 16 := (L 1).isLt
  have hw : (wid (cV L) (jV L)).val = 2 * (L 1).val + (L 0).val := rfl
  have hwlt : (wid (cV L) (jV L)).val < 32 := (wid (cV L) (jV L)).isLt
  have e7 : k0_off7 L 0 = 1024 * (L 1).val + 512 * (L 0).val := congrFun (k0_off7_eq L) 0
  have hH0 : ∀ prev (c : Fin 64) (r : Fin 128), (View.write (Elt F) sH0.view prev (tile_body_pos.sl.dma0_1 m d L) Finset.univ) (ix2 c r)
      = HTv m d (ix2 c (⟨512 * (wid (cV L) (jV L)).val + 128 * 0 + r.val, by have := r.isLt; omega⟩ : Fin 16384)) := by
    intro prev c r
    rw [View.write_whole_univ]; unfold tile_body_pos.sl.dma0_1
    refine (ht_block d _ _ (1024 * (L 1).val + 512 * (L 0).val + 128 * 0) (k0_off2_eq L ⟨0, by decide⟩) (by omega) (HTv m d) c r).trans ?_
    exact congrArg (fun b => HTv m d (ix2 c b)) (Fin.ext (by show 1024 * (L 1).val + 512 * (L 0).val + 128 * 0 + r.val = 512 * (wid (cV L) (jV L)).val + 128 * 0 + r.val; rw [hw]; omega))
  have hT0 : ∀ prev (c : Fin 64) (r : Fin 128), (View.write (Elt F) sT0.view prev (tile_body_pos.sl.dma0_2 m d L) Finset.univ) (ix2 c r)
      = TTv m d (ix2 c (⟨512 * (wid (cV L) (jV L)).val + 128 * 0 + r.val, by have := r.isLt; omega⟩ : Fin 16384)) := by
    intro prev c r
    rw [View.write_whole_univ]; unfold tile_body_pos.sl.dma0_2
    refine (tt_block d _ _ (1024 * (L 1).val + 512 * (L 0).val + 128 * 0) (k0_off2_eq L ⟨0, by decide⟩) (by omega) (TTv m d) c r).trans ?_
    exact congrArg (fun b => TTv m d (ix2 c b)) (Fin.ext (by show 1024 * (L 1).val + 512 * (L 0).val + 128 * 0 + r.val = 512 * (wid (cV L) (jV L)).val + 128 * 0 + r.val; rw [hw]; omega))
  have hR0 : ∀ prev Lst (r : Fin 128) (c : Fin 128), (sR0.view.writes (Elt F) prev (⟨Rect.whole S128x128, tile_body_pos.sl.gather0 m d L fi0 hin0⟩ :: Lst)) (ix2 r c)
      = RPv m d (ix2 (Cert.Spec.relRow (m (a1Loc d) (ix1 (⟨512 * (wid (cV L) (jV L)).val + 128 * 0 + r.val, by have := r.isLt; omega⟩ : Fin 16384)))) c) := by
    intro prev Lst r c
    rw [sR0_head]; unfold tile_body_pos.sl.gather0
    refine (gathered_row m hpre d (cV L) _ _ hin0 (1024 * (L 1).val + 512 * (L 0).val + 128 * 0) (by omega) ?_ r c).trans ?_
    · intro r'
      rw [View.write_whole_univ]
      simp only [Memref.view_whole, View.read_whole]
      unfold tile_body_pos.sl.dma0
      exact id_block d _ _ _ (k0_off1_eq L ⟨0, by decide⟩) (by omega) (m (a1Loc d)) r'
    · exact congrArg (fun b => RPv m d (ix2 (Cert.Spec.relRow (m (a1Loc d) (ix1 b))) c)) (Fin.ext (by show 1024 * (L 1).val + 512 * (L 0).val + 128 * 0 + r.val = 512 * (wid (cV L) (jV L)).val + 128 * 0 + r.val; rw [hw]; omega))
  have hH1 : ∀ prev (c : Fin 64) (r : Fin 128), (View.write (Elt F) sH1.view prev (tile_body_pos.sl.dma0_4 m d L) Finset.univ) (ix2 c r)
      = HTv m d (ix2 c (⟨512 * (wid (cV L) (jV L)).val + 128 * 1 + r.val, by have := r.isLt; omega⟩ : Fin 16384)) := by
    intro prev c r
    rw [View.write_whole_univ]; unfold tile_body_pos.sl.dma0_4
    refine (ht_block d _ _ (1024 * (L 1).val + 512 * (L 0).val + 128 * 1) (k0_off2_eq L ⟨1, by decide⟩) (by omega) (HTv m d) c r).trans ?_
    exact congrArg (fun b => HTv m d (ix2 c b)) (Fin.ext (by show 1024 * (L 1).val + 512 * (L 0).val + 128 * 1 + r.val = 512 * (wid (cV L) (jV L)).val + 128 * 1 + r.val; rw [hw]; omega))
  have hT1 : ∀ prev (c : Fin 64) (r : Fin 128), (View.write (Elt F) sT1.view prev (tile_body_pos.sl.dma0_5 m d L) Finset.univ) (ix2 c r)
      = TTv m d (ix2 c (⟨512 * (wid (cV L) (jV L)).val + 128 * 1 + r.val, by have := r.isLt; omega⟩ : Fin 16384)) := by
    intro prev c r
    rw [View.write_whole_univ]; unfold tile_body_pos.sl.dma0_5
    refine (tt_block d _ _ (1024 * (L 1).val + 512 * (L 0).val + 128 * 1) (k0_off2_eq L ⟨1, by decide⟩) (by omega) (TTv m d) c r).trans ?_
    exact congrArg (fun b => TTv m d (ix2 c b)) (Fin.ext (by show 1024 * (L 1).val + 512 * (L 0).val + 128 * 1 + r.val = 512 * (wid (cV L) (jV L)).val + 128 * 1 + r.val; rw [hw]; omega))
  have hR1 : ∀ prev Lst (r : Fin 128) (c : Fin 128), (sR1.view.writes (Elt F) prev (⟨Rect.whole S128x128, tile_body_pos.sl.gather0_1 m d L fi1 hin1⟩ :: Lst)) (ix2 r c)
      = RPv m d (ix2 (Cert.Spec.relRow (m (a1Loc d) (ix1 (⟨512 * (wid (cV L) (jV L)).val + 128 * 1 + r.val, by have := r.isLt; omega⟩ : Fin 16384)))) c) := by
    intro prev Lst r c
    rw [sR1_head]; unfold tile_body_pos.sl.gather0_1
    refine (gathered_row m hpre d (cV L) _ _ hin1 (1024 * (L 1).val + 512 * (L 0).val + 128 * 1) (by omega) ?_ r c).trans ?_
    · intro r'
      rw [View.write_whole_univ]
      simp only [Memref.view_whole, View.read_whole]
      unfold tile_body_pos.sl.dma0_3
      exact id_block d _ _ _ (k0_off1_eq L ⟨1, by decide⟩) (by omega) (m (a1Loc d)) r'
    · exact congrArg (fun b => RPv m d (ix2 (Cert.Spec.relRow (m (a1Loc d) (ix1 b))) c)) (Fin.ext (by show 1024 * (L 1).val + 512 * (L 0).val + 128 * 1 + r.val = 512 * (wid (cV L) (jV L)).val + 128 * 1 + r.val; rw [hw]; omega))
  have hH2 : ∀ prev (c : Fin 64) (r : Fin 128), (View.write (Elt F) sH0.view prev (tile_body_pos.sl.dma0_7 m d L) Finset.univ) (ix2 c r)
      = HTv m d (ix2 c (⟨512 * (wid (cV L) (jV L)).val + 128 * 2 + r.val, by have := r.isLt; omega⟩ : Fin 16384)) := by
    intro prev c r
    rw [View.write_whole_univ]; unfold tile_body_pos.sl.dma0_7
    refine (ht_block d _ _ (1024 * (L 1).val + 512 * (L 0).val + 128 * 2) (k0_off2_eq L ⟨2, by decide⟩) (by omega) (HTv m d) c r).trans ?_
    exact congrArg (fun b => HTv m d (ix2 c b)) (Fin.ext (by show 1024 * (L 1).val + 512 * (L 0).val + 128 * 2 + r.val = 512 * (wid (cV L) (jV L)).val + 128 * 2 + r.val; rw [hw]; omega))
  have hT2 : ∀ prev (c : Fin 64) (r : Fin 128), (View.write (Elt F) sT0.view prev (tile_body_pos.sl.dma0_8 m d L) Finset.univ) (ix2 c r)
      = TTv m d (ix2 c (⟨512 * (wid (cV L) (jV L)).val + 128 * 2 + r.val, by have := r.isLt; omega⟩ : Fin 16384)) := by
    intro prev c r
    rw [View.write_whole_univ]; unfold tile_body_pos.sl.dma0_8
    refine (tt_block d _ _ (1024 * (L 1).val + 512 * (L 0).val + 128 * 2) (k0_off2_eq L ⟨2, by decide⟩) (by omega) (TTv m d) c r).trans ?_
    exact congrArg (fun b => TTv m d (ix2 c b)) (Fin.ext (by show 1024 * (L 1).val + 512 * (L 0).val + 128 * 2 + r.val = 512 * (wid (cV L) (jV L)).val + 128 * 2 + r.val; rw [hw]; omega))
  have hR2 : ∀ prev Lst (r : Fin 128) (c : Fin 128), (sR0.view.writes (Elt F) prev (⟨Rect.whole S128x128, tile_body_pos.sl.gather0_2 m d L fi0 hin2⟩ :: Lst)) (ix2 r c)
      = RPv m d (ix2 (Cert.Spec.relRow (m (a1Loc d) (ix1 (⟨512 * (wid (cV L) (jV L)).val + 128 * 2 + r.val, by have := r.isLt; omega⟩ : Fin 16384)))) c) := by
    intro prev Lst r c
    rw [sR0_head]; unfold tile_body_pos.sl.gather0_2
    refine (gathered_row m hpre d (cV L) _ _ hin2 (1024 * (L 1).val + 512 * (L 0).val + 128 * 2) (by omega) ?_ r c).trans ?_
    · intro r'
      rw [View.write_whole_univ]
      simp only [Memref.view_whole, View.read_whole]
      unfold tile_body_pos.sl.dma0_6
      exact id_block d _ _ _ (k0_off1_eq L ⟨2, by decide⟩) (by omega) (m (a1Loc d)) r'
    · exact congrArg (fun b => RPv m d (ix2 (Cert.Spec.relRow (m (a1Loc d) (ix1 b))) c)) (Fin.ext (by show 1024 * (L 1).val + 512 * (L 0).val + 128 * 2 + r.val = 512 * (wid (cV L) (jV L)).val + 128 * 2 + r.val; rw [hw]; omega))
  have hH3 : ∀ prev (c : Fin 64) (r : Fin 128), (View.write (Elt F) sH1.view prev (tile_body_pos.sl.dma0_10 m d L) Finset.univ) (ix2 c r)
      = HTv m d (ix2 c (⟨512 * (wid (cV L) (jV L)).val + 128 * 3 + r.val, by have := r.isLt; omega⟩ : Fin 16384)) := by
    intro prev c r
    rw [View.write_whole_univ]; unfold tile_body_pos.sl.dma0_10
    refine (ht_block d _ _ (1024 * (L 1).val + 512 * (L 0).val + 128 * 3) (k0_off2_eq L ⟨3, by decide⟩) (by omega) (HTv m d) c r).trans ?_
    exact congrArg (fun b => HTv m d (ix2 c b)) (Fin.ext (by show 1024 * (L 1).val + 512 * (L 0).val + 128 * 3 + r.val = 512 * (wid (cV L) (jV L)).val + 128 * 3 + r.val; rw [hw]; omega))
  have hT3 : ∀ prev (c : Fin 64) (r : Fin 128), (View.write (Elt F) sT1.view prev (tile_body_pos.sl.dma0_11 m d L) Finset.univ) (ix2 c r)
      = TTv m d (ix2 c (⟨512 * (wid (cV L) (jV L)).val + 128 * 3 + r.val, by have := r.isLt; omega⟩ : Fin 16384)) := by
    intro prev c r
    rw [View.write_whole_univ]; unfold tile_body_pos.sl.dma0_11
    refine (tt_block d _ _ (1024 * (L 1).val + 512 * (L 0).val + 128 * 3) (k0_off2_eq L ⟨3, by decide⟩) (by omega) (TTv m d) c r).trans ?_
    exact congrArg (fun b => TTv m d (ix2 c b)) (Fin.ext (by show 1024 * (L 1).val + 512 * (L 0).val + 128 * 3 + r.val = 512 * (wid (cV L) (jV L)).val + 128 * 3 + r.val; rw [hw]; omega))
  have hR3 : ∀ prev Lst (r : Fin 128) (c : Fin 128), (sR1.view.writes (Elt F) prev (⟨Rect.whole S128x128, tile_body_pos.sl.gather0_3 m d L fi1 hin3⟩ :: Lst)) (ix2 r c)
      = RPv m d (ix2 (Cert.Spec.relRow (m (a1Loc d) (ix1 (⟨512 * (wid (cV L) (jV L)).val + 128 * 3 + r.val, by have := r.isLt; omega⟩ : Fin 16384)))) c) := by
    intro prev Lst r c
    rw [sR1_head]; unfold tile_body_pos.sl.gather0_3
    refine (gathered_row m hpre d (cV L) _ _ hin3 (1024 * (L 1).val + 512 * (L 0).val + 128 * 3) (by omega) ?_ r c).trans ?_
    · intro r'
      rw [View.write_whole_univ]
      simp only [Memref.view_whole, View.read_whole]
      unfold tile_body_pos.sl.dma0_9
      exact id_block d _ _ _ (k0_off1_eq L ⟨3, by decide⟩) (by omega) (m (a1Loc d)) r'
    · exact congrArg (fun b => RPv m d (ix2 (Cert.Spec.relRow (m (a1Loc d) (ix1 b))) c)) (Fin.ext (by show 1024 * (L 1).val + 512 * (L 0).val + 128 * 3 + r.val = 512 * (wid (cV L) (jV L)).val + 128 * 3 + r.val; rw [hw]; omega))
  have hval : ∀ i ∈ oSet (wid (cV L) (jV L)), ((oSl L).view.writes (Elt F) (m (oLoc d)) [⟨Rect.whole S512, tile_body_pos.sl.dma0_12 d L fo4⟩]) i = KV m d i := by
    intro i hi
    rw [← set_oSl] at hi
    obtain ⟨j, -, rfl⟩ := Finset.mem_map.mp hi
    obtain ⟨jj, rfl⟩ : ∃ jj : Fin 512, j = ix1 jj := ⟨j 0, eq_ix1 j⟩
    have hwr := View.read_writes_cons_emb (v := (oSl L).view) (f := m (oLoc d)) (Rect.whole S512) (tile_body_pos.sl.dma0_12 d L fo4) [] (ix1 jj)
    rw [Rect.emb_whole_apply, View.read_apply, cast_eq] at hwr
    rw [hwr]
    have hv := Cert.KBlock.out_val4 (F := F) (HTv m d) (TTv m d) (RPv m d) (m (a1Loc d)) _ _ _ _ _ _ _ _ _ _ _ _ (512 * (wid (cV L) (jV L)).val)
      (Dvd.dvd.mul_right (by decide : (16 : ℕ) ∣ 512) _) (by omega)
      (hH0 _) (hH1 _) (hH2 _) (hH3 _) (hT0 _) (hT1 _) (hT2 _) (hT3 _) (hR0 _ _) (hR1 _ _) (hR2 _ _) (hR3 _ _)
      fo fo1 fo2 fo3 fo4 hfo1 hfo2 hfo3 hfo4 jj
    refine (show tile_body_pos.sl.dma0_12 d L fo4 (ix1 jj) = fo4 (ix1 jj) from rfl).trans (hv.trans ?_)
    unfold KV HTv TTv RPv Cert.KVal.kval
    refine congrArg (fun b => Cert.KVal.accAt _ _ _ _ b 64) (Fin.ext ?_)
    show 512 * (wid (cV L) (jV L)).val + jj.val = k0_off7 L 0 + 1 * jj.val
    rw [e7, hw]; omega
  ihave Ho := (Entails.of_eq (pts_oSl (F := F) d L _)) $$ Ho
  ihave Ho := (Entails.of_eq (pointsTo_congr hval)) $$ Ho
  unfold tdP rTok
  rw [if_neg (show ¬ (jV L).val = 0 from h0)]
  isplitl [Hht Hid Htt Hrp Ho Hsh]
  · isplitl [Hht Hid Htt Hrp]
    · isplitl [Hht]; · iexact Hht
      isplitl [Hid]; · iexact Hid
      isplitl [Htt]; · iexact Htt
      iexact Hrp
    isplitl [Ho]; · iexact Ho
    isplitl [Hsh]; · iexact Hsh
    iempintro
  isplitl [Hi0 Hh0 Ht0 Hr0 Hi1 Hh1 Ht1 Hr1 Hout Hbufs]
  · isplitl [Hi0]; · iexists _; iexact Hi0
    isplitl [Hh0]; · iexists _; iexact Hh0
    isplitl [Ht0]; · iexists _; iexact Ht0
    isplitl [Hr0]; · iexists _; iexact Hr0
    isplitl [Hi1]; · iexists _; iexact Hi1
    isplitl [Hh1]; · iexists _; iexact Hh1
    isplitl [Ht1]; · iexists _; iexact Ht1
    isplitl [Hr1]; · iexists _; iexact Hr1
    isplitl [Hout]; · iexists _; iexact Hout
    iexact Hbufs
  isplitl [Hs4 Hs5 Hs6 Hs11 Hs12 Hs13 Hc0 Hc1 Hc2 Hc3 Hc4 Hc5 Hsems]
  · isplitl [Hs4]; · iexact Hs4
    isplitl [Hs5]; · iexact Hs5
    isplitl [Hs6]; · iexact Hs6
    isplitl [Hs11]; · iexact Hs11
    isplitl [Hs12]; · iexact Hs12
    isplitl [Hs13]; · iexact Hs13
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap
  · iexact HO
  ipureintro; intro p hp
  repeat (rcases Finset.mem_insert.mp hp with rfl | hp; · first | exact .inr (.inl rfl) | exact .inr (.inr rfl))
  exact .inl hp

set_option maxHeartbeats 4000000 in
/-- The task on a SparseCore's subcore 0: it fills the shared table and hands every subcore its share at the barrier. -/
theorem tile_body_zero [FloatOps F] (hF : (K (F := F)).Facts) (hpre : PreOK m) (d : Dev nD) (L : grid0.Coords)
    (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val = 0) :
    iprop(levAts (K (F := F)).L (K (F := F)).lev ∗ bkit m d (cV L) (jV L) ∗ goP m d (cV L) (jV L)
        ∗ scopedBufs (thrV d L) ∗ scopedSems0 (thrV d L) ∗ owes (thrV d L) (O + oxV d (cV L)) W : sProp 𝕄)
      ⊢ wp frame (wpE (defs₀ (F := F)) 𝒱₀ (thrV d L) none) Set.univ
          (cc0__sc_kernel (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5)
          fun _ => iprop(tdP m d (cV L) (jV L) ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__sc_kernel_eq_skeleton]; unfold cc0__sc_kernel_skel
  rw [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  unfold bkit goP rTok
  rw [if_pos (show (jV L).val = 0 from h0)]
  iintro ⟨#Hlv, ⟨⟨%κ, #Hinv⟩, Hduty, Hat, Hcred⟩, ⟨⟨Hht, Hid, Htt, Hrp⟩, Ho, ⟨%fsh, Hshf⟩⟩,
    ⟨⟨%fi0, Hi0⟩, ⟨%fh0, Hh0⟩, ⟨%ft0, Ht0⟩, ⟨%fr0, Hr0⟩, ⟨%fi1, Hi1⟩, ⟨%fh1, Hh1⟩, ⟨%ft1, Ht1⟩, ⟨%fr1, Hr1⟩, ⟨%fo, Hout⟩, Hbufs⟩,
    ⟨Hs4, Hs5, Hs6, Hs11, Hs12, Hs13, Hc0, Hc1, Hc2, Hc3, Hc4, Hc5, Hsems⟩, HO⟩
  have hO' : ∀ g, (O + oxV d (cV L)) g none = 0 := fun g => by rw [Pi.add_apply, Finsupp.add_apply, hO g, oxV_none]
  ihave Hmw0 := ((K (F := F)).mayWaits_none (thr := thrV d L) hO') $$ Hlv
  ihave Hshf := (Entails.of_eq (show ((shLoc d (cV L) ↦{fullShare} fsh : sProp 𝕄)) = ((sSh).view.loc (thrV d L) ↦{fullShare} fsh) from rfl)) $$ Hshf
  ihave Hmw := ((K (F := F)).mayWaits_none (thr := thrV d L) hO) $$ Hlv
  ihave Hmwb := ((K (F := F)).mayOwe_of_bound (thr := thrV d L) (W := {(SemLoc.reg sc_bar0, some (0 : Fin 1))}) (O := O) 3
      (fun p hp => by
        rw [Finset.mem_singleton] at hp; subst hp
        rw [(K (F := F)).lev_V_reg d _ _ (show (sc_bar0 : Sem sig) ≠ (K (F := F)).go from sc_bar0_ne_go)]; simp)
      (fun g ι h => by have := hOlev g ι h; omega)) $$ Hlv
  ihave Hht := (Entails.of_eq (show ((htLoc d ↦{tokS (wid (cV L) (jV L))} HTv m d : sProp 𝕄)) = ((aHT).view.loc (thrV d L) ↦{tokS (wid (cV L) (jV L))} HTv m d) from rfl)) $$ Hht
  ihave Hid := (Entails.of_eq (show ((a1Loc d ↦{tokS (wid (cV L) (jV L))} m (a1Loc d) : sProp 𝕄)) = ((aID).view.loc (thrV d L) ↦{tokS (wid (cV L) (jV L))} m (a1Loc d)) from rfl)) $$ Hid
  ihave Htt := (Entails.of_eq (show ((ttLoc d ↦{tokS (wid (cV L) (jV L))} TTv m d : sProp 𝕄)) = ((aTT).view.loc (thrV d L) ↦{tokS (wid (cV L) (jV L))} TTv m d) from rfl)) $$ Htt
  ihave Hrp := (Entails.of_eq (show ((rpLoc d ↦{tokS (wid (cV L) (jV L))} RPv m d : sProp 𝕄)) = ((aRP).view.loc (thrV d L) ↦{tokS (wid (cV L) (jV L))} RPv m d) from rfl)) $$ Hrp
  ihave Hi0 := (Entails.of_eq (show (((thrV d L).loc cc0_scratch0 ↦{fullShare} fi0 : sProp 𝕄)) = ((sI0).view.loc (thrV d L) ↦{fullShare} fi0) from rfl)) $$ Hi0
  ihave Hh0 := (Entails.of_eq (show (((thrV d L).loc cc0_scratch1 ↦{fullShare} fh0 : sProp 𝕄)) = ((sH0).view.loc (thrV d L) ↦{fullShare} fh0) from rfl)) $$ Hh0
  ihave Ht0 := (Entails.of_eq (show (((thrV d L).loc cc0_scratch2 ↦{fullShare} ft0 : sProp 𝕄)) = ((sT0).view.loc (thrV d L) ↦{fullShare} ft0) from rfl)) $$ Ht0
  ihave Hr0 := (Entails.of_eq (show (((thrV d L).loc cc0_scratch3 ↦{fullShare} fr0 : sProp 𝕄)) = ((sR0).view.loc (thrV d L) ↦{fullShare} fr0) from rfl)) $$ Hr0
  ihave Hi1 := (Entails.of_eq (show (((thrV d L).loc cc0_scratch7 ↦{fullShare} fi1 : sProp 𝕄)) = ((sI1).view.loc (thrV d L) ↦{fullShare} fi1) from rfl)) $$ Hi1
  ihave Hh1 := (Entails.of_eq (show (((thrV d L).loc cc0_scratch8 ↦{fullShare} fh1 : sProp 𝕄)) = ((sH1).view.loc (thrV d L) ↦{fullShare} fh1) from rfl)) $$ Hh1
  ihave Ht1 := (Entails.of_eq (show (((thrV d L).loc cc0_scratch9 ↦{fullShare} ft1 : sProp 𝕄)) = ((sT1).view.loc (thrV d L) ↦{fullShare} ft1) from rfl)) $$ Ht1
  ihave Hr1 := (Entails.of_eq (show (((thrV d L).loc cc0_scratch10 ↦{fullShare} fr1 : sProp 𝕄)) = ((sR1).view.loc (thrV d L) ↦{fullShare} fr1) from rfl)) $$ Hr1
  ihave Hout := (Entails.of_eq (show (((thrV d L).loc cc0_scratch14 ↦{fullShare} fo : sProp 𝕄)) = ((sOut).view.loc (thrV d L) ↦{fullShare} fo) from rfl)) $$ Hout
  sl_exec
  have hv6 : tile_body_zero.sl.v6 L = 1#1 := by
    show (Scalar.cmpi .ne (Scalar.extui (Scalar.cmpi .eq (BitVec.ofNat 32 (L 1).val) 0#32) : BitVec 32) 0#32 = 1#1)
    exact cond_zero (L 1) h0
  rw [dif_pos hv6]
  have hsh : (View.write (Elt F) sSh.view fsh (tile_body_zero.sl.dma0 m d) Finset.univ) = RPsh m d (cV L) := by
    rw [View.write_whole_univ]; rfl
  ihave Hshf := (Entails.of_eq (congrArg (fun f => ((sSh).view.loc (thrV d L) ↦{fullShare} f : sProp 𝕄)) hsh)) $$ Hshf
  ihave Hshf := (Entails.of_eq (show ((sSh).view.loc (thrV d L) ↦{fullShare} RPsh m d (cV L) : sProp 𝕄) = (shLoc d (cV L) ↦{fullShare} RPsh m d (cV L)) from rfl)) $$ Hshf
  ihave Hspl := (Transfers.pointsTo_toks_split fullShare 16) $$ Hshf
  icases Hspl with ⟨Hrest, Htoks⟩
  ihave Hduty' := (duty_pay_zero m d L h0) $$ [Hduty Htoks]
  · isplitl [Hduty]; · iexact Hduty
    iexact Htoks
  iapply (SparseCore.wp_subcoreBarrier 𝒱₀ none EB (bRd m) d (sc := cV L) (i := jV L) sc_bar0 (grid0.bound 1) hsub0 (L 1) rfl κ (fun _ => 0) (jV L).val
      (fun j => bRd_mem₀ m d (cV L) (j.castLE hsub0) (jV L)) (fun _ => rfl) (bRd_expect m d (cV L) (jV L)) (some 0) O _) $$ [HO Hduty' Hcred Hat Hmwb]
  · isplitr; · iexact Hinv
    isplitl [HO]; · iexact HO
    isplitl [Hduty']; · iexact Hduty'
    isplitl [Hcred]; · iexact Hcred
    isplitl [Hat]; · iexact Hat
    iexact Hmwb
  iintro ⟨HO, Hat, #Hreached, Hpay⟩
  ihave Hsh := (own_share m d (cV L) (jV L)) $$ Hpay
  ihave Hsh := (Entails.of_eq (show ((shLoc d (cV L) ↦{shTok (jV L)} RPsh m d (cV L) : sProp 𝕄)) = ((sSh).view.loc (thrV d L) ↦{shTok (jV L)} RPsh m d (cV L)) from rfl)) $$ Hsh
  sl_exec
  have hin0 : ∀ x, ((sI0).view.read (Elt F) (View.write (Elt F) sI0.view (fi0) (tile_body_zero.sl.dma0_1 m d L) Finset.univ) x).toNat
      < S1000x128.size (gathers_S1000x128_S128x128).axis := by
    intro x; unfold tile_body_zero.sl.dma0_1; rw [View.write_whole_univ]; exact idx_lt m hpre d _ _ x
  sl_exec
  have hin1 : ∀ x, ((sI1).view.read (Elt F) (View.write (Elt F) sI1.view (fi1) (tile_body_zero.sl.dma0_4 m d L) Finset.univ) x).toNat
      < S1000x128.size (gathers_S1000x128_S128x128).axis := by
    intro x; unfold tile_body_zero.sl.dma0_4; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage1 (F := F) d L (tile_body_zero.sl.v2 L) _ _ _ _)
    isplitl [Hh0]; · iexact Hh0
    isplitl [Ht0]; · iexact Ht0
    isplitl [Hr0]; · iexact Hr0
    iexact Hout
  iintro %u1 ⟨Hh0, Ht0, Hr0, %fo1, %hfo1, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  have hin2 : ∀ x, ((sI0).view.read (Elt F) (View.write (Elt F) sI0.view (View.write (Elt F) sI0.view fi0 (tile_body_zero.sl.dma0_1 m d L) Finset.univ) (tile_body_zero.sl.dma0_7 m d L) Finset.univ) x).toNat
      < S1000x128.size (gathers_S1000x128_S128x128).axis := by
    intro x; unfold tile_body_zero.sl.dma0_7; rw [View.write_whole_univ]; exact idx_lt m hpre d _ _ x
  sl_exec
  rw [bind_assoc, wp_bind]
  iapply (wp_wand_r frame (wpE (defs₀ (F := F)) 𝒱₀ (thrV d L) none) Set.univ)
  isplitl [Hh1 Ht1 Hr1 Hout]
  · iapply (stage2 (F := F) d L (tile_body_zero.sl.v2 L) _ _ _ _)
    isplitl [Hh1]; · iexact Hh1
    isplitl [Ht1]; · iexact Ht1
    isplitl [Hr1]; · iexact Hr1
    iexact Hout
  iintro %u2 ⟨Hh1, Ht1, Hr1, %fo2, %hfo2, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  sl_exec
  have hin3 : ∀ x, ((sI1).view.read (Elt F) (View.write (Elt F) sI1.view (View.write (Elt F) sI1.view fi1 (tile_body_zero.sl.dma0_4 m d L) Finset.univ) (tile_body_zero.sl.dma0_10 m d L) Finset.univ) x).toNat
      < S1000x128.size (gathers_S1000x128_S128x128).axis := by
    intro x; unfold tile_body_zero.sl.dma0_10; rw [View.write_whole_univ]; exact idx_lt m hpre d _ _ x
  sl_exec
  rw [bind_assoc, wp_bind]
  iapply (wp_wand_r frame (wpE (defs₀ (F := F)) 𝒱₀ (thrV d L) none) Set.univ)
  isplitl [Hh0 Ht0 Hr0 Hout]
  · iapply (stage3 (F := F) d L (tile_body_zero.sl.v2 L) _ _ _ _)
    isplitl [Hh0]; · iexact Hh0
    isplitl [Ht0]; · iexact Ht0
    isplitl [Hr0]; · iexact Hr0
    iexact Hout
  iintro %u3 ⟨Hh0, Ht0, Hr0, %fo3, %hfo3, Hout⟩
  ihave Hh0 := (Entails.of_eq (show (((thrV d L).loc cc0_scratch1 ↦{fullShare} _ : sProp 𝕄)) = ((sH0).view.loc (thrV d L) ↦{fullShare} _) from rfl)) $$ Hh0
  ihave Ht0 := (Entails.of_eq (show (((thrV d L).loc cc0_scratch2 ↦{fullShare} _ : sProp 𝕄)) = ((sT0).view.loc (thrV d L) ↦{fullShare} _) from rfl)) $$ Ht0
  ihave Hr0 := (Entails.of_eq (show (((thrV d L).loc cc0_scratch3 ↦{fullShare} _ : sProp 𝕄)) = ((sR0).view.loc (thrV d L) ↦{fullShare} _) from rfl)) $$ Hr0
  ihave Hout := (Entails.of_eq (show (((thrV d L).loc cc0_scratch14 ↦{fullShare} _ : sProp 𝕄)) = ((sOut).view.loc (thrV d L) ↦{fullShare} _) from rfl)) $$ Hout
  sl_exec
  rw [wp_bind]
  iapply (wp_wand_r frame (wpE (defs₀ (F := F)) 𝒱₀ (thrV d L) none) Set.univ)
  isplitl [Hh1 Ht1 Hr1 Hout]
  · iapply (stage4 (F := F) d L _ _ _ _)
    isplitl [Hh1]; · iexact Hh1
    isplitl [Ht1]; · iexact Ht1
    isplitl [Hr1]; · iexact Hr1
    iexact Hout
  iintro %u4 ⟨Hh1, Ht1, Hr1, %fo4, %hfo4, Hout⟩
  ihave Hh1 := (Entails.of_eq (show (((thrV d L).loc cc0_scratch8 ↦{fullShare} _ : sProp 𝕄)) = ((sH1).view.loc (thrV d L) ↦{fullShare} _) from rfl)) $$ Hh1
  ihave Ht1 := (Entails.of_eq (show (((thrV d L).loc cc0_scratch9 ↦{fullShare} _ : sProp 𝕄)) = ((sT1).view.loc (thrV d L) ↦{fullShare} _) from rfl)) $$ Ht1
  ihave Hr1 := (Entails.of_eq (show (((thrV d L).loc cc0_scratch10 ↦{fullShare} _ : sProp 𝕄)) = ((sR1).view.loc (thrV d L) ↦{fullShare} _) from rfl)) $$ Hr1
  ihave Hout := (Entails.of_eq (show (((thrV d L).loc cc0_scratch14 ↦{fullShare} _ : sProp 𝕄)) = ((sOut).view.loc (thrV d L) ↦{fullShare} _) from rfl)) $$ Hout
  ihave Ho := (Entails.of_eq (pts_oSl (F := F) d L _).symm) $$ Ho
  sl_exec
  rw [wp_ret]; imodintro
  have hL0 : (L 0).val < 2 := (L 0).isLt
  have hL1 : (L 1).val < 16 := (L 1).isLt
  have hw : (wid (cV L) (jV L)).val = 2 * (L 1).val + (L 0).val := rfl
  have hwlt : (wid (cV L) (jV L)).val < 32 := (wid (cV L) (jV L)).isLt
  have e7 : k0_off7 L 0 = 1024 * (L 1).val + 512 * (L 0).val := congrFun (k0_off7_eq L) 0
  have hH0 : ∀ prev (c : Fin 64) (r : Fin 128), (View.write (Elt F) sH0.view prev (tile_body_zero.sl.dma0_2 m d L) Finset.univ) (ix2 c r)
      = HTv m d (ix2 c (⟨512 * (wid (cV L) (jV L)).val + 128 * 0 + r.val, by have := r.isLt; omega⟩ : Fin 16384)) := by
    intro prev c r
    rw [View.write_whole_univ]; unfold tile_body_zero.sl.dma0_2
    refine (ht_block d _ _ (1024 * (L 1).val + 512 * (L 0).val + 128 * 0) (k0_off2_eq L ⟨0, by decide⟩) (by omega) (HTv m d) c r).trans ?_
    exact congrArg (fun b => HTv m d (ix2 c b)) (Fin.ext (by show 1024 * (L 1).val + 512 * (L 0).val + 128 * 0 + r.val = 512 * (wid (cV L) (jV L)).val + 128 * 0 + r.val; rw [hw]; omega))
  have hT0 : ∀ prev (c : Fin 64) (r : Fin 128), (View.write (Elt F) sT0.view prev (tile_body_zero.sl.dma0_3 m d L) Finset.univ) (ix2 c r)
      = TTv m d (ix2 c (⟨512 * (wid (cV L) (jV L)).val + 128 * 0 + r.val, by have := r.isLt; omega⟩ : Fin 16384)) := by
    intro prev c r
    rw [View.write_whole_univ]; unfold tile_body_zero.sl.dma0_3
    refine (tt_block d _ _ (1024 * (L 1).val + 512 * (L 0).val + 128 * 0) (k0_off2_eq L ⟨0, by decide⟩) (by omega) (TTv m d) c r).trans ?_
    exact congrArg (fun b => TTv m d (ix2 c b)) (Fin.ext (by show 1024 * (L 1).val + 512 * (L 0).val + 128 * 0 + r.val = 512 * (wid (cV L) (jV L)).val + 128 * 0 + r.val; rw [hw]; omega))
  have hR0 : ∀ prev Lst (r : Fin 128) (c : Fin 128), (sR0.view.writes (Elt F) prev (⟨Rect.whole S128x128, tile_body_zero.sl.gather0 m d L fi0 hin0⟩ :: Lst)) (ix2 r c)
      = RPv m d (ix2 (Cert.Spec.relRow (m (a1Loc d) (ix1 (⟨512 * (wid (cV L) (jV L)).val + 128 * 0 + r.val, by have := r.isLt; omega⟩ : Fin 16384)))) c) := by
    intro prev Lst r c
    rw [sR0_head]; unfold tile_body_zero.sl.gather0
    refine (gathered_row m hpre d (cV L) _ _ hin0 (1024 * (L 1).val + 512 * (L 0).val + 128 * 0) (by omega) ?_ r c).trans ?_
    · intro r'
      rw [View.write_whole_univ]
      simp only [Memref.view_whole, View.read_whole]
      unfold tile_body_zero.sl.dma0_1
      exact id_block d _ _ _ (k0_off1_eq L ⟨0, by decide⟩) (by omega) (m (a1Loc d)) r'
    · exact congrArg (fun b => RPv m d (ix2 (Cert.Spec.relRow (m (a1Loc d) (ix1 b))) c)) (Fin.ext (by show 1024 * (L 1).val + 512 * (L 0).val + 128 * 0 + r.val = 512 * (wid (cV L) (jV L)).val + 128 * 0 + r.val; rw [hw]; omega))
  have hH1 : ∀ prev (c : Fin 64) (r : Fin 128), (View.write (Elt F) sH1.view prev (tile_body_zero.sl.dma0_5 m d L) Finset.univ) (ix2 c r)
      = HTv m d (ix2 c (⟨512 * (wid (cV L) (jV L)).val + 128 * 1 + r.val, by have := r.isLt; omega⟩ : Fin 16384)) := by
    intro prev c r
    rw [View.write_whole_univ]; unfold tile_body_zero.sl.dma0_5
    refine (ht_block d _ _ (1024 * (L 1).val + 512 * (L 0).val + 128 * 1) (k0_off2_eq L ⟨1, by decide⟩) (by omega) (HTv m d) c r).trans ?_
    exact congrArg (fun b => HTv m d (ix2 c b)) (Fin.ext (by show 1024 * (L 1).val + 512 * (L 0).val + 128 * 1 + r.val = 512 * (wid (cV L) (jV L)).val + 128 * 1 + r.val; rw [hw]; omega))
  have hT1 : ∀ prev (c : Fin 64) (r : Fin 128), (View.write (Elt F) sT1.view prev (tile_body_zero.sl.dma0_6 m d L) Finset.univ) (ix2 c r)
      = TTv m d (ix2 c (⟨512 * (wid (cV L) (jV L)).val + 128 * 1 + r.val, by have := r.isLt; omega⟩ : Fin 16384)) := by
    intro prev c r
    rw [View.write_whole_univ]; unfold tile_body_zero.sl.dma0_6
    refine (tt_block d _ _ (1024 * (L 1).val + 512 * (L 0).val + 128 * 1) (k0_off2_eq L ⟨1, by decide⟩) (by omega) (TTv m d) c r).trans ?_
    exact congrArg (fun b => TTv m d (ix2 c b)) (Fin.ext (by show 1024 * (L 1).val + 512 * (L 0).val + 128 * 1 + r.val = 512 * (wid (cV L) (jV L)).val + 128 * 1 + r.val; rw [hw]; omega))
  have hR1 : ∀ prev Lst (r : Fin 128) (c : Fin 128), (sR1.view.writes (Elt F) prev (⟨Rect.whole S128x128, tile_body_zero.sl.gather0_1 m d L fi1 hin1⟩ :: Lst)) (ix2 r c)
      = RPv m d (ix2 (Cert.Spec.relRow (m (a1Loc d) (ix1 (⟨512 * (wid (cV L) (jV L)).val + 128 * 1 + r.val, by have := r.isLt; omega⟩ : Fin 16384)))) c) := by
    intro prev Lst r c
    rw [sR1_head]; unfold tile_body_zero.sl.gather0_1
    refine (gathered_row m hpre d (cV L) _ _ hin1 (1024 * (L 1).val + 512 * (L 0).val + 128 * 1) (by omega) ?_ r c).trans ?_
    · intro r'
      rw [View.write_whole_univ]
      simp only [Memref.view_whole, View.read_whole]
      unfold tile_body_zero.sl.dma0_4
      exact id_block d _ _ _ (k0_off1_eq L ⟨1, by decide⟩) (by omega) (m (a1Loc d)) r'
    · exact congrArg (fun b => RPv m d (ix2 (Cert.Spec.relRow (m (a1Loc d) (ix1 b))) c)) (Fin.ext (by show 1024 * (L 1).val + 512 * (L 0).val + 128 * 1 + r.val = 512 * (wid (cV L) (jV L)).val + 128 * 1 + r.val; rw [hw]; omega))
  have hH2 : ∀ prev (c : Fin 64) (r : Fin 128), (View.write (Elt F) sH0.view prev (tile_body_zero.sl.dma0_8 m d L) Finset.univ) (ix2 c r)
      = HTv m d (ix2 c (⟨512 * (wid (cV L) (jV L)).val + 128 * 2 + r.val, by have := r.isLt; omega⟩ : Fin 16384)) := by
    intro prev c r
    rw [View.write_whole_univ]; unfold tile_body_zero.sl.dma0_8
    refine (ht_block d _ _ (1024 * (L 1).val + 512 * (L 0).val + 128 * 2) (k0_off2_eq L ⟨2, by decide⟩) (by omega) (HTv m d) c r).trans ?_
    exact congrArg (fun b => HTv m d (ix2 c b)) (Fin.ext (by show 1024 * (L 1).val + 512 * (L 0).val + 128 * 2 + r.val = 512 * (wid (cV L) (jV L)).val + 128 * 2 + r.val; rw [hw]; omega))
  have hT2 : ∀ prev (c : Fin 64) (r : Fin 128), (View.write (Elt F) sT0.view prev (tile_body_zero.sl.dma0_9 m d L) Finset.univ) (ix2 c r)
      = TTv m d (ix2 c (⟨512 * (wid (cV L) (jV L)).val + 128 * 2 + r.val, by have := r.isLt; omega⟩ : Fin 16384)) := by
    intro prev c r
    rw [View.write_whole_univ]; unfold tile_body_zero.sl.dma0_9
    refine (tt_block d _ _ (1024 * (L 1).val + 512 * (L 0).val + 128 * 2) (k0_off2_eq L ⟨2, by decide⟩) (by omega) (TTv m d) c r).trans ?_
    exact congrArg (fun b => TTv m d (ix2 c b)) (Fin.ext (by show 1024 * (L 1).val + 512 * (L 0).val + 128 * 2 + r.val = 512 * (wid (cV L) (jV L)).val + 128 * 2 + r.val; rw [hw]; omega))
  have hR2 : ∀ prev Lst (r : Fin 128) (c : Fin 128), (sR0.view.writes (Elt F) prev (⟨Rect.whole S128x128, tile_body_zero.sl.gather0_2 m d L fi0 hin2⟩ :: Lst)) (ix2 r c)
      = RPv m d (ix2 (Cert.Spec.relRow (m (a1Loc d) (ix1 (⟨512 * (wid (cV L) (jV L)).val + 128 * 2 + r.val, by have := r.isLt; omega⟩ : Fin 16384)))) c) := by
    intro prev Lst r c
    rw [sR0_head]; unfold tile_body_zero.sl.gather0_2
    refine (gathered_row m hpre d (cV L) _ _ hin2 (1024 * (L 1).val + 512 * (L 0).val + 128 * 2) (by omega) ?_ r c).trans ?_
    · intro r'
      rw [View.write_whole_univ]
      simp only [Memref.view_whole, View.read_whole]
      unfold tile_body_zero.sl.dma0_7
      exact id_block d _ _ _ (k0_off1_eq L ⟨2, by decide⟩) (by omega) (m (a1Loc d)) r'
    · exact congrArg (fun b => RPv m d (ix2 (Cert.Spec.relRow (m (a1Loc d) (ix1 b))) c)) (Fin.ext (by show 1024 * (L 1).val + 512 * (L 0).val + 128 * 2 + r.val = 512 * (wid (cV L) (jV L)).val + 128 * 2 + r.val; rw [hw]; omega))
  have hH3 : ∀ prev (c : Fin 64) (r : Fin 128), (View.write (Elt F) sH1.view prev (tile_body_zero.sl.dma0_11 m d L) Finset.univ) (ix2 c r)
      = HTv m d (ix2 c (⟨512 * (wid (cV L) (jV L)).val + 128 * 3 + r.val, by have := r.isLt; omega⟩ : Fin 16384)) := by
    intro prev c r
    rw [View.write_whole_univ]; unfold tile_body_zero.sl.dma0_11
    refine (ht_block d _ _ (1024 * (L 1).val + 512 * (L 0).val + 128 * 3) (k0_off2_eq L ⟨3, by decide⟩) (by omega) (HTv m d) c r).trans ?_
    exact congrArg (fun b => HTv m d (ix2 c b)) (Fin.ext (by show 1024 * (L 1).val + 512 * (L 0).val + 128 * 3 + r.val = 512 * (wid (cV L) (jV L)).val + 128 * 3 + r.val; rw [hw]; omega))
  have hT3 : ∀ prev (c : Fin 64) (r : Fin 128), (View.write (Elt F) sT1.view prev (tile_body_zero.sl.dma0_12 m d L) Finset.univ) (ix2 c r)
      = TTv m d (ix2 c (⟨512 * (wid (cV L) (jV L)).val + 128 * 3 + r.val, by have := r.isLt; omega⟩ : Fin 16384)) := by
    intro prev c r
    rw [View.write_whole_univ]; unfold tile_body_zero.sl.dma0_12
    refine (tt_block d _ _ (1024 * (L 1).val + 512 * (L 0).val + 128 * 3) (k0_off2_eq L ⟨3, by decide⟩) (by omega) (TTv m d) c r).trans ?_
    exact congrArg (fun b => TTv m d (ix2 c b)) (Fin.ext (by show 1024 * (L 1).val + 512 * (L 0).val + 128 * 3 + r.val = 512 * (wid (cV L) (jV L)).val + 128 * 3 + r.val; rw [hw]; omega))
  have hR3 : ∀ prev Lst (r : Fin 128) (c : Fin 128), (sR1.view.writes (Elt F) prev (⟨Rect.whole S128x128, tile_body_zero.sl.gather0_3 m d L fi1 hin3⟩ :: Lst)) (ix2 r c)
      = RPv m d (ix2 (Cert.Spec.relRow (m (a1Loc d) (ix1 (⟨512 * (wid (cV L) (jV L)).val + 128 * 3 + r.val, by have := r.isLt; omega⟩ : Fin 16384)))) c) := by
    intro prev Lst r c
    rw [sR1_head]; unfold tile_body_zero.sl.gather0_3
    refine (gathered_row m hpre d (cV L) _ _ hin3 (1024 * (L 1).val + 512 * (L 0).val + 128 * 3) (by omega) ?_ r c).trans ?_
    · intro r'
      rw [View.write_whole_univ]
      simp only [Memref.view_whole, View.read_whole]
      unfold tile_body_zero.sl.dma0_10
      exact id_block d _ _ _ (k0_off1_eq L ⟨3, by decide⟩) (by omega) (m (a1Loc d)) r'
    · exact congrArg (fun b => RPv m d (ix2 (Cert.Spec.relRow (m (a1Loc d) (ix1 b))) c)) (Fin.ext (by show 1024 * (L 1).val + 512 * (L 0).val + 128 * 3 + r.val = 512 * (wid (cV L) (jV L)).val + 128 * 3 + r.val; rw [hw]; omega))
  have hval : ∀ i ∈ oSet (wid (cV L) (jV L)), ((oSl L).view.writes (Elt F) (m (oLoc d)) [⟨Rect.whole S512, tile_body_zero.sl.dma0_13 d L fo4⟩]) i = KV m d i := by
    intro i hi
    rw [← set_oSl] at hi
    obtain ⟨j, -, rfl⟩ := Finset.mem_map.mp hi
    obtain ⟨jj, rfl⟩ : ∃ jj : Fin 512, j = ix1 jj := ⟨j 0, eq_ix1 j⟩
    have hwr := View.read_writes_cons_emb (v := (oSl L).view) (f := m (oLoc d)) (Rect.whole S512) (tile_body_zero.sl.dma0_13 d L fo4) [] (ix1 jj)
    rw [Rect.emb_whole_apply, View.read_apply, cast_eq] at hwr
    rw [hwr]
    have hv := Cert.KBlock.out_val4 (F := F) (HTv m d) (TTv m d) (RPv m d) (m (a1Loc d)) _ _ _ _ _ _ _ _ _ _ _ _ (512 * (wid (cV L) (jV L)).val)
      (Dvd.dvd.mul_right (by decide : (16 : ℕ) ∣ 512) _) (by omega)
      (hH0 _) (hH1 _) (hH2 _) (hH3 _) (hT0 _) (hT1 _) (hT2 _) (hT3 _) (hR0 _ _) (hR1 _ _) (hR2 _ _) (hR3 _ _)
      fo fo1 fo2 fo3 fo4 hfo1 hfo2 hfo3 hfo4 jj
    refine (show tile_body_zero.sl.dma0_13 d L fo4 (ix1 jj) = fo4 (ix1 jj) from rfl).trans (hv.trans ?_)
    unfold KV HTv TTv RPv Cert.KVal.kval
    refine congrArg (fun b => Cert.KVal.accAt _ _ _ _ b 64) (Fin.ext ?_)
    show 512 * (wid (cV L) (jV L)).val + jj.val = k0_off7 L 0 + 1 * jj.val
    rw [e7, hw]; omega
  ihave Ho := (Entails.of_eq (pts_oSl (F := F) d L _)) $$ Ho
  ihave Ho := (Entails.of_eq (pointsTo_congr hval)) $$ Ho
  unfold tdP rTok
  rw [if_pos (show (jV L).val = 0 from h0)]
  isplitl [Hht Hid Htt Hrp Ho Hsh Hrest]
  · isplitl [Hht Hid Htt Hrp]
    · isplitl [Hht]; · iexact Hht
      isplitl [Hid]; · iexact Hid
      isplitl [Htt]; · iexact Htt
      iexact Hrp
    isplitl [Ho]; · iexact Ho
    isplitl [Hsh]; · iexact Hsh
    iexact Hrest
  isplitl [Hi0 Hh0 Ht0 Hr0 Hi1 Hh1 Ht1 Hr1 Hout Hbufs]
  · isplitl [Hi0]; · iexists _; iexact Hi0
    isplitl [Hh0]; · iexists _; iexact Hh0
    isplitl [Ht0]; · iexists _; iexact Ht0
    isplitl [Hr0]; · iexists _; iexact Hr0
    isplitl [Hi1]; · iexists _; iexact Hi1
    isplitl [Hh1]; · iexists _; iexact Hh1
    isplitl [Ht1]; · iexists _; iexact Ht1
    isplitl [Hr1]; · iexists _; iexact Hr1
    isplitl [Hout]; · iexists _; iexact Hout
    iexact Hbufs
  isplitl [Hs4 Hs5 Hs6 Hs11 Hs12 Hs13 Hc0 Hc1 Hc2 Hc3 Hc4 Hc5 Hsems]
  · isplitl [Hs4]; · iexact Hs4
    isplitl [Hs5]; · iexact Hs5
    isplitl [Hs6]; · iexact Hs6
    isplitl [Hs11]; · iexact Hs11
    isplitl [Hs12]; · iexact Hs12
    isplitl [Hs13]; · iexact Hs13
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap
  · iexact HO
  ipureintro; intro p hp
  repeat (rcases Finset.mem_insert.mp hp with rfl | hp; · first | exact .inr (.inl rfl) | exact .inr (.inr rfl))
  unfold tile_body_zero.sl.W0 at hp; rw [dif_pos hv6] at hp
  rcases Finset.mem_insert.mp hp with rfl | hp
  · exact .inr (.inl rfl)
  exact .inl hp

set_option maxHeartbeats 4000000 in
/-- The task on vector subcore `(L 0, L 1)` of device `d`. -/
theorem tile_body [FloatOps F] (hF : (K (F := F)).Facts) (hpre : PreOK m) (d : Dev nD) (L : grid0.Coords)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (jV L)
        ∗ scopedBufs (thrV d L) ∗ scopedSems0 (thrV d L) ∗ owes (thrV d L) (O + oxV d (cV L)) W : sProp 𝕄)
      ⊢ wp frame (wpE (defs₀ (F := F)) 𝒱₀ (thrV d L) none) Set.univ
          (cc0__sc_kernel (F := F) L aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5)
          fun _ => iprop(tdP m d (cV L) (jV L) ∗ scopedBufs (thrV d L) ∗ scopedSems0 (thrV d L)
            ∗ ∃ W', ⌜∀ p ∈ W', p ∈ W ∨ p.2 = none ∨ p.2 = some (0 : Fin 1)⌝ ∗ owes (thrV d L) O W') := by
  by_cases h0 : (L 1).val = 0
  · exact tile_body_zero m hF hpre d L O W hO hOlev h0
  · exact tile_body_pos m hF hpre d L O W hO hOlev h0

end Cert.Proof.KernelSide

end
-- ==== Proof.BLaunch.lean ====
/-
  The launch of the kernel program: what the handshakes carry is storable; one vector subcore's task as the launch
  theorem's obligation; how a SparseCore's operands split among its sixteen subcores and gather back, the shared table
  leaving and rejoining the sequencer's own buffers; the launch element of the ghost state, the barrier cells funded and
  their invariants allocated; @main on the TensorCore, the two transposes, the constant, the conversion and the padding
  before the call, the arrays dealt to the thirty-two workers and gathered back; and the run of the whole program.
-/
import proofs.«205660_g30348238913567_cont_9to1_1764_14_alg».proof.Proof.BBody

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry is storable -/

instance P_storable : (P (F := F) m).IsStorable where
  st q d c := match q with
    | 0 => by
      show BI.Storable (upEmb : UEmb _ 𝕄) (bigSep Finset.univ fun i : Fin τ.nSub =>
        iprop(rTok m d (wid ((K (F := F)).core 0 c) i) ∗ oPart d (wid ((K (F := F)).core 0 c) i) (m (oLoc d))))
      unfold rTok; infer_instance
  dn q d c := match q with
    | 0 => by
      show BI.Storable (upEmb : UEmb _ 𝕄) (bigSep Finset.univ fun i : Fin τ.nSub =>
        iprop(rTok m d (wid ((K (F := F)).core 0 c) i) ∗ oPart d (wid ((K (F := F)).core 0 c) i) (KV m d)))
      unfold rTok; infer_instance
  go q d c i := match q with
    | 0 => by
      show BI.Storable (upEmb : UEmb _ 𝕄) (goP m d ((K (F := F)).core 0 c) ((K (F := F)).sub 0 i))
      unfold goP rTok; split <;> infer_instance
  td q d c i := match q with
    | 0 => by
      show BI.Storable (upEmb : UEmb _ 𝕄) (tdP m d ((K (F := F)).core 0 c) ((K (F := F)).sub 0 i))
      unfold tdP rTok; split <;> infer_instance

/-! ## One vector subcore's task as the launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_kernel (F := F) (coordsV c s) aHT (Memref.isWhole_whole _) aID (Memref.isWhole_whole _) aTT (Memref.isWhole_whole _) aRP (Memref.isWhole_whole _) aO (Memref.isWhole_whole _) sI0 (Memref.isWhole_whole _) sH0 (Memref.isWhole_whole _) sT0 (Memref.isWhole_whole _) sR0 (Memref.isWhole_whole _) cc0_scratch4 cc0_scratch5 cc0_scratch6 sI1 (Memref.isWhole_whole _) sH1 (Memref.isWhole_whole _) sT1 (Memref.isWhole_whole _) sR1 (Memref.isWhole_whole _) cc0_scratch11 cc0_scratch12 cc0_scratch13 sOut (Memref.isWhole_whole _) sSh (Memref.isWhole_whole _) cc0_scoped0 cc0_scoped1 cc0_scoped2 cc0_scoped3 cc0_scoped4 cc0_scoped5) ⟨⟩ c s := rfl

set_option maxRecDepth 16384 in
/-- The task of call 0 on every subcore of its grid: the body's proof at that subcore's grid point. -/
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hF hpre d (coordsV ⟨_, hci.1⟩ ⟨_, hci.2⟩) O W hO hOlev

/-! ## How a SparseCore's operands split among its subcores -/

omit [FloatOps F] in
/-- A family over the subcores of call 0's grid is one over every subcore. -/
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

omit [FloatOps F] in
theorem bigSep_emp' {I : Type} (s : Finset I) : (bigSep s fun _ => iprop(emp)) = (iprop(emp) : sProp 𝕄) := bigSep_emp_const s

omit [FloatOps F] in
/-- What only subcore 0 is handed, among the sixteen. -/
theorem at_zero_intro (X : sProp 𝕄) : X ⊢ bigSep Finset.univ fun i : Fin τ.nSub => if i.val = 0 then X else iprop(emp) := by
  rw [SparseCore.bigSep_erase' (Finset.mem_univ (⟨0, by decide⟩ : Fin τ.nSub)), if_pos rfl,
    bigSep_congr (Ψ := fun _ => iprop(emp)) fun i hi => if_neg fun h => (Finset.mem_erase.mp hi).1 (Fin.ext h), bigSep_emp']
  iintro H
  isplitl [H]
  · iexact H
  · iempintro
omit [FloatOps F] in
theorem at_zero_elim (X : sProp 𝕄) : (bigSep Finset.univ fun i : Fin τ.nSub => if i.val = 0 then X else iprop(emp)) ⊢ X := by
  rw [SparseCore.bigSep_erase' (Finset.mem_univ (⟨0, by decide⟩ : Fin τ.nSub)), if_pos rfl]
  exact sep_elim_left

omit [FloatOps F] in
/-- The SparseCore's shared table is among its sequencer's own buffers: it, at some contents, and the rest. -/
theorem ownBufs_S (d : Dev nD) (c : Fin τ.nSC) :
    (ownBufs (S d c) : sProp 𝕄) = iprop((∃ f, shLoc d c ↦{fullShare} f)
      ∗ bigSep ((ownRefs (τ := τ) (.scScalar c)).erase (shRef c)) fun b => iprop(∃ f, ((d, b) : Loc nD τ sig) ↦{fullShare} f)) := by
  unfold SparseCore.Cfg.ownBufs
  refine SparseCore.bigSep_erase' (s := ownRefs (τ := τ) (sig := sig) (.scScalar c)) (i := shRef c) ?_
  exact mem_ownRefs.mpr rfl

/-- The sixteen shares of the shared table and what was left when they were dealt are the table whole. -/
theorem sh_join (d : Dev nD) (c : Fin τ.nSC) :
    iprop((shLoc d c ↦{shRest} RPsh m d c) ∗ bigSep Finset.univ fun i : Fin τ.nSub => shLoc d c ↦{shTok i} RPsh m d c)
      ⊢ (shLoc d c ↦{fullShare} RPsh m d c : sProp 𝕄) :=
  Transfers.pointsTo_toks_join fullShare 16

theorem vecSplit : (K (F := F)).VecSplit (P m) 0 := by
  intro d c
  show iprop((bigSep Finset.univ fun i : Fin τ.nSub => iprop(rTok m d (wid ((K (F := F)).core 0 c) i) ∗ oPart d (wid ((K (F := F)).core 0 c) i) (m (oLoc d))))
      ∗ ownBufs (S d ((K (F := F)).core 0 c)))
    ⊢ |={Set.univ}=> iprop((bigSep Finset.univ fun i : Fin ((K (F := F)).nSub 0) => goP m d ((K (F := F)).core 0 c) ((K (F := F)).sub 0 i))
        ∗ ((bigSep Finset.univ fun i : Fin ((K (F := F)).nSub 0) => tdP m d ((K (F := F)).core 0 c) ((K (F := F)).sub 0 i))
          -∗ iprop((bigSep Finset.univ fun i : Fin τ.nSub => iprop(rTok m d (wid ((K (F := F)).core 0 c) i) ∗ oPart d (wid ((K (F := F)).core 0 c) i) (KV m d)))
            ∗ ownBufs (S d ((K (F := F)).core 0 c)))))
  rw [bigSep_tasks (F := F) (fun i => goP m d ((K (F := F)).core 0 c) i), bigSep_tasks (F := F) (fun i => tdP m d ((K (F := F)).core 0 c) i), ownBufs_S]
  generalize (K (F := F)).core 0 c = c'
  unfold goP tdP
  simp only [bigSep_sep']
  iintro ⟨⟨HR, HO⟩, ⟨%f, Hsh⟩, Hrest⟩
  imodintro
  isplitl [HR HO Hsh]
  · isplitl [HR]; · iexact HR
    isplitl [HO]; · iexact HO
    iapply (at_zero_intro (F := F) iprop(∃ f, shLoc d c' ↦{fullShare} f))
    iexists f; iexact Hsh
  iintro ⟨HR, HO, Hts, Hrs⟩
  ihave Hr := (at_zero_elim (F := F) iprop(shLoc d c' ↦{shRest} RPsh m d c')) $$ Hrs
  ihave Hfull := (sh_join m d c') $$ [Hr Hts]
  · isplitl [Hr]; · iexact Hr
    iexact Hts
  isplitl [HR HO]
  · isplitl [HR]; · iexact HR
    iexact HO
  isplitl [Hfull]
  · iexists _; iexact Hfull
  iexact Hrest

/-! ## The launch element

The element is the handshakes' rounds beside the barrier cells' rounds, no transfer counted. The barrier cells are
funded at their schedule; their counters, free semaphores of the vector subcores, read zero at the launch, so their
invariants are allocated at once; the credit for what the subcores owe one another is regrouped, sixteen units of its
own cell to each subcore; and each subcore is dealt its kit, the invariants and the reached rounds shared by all. -/

abbrev Sub3 : Type := Dev nD × Fin τ.nSC × Fin τ.nSub
abbrev bcell₃ (x : Sub3) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : Sub3 × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : Sub3 → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem bCells_eq (Φ : GSem nD τ sig → sProp 𝕄) : bigSep bCells Φ = bigSep Finset.univ fun x : Sub3 => Φ (bcell₃ x) := by
  unfold bCells; exact SparseCore.bigSep_image_of_injOn (fun a _ b _ e => bcell₃_injective e) Φ

omit [FloatOps F] in
/-- The element splits into the handshakes' rounds and the barrier cells'. -/
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores of the vector subcores. -/
theorem sems_b : ((K (F := F)).freeSems0 : sProp 𝕄) ⊢ bigSep bCells fun g => semVal g 0 := by
  rw [bCells_eq]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once from their counters at zero and their round states at zero. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
/-- `n` single units at one cell and index are `n` units there. -/
theorem sum_tallyAt (g : GSem nD τ sig) (ι : HIx 1) (n : ℕ) : (∑ _i : Fin n, tallyAt g ι 1 : CellTallies nD τ sig (HIx 1)) = tallyAt g ι n := by
  rw [Finset.sum_const, Finset.card_univ, Fintype.card_fin]
  induction n with
  | zero => rw [zero_nsmul, tallyAt_zero]
  | succ n ih => rw [succ_nsmul, ih, tallyAt_add]

/-- What a vector subcore owes for the kernel's own protocol from the launch: call 0's. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]; rfl

/-- The credit for the kernel's own debts, regrouped: each subcore the sixteen units of its own cell (one from each
    subcore of its SparseCore). -/
theorem creds_b : ((P (F := F) m).oxCred : sProp 𝕄)
    ⊢ bigSep Finset.univ fun x : Sub3 => cred (tallyAt (bcell₃ x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [oxFrom_V]
  rw [bigSep_univ_prod, bigSep_univ_prod (fun x : Sub3 => (cred (tallyAt (bcell₃ x) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  unfold oxV
  rw [SparseCore.Cfg.cred_finsum, bigSep_univ_comm]
  refine bigSep_mono fun j _ => ?_
  rw [← SparseCore.Cfg.cred_finsum, sum_tallyAt]; rfl

omit [FloatOps F] in
/-- The launch tokens, per subcore: its token in every cell of its SparseCore. -/
theorem toks_eq : (bigSep bToks fun x => (dutyTok EB x.1 x.2.1 x.2.2 : sProp 𝕄))
    = bigSep Finset.univ fun x : Sub3 => bigSep Finset.univ fun j : Fin (grid0.bound 1) => dutyTok EB (bcell x.1 x.2.1 (j.castLE hsub0)) 0 x.2.2.val := by
  unfold bToks
  rw [SparseCore.bigSep_image_of_injOn, bigSep_univ_prod]
  rintro ⟨⟨d, c, i⟩, j⟩ - ⟨⟨d', c', i'⟩, j'⟩ - e
  have e1 : bcell₃ (d, c, j.castLE hsub0) = bcell₃ (d', c', j'.castLE hsub0) := (Prod.mk.inj e).1
  have e2 : i.val = i'.val := (Prod.mk.inj (Prod.mk.inj e).2).2
  obtain ⟨rfl, h⟩ := Prod.mk.inj (bcell₃_injective e1)
  obtain ⟨rfl, hj⟩ := Prod.mk.inj h
  obtain rfl : j = j' := Fin.ext (congrArg Fin.val hj)
  obtain rfl : i = i' := Fin.ext e2
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

/-- What every subcore is handed alike: every barrier cell's invariant, and that each has reached round 0. -/
abbrev shared : sProp 𝕄 :=
  iprop((∃ κ : GSem nD τ sig → ℕ, bigSep Finset.univ fun x : Sub3 => cellInv EB (bRd (F := F) m) (κ (bcell₃ x)) (bcell₃ x))
    ∗ bigSep Finset.univ fun x : Sub3 => reached EB (bcell₃ x) 0)
/-- What each subcore is handed of its own: its position, its tokens, its credit. -/
abbrev mine (x : Sub3) : sProp 𝕄 :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

/-- One subcore's kit out of those. -/
theorem kit_intro (x : Sub3) : iprop(shared (F := F) m ∗ mine (F := F) x) ⊢ (bkit (F := F) m x.1 x.2.1 x.2.2 : sProp 𝕄) := by
  obtain ⟨d, c, i⟩ := x
  have htok : ∀ j ∈ (Finset.univ : Finset (Fin (grid0.bound 1))),
      iprop((bigSep Finset.univ fun x : Sub3 => reached EB (bcell₃ x) 0) ∗ dutyTok EB (bcell d c (j.castLE hsub0)) 0 i.val)
        ⊢ (iprop(dutyTok EB (bcell d c (j.castLE hsub0)) 0 i.val ∗ reached EB (bcell d c (j.castLE hsub0)) 0) : sProp 𝕄) := by
    intro j _
    iintro ⟨#Hr, Ht⟩
    isplitl [Ht]; · iexact Ht
    iapply (SparseCore.ent (bigSep_elim (Φ := fun x : Sub3 => (reached EB (bcell₃ x) 0 : sProp 𝕄)) (i := (d, c, j.castLE hsub0)) (Finset.mem_univ _)))
    iexact Hr
  iintro ⟨⟨⟨%κ, #Hinv⟩, #Hr⟩, Hat, Htok, Hcred⟩
  dsimp only
  unfold bkit
  isplitr
  · iexists κ
    iapply (bigSep_intro_persistent (S := (Finset.univ : Finset (Fin (grid0.bound 1))))
      (R := bigSep Finset.univ fun x : Sub3 => cellInv EB (bRd (F := F) m) (κ (bcell₃ x)) (bcell₃ x))
      (Φ := fun j : Fin (grid0.bound 1) => cellInv EB (bRd (F := F) m) (κ (bcell d c (j.castLE hsub0))) (bcell d c (j.castLE hsub0)))
      fun j _ => bigSep_elim (Φ := fun x : Sub3 => (cellInv EB (bRd (F := F) m) (κ (bcell₃ x)) (bcell₃ x) : sProp 𝕄))
        (i := (d, c, Fin.castLE hsub0 j)) (Finset.mem_univ _))
    iexact Hinv
  isplitl [Htok]
  · iapply (bigSep_with_persistent (S := (Finset.univ : Finset (Fin (grid0.bound 1))))
      (R := bigSep Finset.univ fun x : Sub3 => reached EB (bcell₃ x) 0)
      (Φ := fun j : Fin (grid0.bound 1) => dutyTok EB (bcell d c (j.castLE hsub0)) 0 i.val)
      (Ψ := fun j : Fin (grid0.bound 1) => iprop(dutyTok EB (bcell d c (j.castLE hsub0)) 0 i.val ∗ reached EB (bcell d c (j.castLE hsub0)) 0))
      htok)
    isplitr; · iexact Hr
    iexact Htok
  isplitl [Hat]; · iexact Hat
  iexact Hcred

/-- Each subcore its kit; the TensorCores and the sequencers nothing. -/
theorem kits_deal :
    iprop(((∃ κ : GSem nD τ sig → ℕ, bigSep bCells fun g => cellInv EB (bRd (F := F) m) (κ g) g) ∗ bigSep bCells fun g => reached EB g 0)
        ∗ ((bigSep bCells fun g => atPos EB g 0 ∅ 0) ∗ (bigSep bToks fun x => dutyTok EB x.1 x.2.1 x.2.2)
          ∗ bigSep Finset.univ fun x : Sub3 => cred (tallyAt (bcell₃ x) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  rw [toks_eq, bCells_eq, bCells_eq]
  iintro ⟨⟨⟨%κ, Hinv⟩, #Hr⟩, Hat, Htok, Hcred⟩
  ihave #Hinv' := (Entails.of_eq (bCells_eq (F := F) fun g => cellInv EB (bRd (F := F) m) (κ g) g)) $$ Hinv
  isplitr; · iempintro
  isplitr; · iempintro
  iapply (bigSep_with_persistent (R := shared (F := F) m) (Φ := mine (F := F)) fun x _ => kit_intro (F := F) m x)
  isplitr
  · isplitl; · iexists κ; iexact Hinv'
    iexact Hr
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  have h := SparseCore.Cfg.launch_elem (nD := nD) (τ := τ) (sig := sig) (Val := Elt F) (Q := 1) (Name := ℕ) (U := UU)
    (Fr := iprop(emp)) (Inv := fun κ : GSem nD τ sig → ℕ => bigSep bCells fun g => cellInv EB (bRd (F := F) m) (κ g) g)
    (ownU_split (F := F) (initOf (K (F := F)).hsCells (K (F := F)).hsToks) (initOf bCells bToks))
    (Rounds.fund EB (bRd (F := F) m) bCells bToks) (sems_b (F := F)) (invs_b m) (creds_b m) (kits_deal m)
  iintro ⟨Hu, Hc, Hf⟩
  iapply h
  isplitl [Hu]; · iexact Hu
  isplitl [Hc]; · iexact Hc
  isplitr; · iempintro
  iexact Hf

/-! ## @main on the TensorCore -/

/-- The TensorCore's ten arrays, as device buffers: the four arguments, the two transposes, the constant, the converted
    constant, the padded table, the result. -/
abbrev x0' : DevRef τ sig := Proc.devRef .tc (main_arg0 : Ref sig .tc)
abbrev x1' : DevRef τ sig := Proc.devRef .tc (main_arg1 : Ref sig .tc)
abbrev x2' : DevRef τ sig := Proc.devRef .tc (main_arg2 : Ref sig .tc)
abbrev x3' : DevRef τ sig := Proc.devRef .tc (main_arg3 : Ref sig .tc)
abbrev y0' : DevRef τ sig := Proc.devRef .tc (main_v0 : Ref sig .tc)
abbrev y1' : DevRef τ sig := Proc.devRef .tc (main_v1 : Ref sig .tc)
abbrev yc' : DevRef τ sig := Proc.devRef .tc (main_c : Ref sig .tc)
abbrev yk' : DevRef τ sig := Proc.devRef .tc (main_call0_v0 : Ref sig .tc)
abbrev y2' : DevRef τ sig := Proc.devRef .tc (main_v2 : Ref sig .tc)
abbrev y3' : DevRef τ sig := Proc.devRef .tc (main_v3 : Ref sig .tc)

abbrev S10 : Finset (DevRef τ sig) := {x0', x1', x2', x3', y0', y1', yc', yk', y2', y3'}

abbrev cLoc (d : Dev nD) : Loc nD τ sig := (SparseCore.T d).loc main_c
abbrev kLoc (d : Dev nD) : Loc nD τ sig := (SparseCore.T d).loc main_call0_v0

omit [FloatOps F] in
theorem held_S10 (d : Dev nD) (W : Valuation τ sig (Elt F)) :
    (held (T d) S10 W : sProp 𝕄) = iprop((a0Loc d ↦{fullShare} W x0') ∗ (a1Loc d ↦{fullShare} W x1') ∗ (a2Loc d ↦{fullShare} W x2')
      ∗ (a3Loc d ↦{fullShare} W x3') ∗ (htLoc d ↦{fullShare} W y0') ∗ (ttLoc d ↦{fullShare} W y1') ∗ (cLoc d ↦{fullShare} W yc')
      ∗ (kLoc d ↦{fullShare} W yk') ∗ (rpLoc d ↦{fullShare} W y2') ∗ oLoc d ↦{fullShare} W y3') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (htLoc d ↦{fullShare} W main_v0) ∗ (ttLoc d ↦{fullShare} W main_v1) ∗ (cLoc d ↦{fullShare} W main_c)
      ∗ (kLoc d ↦{fullShare} W main_call0_v0) ∗ (rpLoc d ↦{fullShare} W main_v2) ∗ oLoc d ↦{fullShare} W main_v3) := by
  unfold unscopedBufs
  rw [show (Finset.univ.filter fun b : Ref sig .tc => ¬ b.isScoped)
      = {main_arg0, main_arg1, main_arg2, main_arg3, main_v0, main_v1, main_c, main_call0_v0, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S10 (V0 m d) := by
  rw [unscopedBufs_eq, held_S10]; rfl

/-- The five host operations before the call: the two transposes, the constant, its conversion, the padding. -/
abbrev opT0 : HloOp τ sig (Elt F) :=
  StableHlo.unary main_arg0 main_v0 ((transpose S64x16384 [1, 0] · transposes_S16384x64_S64x16384_1_0) : (⟨S16384x64, .f32⟩ : BufTy).Contents (Elt F) → (⟨S64x16384, .f32⟩ : BufTy).Contents (Elt F))
abbrev opT1 : HloOp τ sig (Elt F) :=
  StableHlo.unary main_arg2 main_v1 ((transpose S64x16384 [1, 0] · transposes_S16384x64_S64x16384_1_0) : (⟨S16384x64, .f32⟩ : BufTy).Contents (Elt F) → (⟨S64x16384, .f32⟩ : BufTy).Contents (Elt F))
abbrev opC : HloOp τ sig (Elt F) := StableHlo.nullary main_c (constantI S_ 32 0#32)
abbrev opK : HloOp τ sig (Elt F) :=
  StableHlo.TRef.unary (.of main_c : StableHlo.TRef sig ⟨S_, .i32⟩) (main_call0.v0) (sitofp .f32)
abbrev opP : HloOp τ sig (Elt F) :=
  StableHlo.TRef.binary (.of main_arg3 : StableHlo.TRef sig ⟨S1000x64, .f32⟩) (main_call0.v0) (main_call0.v1)
    (fun x v => pad S1000x128 ![0, 0] ![0, 64] ![0, 0] x v pads_S1000x64_S1000x128_000_0640 h_S_)
abbrev ops : List (HloOp τ sig (Elt F)) := [opT0, opT1, opC, opK, opP]

/-- The call, and @main's return. -/
abbrev callK (d : Dev nD) : Prog (TpuEff nD τ sig (Elt F) (SparseCore.Sig (ΛP (F := F)) 1) .tc) PUnit :=
  (K (F := F)).run d 0 >>= fun _ => pure ⟨⟩

/-- @main is the five operations in line, then the call. -/
theorem main_eq (d : Dev nD) : main (F := F) d = (StableHlo.seq (ops (F := F)) >>= fun _ => callK (F := F) d) := rfl

theorem ops_sub : ∀ op ∈ ops (F := F), op.bufs ⊆ S10 := by
  intro op hop
  simp only [ops, List.mem_cons, List.not_mem_nil, or_false] at hop
  rcases hop with rfl | rfl | rfl | rfl | rfl
  · show ({x0', y0'} : Finset (DevRef τ sig)) ⊆ S10; decide
  · show ({x2', y1'} : Finset (DevRef τ sig)) ⊆ S10; decide
  · show ({yc'} : Finset (DevRef τ sig)) ⊆ S10; decide
  · show ({yc', yk'} : Finset (DevRef τ sig)) ⊆ S10; decide
  · show ({x3', yk', y2'} : Finset (DevRef τ sig)) ⊆ S10; decide

theorem ops_fresh : ∀ op ∈ ops (F := F), op.fresh = ∅ := by
  intro op hop
  simp only [ops, List.mem_cons, List.not_mem_nil, or_false] at hop
  rcases hop with rfl | rfl | rfl | rfl | rfl <;> rfl

/-! ### What the arrays hold after the five operations -/

theorem after_x0 (d : Dev nD) : StableHlo.after (ops (F := F)) (V0 m d) x0' = m (a0Loc d) := by
  simp only [ops]; after_results_simp; rfl
theorem after_x1 (d : Dev nD) : StableHlo.after (ops (F := F)) (V0 m d) x1' = m (a1Loc d) := by
  simp only [ops]; after_results_simp; rfl
theorem after_x2 (d : Dev nD) : StableHlo.after (ops (F := F)) (V0 m d) x2' = m (a2Loc d) := by
  simp only [ops]; after_results_simp; rfl
theorem after_x3 (d : Dev nD) : StableHlo.after (ops (F := F)) (V0 m d) x3' = m (a3Loc d) := by
  simp only [ops]; after_results_simp; rfl
theorem after_y0 (d : Dev nD) : StableHlo.after (ops (F := F)) (V0 m d) y0' = HTv m d := by
  simp only [ops]; after_results_simp; rfl
theorem after_y1 (d : Dev nD) : StableHlo.after (ops (F := F)) (V0 m d) y1' = TTv m d := by
  simp only [ops]; after_results_simp; rfl
theorem after_y2 (d : Dev nD) : StableHlo.after (ops (F := F)) (V0 m d) y2' = RPv m d := by
  simp only [ops]; after_results_simp; rfl
theorem after_y3 (d : Dev nD) : StableHlo.after (ops (F := F)) (V0 m d) y3' = m (oLoc d) := by
  simp only [ops]; after_results_simp; rfl

/-- The ten arrays after the five operations. -/
theorem held_after (d : Dev nD) :
    (held (T d) S10 (StableHlo.after (ops (F := F)) (V0 m d)) : sProp 𝕄) = iprop((a0Loc d ↦{fullShare} m (a0Loc d)) ∗ (a1Loc d ↦{fullShare} m (a1Loc d))
      ∗ (a2Loc d ↦{fullShare} m (a2Loc d)) ∗ (a3Loc d ↦{fullShare} m (a3Loc d)) ∗ (htLoc d ↦{fullShare} HTv m d) ∗ (ttLoc d ↦{fullShare} TTv m d)
      ∗ (cLoc d ↦{fullShare} StableHlo.after (ops (F := F)) (V0 m d) yc') ∗ (kLoc d ↦{fullShare} StableHlo.after (ops (F := F)) (V0 m d) yk')
      ∗ (rpLoc d ↦{fullShare} RPv m d) ∗ oLoc d ↦{fullShare} m (oLoc d)) := by
  rw [held_S10, after_x0, after_x1, after_x2, after_x3, after_y0, after_y1, after_y2, after_y3]

/-! ### The arrays dealt to the thirty-two workers -/

omit [FloatOps F] in
/-- An array held whole, dealt to the thirty-two workers as read shares; what is left is kept aside. -/
theorem deal32 (ℓ : Loc nD τ sig) (f : Buf (Elt F) ℓ) :
    (ℓ ↦{fullShare} f : sProp 𝕄) ⊢ iprop((ℓ ↦{Transfers.shareDrop fullShare 32} f) ∗ bigSep Finset.univ fun w : Fin 32 => ℓ ↦{tokS w} f) :=
  Transfers.pointsTo_toks_split fullShare 32
omit [FloatOps F] in
theorem join32 (ℓ : Loc nD τ sig) (f : Buf (Elt F) ℓ) :
    iprop((ℓ ↦{Transfers.shareDrop fullShare 32} f) ∗ bigSep Finset.univ fun w : Fin 32 => ℓ ↦{tokS w} f) ⊢ (ℓ ↦{fullShare} f : sProp 𝕄) :=
  Transfers.pointsTo_toks_join fullShare 32

omit [FloatOps F] in
theorem oBlocks_disjoint : ∀ i ∈ (Finset.univ : Finset (Fin 32)), ∀ j ∈ (Finset.univ : Finset (Fin 32)), i ≠ j → Disjoint (oSet i) (oSet j) :=
  fun _ _ _ _ h => Rect.part_disjoint hdiv32 h
omit [FloatOps F] in
theorem oBlocks_cover : (Finset.univ : Finset (Fin 32)).biUnion oSet = Finset.univ := Rect.biUnion_part hdiv32

omit [FloatOps F] in
/-- The result array whole is its thirty-two blocks. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oBlocks_disjoint, oBlocks_cover]; try rfl

/-- Worker numbers are the pairs of a SparseCore and a subcore. -/
def widEquiv : Fin τ.nSC × Fin τ.nSub ≃ Fin 32 where
  toFun p := wid p.1 p.2
  invFun w := (⟨w.val % 2, Nat.mod_lt _ (by decide)⟩, ⟨w.val / 2, by have := w.isLt; show w.val / 2 < 16; omega⟩)
  left_inv := by
    rintro ⟨c, i⟩
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

omit [FloatOps F] in
theorem bigSep_workers (Φ : Fin 32 → sProp 𝕄) :
    bigSep Finset.univ Φ = bigSep Finset.univ fun c : Fin τ.nSC => bigSep Finset.univ fun i : Fin τ.nSub => Φ (wid c i) := by
  rw [bigSep_univ_equiv widEquiv Φ, bigSep_univ_prod]; rfl

omit [FloatOps F] in
theorem bigSep_cores (Φ : Fin τ.nSC → sProp 𝕄) :
    (bigSep Finset.univ fun c : Fin ((K (F := F)).nCore 0) => Φ ((K (F := F)).core 0 c)) = bigSep Finset.univ Φ :=
  bigSep_congr fun _ _ => congrArg Φ (Fin.ext rfl)

/-- The workers' shares and blocks, regrouped: per array its thirty-two read shares, and the result whole. -/
theorem workers_eq (d : Dev nD) (f : Buf (Elt F) (oLoc d)) :
    (bigSep Finset.univ fun w : Fin 32 => iprop(rTok m d w ∗ oPart d w f))
      = iprop(((bigSep Finset.univ fun w : Fin 32 => htLoc d ↦{tokS w} HTv m d) ∗ (bigSep Finset.univ fun w : Fin 32 => a1Loc d ↦{tokS w} m (a1Loc d))
          ∗ (bigSep Finset.univ fun w : Fin 32 => ttLoc d ↦{tokS w} TTv m d) ∗ (bigSep Finset.univ fun w : Fin 32 => rpLoc d ↦{tokS w} RPv m d))
        ∗ oLoc d ↦{fullShare} f) := by
  rw [oPts_blocks]
  unfold rTok
  simp only [bigSep_sep']

theorem st0_eq (d : Dev nD) : (bigSep Finset.univ fun c : Fin ((K (F := F)).nCore 0) => (P m).st 0 d c)
    = bigSep Finset.univ fun w : Fin 32 => iprop(rTok m d w ∗ oPart d w (m (oLoc d))) := by
  exact (bigSep_cores (F := F) (fun c' : Fin τ.nSC => bigSep Finset.univ fun i : Fin τ.nSub =>
    iprop(rTok m d (wid c' i) ∗ oPart d (wid c' i) (m (oLoc d))))).trans
    (bigSep_workers (F := F) (fun w => iprop(rTok m d w ∗ oPart d w (m (oLoc d))))).symm
theorem dn0_eq (d : Dev nD) : (bigSep Finset.univ fun c : Fin ((K (F := F)).nCore 0) => (P m).dn 0 d c)
    = bigSep Finset.univ fun w : Fin 32 => iprop(rTok m d w ∗ oPart d w (KV m d)) := by
  exact (bigSep_cores (F := F) (fun c' : Fin τ.nSC => bigSep Finset.univ fun i : Fin τ.nSub =>
    iprop(rTok m d (wid c' i) ∗ oPart d (wid c' i) (KV m d)))).trans
    (bigSep_workers (F := F) (fun w => iprop(rTok m d w ∗ oPart d w (KV m d)))).symm

/-- What @main leaves the claim: the four arguments at their launch contents, the result at the scores. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ oLoc d ↦{fullShare} KV m d)

/-- The call and what follows it, from the arrays as the five operations left them. -/
theorem hcall (κ : GSem nD τ sig → ℕ) (d : Dev nD) :
    iprop((K (F := F)).ctx EH (P m) κ ∗ (K (F := F)).tcSt EH d 0
        ∗ (a0Loc d ↦{fullShare} m (a0Loc d)) ∗ (a1Loc d ↦{fullShare} m (a1Loc d)) ∗ (a2Loc d ↦{fullShare} m (a2Loc d))
        ∗ (a3Loc d ↦{fullShare} m (a3Loc d)) ∗ (htLoc d ↦{fullShare} HTv m d) ∗ (ttLoc d ↦{fullShare} TTv m d)
        ∗ (rpLoc d ↦{fullShare} RPv m d) ∗ (oLoc d ↦{fullShare} m (oLoc d)))
      ⊢ wp frame (wpE ((K (F := F)).defs (D (F := F))) 𝒱 (SparseCore.T d) none) Set.univ (callK (F := F) d)
          fun _ => iprop((K (F := F)).tcSt EH d 1 ∗ FIN m d) := by
  simp only [callK, wp_bind, wp_pure]
  iintro ⟨#Hctx, Hst, H0, H1, H2, H3, Hy0, Hy1, Hy2, Hy3⟩
  ihave Hd := (deal32 (F := F) (htLoc d) (HTv m d)) $$ Hy0
  icases Hd with ⟨-, Ht0⟩
  ihave Hd := (deal32 (F := F) (a1Loc d) (m (a1Loc d))) $$ H1
  icases Hd with ⟨Hr1, Ht1⟩
  ihave Hd := (deal32 (F := F) (ttLoc d) (TTv m d)) $$ Hy1
  icases Hd with ⟨-, Ht2⟩
  ihave Hd := (deal32 (F := F) (rpLoc d) (RPv m d)) $$ Hy2
  icases Hd with ⟨-, Ht3⟩
  iapply ((K (F := F)).wp_run (D (F := F)) 𝒱 (EH := EH) (P := P m) κ d 0) $$ [Hst Ht0 Ht1 Ht2 Ht3 Hy3 H0 Hr1 H2 H3]
  isplitr; · iexact Hctx
  isplitl [Hst]; · iexact Hst
  isplitl [Ht0 Ht1 Ht2 Ht3 Hy3]
  · rw [st0_eq, workers_eq]
    isplitl [Ht0 Ht1 Ht2 Ht3]
    · isplitl [Ht0]; · iexact Ht0
      isplitl [Ht1]; · iexact Ht1
      isplitl [Ht2]; · iexact Ht2
      iexact Ht3
    iexact Hy3
  iintro ⟨Hst, Hdn⟩
  ihave Hdn' := (Entails.of_eq ((dn0_eq m d).trans (workers_eq m d (KV m d)))) $$ Hdn
  icases Hdn' with ⟨⟨-, Ht1, -, -⟩, Ho⟩
  ihave H1 := (join32 (F := F) (a1Loc d) (m (a1Loc d))) $$ [Hr1 Ht1]
  · isplitl [Hr1]; · iexact Hr1
    iexact Ht1
  imodintro
  isplitl [Hst]; · iexact Hst
  isplitl [H0]; · iexact H0
  isplitl [H1]; · iexact H1
  isplitl [H2]; · iexact H2
  isplitl [H3]; · iexact H3
  iexact Ho

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S10 (fun _ => callK (F := F) d) (ops (F := F)) ops_sub ops_fresh (V0 m d)) $$ [Hb Hheld]
  · isplitl [Hb]; · iexact Hb
    iexact Hheld
  iintro ⟨-, Hheld⟩
  ihave Hh := (Entails.of_eq (held_after m d)) $$ Hheld
  icases Hh with ⟨H0, H1, H2, H3, Hy0, Hy1, -, -, Hy2, Hy3⟩
  iapply (hcall m κ d)
  isplitr; · iexact Hctx
  isplitl [Hst]; · iexact Hst
  isplitl [H0]; · iexact H0
  isplitl [H1]; · iexact H1
  isplitl [H2]; · iexact H2
  isplitl [H3]; · iexact H3
  isplitl [Hy0]; · iexact Hy0
  isplitl [Hy1]; · iexact Hy1
  isplitl [Hy2]; · iexact Hy2
  iexact Hy3

/-! ## The final memory reads the claim -/

def fq (d : Dev nD) (s' : Phys nD τ sig (Elt F)) : Prop :=
  s'.mem.mem (oLoc d) = KV m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
/-- An array held whole at contents `f` holds `f` in the state. -/
theorem agree_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, Ho⟩, HSI⟩
  ihave H := (agree_whole (F := F) s' (a0Loc d) _) $$ [H0 HSI]
  · isplitl [H0] <;> iassumption
  icases H with ⟨%h0, HSI⟩
  ihave H := (agree_whole (F := F) s' (a1Loc d) _) $$ [H1 HSI]
  · isplitl [H1] <;> iassumption
  icases H with ⟨%h1, HSI⟩
  ihave H := (agree_whole (F := F) s' (a2Loc d) _) $$ [H2 HSI]
  · isplitl [H2] <;> iassumption
  icases H with ⟨%h2, HSI⟩
  ihave H := (agree_whole (F := F) s' (a3Loc d) _) $$ [H3 HSI]
  · isplitl [H3] <;> iassumption
  icases H with ⟨%h3, HSI⟩
  ihave H := (agree_whole (F := F) s' (oLoc d) _) $$ [Ho HSI]
  · isplitl [Ho] <;> iassumption
  icases H with ⟨%ho, -⟩
  ipureintro; exact ⟨ho, h0, h1, h2, h3⟩

/-! ## The program's run -/

def QC : PUnit × MemSt nD τ sig (Elt F) → Prop := fun r => ∀ c : Dev nD,
  r.2.mem (oLoc c) = KV m c ∧ r.2.mem (a0Loc c) = m (a0Loc c) ∧ r.2.mem (a1Loc c) = m (a1Loc c)
    ∧ r.2.mem (a2Loc c) = m (a2Loc c) ∧ r.2.mem (a3Loc c) = m (a3Loc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

end Cert.Proof.KernelSide

end
-- ==== Proof.lean ====
/-
  The certificate's five claims, assembled.

  Both printed kernel programs are one text read at two float instances: thirty-two vector subcores each score 512
  triples, the padded relation table passing through each SparseCore's shared memory and across the subcore barrier.
  Their run is proved once for any float instance (the launch theorem over the subcores' task, the barrier cells and the
  sequencers' handshakes) with the result array named: every triple's accumulator after the 64 feature trips, walked
  along a diagonal of the feature columns. The two frames are that run with the result dropped. At the ideal instance
  the accumulator is the sum over the 64 features of head · relation · tail (a rotation of the summation order, and +
  on the extended reals is commutative and associative; no finiteness is used), which is what the reference computes:
  its take of the relation rows picks the row each index word names, the words being in `[0, 999]` by the precondition.
  The idealization rewrote nothing, so its conjunct is trivial.
-/
import proofs.«205660_g30348238913567_cont_9to1_1764_14_alg».proof.Defs
import proofs.«205660_g30348238913567_cont_9to1_1764_14_alg».proof.Proof.Gen.Kernel
import proofs.«205660_g30348238913567_cont_9to1_1764_14_alg».proof.Proof.Gen.Kernel.Skeleton
import proofs.«205660_g30348238913567_cont_9to1_1764_14_alg».proof.Proof.Gen.KernelIdeal
import proofs.«205660_g30348238913567_cont_9to1_1764_14_alg».proof.Proof.Gen.KernelIdeal.Skeleton
import proofs.«205660_g30348238913567_cont_9to1_1764_14_alg».proof.Proof.Gen.ReferenceIdeal
import proofs.«205660_g30348238913567_cont_9to1_1764_14_alg».proof.Proof.Gen.Pre_input_domain
import proofs.«205660_g30348238913567_cont_9to1_1764_14_alg».proof.Proof.PreRange
import proofs.«205660_g30348238913567_cont_9to1_1764_14_alg».proof.Proof.RefSide
import proofs.«205660_g30348238913567_cont_9to1_1764_14_alg».proof.Proof.KValIdeal
import proofs.«205660_g30348238913567_cont_9to1_1764_14_alg».proof.Proof.KLaunch
import proofs.«205660_g30348238913567_cont_9to1_1764_14_alg».proof.Proof.BLaunch
import Idealize.ShloMosaic.Adequacy
import Idealize.ShloMosaic.Init

noncomputable section

namespace Cert.Proof

open Idealize.ShloMosaic Idealize.SL.Sem

/-- The precondition puts every index word in range of the relation table: at the word-level instance, -/
theorem preOK_bits (m : (ℓ : Loc Cert.Kernel.nD Cert.Kernel.τ Cert.Kernel.sig) → Buf (Elt Bits) ℓ) (h : Cert.Pre_Kernel m) :
    Cert.Proof.KernelSide.PreOK (F := Bits) m :=
  fun d b => Cert.Proof.PreRange.idx_le (F := Bits) _ _ _ _ (h d) b

/-- and at the ideal instance. -/
theorem preOK_ideal (m : (ℓ : Loc Cert.KernelIdeal.nD Cert.KernelIdeal.τ Cert.KernelIdeal.sig) → Buf (Elt Ideal) ℓ) (h : Cert.Pre_KernelIdeal m) :
    Cert.Proof.KernelIdealSide.PreOK (F := Ideal) m :=
  fun d b => Cert.Proof.PreRange.idx_le (F := Ideal) _ _ _ _ (h d) b

/-- The printed kernel runs to the end, faults nowhere and leaves its four arguments as it found them. -/
theorem frame_k : Cert.frame_Kernel := fun m g hpre =>
  (θ_run (Cert.Kernel.defs (F := Bits)) _ _).mono (fun _ h c => (h c).2)
    (Cert.Proof.KernelSide.run_main (F := Bits) m g (preOK_bits m hpre))

/-- So does its idealization. -/
theorem frame_ki : Cert.frame_KernelIdeal := fun m g hpre =>
  (θ_run (Cert.KernelIdeal.defs (F := Ideal)) _ _).mono (fun _ h c => (h c).2)
    (Cert.Proof.KernelIdealSide.run_main (F := Ideal) m g (preOK_ideal m hpre))

/-- So does the reference. -/
theorem frame_ri : Cert.frame_ReferenceIdeal := fun m g hpre =>
  (θ_run (Cert.ReferenceIdeal.defs (F := Ideal)) _ _).mono (fun _ h c => (h c).2) (Cert.Proof.RefSide.run m g hpre)

/-- The idealization rewrote no operation. -/
theorem preserves : Cert.preserves_Kernel_KernelIdeal := trivial

/-- At the ideal instance both programs leave the score of every triple. -/
theorem algebraic : Cert.algebraic_KernelIdeal_ReferenceIdeal := by
  intro m g m' g' hpre hagree
  refine ⟨fun c => Cert.Proof.KernelIdealSide.KV (F := Ideal) m c, ?_, ?_⟩
  · exact (θ_run (Cert.KernelIdeal.defs (F := Ideal)) _ _).mono (fun _ h c => h c)
      (Cert.Proof.KernelIdealSide.run_main (F := Ideal) m g (preOK_ideal m hpre))
  · have hpre' : Cert.Pre_ReferenceIdeal m' := by
      intro c
      rw [(hagree c).1, (hagree c).2.1, (hagree c).2.2.1, (hagree c).2.2.2]
      exact hpre c
    refine (θ_run (Cert.ReferenceIdeal.defs (F := Ideal)) _ _).mono (fun _ h c => ⟨(h c).1.trans ?_, (h c).2⟩)
      (Cert.Proof.RefSide.run m' g' hpre')
    rw [(hagree c).1, (hagree c).2.1, (hagree c).2.2.1, (hagree c).2.2.2]
    exact (Cert.KVal.kval_ideal _ _ _ _).symm

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
